-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x39x1 : Shape := ⟨3, ![16384, 39, 1]⟩
abbrev S16384x39 : Shape := ⟨2, ![16384, 39]⟩
abbrev S39x100001 : Shape := ⟨2, ![39, 100001]⟩
abbrev S39x100001x16 : Shape := ⟨3, ![39, 100001, 16]⟩
abbrev S624x400 : Shape := ⟨2, ![624, 400]⟩
abbrev S400 : Shape := ⟨1, ![400]⟩
abbrev S400x400 : Shape := ⟨2, ![400, 400]⟩
abbrev S1 : Shape := ⟨1, ![1]⟩
abbrev S_ : Shape := ⟨0, ![]⟩

class Facts : Prop where
  bcast_S_S16384x39 : S_.BroadcastsInDim S16384x39 (![] : Fin 0 → Fin S16384x39.rank)
  reducesTo_S16384x39_S_d0_1 : S16384x39.ReducesTo [0, 1] S_
  h_S_ : 0 < S_.numel
  bcast_S_S39x100001 : S_.BroadcastsInDim S39x100001 (![] : Fin 0 → Fin S39x100001.rank)
  reducesTo_S39x100001_S_d0_1 : S39x100001.ReducesTo [0, 1] S_
  bcast_S_S39x100001x16 : S_.BroadcastsInDim S39x100001x16 (![] : Fin 0 → Fin S39x100001x16.rank)
  reducesTo_S39x100001x16_S_d0_1_2 : S39x100001x16.ReducesTo [0, 1, 2] S_
  bcast_S_S624x400 : S_.BroadcastsInDim S624x400 (![] : Fin 0 → Fin S624x400.rank)
  reducesTo_S624x400_S_d0_1 : S624x400.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S400 .f32) (main_v50 : FVec F S400 .f32) : IVec S_ 1 :=
  let main_v51 : IVec S400 1 := cmpf .olt main_v49 main_v50
  let main_c_19 : IVec S_ 1 := constantI S_ 1 1#1
  let main_v52 : IVec S_ 1 := (fun x v => Host.reduce IntOp.andi x v reducesTo_S400_S_d0 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S400x400 .f32) (main_arg9 : FVec F S400 .f32) (main_arg10 : FVec F S400 .f32) (main_arg11 : FVec F S400 .f32) (main_arg12 : FVec F S1 .f32) (main_v33 : IVec S_ 1) : IVec S_ 1 :=
  let main_v34 : FVec F S400x400 .f32 := Host.absf main_arg8
  let main_cst_12 : FVec F S_ .f32 := constant S_ .f32 0x7F800000#32
  let main_v35 : FVec F S400x400 .f32 := broadcastInDim S400x400 ![] bcast_S_S400x400 main_cst_12
  let main_v36 : IVec S400x400 1 := cmpf .olt main_v34 main_v35
  let main_c_13 : IVec S_ 1 := constantI S_ 1 1#1
  let main_v37 : IVec S_ 1 := (fun x v => Host.reduce IntOp.andi x v reducesTo_S400x400_S_d0_1 h_S_) main_v36 main_c_13
  let main_v38 : IVec S_ 1 := andi main_v33 main_v37
  let main_v39 : FVec F S400 .f32 := Host.absf main_arg9
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S400 .f32 := Host.absf main_arg10
  let main_cst_16 : FVec F S_ .f32 := constant S_ .f32 0x7F800000#32
  let main_v45 : FVec F S400 .f32 := broadcastInDim S400 ![] bcast_S_S400 main_cst_16
  let main_v46 : IVec S400 1 := cmpf .olt main_v44 main_v45
  let main_c_17 : IVec S_ 1 := constantI S_ 1 1#1
  let main_v47 : IVec S_ 1 := (fun x v => Host.reduce IntOp.andi x v reducesTo_S400_S_d0 h_S_) main_v46 main_c_17
  let main_v48 : IVec S_ 1 := andi main_v43 main_v47
  let main_v49 : FVec F S400 .f32 := Host.absf main_arg11
  let main_cst_18 : FVec F S_ .f32 := constant S_ .f32 0x7F800000#32
  let main_v50 : FVec F S400 .f32 := broadcastInDim S400 ![] bcast_S_S400 main_cst_18
  fn_part3 (F := F) main_arg12 main_v48 main_v49 main_v50

def fn_part1 {F : FTy → Type} [FloatOps F] (main_arg5 : FVec F S400 .f32) (main_arg6 : FVec F S400 .f32) (main_arg7 : FVec F S400 .f32) (main_arg8 : FVec F S400x400 .f32) (main_arg9 : FVec F S400 .f32) (main_arg10 : FVec F S400 .f32) (main_arg11 : FVec F S400 .f32) (main_arg12 : FVec F S1 .f32) (main_v13 : IVec S_ 1) (main_v16 : IVec S624x400 1) : IVec S_ 1 :=
  let main_c_5 : IVec S_ 1 := constantI S_ 1 1#1
  let main_v17 : IVec S_ 1 := (fun x v => Host.reduce IntOp.andi x v reducesTo_S624x400_S_d0_1 h_S_) main_v16 main_c_5
  let main_v18 : IVec S_ 1 := andi main_v13 main_v17
  let main_v19 : FVec F S400 .f32 := Host.absf main_arg5
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S400 .f32 := Host.absf main_arg6
  let main_cst_8 : FVec F S_ .f32 := constant S_ .f32 0x7F800000#32
  let main_v25 : FVec F S400 .f32 := broadcastInDim S400 ![] bcast_S_S400 main_cst_8
  let main_v26 : IVec S400 1 := cmpf .olt main_v24 main_v25
  let main_c_9 : IVec S_ 1 := constantI S_ 1 1#1
  let main_v27 : IVec S_ 1 := (fun x v => Host.reduce IntOp.andi x v reducesTo_S400_S_d0 h_S_) main_v26 main_c_9
  let main_v28 : IVec S_ 1 := andi main_v23 main_v27
  let main_v29 : FVec F S400 .f32 := Host.absf main_arg7
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S16384x39x1 32) (main_arg1 : FVec F S16384x39 .f32) (main_arg2 : FVec F S39x100001 .f32) (main_arg3 : FVec F S39x100001x16 .f32) (main_arg4 : FVec F S624x400 .f32) (main_arg5 : FVec F S400 .f32) (main_arg6 : FVec F S400 .f32) (main_arg7 : FVec F S400 .f32) (main_arg8 : FVec F S400x400 .f32) (main_arg9 : FVec F S400 .f32) (main_arg10 : FVec F S400 .f32) (main_arg11 : FVec F S400 .f32) (main_arg12 : FVec F S1 .f32) : IVec S_ 1 :=
  let main_v0 : FVec F S16384x39 .f32 := Host.absf main_arg1
  let main_cst : FVec F S_ .f32 := constant S_ .f32 0x7F800000#32
  let main_v1 : FVec F S16384x39 .f32 := broadcastInDim S16384x39 ![] bcast_S_S16384x39 main_cst
  let main_v2 : IVec S16384x39 1 := cmpf .olt main_v0 main_v1
  let main_c : IVec S_ 1 := constantI S_ 1 1#1
  let main_v3 : IVec S_ 1 := (fun x v => Host.reduce IntOp.andi x v reducesTo_S16384x39_S_d0_1 h_S_) main_v2 main_c
  let main_v4 : FVec F S39x100001 .f32 := Host.absf main_arg2
  let main_cst_0 : FVec F S_ .f32 := constant S_ .f32 0x7F800000#32
  let main_v5 : FVec F S39x100001 .f32 := broadcastInDim S39x100001 ![] bcast_S_S39x100001 main_cst_0
  let main_v6 : IVec S39x100001 1 := cmpf .olt main_v4 main_v5
  let main_c_1 : IVec S_ 1 := constantI S_ 1 1#1
  let main_v7 : IVec S_ 1 := (fun x v => Host.reduce IntOp.andi x v reducesTo_S39x100001_S_d0_1 h_S_) main_v6 main_c_1
  let main_v8 : IVec S_ 1 := andi main_v3 main_v7
  let main_v9 : FVec F S39x100001x16 .f32 := Host.absf main_arg3
  let main_cst_2 : FVec F S_ .f32 := constant S_ .f32 0x7F800000#32
  let main_v10 : FVec F S39x100001x16 .f32 := broadcastInDim S39x100001x16 ![] bcast_S_S39x100001x16 main_cst_2
  let main_v11 : IVec S39x100001x16 1 := cmpf .olt main_v9 main_v10
  let main_c_3 : IVec S_ 1 := constantI S_ 1 1#1
  let main_v12 : IVec S_ 1 := (fun x v => Host.reduce IntOp.andi x v reducesTo_S39x100001x16_S_d0_1_2 h_S_) main_v11 main_c_3
  let main_v13 : IVec S_ 1 := andi main_v8 main_v12
  let main_v14 : FVec F S624x400 .f32 := Host.absf main_arg4
  let main_cst_4 : FVec F S_ .f32 := constant S_ .f32 0x7F800000#32
  let main_v15 : FVec F S624x400 .f32 := broadcastInDim S624x400 ![] bcast_S_S624x400 main_cst_4
  let main_v16 : IVec S624x400 1 := cmpf .olt main_v14 main_v15
  fn_part1 (F := F) main_arg5 main_arg6 main_arg7 main_arg8 main_arg9 main_arg10 main_arg11 main_arg12 main_v13 main_v16
-- ==== Kernel.lean ====
abbrev S16384x39x1 : Shape := ⟨3, ![16384, 39, 1]⟩
abbrev S16384x39 : Shape := ⟨2, ![16384, 39]⟩
abbrev S39x100001 : Shape := ⟨2, ![39, 100001]⟩
abbrev S39x100001x16 : Shape := ⟨3, ![39, 100001, 16]⟩
abbrev S624x400 : Shape := ⟨2, ![624, 400]⟩
abbrev S400 : Shape := ⟨1, ![400]⟩
abbrev S400x400 : Shape := ⟨2, ![400, 400]⟩
abbrev S1 : Shape := ⟨1, ![1]⟩
abbrev S39 : Shape := ⟨1, ![39]⟩
abbrev S1x39 : Shape := ⟨2, ![1, 39]⟩
abbrev S_ : Shape := ⟨0, ![]⟩
abbrev S16384x39x2 : Shape := ⟨3, ![16384, 39, 2]⟩
abbrev S16384x39x16 : Shape := ⟨3, ![16384, 39, 16]⟩
abbrev S16384 : Shape := ⟨1, ![16384]⟩
abbrev S16384x624 : Shape := ⟨2, ![16384, 624]⟩
abbrev S624 : Shape := ⟨1, ![624]⟩
abbrev S624x1 : Shape := ⟨2, ![624, 1]⟩
abbrev S16 : Shape := ⟨1, ![16]⟩
abbrev S1x16 : Shape := ⟨2, ![1, 16]⟩
abbrev S624x16 : Shape := ⟨2, ![624, 16]⟩
abbrev S16384x1 : Shape := ⟨2, ![16384, 1]⟩
abbrev S16384x400 : Shape := ⟨2, ![16384, 400]⟩
abbrev S1x400 : Shape := ⟨2, ![1, 400]⟩
abbrev S1024x624 : Shape := ⟨2, ![1024, 624]⟩
abbrev S1024x1 : Shape := ⟨2, ![1024, 1]⟩
abbrev S1024x400 : Shape := ⟨2, ![1024, 400]⟩
abbrev S1024x16 : Shape := ⟨2, ![1024, 16]⟩
abbrev S1024 : Shape := ⟨1, ![1024]⟩
abbrev S2048x400 : Shape := ⟨2, ![2048, 400]⟩
abbrev S2048x1 : Shape := ⟨2, ![2048, 1]⟩
abbrev S2048 : Shape := ⟨1, ![2048]⟩

abbrev nBuf : Space → Nat
  | .hbm => 123
  | .vmem => 33
  | .smem => 0
  | _ => 0

abbrev bufTy : (tb : Table) → Fin (tcTables nBuf tb) → BufTy
  | .hbm, ⟨0, _⟩ => ⟨S16384x39x1, .i32⟩
  | .hbm, ⟨1, _⟩ => ⟨S16384x39, .f32⟩
  | .hbm, ⟨2, _⟩ => ⟨S39x100001, .f32⟩
  | .hbm, ⟨3, _⟩ => ⟨S39x100001x16, .f32⟩
  | .hbm, ⟨4, _⟩ => ⟨S624x400, .f32⟩
  | .hbm, ⟨5, _⟩ => ⟨S400, .f32⟩
  | .hbm, ⟨6, _⟩ => ⟨S400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S400, .f32⟩
  | .hbm, ⟨11, _⟩ => ⟨S400, .f32⟩
  | .hbm, ⟨12, _⟩ => ⟨S1, .f32⟩
  | .hbm, ⟨13, _⟩ => ⟨S16384x39, .i32⟩
  | .hbm, ⟨14, _⟩ => ⟨S39, .i32⟩
  | .hbm, ⟨15, _⟩ => ⟨S1x39, .i32⟩
  | .hbm, ⟨16, _⟩ => ⟨S16384x39, .i32⟩
  | .hbm, ⟨17, _⟩ => ⟨S_, .i32⟩
  | .hbm, ⟨18, _⟩ => ⟨S16384x39, .i32⟩
  | .hbm, ⟨19, _⟩ => ⟨S16384x39, .i1⟩
  | .hbm, ⟨20, _⟩ => ⟨S_, .i32⟩
  | .hbm, ⟨21, _⟩ => ⟨S16384x39, .i32⟩
  | .hbm, ⟨22, _⟩ => ⟨S16384x39, .i32⟩
  | .hbm, ⟨23, _⟩ => ⟨S16384x39, .i32⟩
  | .hbm, ⟨24, _⟩ => ⟨S_, .i32⟩
  | .hbm, ⟨25, _⟩ => ⟨S16384x39, .i32⟩
  | .hbm, ⟨26, _⟩ => ⟨S16384x39, .i1⟩
  | .hbm, ⟨27, _⟩ => ⟨S_, .i32⟩
  | .hbm, ⟨28, _⟩ => ⟨S16384x39, .i32⟩
  | .hbm, ⟨29, _⟩ => ⟨S16384x39, .i32⟩
  | .hbm, ⟨30, _⟩ => ⟨S16384x39, .i32⟩
  | .hbm, ⟨31, _⟩ => ⟨S16384x39x1, .i32⟩
  | .hbm, ⟨32, _⟩ => ⟨S16384x39x1, .i32⟩
  | .hbm, ⟨33, _⟩ => ⟨S16384x39x2, .i32⟩
  | .hbm, ⟨34, _⟩ => ⟨S16384x39, .f32⟩
  | .hbm, ⟨35, _⟩ => ⟨S_, .i32⟩
  | .hbm, ⟨36, _⟩ => ⟨S16384x39, .i32⟩
  | .hbm, ⟨37, _⟩ => ⟨S16384x39, .i1⟩
  | .hbm, ⟨38, _⟩ => ⟨S_, .i32⟩
  | .hbm, ⟨39, _⟩ => ⟨S16384x39, .i32⟩
  | .hbm, ⟨40, _⟩ => ⟨S16384x39, .i32⟩
  | .hbm, ⟨41, _⟩ => ⟨S16384x39, .i32⟩
  | .hbm, ⟨42, _⟩ => ⟨S_, .i32⟩
  | .hbm, ⟨43, _⟩ => ⟨S16384x39, .i32⟩
  | .hbm, ⟨44, _⟩ => ⟨S16384x39, .i1⟩
  | .hbm, ⟨45, _⟩ => ⟨S_, .i32⟩
  | .hbm, ⟨46, _⟩ => ⟨S16384x39, .i32⟩
  | .hbm, ⟨47, _⟩ => ⟨S16384x39, .i32⟩
  | .hbm, ⟨48, _⟩ => ⟨S16384x39, .i32⟩
  | .hbm, ⟨49, _⟩ => ⟨S16384x39x1, .i32⟩
  | .hbm, ⟨50, _⟩ => ⟨S16384x39x1, .i32⟩
  | .hbm, ⟨51, _⟩ => ⟨S16384x39x2, .i32⟩
  | .hbm, ⟨52, _⟩ => ⟨S16384x39x16, .f32⟩
  | .hbm, ⟨53, _⟩ => ⟨S16384x39, .f32⟩
  | .hbm, ⟨54, _⟩ => ⟨S_, .f32⟩
  | .hbm, ⟨55, _⟩ => ⟨S16384, .f32⟩
  | .hbm, ⟨56, _⟩ => ⟨S16384x39x1, .f32⟩
  | .hbm, ⟨57, _⟩ => ⟨S16384x39x16, .f32⟩
  | .hbm, ⟨58, _⟩ => ⟨S16384x39x16, .f32⟩
  | .hbm, ⟨59, _⟩ => ⟨S16384x624, .f32⟩
  | .hbm, ⟨60, _⟩ => ⟨S624, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S624, .i32⟩
  | .hbm, ⟨68, _⟩ => ⟨S624, .i32⟩
  | .hbm, ⟨69, _⟩ => ⟨S_, .i32⟩
  | .hbm, ⟨70, _⟩ => ⟨S624, .i32⟩
  | .hbm, ⟨71, _⟩ => ⟨S624, .i1⟩
  | .hbm, ⟨72, _⟩ => ⟨S_, .i32⟩
  | .hbm, ⟨73, _⟩ => ⟨S624, .i32⟩
  | .hbm, ⟨74, _⟩ => ⟨S624, .i1⟩
  | .hbm, ⟨75, _⟩ => ⟨S_, .i32⟩
  | .hbm, ⟨76, _⟩ => ⟨S_, .i1⟩
  | .hbm, ⟨77, _⟩ => ⟨S624, .i1⟩
  | .hbm, ⟨78, _⟩ => ⟨S624, .i1⟩
  | .hbm, ⟨79, _⟩ => ⟨S624, .i1⟩
  | .hbm, ⟨80, _⟩ => ⟨S624, .i32⟩
  | .hbm, ⟨81, _⟩ => ⟨S624, .i32⟩
  | .hbm, ⟨82, _⟩ => ⟨S624, .i32⟩
  | .hbm, ⟨83, _⟩ => ⟨S624x1, .i32⟩
  | .hbm, ⟨84, _⟩ => ⟨S16, .i32⟩
  | .hbm, ⟨85, _⟩ => ⟨S1x16, .i32⟩
  | .hbm, ⟨86, _⟩ => ⟨S624x16, .i32⟩
  | .hbm, ⟨87, _⟩ => ⟨S624x16, .i32⟩
  | .hbm, ⟨88, _⟩ => ⟨S624x16, .i1⟩
  | .hbm, ⟨89, _⟩ => ⟨S624x16, .f32⟩
  | .hbm, ⟨90, _⟩ => ⟨S624x400, .bf16⟩
  | .hbm, ⟨91, _⟩ => ⟨S400x400, .bf16⟩
  | .hbm, ⟨92, _⟩ => ⟨S16384x1, .f32⟩
  | .hbm, ⟨93, _⟩ => ⟨S16384x400, .bf16⟩
  | .hbm, ⟨94, _⟩ => ⟨S1x400, .f32⟩
  | .hbm, ⟨95, _⟩ => ⟨S1x400, .f32⟩
  | .hbm, ⟨96, _⟩ => ⟨S_, .f32⟩
  | .hbm, ⟨97, _⟩ => ⟨S1x400, .f32⟩
  | .hbm, ⟨98, _⟩ => ⟨S1x400, .f32⟩
  | .hbm, ⟨99, _⟩ => ⟨S_, .f32⟩
  | .hbm, ⟨100, _⟩ => ⟨S1x400, .f32⟩
  | .hbm, ⟨101, _⟩ => ⟨S1x400, .f32⟩
  | .hbm, ⟨102, _⟩ => ⟨S1x400, .f32⟩
  | .hbm, ⟨103, _⟩ => ⟨S1x400, .f32⟩
  | .hbm, ⟨104, _⟩ => ⟨S16384x400, .bf16⟩
  | .hbm, ⟨105, _⟩ => ⟨S1x400, .f32⟩
  | .hbm, ⟨106, _⟩ => ⟨S1x400, .f32⟩
  | .hbm, ⟨107, _⟩ => ⟨S_, .f32⟩
  | .hbm, ⟨108, _⟩ => ⟨S1x400, .f32⟩
  | .hbm, ⟨109, _⟩ => ⟨S1x400, .f32⟩
  | .hbm, ⟨110, _⟩ => ⟨S_, .f32⟩
  | .hbm, ⟨111, _⟩ => ⟨S1x400, .f32⟩
  | .hbm, ⟨112, _⟩ => ⟨S1x400, .f32⟩
  | .hbm, ⟨113, _⟩ => ⟨S1x400, .f32⟩
  | .hbm, ⟨114, _⟩ => ⟨S1x400, .f32⟩
  | .hbm, ⟨115, _⟩ => ⟨S16384, .f32⟩
  | .hbm, ⟨116, _⟩ => ⟨S16384, .f32⟩
  | .hbm, ⟨117, _⟩ => ⟨S16384x1, .f32⟩
  | .hbm, ⟨118, _⟩ => ⟨S16384x1, .f32⟩
  | .hbm, ⟨119, _⟩ => ⟨S16384, .f32⟩
  | .hbm, ⟨120, _⟩ => ⟨S_, .f32⟩
  | .hbm, ⟨121, _⟩ => ⟨S16384, .f32⟩
  | .hbm, ⟨122, _⟩ => ⟨S16384, .f32⟩
  | .local _ .vmem, ⟨0, _⟩ => ⟨S1024x624, .f32⟩
  | .local _ .vmem, ⟨1, _⟩ => ⟨S1024x624, .f32⟩
  | .local _ .vmem, ⟨2, _⟩ => ⟨S624x16, .f32⟩
  | .local _ .vmem, ⟨3, _⟩ => ⟨S624x400, .bf16⟩
  | .local _ .vmem, ⟨4, _⟩ => ⟨S400, .f32⟩
  | .local _ .vmem, ⟨5, _⟩ => ⟨S1024x1, .f32⟩
  | .local _ .vmem, ⟨6, _⟩ => ⟨S1024x1, .f32⟩
  | .local _ .vmem, ⟨7, _⟩ => ⟨S1024x400, .bf16⟩
  | .local _ .vmem, ⟨8, _⟩ => ⟨S1024x400, .bf16⟩
  | .local _ .vmem, ⟨9, _⟩ => ⟨S1x400, .f32⟩
  | .local _ .vmem, ⟨10, _⟩ => ⟨S1x400, .f32⟩
  | .local _ .vmem, ⟨11, _⟩ => ⟨S2048x400, .bf16⟩
  | .local _ .vmem, ⟨12, _⟩ => ⟨S2048x400, .bf16⟩
  | .local _ .vmem, ⟨13, _⟩ => ⟨S1x400, .f32⟩
  | .local _ .vmem, ⟨14, _⟩ => ⟨S1x400, .f32⟩
  | .local _ .vmem, ⟨15, _⟩ => ⟨S400, .f32⟩
  | .local _ .vmem, ⟨16, _⟩ => ⟨S400, .f32⟩
  | .local _ .vmem, ⟨17, _⟩ => ⟨S400x400, .bf16⟩
  | .local _ .vmem, ⟨18, _⟩ => ⟨S400, .f32⟩
  | .local _ .vmem, ⟨19, _⟩ => ⟨S2048x400, .bf16⟩
  | .local _ .vmem, ⟨20, _⟩ => ⟨S2048x400, .bf16⟩
  | .local _ .vmem, ⟨21, _⟩ => ⟨S1x400, .f32⟩
  | .local _ .vmem, ⟨22, _⟩ => ⟨S1x400, .f32⟩
  | .local _ .vmem, ⟨23, _⟩ => ⟨S2048x400, .bf16⟩
  | .local _ .vmem, ⟨24, _⟩ => ⟨S2048x400, .bf16⟩
  | .local _ .vmem, ⟨25, _⟩ => ⟨S1x400, .f32⟩
  | .local _ .vmem, ⟨26, _⟩ => ⟨S1x400, .f32⟩
  | .local _ .vmem, ⟨27, _⟩ => ⟨S400, .f32⟩
  | .local _ .vmem, ⟨28, _⟩ => ⟨S400, .f32⟩
  | .local _ .vmem, ⟨29, _⟩ => ⟨S2048x1, .f32⟩
  | .local _ .vmem, ⟨30, _⟩ => ⟨S2048x1, .f32⟩
  | .local _ .vmem, ⟨31, _⟩ => ⟨S2048x1, .f32⟩
  | .local _ .vmem, ⟨32, _⟩ => ⟨S2048x1, .f32⟩
  | _, _ => ⟨S16384x39x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_c_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_1 : Ref sig .tc := ⟨.hbm, 69, rfl⟩
abbrev main_call0_v5 : Ref sig .tc := ⟨.hbm, 70, rfl⟩
abbrev main_call0_v6 : Ref sig .tc := ⟨.hbm, 71, rfl⟩
abbrev main_call0_c_2 : Ref sig .tc := ⟨.hbm, 72, rfl⟩
abbrev main_call0_v7 : Ref sig .tc := ⟨.hbm, 73, rfl⟩
abbrev main_call0_v8 : Ref sig .tc := ⟨.hbm, 74, rfl⟩
abbrev main_call0_c_3 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_v12 : Ref sig .tc := ⟨.hbm, 79, rfl⟩
abbrev main_call0_v13 : Ref sig .tc := ⟨.hbm, 80, rfl⟩
abbrev main_call0_v14 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49_0 : Ref sig .tc := ⟨.hbm, 92, rfl⟩
abbrev main_v49_1 : Ref sig .tc := ⟨.hbm, 93, rfl⟩
abbrev main_v49_2 : Ref sig .tc := ⟨.hbm, 94, rfl⟩
abbrev main_v49_3 : Ref sig .tc := ⟨.hbm, 95, rfl⟩
abbrev main_cst_8 : Ref sig .tc := ⟨.hbm, 96, rfl⟩
abbrev main_v50 : Ref sig .tc := ⟨.hbm, 97, rfl⟩
abbrev main_v51 : Ref sig .tc := ⟨.hbm, 98, rfl⟩
abbrev main_cst_9 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56_0 : Ref sig .tc := ⟨.hbm, 104, rfl⟩
abbrev main_v56_1 : Ref sig .tc := ⟨.hbm, 105, rfl⟩
abbrev main_v56_2 : Ref sig .tc := ⟨.hbm, 106, rfl⟩
abbrev main_cst_10 : Ref sig .tc := ⟨.hbm, 107, rfl⟩
abbrev main_v57 : Ref sig .tc := ⟨.hbm, 108, rfl⟩
abbrev main_v58 : Ref sig .tc := ⟨.hbm, 109, rfl⟩
abbrev main_cst_11 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg9_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem9_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x624 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S624x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S624x400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x400 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x400 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x400 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x400 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S400 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S400 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S400x400 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S400 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x400 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x400 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x400 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x400 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x400 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x400 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S400 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S400 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S16384x39x1_S16384x39 : S16384x39x1.ShapeCasts S16384x39
  bcast_S39_S1x39_1 : S39.BroadcastsInDim S1x39 (![1] : Fin 1 → Fin S1x39.rank)
  bcast_S1x39_S16384x39_0_1 : S1x39.BroadcastsInDim S16384x39 (![0, 1] : Fin 2 → Fin S16384x39.rank)
  bcast_S_S16384x39 : S_.BroadcastsInDim S16384x39 (![] : Fin 0 → Fin S16384x39.rank)
  bcast_S16384x39_S16384x39x1_0_1 : S16384x39.BroadcastsInDim S16384x39x1 (![0, 1] : Fin 2 → Fin S16384x39x1.rank)
  concatenates_S16384x39x1_S16384x39x1_S16384x39x2_d2 : Shape.Concatenates [S16384x39x1, S16384x39x1] S16384x39x2 2
  reducesTo_S16384x39_S16384_d1 : S16384x39.ReducesTo [1] S16384
  h_S_ : 0 < S_.numel
  bcast_S16384x39x1_S16384x39x16_0_1_2 : S16384x39x1.BroadcastsInDim S16384x39x16 (![0, 1, 2] : Fin 3 → Fin S16384x39x16.rank)
  shapeCasts_S16384x39x16_S16384x624 : S16384x39x16.ShapeCasts S16384x624
  bcast_S_S624 : S_.BroadcastsInDim S624 (![] : Fin 0 → Fin S624.rank)
  bcast_S624_S624x1_0 : S624.BroadcastsInDim S624x1 (![0] : Fin 1 → Fin S624x1.rank)
  bcast_S16_S1x16_1 : S16.BroadcastsInDim S1x16 (![1] : Fin 1 → Fin S1x16.rank)
  bcast_S624x1_S624x16_0_1 : S624x1.BroadcastsInDim S624x16 (![0, 1] : Fin 2 → Fin S624x16.rank)
  bcast_S1x16_S624x16_0_1 : S1x16.BroadcastsInDim S624x16 (![0, 1] : Fin 2 → Fin S624x16.rank)
  bitsLt_bf16_f32 : FTy.bits .bf16 < FTy.bits .f32
  inb_S1024x624_S1024x624_0_0 : ∀ a, (![0, 0] : Fin 2 → Nat) a + S1024x624.size a ≤ S1024x624.size a
  h_S1024x624 : 0 < S1024x624.numel
  shapeCasts_S1024x624_S1024x624 : S1024x624.ShapeCasts S1024x624
  inb_S624x16_S624x16_0_0 : ∀ a, (![0, 0] : Fin 2 → Nat) a + S624x16.size a ≤ S624x16.size a
  h_S624x16 : 0 < S624x16.numel
  shapeCasts_S624x16_S624x16 : S624x16.ShapeCasts S624x16
  reduces_S1024x16_S1024 : S1024x16.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  inb_S624x400_S624x400_0_0 : ∀ a, (![0, 0] : Fin 2 → Nat) a + S624x400.size a ≤ S624x400.size a
  h_S624x400 : 0 < S624x400.numel
  shapeCasts_S624x400_S624x400 : S624x400.ShapeCasts S624x400
  inb_S400_S400_0 : ∀ a, (![0] : Fin 1 → Nat) a + S400.size a ≤ S400.size a
  h_S400 : 0 < S400.numel
  shapeCasts_S400_S1x400 : S400.ShapeCasts S1x400
  broadcasts_S1x400_S1024x400 : S1x400.Broadcasts S1024x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  reduces_S1024x400_S400 : S1024x400.Reduces [0] S400
  inb_S1024x400_S1024x400_0_0 : ∀ a, (![0, 0] : Fin 2 → Nat) a + S1024x400.size a ≤ S1024x400.size a
  h_S1024x400 : 0 < S1024x400.numel
  packedbf16_S1024x400_S1024x400_0_0 : (Rect.unit (s := S1024x400) ![0, 0] S1024x400.size inb_S1024x400_S1024x400_0_0).PackedRows (EltTy.packing .bf16)
  bcast_S_S1x400 : S_.BroadcastsInDim S1x400 (![] : Fin 0 → Fin S1x400.rank)
  inb_S2048x400_S2048x400_0_0 : ∀ a, (![0, 0] : Fin 2 → Nat) a + S2048x400.size a ≤ S2048x400.size a
  h_S2048x400 : 0 < S2048x400.numel
  shapeCasts_S2048x400_S2048x400 : S2048x400.ShapeCasts S2048x400
  broadcasts_S1x400_S2048x400 : S1x400.Broadcasts S2048x400
  inb_S400x400_S400x400_0_0 : ∀ a, (![0, 0] : Fin 2 → Nat) a + S400x400.size a ≤ S400x400.size a
  h_S400x400 : 0 < S400x400.numel
  shapeCasts_S400x400_S400x400 : S400x400.ShapeCasts S400x400
  reduces_S2048x400_S400 : S2048x400.Reduces [0] S400
  packedbf16_S2048x400_S2048x400_0_0 : (Rect.unit (s := S2048x400) ![0, 0] S2048x400.size inb_S2048x400_S2048x400_0_0).PackedRows (EltTy.packing .bf16)
  shapeCasts_S16384x1_S16384 : S16384x1.ShapeCasts S16384
  shapeCasts_S16384_S16384x1 : S16384.ShapeCasts S16384x1
  reduces_S2048x400_S2048 : S2048x400.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S1_S_ : S1.ShapeCasts S_
  bcast_S_S16384 : S_.BroadcastsInDim S16384 (![] : Fin 0 → Fin S16384.rank)
  gather_S39x100001_S16384x39x2_S16384x39_n_01_n_n_01_2_11_wf : GatherDims.WF S39x100001 S16384x39x2 S16384x39 [] [0, 1] [] [0, 1] [] 2 ![1, 1]
  gather_S39x100001x16_S16384x39x2_S16384x39x16_2_01_n_n_01_2_1116_wf : GatherDims.WF S39x100001x16 S16384x39x2 S16384x39x16 [2] [0, 1] [] [0, 1] [] 2 ![1, 1, 16]
  dot_S1024x624_S624x16_S1024x16_1_0_0_1_n_n_wf : DotDims.WF S1024x624 S624x16 S1024x16 [1] [0] [0] [1] [] []
  dot_S1024x624_S624x400_S1024x400_1_0_0_1_n_n_wf : DotDims.WF S1024x624 S624x400 S1024x400 [1] [0] [0] [1] [] []
  dot_S2048x400_S400x400_S2048x400_1_0_0_1_n_n_wf : DotDims.WF S2048x400 S400x400 S2048x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x624.size a ≤ S16384x624.size a
  hwx0_0 : ∀ i : grid0.Coords, EltTy.bits .f32 = 32 ∨ (Rect.block (s := S16384x624) S1024x624.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S624x16.size a ≤ S624x16.size a
  hwx0_1 : ∀ i : grid0.Coords, EltTy.bits .f32 = 32 ∨ (Rect.block (s := S624x16) S624x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S624x400.size a ≤ S624x400.size a
  hwx0_2 : ∀ i : grid0.Coords, EltTy.bits .bf16 = 32 ∨ (Rect.block (s := S624x400) S624x400.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S400.size a ≤ S400.size a
  hwx0_3 : ∀ i : grid0.Coords, EltTy.bits .f32 = 32 ∨ (Rect.block (s := S400) S400.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x400.size a ≤ S16384x400.size a
  hwx0_5 : ∀ i : grid0.Coords, EltTy.bits .bf16 = 32 ∨ (Rect.block (s := S16384x400) S1024x400.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x400.size a ≤ S1x400.size a
  hwx0_6 : ∀ i : grid0.Coords, EltTy.bits .f32 = 32 ∨ (Rect.block (s := S1x400) S1x400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x400.size a ≤ S1x400.size a
  hwx0_7 : ∀ i : grid0.Coords, EltTy.bits .f32 = 32 ∨ (Rect.block (s := S1x400) S1x400.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x400.size a ≤ S16384x400.size a
  hwx1_0 : ∀ i : grid1.Coords, EltTy.bits .bf16 = 32 ∨ (Rect.block (s := S16384x400) S2048x400.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x400.size a ≤ S1x400.size a
  hwx1_1 : ∀ i : grid1.Coords, EltTy.bits .f32 = 32 ∨ (Rect.block (s := S1x400) S1x400.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x400.size a ≤ S1x400.size a
  hwx1_2 : ∀ i : grid1.Coords, EltTy.bits .f32 = 32 ∨ (Rect.block (s := S1x400) S1x400.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S400.size a ≤ S400.size a
  hwx1_3 : ∀ i : grid1.Coords, EltTy.bits .f32 = 32 ∨ (Rect.block (s := S400) S400.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S400.size a ≤ S400.size a
  hwx1_4 : ∀ i : grid1.Coords, EltTy.bits .f32 = 32 ∨ (Rect.block (s := S400) S400.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S400x400.size a ≤ S400x400.size a
  hwx1_5 : ∀ i : grid1.Coords, EltTy.bits .bf16 = 32 ∨ (Rect.block (s := S400x400) S400x400.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S400.size a ≤ S400.size a
  hwx1_6 : ∀ i : grid1.Coords, EltTy.bits .f32 = 32 ∨ (Rect.block (s := S400) S400.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x400.size a ≤ S16384x400.size a
  hwx1_7 : ∀ i : grid1.Coords, EltTy.bits .bf16 = 32 ∨ (Rect.block (s := S16384x400) S2048x400.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x400.size a ≤ S1x400.size a
  hwx1_8 : ∀ i : grid1.Coords, EltTy.bits .f32 = 32 ∨ (Rect.block (s := S1x400) S1x400.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x400.size a ≤ S1x400.size a
  hwx1_9 : ∀ i : grid1.Coords, EltTy.bits .f32 = 32 ∨ (Rect.block (s := S1x400) S1x400.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x400.size a ≤ S16384x400.size a
  hwx2_0 : ∀ i : grid2.Coords, EltTy.bits .bf16 = 32 ∨ (Rect.block (s := S16384x400) S2048x400.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x400.size a ≤ S1x400.size a
  hwx2_1 : ∀ i : grid2.Coords, EltTy.bits .f32 = 32 ∨ (Rect.block (s := S1x400) S1x400.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x400.size a ≤ S1x400.size a
  hwx2_2 : ∀ i : grid2.Coords, EltTy.bits .f32 = 32 ∨ (Rect.block (s := S1x400) S1x400.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S400.size a ≤ S400.size a
  hwx2_3 : ∀ i : grid2.Coords, EltTy.bits .f32 = 32 ∨ (Rect.block (s := S400) S400.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S400.size a ≤ S400.size a
  hwx2_4 : ∀ i : grid2.Coords, EltTy.bits .f32 = 32 ∨ (Rect.block (s := S400) S400.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x1.size a ≤ S16384x1.size a
  hwx2_5 : ∀ i : grid2.Coords, EltTy.bits .f32 = 32 ∨ (Rect.block (s := S16384x1) S2048x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x1.size a ≤ S16384x1.size a
  hwx2_6 : ∀ i : grid2.Coords, EltTy.bits .f32 = 32 ∨ (Rect.block (s := S16384x1) S2048x1.size (cc2_transform_6 i) (hinb2_6 i)).WholeWords (EltTy.packing .f32)

variable [Facts₀]

def gather_S39x100001_S16384x39x2_S16384x39_n_01_n_n_01_2_11 : GatherDims S39x100001 S16384x39x2 S16384x39 where
  offsetDims := []
  collapsedSliceDims := [0, 1]
  operandBatchingDims := []
  startIndicesBatchingDims := []
  startIndexMap := [0, 1]
  indexVectorDim := 2
  sliceSizes := ![1, 1]
  wf := gather_S39x100001_S16384x39x2_S16384x39_n_01_n_n_01_2_11_wf
def gather_S39x100001x16_S16384x39x2_S16384x39x16_2_01_n_n_01_2_1116 : GatherDims S39x100001x16 S16384x39x2 S16384x39x16 where
  offsetDims := [2]
  collapsedSliceDims := [0, 1]
  operandBatchingDims := []
  startIndicesBatchingDims := []
  startIndexMap := [0, 1]
  indexVectorDim := 2
  sliceSizes := ![1, 1, 16]
  wf := gather_S39x100001x16_S16384x39x2_S16384x39x16_2_01_n_n_01_2_1116_wf
def dot_S1024x624_S624x16_S1024x16_1_0_0_1_n_n : DotDims S1024x624 S624x16 S1024x16 where
  lhsContracting := [1]
  rhsContracting := [0]
  lhsNonContracting := [0]
  rhsNonContracting := [1]
  lhsBatch := []
  rhsBatch := []
  wf := dot_S1024x624_S624x16_S1024x16_1_0_0_1_n_n_wf
def dot_S1024x624_S624x400_S1024x400_1_0_0_1_n_n : DotDims S1024x624 S624x400 S1024x400 where
  lhsContracting := [1]
  rhsContracting := [0]
  lhsNonContracting := [0]
  rhsNonContracting := [1]
  lhsBatch := []
  rhsBatch := []
  wf := dot_S1024x624_S624x400_S1024x400_1_0_0_1_n_n_wf
def dot_S2048x400_S400x400_S2048x400_1_0_0_1_n_n : DotDims S2048x400 S400x400 S2048x400 where
  lhsContracting := [1]
  rhsContracting := [0]
  lhsNonContracting := [0]
  rhsNonContracting := [1]
  lhsBatch := []
  rhsBatch := []
  wf := dot_S2048x400_S400x400_S2048x400_1_0_0_1_n_n_wf

abbrev win0_0 : Pipeline.Window sig grid0 :=
  Pipeline.Window.ofSpec (Memref.whole main_v37) S1024x624.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S624x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S624x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49_1) S1024x400.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v49_2) S1x400.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49_3) S1x400.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v49_1) S2048x400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x400.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x400.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S400.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S400.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S400x400.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S400.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56_0) S2048x400.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v56_1) S1x400.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v56_2) S1x400.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v56_0) S2048x400.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x400.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x400.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S400.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S400.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S2048x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v66) S2048x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16384x39x1 : Shape := ⟨3, ![16384, 39, 1]⟩
abbrev S16384x39 : Shape := ⟨2, ![16384, 39]⟩
abbrev S39x100001 : Shape := ⟨2, ![39, 100001]⟩
abbrev S39x100001x16 : Shape := ⟨3, ![39, 100001, 16]⟩
abbrev S624x400 : Shape := ⟨2, ![624, 400]⟩
abbrev S400 : Shape := ⟨1, ![400]⟩
abbrev S400x400 : Shape := ⟨2, ![400, 400]⟩
abbrev S1 : Shape := ⟨1, ![1]⟩
abbrev S39 : Shape := ⟨1, ![39]⟩
abbrev S1x39 : Shape := ⟨2, ![1, 39]⟩
abbrev S_ : Shape := ⟨0, ![]⟩
abbrev S16384x39x2 : Shape := ⟨3, ![16384, 39, 2]⟩
abbrev S16384x39x16 : Shape := ⟨3, ![16384, 39, 16]⟩
abbrev S16384x16 : Shape := ⟨2, ![16384, 16]⟩
abbrev S16384x624 : Shape := ⟨2, ![16384, 624]⟩
abbrev S16384x400 : Shape := ⟨2, ![16384, 400]⟩
abbrev S1x400 : Shape := ⟨2, ![1, 400]⟩
abbrev S16384 : Shape := ⟨1, ![16384]⟩

abbrev nBuf : Space → Nat
  | .hbm => 176
  | .vmem => 0
  | .smem => 0
  | _ => 0

abbrev hbmTy0_0 (i : Nat) : BufTy := match i % 128 with
  | 0 => ⟨S16384x39x1, .i32⟩
  | 1 => ⟨S16384x39, .f32⟩
  | 2 => ⟨S39x100001, .f32⟩
  | 3 => ⟨S39x100001x16, .f32⟩
  | 4 => ⟨S624x400, .f32⟩
  | 5 => ⟨S400, .f32⟩
  | 6 => ⟨S400, .f32⟩
  | 7 => ⟨S400, .f32⟩
  | 8 => ⟨S400x400, .f32⟩
  | 9 => ⟨S400, .f32⟩
  | 10 => ⟨S400, .f32⟩
  | 11 => ⟨S400, .f32⟩
  | 12 => ⟨S1, .f32⟩
  | 13 => ⟨S16384x39, .i32⟩
  | 14 => ⟨S39, .i32⟩
  | 15 => ⟨S1x39, .i32⟩
  | 16 => ⟨S_, .i32⟩
  | 17 => ⟨S1x39, .i32⟩
  | 18 => ⟨S1x39, .i1⟩
  | 19 => ⟨S_, .i32⟩
  | 20 => ⟨S1x39, .i32⟩
  | 21 => ⟨S1x39, .i32⟩
  | 22 => ⟨S1x39, .i32⟩
  | 23 => ⟨S_, .i32⟩
  | 24 => ⟨S16384x39, .i32⟩
  | 25 => ⟨S16384x39, .i1⟩
  | 26 => ⟨S_, .i32⟩
  | 27 => ⟨S16384x39, .i32⟩
  | 28 => ⟨S16384x39, .i32⟩
  | 29 => ⟨S16384x39, .i32⟩
  | 30 => ⟨S16384x39, .i32⟩
  | 31 => ⟨S16384x39x1, .i32⟩
  | 32 => ⟨S16384x39x1, .i32⟩
  | 33 => ⟨S16384x39x2, .i32⟩
  | 34 => ⟨S16384x39, .f32⟩
  | 35 => ⟨S16384x39, .f32⟩
  | 36 => ⟨S_, .i32⟩
  | 37 => ⟨S1x39, .i32⟩
  | 38 => ⟨S1x39, .i1⟩
  | 39 => ⟨S_, .i32⟩
  | 40 => ⟨S1x39, .i32⟩
  | 41 => ⟨S1x39, .i32⟩
  | 42 => ⟨S1x39, .i32⟩
  | 43 => ⟨S_, .i32⟩
  | 44 => ⟨S16384x39, .i32⟩
  | 45 => ⟨S16384x39, .i1⟩
  | 46 => ⟨S_, .i32⟩
  | 47 => ⟨S16384x39, .i32⟩
  | 48 => ⟨S16384x39, .i32⟩
  | 49 => ⟨S16384x39, .i32⟩
  | 50 => ⟨S16384x39, .i32⟩
  | 51 => ⟨S16384x39x1, .i32⟩
  | 52 => ⟨S16384x39x1, .i32⟩
  | 53 => ⟨S16384x39x2, .i32⟩
  | 54 => ⟨S16384x39x16, .f32⟩
  | 55 => ⟨S16384x39x1, .f32⟩
  | 56 => ⟨S16384x39x16, .f32⟩
  | 57 => ⟨S16384x39x16, .f32⟩
  | 58 => ⟨S_, .f32⟩
  | 59 => ⟨S16384x16, .f32⟩
  | 60 => ⟨S16384x16, .f32⟩
  | 61 => ⟨S16384x39x16, .f32⟩
  | 62 => ⟨S_, .f32⟩
  | 63 => ⟨S16384x16, .f32⟩
  | 64 => ⟨S16384x16, .f32⟩
  | 65 => ⟨S_, .f32⟩
  | 66 => ⟨S16384x16, .f32⟩
  | 67 => ⟨S16384x16, .f32⟩
  | 68 => ⟨S16384x624, .f32⟩
  | 69 => ⟨S16384x400, .f32⟩
  | 70 => ⟨S1x400, .f32⟩
  | 71 => ⟨S16384x400, .f32⟩
  | 72 => ⟨S16384x400, .f32⟩
  | 73 => ⟨S_, .f32⟩
  | 74 => ⟨S400, .f32⟩
  | 75 => ⟨S_, .f32⟩
  | 76 => ⟨S400, .f32⟩
  | 77 => ⟨S400, .f32⟩
  | 78 => ⟨S_, .i32⟩
  | 79 => ⟨S_, .f32⟩
  | 80 => ⟨S400, .f32⟩
  | 81 => ⟨S1x400, .f32⟩
  | 82 => ⟨S_, .f32⟩
  | 83 => ⟨S1x400, .f32⟩
  | 84 => ⟨S1x400, .f32⟩
  | 85 => ⟨S16384x400, .f32⟩
  | 86 => ⟨S16384x400, .f32⟩
  | 87 => ⟨S16384x400, .f32⟩
  | 88 => ⟨S_, .f32⟩
  | 89 => ⟨S_, .f32⟩
  | 90 => ⟨S_, .f32⟩
  | 91 => ⟨S_, .f32⟩
  | 92 => ⟨S400, .f32⟩
  | 93 => ⟨S400, .f32⟩
  | 94 => ⟨S400, .f32⟩
  | 95 => ⟨S_, .f32⟩
  | 96 => ⟨S_, .i1⟩
  | 97 => ⟨S_, .f32⟩
  | 98 => ⟨S_, .f32⟩
  | 99 => ⟨S400, .f32⟩
  | 100 => ⟨S400, .f32⟩
  | 101 => ⟨S1x400, .f32⟩
  | 102 => ⟨S16384x400, .f32⟩
  | 103 => ⟨S16384x400, .f32⟩
  | 104 => ⟨S1x400, .f32⟩
  | 105 => ⟨S16384x400, .f32⟩
  | 106 => ⟨S16384x400, .f32⟩
  | 107 => ⟨S_, .f32⟩
  | 108 => ⟨S400, .f32⟩
  | 109 => ⟨S400, .f32⟩
  | 110 => ⟨S400, .f32⟩
  | 111 => ⟨S1x400, .f32⟩
  | 112 => ⟨S16384x400, .f32⟩
  | 113 => ⟨S16384x400, .f32⟩
  | 114 => ⟨S1x400, .f32⟩
  | 115 => ⟨S16384x400, .f32⟩
  | 116 => ⟨S16384x400, .f32⟩
  | 117 => ⟨S16384x400, .f32⟩
  | 118 => ⟨S1x400, .f32⟩
  | 119 => ⟨S16384x400, .f32⟩
  | 120 => ⟨S16384x400, .f32⟩
  | 121 => ⟨S_, .f32⟩
  | 122 => ⟨S400, .f32⟩
  | 123 => ⟨S_, .f32⟩
  | 124 => ⟨S400, .f32⟩
  | 125 => ⟨S400, .f32⟩
  | 126 => ⟨S_, .i32⟩
  | 127 => ⟨S_, .f32⟩
  | _ => ⟨S16384x39x1, .i32⟩

abbrev hbmTy0_1 (i : Nat) : BufTy := match i % 128 with
  | 0 => ⟨S400, .f32⟩
  | 1 => ⟨S1x400, .f32⟩
  | 2 => ⟨S_, .f32⟩
  | 3 => ⟨S1x400, .f32⟩
  | 4 => ⟨S1x400, .f32⟩
  | 5 => ⟨S16384x400, .f32⟩
  | 6 => ⟨S16384x400, .f32⟩
  | 7 => ⟨S16384x400, .f32⟩
  | 8 => ⟨S_, .f32⟩
  | 9 => ⟨S_, .f32⟩
  | 10 => ⟨S_, .f32⟩
  | 11 => ⟨S_, .f32⟩
  | 12 => ⟨S400, .f32⟩
  | 13 => ⟨S400, .f32⟩
  | 14 => ⟨S400, .f32⟩
  | 15 => ⟨S_, .f32⟩
  | 16 => ⟨S_, .i1⟩
  | 17 => ⟨S_, .f32⟩
  | 18 => ⟨S_, .f32⟩
  | 19 => ⟨S400, .f32⟩
  | 20 => ⟨S400, .f32⟩
  | 21 => ⟨S1x400, .f32⟩
  | 22 => ⟨S16384x400, .f32⟩
  | 23 => ⟨S16384x400, .f32⟩
  | 24 => ⟨S1x400, .f32⟩
  | 25 => ⟨S16384x400, .f32⟩
  | 26 => ⟨S16384x400, .f32⟩
  | 27 => ⟨S_, .f32⟩
  | 28 => ⟨S400, .f32⟩
  | 29 => ⟨S400, .f32⟩
  | 30 => ⟨S400, .f32⟩
  | 31 => ⟨S1x400, .f32⟩
  | 32 => ⟨S16384x400, .f32⟩
  | 33 => ⟨S16384x400, .f32⟩
  | 34 => ⟨S1x400, .f32⟩
  | 35 => ⟨S16384x400, .f32⟩
  | 36 => ⟨S16384x400, .f32⟩
  | 37 => ⟨S_, .f32⟩
  | 38 => ⟨S16384, .f32⟩
  | 39 => ⟨S_, .f32⟩
  | 40 => ⟨S16384, .f32⟩
  | 41 => ⟨S16384, .f32⟩
  | 42 => ⟨S_, .f32⟩
  | 43 => ⟨S16384, .f32⟩
  | 44 => ⟨S16384, .f32⟩
  | 45 => ⟨S_, .f32⟩
  | 46 => ⟨S16384, .f32⟩
  | 47 => ⟨S16384, .f32⟩
  | _ => ⟨S16384x39x1, .i32⟩

abbrev hbmTy (i : Nat) : BufTy := match i / 128 with
  | 0 => hbmTy0_0 i
  | 1 => hbmTy0_1 i
  | _ => ⟨S16384x39x1, .i32⟩

abbrev bufTy : (tb : Table) → Fin (tcTables nBuf tb) → BufTy
  | .hbm, ⟨i, _⟩ => hbmTy i
  | _, _ => ⟨S16384x39x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_cst_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_cst_1 : Ref sig .tc := ⟨.hbm, 89, rfl⟩
abbrev main_call0_v8 : Ref sig .tc := ⟨.hbm, 90, rfl⟩
abbrev main_call0_cst_2 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_cst_3 : Ref sig .tc := ⟨.hbm, 95, rfl⟩
abbrev main_call0_v12 : Ref sig .tc := ⟨.hbm, 96, rfl⟩
abbrev main_call0_cst_4 : Ref sig .tc := ⟨.hbm, 97, rfl⟩
abbrev main_call0_call0_v0 : Ref sig .tc := ⟨.hbm, 98, rfl⟩
abbrev main_call0_call0_v1 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_12 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_13 : Ref sig .tc := ⟨.hbm, 121, rfl⟩
abbrev main_v72 : Ref sig .tc := ⟨.hbm, 122, rfl⟩
abbrev main_cst_14 : Ref sig .tc := ⟨.hbm, 123, rfl⟩
abbrev main_v73 : Ref sig .tc := ⟨.hbm, 124, rfl⟩
abbrev main_v74 : Ref sig .tc := ⟨.hbm, 125, rfl⟩
abbrev main_c_15 : Ref sig .tc := ⟨.hbm, 126, rfl⟩
abbrev main_call1_cst : Ref sig .tc := ⟨.hbm, 127, rfl⟩
abbrev main_call1_v0 : Ref sig .tc := ⟨.hbm, 128, rfl⟩
abbrev main_call1_v1 : Ref sig .tc := ⟨.hbm, 129, rfl⟩
abbrev main_call1_cst_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_cst_1 : Ref sig .tc := ⟨.hbm, 137, rfl⟩
abbrev main_call1_v8 : Ref sig .tc := ⟨.hbm, 138, rfl⟩
abbrev main_call1_cst_2 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_cst_3 : Ref sig .tc := ⟨.hbm, 143, rfl⟩
abbrev main_call1_v12 : Ref sig .tc := ⟨.hbm, 144, rfl⟩
abbrev main_call1_cst_4 : Ref sig .tc := ⟨.hbm, 145, rfl⟩
abbrev main_call1_call0_v0 : Ref sig .tc := ⟨.hbm, 146, rfl⟩
abbrev main_call1_call0_v1 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_cst_16 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_17 : Ref sig .tc := ⟨.hbm, 165, rfl⟩
abbrev main_v91 : Ref sig .tc := ⟨.hbm, 166, rfl⟩
abbrev main_cst_18 : Ref sig .tc := ⟨.hbm, 167, rfl⟩
abbrev main_v92 : Ref sig .tc := ⟨.hbm, 168, rfl⟩
abbrev main_v93 : Ref sig .tc := ⟨.hbm, 169, rfl⟩
abbrev main_cst_19 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩

abbrev nD : Nat := 1
abbrev τ : Topo := Topo.v7x

variable {F : FTy → Type} [FloatOps F]

class Facts₀ : Prop where
  shapeCasts_S16384x39x1_S16384x39 : S16384x39x1.ShapeCasts S16384x39
  bcast_S39_S1x39_1 : S39.BroadcastsInDim S1x39 (![1] : Fin 1 → Fin S1x39.rank)
  bcast_S_S1x39 : S_.BroadcastsInDim S1x39 (![] : Fin 0 → Fin S1x39.rank)
  bcast_S_S16384x39 : S_.BroadcastsInDim S16384x39 (![] : Fin 0 → Fin S16384x39.rank)
  bcast_S1x39_S16384x39_0_1 : S1x39.BroadcastsInDim S16384x39 (![0, 1] : Fin 2 → Fin S16384x39.rank)
  bcast_S16384x39_S16384x39x1_0_1 : S16384x39.BroadcastsInDim S16384x39x1 (![0, 1] : Fin 2 → Fin S16384x39x1.rank)
  concatenates_S16384x39x1_S16384x39x1_S16384x39x2_d2 : Shape.Concatenates [S16384x39x1, S16384x39x1] S16384x39x2 2
  bcast_S16384x39x1_S16384x39x16_0_1_2 : S16384x39x1.BroadcastsInDim S16384x39x16 (![0, 1, 2] : Fin 3 → Fin S16384x39x16.rank)
  reducesTo_S16384x39x16_S16384x16_d1 : S16384x39x16.ReducesTo [1] S16384x16
  h_S_ : 0 < S_.numel
  bcast_S_S16384x16 : S_.BroadcastsInDim S16384x16 (![] : Fin 0 → Fin S16384x16.rank)
  shapeCasts_S16384x39x16_S16384x624 : S16384x39x16.ShapeCasts S16384x624
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  reducesTo_S16384x400_S400_d0 : S16384x400.ReducesTo [0] S400
  bcast_S_S400 : S_.BroadcastsInDim S400 (![] : Fin 0 → Fin S400.rank)
  bcast_S_S1x400 : S_.BroadcastsInDim S1x400 (![] : Fin 0 → Fin S1x400.rank)
  reducesTo_S16384x39_S16384_d1 : S16384x39.ReducesTo [1] S16384
  reducesTo_S16384x16_S16384_d1 : S16384x16.ReducesTo [1] S16384
  reducesTo_S16384x400_S16384_d1 : S16384x400.ReducesTo [1] S16384
  shapeCasts_S1_S_ : S1.ShapeCasts S_
  bcast_S_S16384 : S_.BroadcastsInDim S16384 (![] : Fin 0 → Fin S16384.rank)
  gather_S39x100001_S16384x39x2_S16384x39_n_01_n_n_01_2_11_wf : GatherDims.WF S39x100001 S16384x39x2 S16384x39 [] [0, 1] [] [0, 1] [] 2 ![1, 1]
  gather_S39x100001x16_S16384x39x2_S16384x39x16_2_01_n_n_01_2_1116_wf : GatherDims.WF S39x100001x16 S16384x39x2 S16384x39x16 [2] [0, 1] [] [0, 1] [] 2 ![1, 1, 16]
  dot_S16384x624_S624x400_S16384x400_1_0_0_1_n_n_wf : DotDims.WF S16384x624 S624x400 S16384x400 [1] [0] [0] [1] [] []
  dot_S16384x400_S400x400_S16384x400_1_0_0_1_n_n_wf : DotDims.WF S16384x400 S400x400 S16384x400 [1] [0] [0] [1] [] []

variable [Facts₀]

def gather_S39x100001_S16384x39x2_S16384x39_n_01_n_n_01_2_11 : GatherDims S39x100001 S16384x39x2 S16384x39 where
  offsetDims := []
  collapsedSliceDims := [0, 1]
  operandBatchingDims := []
  startIndicesBatchingDims := []
  startIndexMap := [0, 1]
  indexVectorDim := 2
  sliceSizes := ![1, 1]
  wf := gather_S39x100001_S16384x39x2_S16384x39_n_01_n_n_01_2_11_wf
def gather_S39x100001x16_S16384x39x2_S16384x39x16_2_01_n_n_01_2_1116 : GatherDims S39x100001x16 S16384x39x2 S16384x39x16 where
  offsetDims := [2]
  collapsedSliceDims := [0, 1]
  operandBatchingDims := []
  startIndicesBatchingDims := []
  startIndexMap := [0, 1]
  indexVectorDim := 2
  sliceSizes := ![1, 1, 16]
  wf := gather_S39x100001x16_S16384x39x2_S16384x39x16_2_01_n_n_01_2_1116_wf
def dot_S16384x624_S624x400_S16384x400_1_0_0_1_n_n : DotDims S16384x624 S624x400 S16384x400 where
  lhsContracting := [1]
  rhsContracting := [0]
  lhsNonContracting := [0]
  rhsNonContracting := [1]
  lhsBatch := []
  rhsBatch := []
  wf := dot_S16384x624_S624x400_S16384x400_1_0_0_1_n_n_wf
def dot_S16384x400_S400x400_S16384x400_1_0_0_1_n_n : DotDims S16384x400 S400x400 S16384x400 where
  lhsContracting := [1]
  rhsContracting := [0]
  lhsNonContracting := [0]
  rhsNonContracting := [1]
  lhsBatch := []
  rhsBatch := []
  wf := dot_S16384x400_S400x400_S16384x400_1_0_0_1_n_n_wf

class Facts : Prop extends Facts₀ where

variable [Facts]
-- ==== Proof.KernelRun.lean ====
/-
  The idealized kernel's run with its result named.

  Every weakly fair execution of the program terminates without a fault; its argument arrays end as launched, and
  the result array ends at the contents the last stretch of host operations leaves: the fold of the program's four
  stretches of host operations and three kernel regions over the launch memory, each region's arrays at what its
  write-backs leave.
-/
import proofs.«171042_j1391569404529_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v70 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.Named

end
-- ==== Proof.HostMid.lean ====
import proofs.«171042_j1391569404529_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.KernelIdeal.Host

open Cert.KernelIdeal Cert.KernelIdeal.Gen Idealize.ShloMosaic.ValueIdx

variable (m : (ℓ : Loc nD τ sig) → Buf (Elt Ideal) ℓ) (ρ : Dev nD → PrngReg)

/-!
  The idealized kernel's host operations between its kernel regions, read back: the column means and variances
  from the accumulated sums (sum / 16384 and sum of squares / 16384 minus the mean squared), the row partial
  (second-order term plus first-order term), and the final bias.
-/

/-- A buffer no operation of a stretch writes reads the same before and after the stretch. -/
macro "unwritten_by" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The stretches over any contents -/

theorem raw_mu1 (F : Valuation τ sig (Elt Ideal)) :
    (show FVec Ideal S1x400 .f32 from StableHlo.after hostOps1 F (Proc.devRef .tc main_v51))
      = Host.divf (show FVec Ideal S1x400 .f32 from F (Proc.devRef .tc main_v49_2)) (broadcastInDim S1x400 ![] bcast_S_S1x400 (constant (F := Ideal) S_ .f32 0x46800000#32)) := by
  show StableHlo.after hostOps1 F (Proc.devRef .tc main_v51) = _
  after_results

theorem raw_var1 (F : Valuation τ sig (Elt Ideal)) :
    (show FVec Ideal S1x400 .f32 from StableHlo.after hostOps1 F (Proc.devRef .tc main_v55))
      = subf (Host.divf (show FVec Ideal S1x400 .f32 from F (Proc.devRef .tc main_v49_3)) (broadcastInDim S1x400 ![] bcast_S_S1x400 (constant (F := Ideal) S_ .f32 0x46800000#32)))
          (mulf (Host.divf (show FVec Ideal S1x400 .f32 from F (Proc.devRef .tc main_v49_2)) (broadcastInDim S1x400 ![] bcast_S_S1x400 (constant (F := Ideal) S_ .f32 0x46800000#32)))
                (Host.divf (show FVec Ideal S1x400 .f32 from F (Proc.devRef .tc main_v49_2)) (broadcastInDim S1x400 ![] bcast_S_S1x400 (constant (F := Ideal) S_ .f32 0x46800000#32)))) := by
  show StableHlo.after hostOps1 F (Proc.devRef .tc main_v55) = _
  after_results

theorem raw_mu2 (F : Valuation τ sig (Elt Ideal)) :
    (show FVec Ideal S1x400 .f32 from StableHlo.after hostOps2 F (Proc.devRef .tc main_v58))
      = Host.divf (show FVec Ideal S1x400 .f32 from F (Proc.devRef .tc main_v56_1)) (broadcastInDim S1x400 ![] bcast_S_S1x400 (constant (F := Ideal) S_ .f32 0x46800000#32)) := by
  show StableHlo.after hostOps2 F (Proc.devRef .tc main_v58) = _
  after_results

theorem raw_var2 (F : Valuation τ sig (Elt Ideal)) :
    (show FVec Ideal S1x400 .f32 from StableHlo.after hostOps2 F (Proc.devRef .tc main_v62))
      = subf (Host.divf (show FVec Ideal S1x400 .f32 from F (Proc.devRef .tc main_v56_2)) (broadcastInDim S1x400 ![] bcast_S_S1x400 (constant (F := Ideal) S_ .f32 0x46800000#32)))
          (mulf (Host.divf (show FVec Ideal S1x400 .f32 from F (Proc.devRef .tc main_v56_1)) (broadcastInDim S1x400 ![] bcast_S_S1x400 (constant (F := Ideal) S_ .f32 0x46800000#32)))
                (Host.divf (show FVec Ideal S1x400 .f32 from F (Proc.devRef .tc main_v56_1)) (broadcastInDim S1x400 ![] bcast_S_S1x400 (constant (F := Ideal) S_ .f32 0x46800000#32)))) := by
  show StableHlo.after hostOps2 F (Proc.devRef .tc main_v62) = _
  after_results

theorem raw_rowp (F : Valuation τ sig (Elt Ideal)) :
    (show FVec Ideal S16384x1 .f32 from StableHlo.after hostOps2 F (Proc.devRef .tc main_v65))
      = shapeCast S16384x1 (addf (shapeCast S16384 (show FVec Ideal S16384x1 .f32 from F (Proc.devRef .tc main_v49_0)) shapeCasts_S16384x1_S16384)
          (show FVec Ideal S16384 .f32 from F (Proc.devRef .tc main_v33))) shapeCasts_S16384_S16384x1 := by
  show StableHlo.after hostOps2 F (Proc.devRef .tc main_v65) = _
  after_results
  rfl

theorem raw_out (F : Valuation τ sig (Elt Ideal)) :
    (show FVec Ideal S16384 .f32 from StableHlo.after hostOps3 F (Proc.devRef .tc main_v70))
      = addf (shapeCast S16384 (show FVec Ideal S16384x1 .f32 from F (Proc.devRef .tc main_v66)) shapeCasts_S16384x1_S16384)
          (broadcastInDim S16384 ![] bcast_S_S16384 (shapeCast S_ (show FVec Ideal S1 .f32 from F (Proc.devRef .tc main_arg12)) shapeCasts_S1_S_)) := by
  show StableHlo.after hostOps3 F (Proc.devRef .tc main_v70) = _
  after_results
  rfl

/-! ## Between region 0 and region 1 -/

theorem mid1_mu (c : Dev nD) :
    (show FVec Ideal S1x400 .f32 from W5 m ρ c (Proc.devRef .tc main_v51))
      = Host.divf (show FVec Ideal S1x400 .f32 from (dat0 (V3 m ρ) c).arrAt 6 cfg0.N) (broadcastInDim S1x400 ![] bcast_S_S1x400 (constant (F := Ideal) S_ .f32 0x46800000#32)) := by
  exact (raw_mu1 (W4 m ρ c)).trans (congrArg (fun x => Host.divf x _) (W4_arr m ρ c 6))

theorem mid1_var (c : Dev nD) :
    (show FVec Ideal S1x400 .f32 from W5 m ρ c (Proc.devRef .tc main_v55))
      = subf (Host.divf (show FVec Ideal S1x400 .f32 from (dat0 (V3 m ρ) c).arrAt 7 cfg0.N) (broadcastInDim S1x400 ![] bcast_S_S1x400 (constant (F := Ideal) S_ .f32 0x46800000#32)))
          (mulf (Host.divf (show FVec Ideal S1x400 .f32 from (dat0 (V3 m ρ) c).arrAt 6 cfg0.N) (broadcastInDim S1x400 ![] bcast_S_S1x400 (constant (F := Ideal) S_ .f32 0x46800000#32)))
                (Host.divf (show FVec Ideal S1x400 .f32 from (dat0 (V3 m ρ) c).arrAt 6 cfg0.N) (broadcastInDim S1x400 ![] bcast_S_S1x400 (constant (F := Ideal) S_ .f32 0x46800000#32)))) := by
  exact (raw_var1 (W4 m ρ c)).trans <| congrArg₂ (fun x y => subf (Host.divf x _) (mulf (Host.divf y _) (Host.divf y _))) (W4_arr m ρ c 7) (W4_arr m ρ c 6)

theorem mid1_h (c : Dev nD) : W5 m ρ c (Proc.devRef .tc main_v49_1) = (dat0 (V3 m ρ) c).arrAt 5 cfg0.N := by
  have h : W5 m ρ c (Proc.devRef .tc main_v49_1) = W4 m ρ c (Proc.devRef .tc main_v49_1) := by unwritten_by hostOps1
  exact h.trans (W4_arr m ρ c 5)

/-- A buffer neither the stretch after region 0 nor region 0 itself writes: as region 0 was entered. -/
theorem mid1_keep (c : Dev nD) (b : Ref sig .tc) (hb : ∀ w, Pipeline.arrRef spec0 w ≠ b)
    (h1 : W5 m ρ c (Proc.devRef .tc b) = W4 m ρ c (Proc.devRef .tc b)) :
    W5 m ρ c (Proc.devRef .tc b) = W3 m ρ c (Proc.devRef .tc b) := h1.trans (W4_of_ne m ρ c b hb)

theorem mid1_arg6 (c : Dev nD) : W5 m ρ c (Proc.devRef .tc main_arg6) = W3 m ρ c (Proc.devRef .tc main_arg6) :=
  mid1_keep m ρ c main_arg6 (by decide) (by unwritten_by hostOps1)
theorem mid1_arg7 (c : Dev nD) : W5 m ρ c (Proc.devRef .tc main_arg7) = W3 m ρ c (Proc.devRef .tc main_arg7) :=
  mid1_keep m ρ c main_arg7 (by decide) (by unwritten_by hostOps1)
theorem mid1_arg9 (c : Dev nD) : W5 m ρ c (Proc.devRef .tc main_arg9) = W3 m ρ c (Proc.devRef .tc main_arg9) :=
  mid1_keep m ρ c main_arg9 (by decide) (by unwritten_by hostOps1)
theorem mid1_w2 (c : Dev nD) : W5 m ρ c (Proc.devRef .tc main_v48) = W3 m ρ c (Proc.devRef .tc main_v48) :=
  mid1_keep m ρ c main_v48 (by decide) (by unwritten_by hostOps1)

/-! ## Between region 1 and region 2 -/

theorem mid2_mu (c : Dev nD) :
    (show FVec Ideal S1x400 .f32 from W7 m ρ c (Proc.devRef .tc main_v58))
      = Host.divf (show FVec Ideal S1x400 .f32 from (dat1 (V5 m ρ) c).arrAt 8 cfg1.N) (broadcastInDim S1x400 ![] bcast_S_S1x400 (constant (F := Ideal) S_ .f32 0x46800000#32)) := by
  exact (raw_mu2 (W6 m ρ c)).trans (congrArg (fun x => Host.divf x _) (W6_arr m ρ c 8))

theorem mid2_var (c : Dev nD) :
    (show FVec Ideal S1x400 .f32 from W7 m ρ c (Proc.devRef .tc main_v62))
      = subf (Host.divf (show FVec Ideal S1x400 .f32 from (dat1 (V5 m ρ) c).arrAt 9 cfg1.N) (broadcastInDim S1x400 ![] bcast_S_S1x400 (constant (F := Ideal) S_ .f32 0x46800000#32)))
          (mulf (Host.divf (show FVec Ideal S1x400 .f32 from (dat1 (V5 m ρ) c).arrAt 8 cfg1.N) (broadcastInDim S1x400 ![] bcast_S_S1x400 (constant (F := Ideal) S_ .f32 0x46800000#32)))
                (Host.divf (show FVec Ideal S1x400 .f32 from (dat1 (V5 m ρ) c).arrAt 8 cfg1.N) (broadcastInDim S1x400 ![] bcast_S_S1x400 (constant (F := Ideal) S_ .f32 0x46800000#32)))) := by
  exact (raw_var2 (W6 m ρ c)).trans <| congrArg₂ (fun x y => subf (Host.divf x _) (mulf (Host.divf y _) (Host.divf y _))) (W6_arr m ρ c 9) (W6_arr m ρ c 8)

theorem mid2_h (c : Dev nD) : W7 m ρ c (Proc.devRef .tc main_v56_0) = (dat1 (V5 m ρ) c).arrAt 7 cfg1.N := by
  have h : W7 m ρ c (Proc.devRef .tc main_v56_0) = W6 m ρ c (Proc.devRef .tc main_v56_0) := by unwritten_by hostOps2
  exact h.trans (W6_arr m ρ c 7)

/-- A buffer written before region 0's exit and not after it, read at region 2's entry. -/
theorem mid2_keep (c : Dev nD) (b : Ref sig .tc) (hb : ∀ w, Pipeline.arrRef spec1 w ≠ b)
    (h2 : W7 m ρ c (Proc.devRef .tc b) = W6 m ρ c (Proc.devRef .tc b))
    (h1 : W5 m ρ c (Proc.devRef .tc b) = W4 m ρ c (Proc.devRef .tc b)) :
    W7 m ρ c (Proc.devRef .tc b) = W4 m ρ c (Proc.devRef .tc b) := (h2.trans (W6_of_ne m ρ c b hb)).trans h1

theorem mid2_arg10 (c : Dev nD) : W7 m ρ c (Proc.devRef .tc main_arg10) = W3 m ρ c (Proc.devRef .tc main_arg10) :=
  (mid2_keep m ρ c main_arg10 (by decide) (by unwritten_by hostOps2) (by unwritten_by hostOps1)).trans (W4_of_ne m ρ c _ (by decide))
theorem mid2_arg11 (c : Dev nD) : W7 m ρ c (Proc.devRef .tc main_arg11) = W3 m ρ c (Proc.devRef .tc main_arg11) :=
  (mid2_keep m ρ c main_arg11 (by decide) (by unwritten_by hostOps2) (by unwritten_by hostOps1)).trans (W4_of_ne m ρ c _ (by decide))

theorem mid2_rowp (c : Dev nD) :
    (show FVec Ideal S16384x1 .f32 from W7 m ρ c (Proc.devRef .tc main_v65))
      = shapeCast S16384x1 (addf (shapeCast S16384 (show FVec Ideal S16384x1 .f32 from (dat0 (V3 m ρ) c).arrAt 4 cfg0.N) shapeCasts_S16384x1_S16384)
          (show FVec Ideal S16384 .f32 from W3 m ρ c (Proc.devRef .tc main_v33))) shapeCasts_S16384_S16384x1 := by
  have e0 : W6 m ρ c (Proc.devRef .tc main_v49_0) = (dat0 (V3 m ρ) c).arrAt 4 cfg0.N :=
    ((W6_of_ne m ρ c main_v49_0 (by decide)).trans (by unwritten_by hostOps1)).trans (W4_arr m ρ c 4)
  have e1 : W6 m ρ c (Proc.devRef .tc main_v33) = W3 m ρ c (Proc.devRef .tc main_v33) :=
    ((W6_of_ne m ρ c main_v33 (by decide)).trans (by unwritten_by hostOps1)).trans (W4_of_ne m ρ c _ (by decide))
  exact (raw_rowp (W6 m ρ c)).trans <| congrArg₂ (fun x y => shapeCast S16384x1 (addf (shapeCast S16384 x shapeCasts_S16384x1_S16384) y) shapeCasts_S16384_S16384x1) e0 e1

/-! ## After region 2 -/

theorem tail_out (c : Dev nD) :
    (show FVec Ideal S16384 .f32 from W9 m ρ c (Proc.devRef .tc main_v70))
      = addf (shapeCast S16384 (show FVec Ideal S16384x1 .f32 from (dat2 (V7 m ρ) c).arrAt 6 cfg2.N) shapeCasts_S16384x1_S16384)
          (broadcastInDim S16384 ![] bcast_S_S16384 (shapeCast S_ (show FVec Ideal S1 .f32 from W3 m ρ c (Proc.devRef .tc main_arg12)) shapeCasts_S1_S_)) := by
  have e0 : W8 m ρ c (Proc.devRef .tc main_v66) = (dat2 (V7 m ρ) c).arrAt 6 cfg2.N := W8_arr m ρ c 6
  have e1 : W8 m ρ c (Proc.devRef .tc main_arg12) = W3 m ρ c (Proc.devRef .tc main_arg12) :=
    ((W8_of_ne m ρ c main_arg12 (by decide)).trans
      (mid2_keep m ρ c main_arg12 (by decide) (by unwritten_by hostOps2) (by unwritten_by hostOps1))).trans (W4_of_ne m ρ c _ (by decide))
  exact (raw_out (W8 m ρ c)).trans <| congrArg₂ (fun x y => addf (shapeCast S16384 x shapeCasts_S16384x1_S16384) (broadcastInDim S16384 ![] bcast_S_S16384 (shapeCast S_ y shapeCasts_S1_S_))) e0 e1

end Cert.KernelIdeal.Host

end
-- ==== Proof.Spec.lean ====
/-
  The mathematics of the certificate, on plain families of extended reals indexed by coordinates.

  A factorisation-machine score with a two-layer normalised network: from the per-field embedding products
  `P n f e` (row `n`, field `f`, embedding coordinate `e`), their flattening `D n d` (`d = 16 f + e`), the
  first-order row sums `r1`, two dense layers with batch normalisation over the 16384 rows, and a bias.

  Two spellings of the same score are stated here. The REFERENCE spelling sums the embedding products over the
  fields directly and normalises with the centred second moment `(1/N) ∑ (x - μ)²`. The KERNEL spelling sums over the fields
  through a 0/1 indicator matrix `Sg d e` (`1` iff `d % 16 = e`), accumulates the column sums block by block
  (`B` blocks of `R` rows), and normalises with `(1/N) ∑ x² - μ²`. They agree when the entries are real numbers.
-/
import Idealize.ShloMosaic.PureOps.Ideal

noncomputable section

namespace Cert.DeepFM

open Idealize.ShloMosaic

/-- A dense layer: row `n` of `X` against column `j` of `W`, plus the bias. -/
def dense {K : ℕ} (X : Fin 16384 → Fin K → EReal) (W : Fin K → Fin 400 → EReal) (b : Fin 400 → EReal) :
    Fin 16384 → Fin 400 → EReal := fun n j => (∑ k : Fin K, X n k * W k j) + b j

/-- Batch normalisation of column `j` from a given mean and variance: `g (x - μ) (σ² + ε)^(-1/2) + β`. -/
def bnorm (cEps : EReal) (H : Fin 16384 → Fin 400 → EReal) (mu var g be : Fin 400 → EReal) :
    Fin 16384 → Fin 400 → EReal := fun n j => g j * (H n j - mu j) * Ideal.rsqrt (var j + cEps) + be j

/-- Row `R t + r`: row `r` of block `t` when 16384 rows are cut into `B` blocks of `R`. -/
def blkRow {B R : ℕ} (h : B * R = 16384) (t : Fin B) (r : Fin R) : Fin 16384 :=
  ⟨t.val * R + r.val, by
    have h1 : t.val * R + r.val < (t.val + 1) * R := by rw [Nat.add_mul, Nat.one_mul]; exact Nat.add_lt_add_left r.isLt _
    exact lt_of_lt_of_le h1 (h ▸ Nat.mul_le_mul_right R t.isLt)⟩

/-! ## The reference's spelling -/

/-- The column mean over all rows. -/
def meanRef (cN : EReal) (H : Fin 16384 → Fin 400 → EReal) : Fin 400 → EReal :=
  fun j => Ideal.div (∑ n : Fin 16384, H n j) cN

/-- The centred second moment of a column. -/
def varRef (cN : EReal) (H : Fin 16384 → Fin 400 → EReal) : Fin 400 → EReal :=
  fun j => Ideal.div (∑ n : Fin 16384, (H n j - meanRef cN H j) * (H n j - meanRef cN H j)) cN

/-- The second-order interaction of a row: half of (square of the field sum minus the sum of squares), summed over the
    embedding coordinates. -/
def fmRef (cHalf : EReal) (P : Fin 16384 → Fin 39 → Fin 16 → EReal) : Fin 16384 → EReal :=
  fun n => ∑ e : Fin 16, cHalf * ((∑ f : Fin 39, P n f e) * (∑ f : Fin 39, P n f e) - ∑ f : Fin 39, P n f e * P n f e)

def h1 (D : Fin 16384 → Fin 624 → EReal) (W1 : Fin 624 → Fin 400 → EReal) (b1 : Fin 400 → EReal) := dense D W1 b1

def a1Ref (cN cEps : EReal) (D : Fin 16384 → Fin 624 → EReal) (W1 : Fin 624 → Fin 400 → EReal) (b1 g1 be1 : Fin 400 → EReal) :=
  bnorm cEps (h1 D W1 b1) (meanRef cN (h1 D W1 b1)) (varRef cN (h1 D W1 b1)) g1 be1

def h2Ref (cN cEps : EReal) (D : Fin 16384 → Fin 624 → EReal) (W1 : Fin 624 → Fin 400 → EReal) (b1 g1 be1 : Fin 400 → EReal)
    (W2 : Fin 400 → Fin 400 → EReal) (b2 : Fin 400 → EReal) := dense (a1Ref cN cEps D W1 b1 g1 be1) W2 b2

def a2Ref (cN cEps : EReal) (D : Fin 16384 → Fin 624 → EReal) (W1 : Fin 624 → Fin 400 → EReal) (b1 g1 be1 : Fin 400 → EReal)
    (W2 : Fin 400 → Fin 400 → EReal) (b2 g2 be2 : Fin 400 → EReal) :=
  bnorm cEps (h2Ref cN cEps D W1 b1 g1 be1 W2 b2) (meanRef cN (h2Ref cN cEps D W1 b1 g1 be1 W2 b2))
    (varRef cN (h2Ref cN cEps D W1 b1 g1 be1 W2 b2)) g2 be2

/-- The score in the reference's spelling: `((r1 + fm) + ∑_j a2) + bias`. -/
def outRef (cN cEps cHalf : EReal) (P : Fin 16384 → Fin 39 → Fin 16 → EReal) (D : Fin 16384 → Fin 624 → EReal)
    (r1 : Fin 16384 → EReal) (W1 : Fin 624 → Fin 400 → EReal) (b1 g1 be1 : Fin 400 → EReal)
    (W2 : Fin 400 → Fin 400 → EReal) (b2 g2 be2 : Fin 400 → EReal) (bias : EReal) : Fin 16384 → EReal :=
  fun n => ((r1 n + fmRef cHalf P n) + ∑ j : Fin 400, a2Ref cN cEps D W1 b1 g1 be1 W2 b2 g2 be2 n j) + bias

/-! ## The kernel's spelling -/

/-- The column mean from block-wise accumulated sums. -/
def meanKer {B R : ℕ} (h : B * R = 16384) (cN : EReal) (H : Fin 16384 → Fin 400 → EReal) : Fin 400 → EReal :=
  fun j => Ideal.div (∑ t : Fin B, ∑ r : Fin R, H (blkRow h t r) j) cN

/-- Mean of squares minus square of the mean, from block-wise accumulated sums. -/
def varKer {B R : ℕ} (h : B * R = 16384) (cN : EReal) (H : Fin 16384 → Fin 400 → EReal) : Fin 400 → EReal :=
  fun j => Ideal.div (∑ t : Fin B, ∑ r : Fin R, H (blkRow h t r) j * H (blkRow h t r) j) cN - meanKer h cN H j * meanKer h cN H j

/-- The second-order interaction through the indicator matrix. -/
def fmKer (cHalf : EReal) (D : Fin 16384 → Fin 624 → EReal) (Sg : Fin 624 → Fin 16 → EReal) : Fin 16384 → EReal :=
  fun n => ∑ e : Fin 16, cHalf * ((∑ d : Fin 624, D n d * Sg d e) * (∑ d : Fin 624, D n d * Sg d e) - ∑ d : Fin 624, (D n d * D n d) * Sg d e)

theorem blk16 : 16 * 1024 = 16384 := by norm_num
theorem blk8 : 8 * 2048 = 16384 := by norm_num

def a1Ker (cN cEps : EReal) (D : Fin 16384 → Fin 624 → EReal) (W1 : Fin 624 → Fin 400 → EReal) (b1 g1 be1 : Fin 400 → EReal) :=
  bnorm cEps (h1 D W1 b1) (meanKer blk16 cN (h1 D W1 b1)) (varKer blk16 cN (h1 D W1 b1)) g1 be1

def h2Ker (cN cEps : EReal) (D : Fin 16384 → Fin 624 → EReal) (W1 : Fin 624 → Fin 400 → EReal) (b1 g1 be1 : Fin 400 → EReal)
    (W2 : Fin 400 → Fin 400 → EReal) (b2 : Fin 400 → EReal) := dense (a1Ker cN cEps D W1 b1 g1 be1) W2 b2

def a2Ker (cN cEps : EReal) (D : Fin 16384 → Fin 624 → EReal) (W1 : Fin 624 → Fin 400 → EReal) (b1 g1 be1 : Fin 400 → EReal)
    (W2 : Fin 400 → Fin 400 → EReal) (b2 g2 be2 : Fin 400 → EReal) :=
  bnorm cEps (h2Ker cN cEps D W1 b1 g1 be1 W2 b2) (meanKer blk8 cN (h2Ker cN cEps D W1 b1 g1 be1 W2 b2))
    (varKer blk8 cN (h2Ker cN cEps D W1 b1 g1 be1 W2 b2)) g2 be2

/-- The score in the kernel's spelling: `((fm + r1) + ∑_j a2) + bias`. -/
def outKer (cN cEps cHalf : EReal) (D : Fin 16384 → Fin 624 → EReal) (Sg : Fin 624 → Fin 16 → EReal)
    (r1 : Fin 16384 → EReal) (W1 : Fin 624 → Fin 400 → EReal) (b1 g1 be1 : Fin 400 → EReal)
    (W2 : Fin 400 → Fin 400 → EReal) (b2 g2 be2 : Fin 400 → EReal) (bias : EReal) : Fin 16384 → EReal :=
  fun n => ((fmKer cHalf D Sg n + r1 n) + ∑ j : Fin 400, a2Ker cN cEps D W1 b1 g1 be1 W2 b2 g2 be2 n j) + bias

end Cert.DeepFM

end
-- ==== Proof.Region0Blocks.lean ====
/-
  Region 0: where each window's block sits in its array.

  The row windows (the input rows, the interaction's row sums, the dense layer's rows) move with the grid point: block
  `t` holds rows `1024 t … 1024 t + 1023`. The other windows (the indicator matrix, the weights, the bias, the two
  column accumulators) are their whole arrays at every point. An element of a block sits in the array, on each axis, at
  the block's index times the block's extent plus its own coordinate.
-/
import proofs.«171042_j1391569404529_2_alg».proof.Proof.Gen.KernelIdeal.Frame
import Idealize.ShloMosaic.Lib.Pipeline.Value
import Idealize.ShloMosaic.Lib.Tactic
import Idealize.ShloMosaic.Lib.ValueIdx
import proofs.«171042_j1391569404529_2_alg».proof.Proof.Spec

set_option maxRecDepth 16384

noncomputable section

open Idealize.ShloMosaic Idealize.ShloMosaic.TcCoe Idealize.SL.Sem
open Idealize.ShloMosaic.Pipeline (Dat)

namespace Cert.KernelIdeal.R0

open Idealize.ShloMosaic.ValueIdx Cert.KernelIdeal Cert.KernelIdeal.Gen

variable {F : FTy → Type} [FloatOps F]
variable (V : (c : Dev nD) → (b : Ref sig .tc) → Buf (Elt F) ((c : Thread nD τ).loc b))

/-- The block indices of the eight windows at every grid point: the row windows' first index is the point, every other
    index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A grid point as one of the 16 row blocks. -/
def pt (t : Fin cfg0.N) : Fin 16 := ⟨t.val, lt_of_lt_of_eq t.isLt N_0⟩

/-- Row `1024 t + r` of the 16384 rows. -/
abbrev row (t : Fin cfg0.N) (r : Fin 1024) : Fin 16384 := Cert.DeepFM.blkRow Cert.DeepFM.blk16 (pt t) r

theorem row_val (t : Fin cfg0.N) (r : Fin 1024) : (row t r).val = t.val * 1024 + r.val := rfl

/-- The input rows' block at point `t`: rows `1024 t + r`. -/
theorem iblk0_0_apply (c : Dev nD) (t : Fin cfg0.N) (r : Fin 1024) (d : Fin 624) :
    iblk0 V c 0 t (ix2 r d) = V c main_v37 (ix2 (row t r) d) := by
  obtain ⟨e0, e1, -⟩ := idx_facts0 t
  show V c main_v37 (((cfg0.win 0).blk t).view.emb (ix2 r d)) = _
  refine congrArg _ ?_
  funext a; apply Fin.ext
  match a with
  | ⟨0, _⟩ => show win0_0.index t (0 : Fin 2) * 1024 + 1 * r.val = t.val * 1024 + r.val; rw [e0]; omega
  | ⟨1, _⟩ => show win0_0.index t (1 : Fin 2) * 624 + 1 * d.val = d.val; rw [e1]; omega

/-- The indicator matrix's block is the whole matrix. -/
theorem iblk0_1_apply (c : Dev nD) (t : Fin cfg0.N) (d : Fin 624) (e : Fin 16) :
    iblk0 V c 1 t (ix2 d e) = V c main_v46 (ix2 d e) := by
  obtain ⟨-, -, e0, e1, -⟩ := idx_facts0 t
  show V c main_v46 (((cfg0.win 1).blk t).view.emb (ix2 d e)) = _
  refine congrArg _ ?_
  funext a; apply Fin.ext
  match a with
  | ⟨0, _⟩ => show win0_1.index t (0 : Fin 2) * 624 + 1 * d.val = d.val; rw [e0]; omega
  | ⟨1, _⟩ => show win0_1.index t (1 : Fin 2) * 16 + 1 * e.val = e.val; rw [e1]; omega

/-- The first layer's weights' block is the whole matrix. -/
theorem iblk0_2_apply (c : Dev nD) (t : Fin cfg0.N) (d : Fin 624) (j : Fin 400) :
    iblk0 V c 2 t (ix2 d j) = V c main_v47 (ix2 d j) := by
  obtain ⟨-, -, -, -, e0, e1, -⟩ := idx_facts0 t
  show V c main_v47 (((cfg0.win 2).blk t).view.emb (ix2 d j)) = _
  refine congrArg _ ?_
  funext a; apply Fin.ext
  match a with
  | ⟨0, _⟩ => show win0_2.index t (0 : Fin 2) * 624 + 1 * d.val = d.val; rw [e0]; omega
  | ⟨1, _⟩ => show win0_2.index t (1 : Fin 2) * 400 + 1 * j.val = j.val; rw [e1]; omega

/-- The first layer's bias' block is the whole vector. -/
theorem iblk0_3_apply (c : Dev nD) (t : Fin cfg0.N) (j : Fin 400) :
    iblk0 V c 3 t (ix1 j) = V c main_arg5 (ix1 j) := by
  obtain ⟨-, -, -, -, -, -, e0, -⟩ := idx_facts0 t
  show V c main_arg5 (((cfg0.win 3).blk t).view.emb (ix1 j)) = _
  refine congrArg _ ?_
  funext a; apply Fin.ext
  match a with
  | ⟨0, _⟩ => show win0_3.index t (0 : Fin 1) * 400 + 1 * j.val = j.val; rw [e0]; omega

/-! ## The output windows: where a block's element lands, and which indices a block covers -/

/-- An element of the interaction's row block at point `t` lands in row `1024 t + r`. -/
theorem emb4 (t : Fin cfg0.N) (r : Fin 1024) (q : Fin 1) :
    (((cfg0.win 4).blk t).view.emb (ix2 r q) : S16384x1.Idx) = ix2 (row t r) q := by
  obtain ⟨-, -, -, -, -, -, -, e0, e1, -⟩ := idx_facts0 t
  funext a; apply Fin.ext
  match a with
  | ⟨0, _⟩ => show win0_4.index t (0 : Fin 2) * 1024 + 1 * r.val = t.val * 1024 + r.val; rw [e0]; omega
  | ⟨1, _⟩ => show win0_4.index t (1 : Fin 2) * 1 + 1 * q.val = q.val; rw [e1]; omega

/-- An element of the dense layer's row block at point `t` lands in row `1024 t + r`. -/
theorem emb5 (t : Fin cfg0.N) (r : Fin 1024) (j : Fin 400) :
    (((cfg0.win 5).blk t).view.emb (ix2 r j) : S16384x400.Idx) = ix2 (row t r) j := by
  obtain ⟨-, -, -, -, -, -, -, -, -, e0, e1, -⟩ := idx_facts0 t
  funext a; apply Fin.ext
  match a with
  | ⟨0, _⟩ => show win0_5.index t (0 : Fin 2) * 1024 + 1 * r.val = t.val * 1024 + r.val; rw [e0]; omega
  | ⟨1, _⟩ => show win0_5.index t (1 : Fin 2) * 400 + 1 * j.val = j.val; rw [e1]; omega

/-- The column sums' block is the whole array. -/
theorem emb6 (t : Fin cfg0.N) (y : S1x400.Idx) : (((cfg0.win 6).blk t).view.emb y : S1x400.Idx) = y := by
  obtain ⟨-, -, -, -, -, -, -, -, -, -, -, e0, e1, -⟩ := idx_facts0 t
  funext a; apply Fin.ext
  match a with
  | ⟨0, _⟩ => show win0_6.index t (0 : Fin 2) * 1 + 1 * (y 0).val = (y 0).val; rw [e0]; omega
  | ⟨1, _⟩ => show win0_6.index t (1 : Fin 2) * 400 + 1 * (y 1).val = (y 1).val; rw [e1]; omega

/-- The column sums of squares' block is the whole array. -/
theorem emb7 (t : Fin cfg0.N) (y : S1x400.Idx) : (((cfg0.win 7).blk t).view.emb y : S1x400.Idx) = y := by
  obtain ⟨-, -, -, -, -, -, -, -, -, -, -, -, -, e0, e1⟩ := idx_facts0 t
  funext a; apply Fin.ext
  match a with
  | ⟨0, _⟩ => show win0_7.index t (0 : Fin 2) * 1 + 1 * (y 0).val = (y 0).val; rw [e0]; omega
  | ⟨1, _⟩ => show win0_7.index t (1 : Fin 2) * 400 + 1 * (y 1).val = (y 1).val; rw [e1]; omega

/-- An index of the array is in point `t`'s block iff each coordinate is in the block's range on its axis. -/
theorem mem_blk4 (t : Fin cfg0.N) (i : S16384x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v49_0).slice (win0_4.rect t)).set ↔ _
  rw [View.set_slice_whole, Rect.mem_set_unit]
  exact Iff.rfl

theorem mem_blk5 (t : Fin cfg0.N) (i : S16384x400.Idx) :
    i ∈ ((cfg0.win 5).blk t).view.set ↔ ∀ a : Fin 2, win0_5.index t a * S1024x400.size a ≤ (i a).val ∧ (i a).val < win0_5.index t a * S1024x400.size a + S1024x400.size a := by
  show i ∈ ((View.whole main_v49_1).slice (win0_5.rect t)).set ↔ _
  rw [View.set_slice_whole, Rect.mem_set_unit]
  exact Iff.rfl

theorem mem_blk6 (t : Fin cfg0.N) (i : S1x400.Idx) :
    i ∈ ((cfg0.win 6).blk t).view.set ↔ ∀ a : Fin 2, win0_6.index t a * S1x400.size a ≤ (i a).val ∧ (i a).val < win0_6.index t a * S1x400.size a + S1x400.size a := by
  show i ∈ ((View.whole main_v49_2).slice (win0_6.rect t)).set ↔ _
  rw [View.set_slice_whole, Rect.mem_set_unit]
  exact Iff.rfl

theorem mem_blk7 (t : Fin cfg0.N) (i : S1x400.Idx) :
    i ∈ ((cfg0.win 7).blk t).view.set ↔ ∀ a : Fin 2, win0_7.index t a * S1x400.size a ≤ (i a).val ∧ (i a).val < win0_7.index t a * S1x400.size a + S1x400.size a := by
  show i ∈ ((View.whole main_v49_3).slice (win0_7.rect t)).set ↔ _
  rw [View.set_slice_whole, Rect.mem_set_unit]
  exact Iff.rfl

/-- Every row of the interaction's array is in the block of the point `row / 1024`, and every point writes its block back. -/
theorem cover4 (i : S16384x1.Idx) : ∃ t : Fin cfg0.N, (cfg0.win 4).flush t = true ∧ i ∈ ((cfg0.win 4).blk t).view.set := by
  have hN : cfg0.N = 16 := N_0
  have hi0 : (i 0).val < 16384 := idx2_lt0 i
  have hi1 : (i 1).val < 1 := idx2_lt1 i
  have ht : (i 0).val / 1024 < cfg0.N := by omega
  obtain ⟨-, -, -, -, -, -, -, e0, e1, -⟩ := idx_facts0 ⟨(i 0).val / 1024, ht⟩
  refine ⟨⟨(i 0).val / 1024, ht⟩, flush0_4 _, ?_⟩
  rw [mem_blk4]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, ht⟩ (1 : Fin 2) * 1 ≤ (i 1).val ∧ (i 1).val < win0_4.index ⟨(i 0).val / 1024, ht⟩ (1 : Fin 2) * 1 + 1
    rw [e1]; omega

/-- Every row of the dense layer's array is in the block of the point `row / 1024`, and every point writes its block back. -/
theorem cover5 (i : S16384x400.Idx) : ∃ t : Fin cfg0.N, (cfg0.win 5).flush t = true ∧ i ∈ ((cfg0.win 5).blk t).view.set := by
  have hN : cfg0.N = 16 := N_0
  have hi0 : (i 0).val < 16384 := idx2_lt0 i
  have hi1 : (i 1).val < 400 := idx2_lt1 i
  have ht : (i 0).val / 1024 < cfg0.N := by omega
  obtain ⟨-, -, -, -, -, -, -, -, -, e0, e1, -⟩ := idx_facts0 ⟨(i 0).val / 1024, ht⟩
  refine ⟨⟨(i 0).val / 1024, ht⟩, flush0_5 _, ?_⟩
  rw [mem_blk5]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, ht⟩ (1 : Fin 2) * 400 ≤ (i 1).val ∧ (i 1).val < win0_5.index ⟨(i 0).val / 1024, ht⟩ (1 : Fin 2) * 400 + 400
    rw [e1]; omega

/-- The last grid point. -/
def tLast : Fin cfg0.N := ⟨15, by rw [show cfg0.N = 16 from N_0]; decide⟩

/-- A point that writes an accumulator back is the last one. -/
theorem eq_tLast_of_flush6 (t : Fin cfg0.N) (hf : (cfg0.win 6).flush t = true) : t = tLast := by
  have hN : cfg0.N = 16 := N_0
  have h := (flush0_6 t).mp hf
  have := t.isLt
  exact Fin.ext (show t.val = 15 by omega)

theorem eq_tLast_of_flush7 (t : Fin cfg0.N) (hf : (cfg0.win 7).flush t = true) : t = tLast := by
  have hN : cfg0.N = 16 := N_0
  have h := (flush0_7 t).mp hf
  have := t.isLt
  exact Fin.ext (show t.val = 15 by omega)

/-- The last point's block of an accumulator is the whole array, and it is written back. -/
theorem cover6 (i : S1x400.Idx) : ∃ t : Fin cfg0.N, (cfg0.win 6).flush t = true ∧ i ∈ ((cfg0.win 6).blk t).view.set := by
  have hi0 : (i 0).val < 1 := idx2_lt0 i
  have hi1 : (i 1).val < 400 := idx2_lt1 i
  obtain ⟨-, -, -, -, -, -, -, -, -, -, -, e0, e1, -⟩ := idx_facts0 tLast
  refine ⟨tLast, (flush0_6 tLast).mpr rfl, ?_⟩
  rw [mem_blk6]
  intro a
  match a with
  | ⟨0, _⟩ =>
    show win0_6.index tLast (0 : Fin 2) * 1 ≤ (i 0).val ∧ (i 0).val < win0_6.index tLast (0 : Fin 2) * 1 + 1
    rw [e0]; omega
  | ⟨1, _⟩ =>
    show win0_6.index tLast (1 : Fin 2) * 400 ≤ (i 1).val ∧ (i 1).val < win0_6.index tLast (1 : Fin 2) * 400 + 400
    rw [e1]; omega

theorem cover7 (i : S1x400.Idx) : ∃ t : Fin cfg0.N, (cfg0.win 7).flush t = true ∧ i ∈ ((cfg0.win 7).blk t).view.set := by
  have hi0 : (i 0).val < 1 := idx2_lt0 i
  have hi1 : (i 1).val < 400 := idx2_lt1 i
  obtain ⟨-, -, -, -, -, -, -, -, -, -, -, -, -, e0, e1⟩ := idx_facts0 tLast
  refine ⟨tLast, (flush0_7 tLast).mpr rfl, ?_⟩
  rw [mem_blk7]
  intro a
  match a with
  | ⟨0, _⟩ =>
    show win0_7.index tLast (0 : Fin 2) * 1 ≤ (i 0).val ∧ (i 0).val < win0_7.index tLast (0 : Fin 2) * 1 + 1
    rw [e0]; omega
  | ⟨1, _⟩ =>
    show win0_7.index tLast (1 : Fin 2) * 400 ≤ (i 1).val ∧ (i 1).val < win0_7.index tLast (1 : Fin 2) * 400 + 400
    rw [e1]; omega

end Cert.KernelIdeal.R0

end
-- ==== Proof.Region0Pieces.lean ====
/-
  Region 0 (the second-order interaction and the first dense layer), what the body leaves in each output's block.

  At the first grid point the two accumulators are reset to zero before the block's column sums are added; at every
  later point the block's column sums are added to what the point before left. The row outputs (the interaction's
  row sums and the dense layer's rows) are the same function of the point's input blocks in both cases.
-/
import proofs.«171042_j1391569404529_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

theorem out_A_4 (c : Dev nD) (i : grid0.Coords) (a1 : Memref sig .tc .vmem S1024x624 .f32) (h1 : a1.IsWhole) (a2 : Memref sig .tc .vmem S624x16 .f32) (h2 : a2.IsWhole) (a3 : Memref sig .tc .vmem S624x400 .bf16) (h3 : a3.IsWhole) (a4 : Memref sig .tc .vmem S400 .f32) (h4 : a4.IsWhole) (a5 : Memref sig .tc .vmem S1024x1 .f32) (h5 : a5.IsWhole) (a6 : Memref sig .tc .vmem S1024x400 .bf16) (h6 : a6.IsWhole) (a7 : Memref sig .tc .vmem S1x400 .f32) (h7 : a7.IsWhole) (a8 : Memref sig .tc .vmem S1x400 .f32) (h8 : a8.IsWhole) (hc : cond0_0 i) (x0 : Vec F S1024x624 .f32) (x1 : Vec F S624x16 .f32) (x2 : Vec F S624x400 .bf16) (x3 : Vec F S400 .f32) :
    out0_A_4 c i a1 h1 a2 h2 a3 h3 a4 h4 a5 h5 a6 h6 a7 h7 a8 h8 hc x0 x1 x2 x3 = k0_pay4 x0 x1 := by
  unfold out0_A_4
  rw [View.read_writes_eq_canon _ _ _ (cover0_A_4 c i a1 h1 a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h1.read_unread, h2.read_unread, h3.read_unread, h4.read_unread, h7.read_unread, h8.read_unread, View.ld_unit_zero (S := S1024x624) hz2, View.ld_unit_zero (S := S624x16) hz2, View.ld_unit_zero (S := S624x400) hz2, View.ld_unit_zero (S := S400) hz1, View.ld_unit_zero (S := S1x400) hz2]

theorem out_A_5 (c : Dev nD) (i : grid0.Coords) (a1 : Memref sig .tc .vmem S1024x624 .f32) (h1 : a1.IsWhole) (a2 : Memref sig .tc .vmem S624x16 .f32) (h2 : a2.IsWhole) (a3 : Memref sig .tc .vmem S624x400 .bf16) (h3 : a3.IsWhole) (a4 : Memref sig .tc .vmem S400 .f32) (h4 : a4.IsWhole) (a5 : Memref sig .tc .vmem S1024x1 .f32) (h5 : a5.IsWhole) (a6 : Memref sig .tc .vmem S1024x400 .bf16) (h6 : a6.IsWhole) (a7 : Memref sig .tc .vmem S1x400 .f32) (h7 : a7.IsWhole) (a8 : Memref sig .tc .vmem S1x400 .f32) (h8 : a8.IsWhole) (hc : cond0_0 i) (x0 : Vec F S1024x624 .f32) (x1 : Vec F S624x16 .f32) (x2 : Vec F S624x400 .bf16) (x3 : Vec F S400 .f32) :
    out0_A_5 c i a1 h1 a2 h2 a3 h3 a4 h4 a5 h5 a6 h6 a7 h7 a8 h8 hc x0 x1 x2 x3 = k0_pay2 (k0_pay5 x0 x2 x3) := by
  unfold out0_A_5
  rw [View.read_writes_eq_canon _ _ _ (cover0_A_5 c i a1 h1 a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h1.read_unread, h2.read_unread, h3.read_unread, h4.read_unread, h7.read_unread, h8.read_unread, View.ld_unit_zero (S := S1024x624) hz2, View.ld_unit_zero (S := S624x16) hz2, View.ld_unit_zero (S := S624x400) hz2, View.ld_unit_zero (S := S400) hz1, View.ld_unit_zero (S := S1x400) hz2]

theorem out_A_6 (c : Dev nD) (i : grid0.Coords) (a1 : Memref sig .tc .vmem S1024x624 .f32) (h1 : a1.IsWhole) (a2 : Memref sig .tc .vmem S624x16 .f32) (h2 : a2.IsWhole) (a3 : Memref sig .tc .vmem S624x400 .bf16) (h3 : a3.IsWhole) (a4 : Memref sig .tc .vmem S400 .f32) (h4 : a4.IsWhole) (a5 : Memref sig .tc .vmem S1024x1 .f32) (h5 : a5.IsWhole) (a6 : Memref sig .tc .vmem S1024x400 .bf16) (h6 : a6.IsWhole) (a7 : Memref sig .tc .vmem S1x400 .f32) (h7 : a7.IsWhole) (a8 : Memref sig .tc .vmem S1x400 .f32) (h8 : a8.IsWhole) (hc : cond0_0 i) (x0 : Vec F S1024x624 .f32) (x1 : Vec F S624x16 .f32) (x2 : Vec F S624x400 .bf16) (x3 : Vec F S400 .f32) :
    out0_A_6 c i a1 h1 a2 h2 a3 h3 a4 h4 a5 h5 a6 h6 a7 h7 a8 h8 hc x0 x1 x2 x3 = k0_pay8 x0 x2 x3 k0_pay6 := by
  unfold out0_A_6
  rw [View.read_writes_eq_canon _ _ _ (cover0_A_6 c i a1 h1 a2 h2 a3 h3 a4 h4 a5 h5 a6 h6 a7 h7 a8 h8 hc x0 x1 x2 x3)]
  unfold kernelRun0_A
  dsimp only
  sl_unfold_words
  rw [View.canon_cons_unit_zero (S := S1x400) hz2, View.readCov_unit_zero (S := S1x400) _ hz2]
  simp only [View.readAt_eq_ld, h1.read_unread, h2.read_unread, h3.read_unread, h4.read_unread, h7.read_unread, h8.read_unread, View.ld_unit_zero (S := S1024x624) hz2, View.ld_unit_zero (S := S624x16) hz2, View.ld_unit_zero (S := S624x400) hz2, View.ld_unit_zero (S := S400) hz1, View.ld_unit_zero (S := S1x400) hz2]

theorem out_A_7 (c : Dev nD) (i : grid0.Coords) (a1 : Memref sig .tc .vmem S1024x624 .f32) (h1 : a1.IsWhole) (a2 : Memref sig .tc .vmem S624x16 .f32) (h2 : a2.IsWhole) (a3 : Memref sig .tc .vmem S624x400 .bf16) (h3 : a3.IsWhole) (a4 : Memref sig .tc .vmem S400 .f32) (h4 : a4.IsWhole) (a5 : Memref sig .tc .vmem S1024x1 .f32) (h5 : a5.IsWhole) (a6 : Memref sig .tc .vmem S1024x400 .bf16) (h6 : a6.IsWhole) (a7 : Memref sig .tc .vmem S1x400 .f32) (h7 : a7.IsWhole) (a8 : Memref sig .tc .vmem S1x400 .f32) (h8 : a8.IsWhole) (hc : cond0_0 i) (x0 : Vec F S1024x624 .f32) (x1 : Vec F S624x16 .f32) (x2 : Vec F S624x400 .bf16) (x3 : Vec F S400 .f32) :
    out0_A_7 c i a1 h1 a2 h2 a3 h3 a4 h4 a5 h5 a6 h6 a7 h7 a8 h8 hc x0 x1 x2 x3 = k0_pay1 (k0_pay5 x0 x2 x3) (k0_pay9 k0_pay7) := by
  unfold out0_A_7
  rw [View.read_writes_eq_canon _ _ _ (cover0_A_7 c i a1 h1 a2 h2 a3 h3 a4 h4 a5 h5 a6 h6 a7 h7 a8 h8 hc x0 x1 x2 x3)]
  unfold kernelRun0_A
  dsimp only
  sl_unfold_words
  rw [View.canon_cons_unit_zero (S := S1x400) hz2, View.readCov_unit_zero (S := S1x400) _ hz2]
  simp only [View.readAt_eq_ld, h1.read_unread, h2.read_unread, h3.read_unread, h4.read_unread, h7.read_unread, h8.read_unread, View.ld_unit_zero (S := S1024x624) hz2, View.ld_unit_zero (S := S624x16) hz2, View.ld_unit_zero (S := S624x400) hz2, View.ld_unit_zero (S := S400) hz1, View.ld_unit_zero (S := S1x400) hz2]

theorem out_B_4 (c : Dev nD) (i : grid0.Coords) (a1 : Memref sig .tc .vmem S1024x624 .f32) (h1 : a1.IsWhole) (a2 : Memref sig .tc .vmem S624x16 .f32) (h2 : a2.IsWhole) (a3 : Memref sig .tc .vmem S624x400 .bf16) (h3 : a3.IsWhole) (a4 : Memref sig .tc .vmem S400 .f32) (h4 : a4.IsWhole) (a5 : Memref sig .tc .vmem S1024x1 .f32) (h5 : a5.IsWhole) (a6 : Memref sig .tc .vmem S1024x400 .bf16) (h6 : a6.IsWhole) (a7 : Memref sig .tc .vmem S1x400 .f32) (h7 : a7.IsWhole) (a8 : Memref sig .tc .vmem S1x400 .f32) (h8 : a8.IsWhole) (hc : ¬cond0_0 i) (x0 : Vec F S1024x624 .f32) (x1 : Vec F S624x16 .f32) (x2 : Vec F S624x400 .bf16) (x3 : Vec F S400 .f32) (xo6 xo7 : Vec F S1x400 .f32) :
    out0_B_4 c i a1 h1 a2 h2 a3 h3 a4 h4 a5 h5 a6 h6 a7 h7 a8 h8 hc x0 x1 x2 x3 xo6 xo7 = k0_pay4 x0 x1 := by
  unfold out0_B_4
  rw [View.read_writes_eq_canon _ _ _ (cover0_B_4 c i a1 h1 a2 h2 a3 h3 a4 h4 a5 h5 a6 h6 a7 h7 a8 h8 hc x0 x1 x2 x3 xo6 xo7)]
  unfold kernelRun0_B
  dsimp only
  sl_unfold_words
  rw [View.canon_unit_zero hz2]
  simp only [View.readAt_eq_ld, h1.read_unread, h2.read_unread, h3.read_unread, h4.read_unread, h7.read_unread, h8.read_unread, View.ld_unit_zero (S := S1024x624) hz2, View.ld_unit_zero (S := S624x16) hz2, View.ld_unit_zero (S := S624x400) hz2, View.ld_unit_zero (S := S400) hz1, View.ld_unit_zero (S := S1x400) hz2]

theorem out_B_5 (c : Dev nD) (i : grid0.Coords) (a1 : Memref sig .tc .vmem S1024x624 .f32) (h1 : a1.IsWhole) (a2 : Memref sig .tc .vmem S624x16 .f32) (h2 : a2.IsWhole) (a3 : Memref sig .tc .vmem S624x400 .bf16) (h3 : a3.IsWhole) (a4 : Memref sig .tc .vmem S400 .f32) (h4 : a4.IsWhole) (a5 : Memref sig .tc .vmem S1024x1 .f32) (h5 : a5.IsWhole) (a6 : Memref sig .tc .vmem S1024x400 .bf16) (h6 : a6.IsWhole) (a7 : Memref sig .tc .vmem S1x400 .f32) (h7 : a7.IsWhole) (a8 : Memref sig .tc .vmem S1x400 .f32) (h8 : a8.IsWhole) (hc : ¬cond0_0 i) (x0 : Vec F S1024x624 .f32) (x1 : Vec F S624x16 .f32) (x2 : Vec F S624x400 .bf16) (x3 : Vec F S400 .f32) (xo6 xo7 : Vec F S1x400 .f32) :
    out0_B_5 c i a1 h1 a2 h2 a3 h3 a4 h4 a5 h5 a6 h6 a7 h7 a8 h8 hc x0 x1 x2 x3 xo6 xo7 = k0_pay2 (k0_pay5 x0 x2 x3) := by
  unfold out0_B_5
  rw [View.read_writes_eq_canon _ _ _ (cover0_B_5 c i a1 h1 a2 h2 a3 h3 a4 h4 a5 h5 a6 h6 a7 h7 a8 h8 hc x0 x1 x2 x3 xo6 xo7)]
  unfold kernelRun0_B
  dsimp only
  sl_unfold_words
  rw [View.canon_unit_zero hz2]
  simp only [View.readAt_eq_ld, h1.read_unread, h2.read_unread, h3.read_unread, h4.read_unread, h7.read_unread, h8.read_unread, View.ld_unit_zero (S := S1024x624) hz2, View.ld_unit_zero (S := S624x16) hz2, View.ld_unit_zero (S := S624x400) hz2, View.ld_unit_zero (S := S400) hz1, View.ld_unit_zero (S := S1x400) hz2]

theorem out_B_6 (c : Dev nD) (i : grid0.Coords) (a1 : Memref sig .tc .vmem S1024x624 .f32) (h1 : a1.IsWhole) (a2 : Memref sig .tc .vmem S624x16 .f32) (h2 : a2.IsWhole) (a3 : Memref sig .tc .vmem S624x400 .bf16) (h3 : a3.IsWhole) (a4 : Memref sig .tc .vmem S400 .f32) (h4 : a4.IsWhole) (a5 : Memref sig .tc .vmem S1024x1 .f32) (h5 : a5.IsWhole) (a6 : Memref sig .tc .vmem S1024x400 .bf16) (h6 : a6.IsWhole) (a7 : Memref sig .tc .vmem S1x400 .f32) (h7 : a7.IsWhole) (a8 : Memref sig .tc .vmem S1x400 .f32) (h8 : a8.IsWhole) (hc : ¬cond0_0 i) (x0 : Vec F S1024x624 .f32) (x1 : Vec F S624x16 .f32) (x2 : Vec F S624x400 .bf16) (x3 : Vec F S400 .f32) (xo6 xo7 : Vec F S1x400 .f32) :
    out0_B_6 c i a1 h1 a2 h2 a3 h3 a4 h4 a5 h5 a6 h6 a7 h7 a8 h8 hc x0 x1 x2 x3 xo6 xo7 = k0_pay8 x0 x2 x3 xo6 := by
  unfold out0_B_6
  rw [View.read_writes_eq_canon _ _ _ (cover0_B_6 c i a1 h1 a2 h2 a3 h3 a4 h4 a5 h5 a6 h6 a7 h7 a8 h8 hc x0 x1 x2 x3 xo6 xo7)]
  unfold kernelRun0_B
  dsimp only
  sl_unfold_words
  rw [View.canon_unit_zero hz2]
  simp only [View.readAt_eq_ld, h1.read_unread, h2.read_unread, h3.read_unread, h4.read_unread, h7.read_unread, h8.read_unread, View.ld_unit_zero (S := S1024x624) hz2, View.ld_unit_zero (S := S624x16) hz2, View.ld_unit_zero (S := S624x400) hz2, View.ld_unit_zero (S := S400) hz1, View.ld_unit_zero (S := S1x400) hz2]

theorem out_B_7 (c : Dev nD) (i : grid0.Coords) (a1 : Memref sig .tc .vmem S1024x624 .f32) (h1 : a1.IsWhole) (a2 : Memref sig .tc .vmem S624x16 .f32) (h2 : a2.IsWhole) (a3 : Memref sig .tc .vmem S624x400 .bf16) (h3 : a3.IsWhole) (a4 : Memref sig .tc .vmem S400 .f32) (h4 : a4.IsWhole) (a5 : Memref sig .tc .vmem S1024x1 .f32) (h5 : a5.IsWhole) (a6 : Memref sig .tc .vmem S1024x400 .bf16) (h6 : a6.IsWhole) (a7 : Memref sig .tc .vmem S1x400 .f32) (h7 : a7.IsWhole) (a8 : Memref sig .tc .vmem S1x400 .f32) (h8 : a8.IsWhole) (hc : ¬cond0_0 i) (x0 : Vec F S1024x624 .f32) (x1 : Vec F S624x16 .f32) (x2 : Vec F S624x400 .bf16) (x3 : Vec F S400 .f32) (xo6 xo7 : Vec F S1x400 .f32) :
    out0_B_7 c i a1 h1 a2 h2 a3 h3 a4 h4 a5 h5 a6 h6 a7 h7 a8 h8 hc x0 x1 x2 x3 xo6 xo7 = k0_pay1 (k0_pay5 x0 x2 x3) (k0_pay9 xo7) := by
  unfold out0_B_7
  rw [View.read_writes_eq_canon _ _ _ (cover0_B_7 c i a1 h1 a2 h2 a3 h3 a4 h4 a5 h5 a6 h6 a7 h7 a8 h8 hc x0 x1 x2 x3 xo6 xo7)]
  unfold kernelRun0_B
  dsimp only
  sl_unfold_words
  rw [View.canon_unit_zero hz2]
  simp only [View.readAt_eq_ld, h1.read_unread, h2.read_unread, h3.read_unread, h4.read_unread, h7.read_unread, h8.read_unread, View.ld_unit_zero (S := S1024x624) hz2, View.ld_unit_zero (S := S624x16) hz2, View.ld_unit_zero (S := S624x400) hz2, View.ld_unit_zero (S := S400) hz1, View.ld_unit_zero (S := S1x400) hz2]

end Cert.KernelIdeal.R0

end
-- ==== Proof.Region0Fold.lean ====
/-
  Region 0: what the four outputs' blocks hold after each grid point, in closed form.

  The row outputs at point `t` are functions of that point's input blocks alone. The two column accumulators
  are a fold over the points: reset-then-add at point 0, add at every later point.
-/
import proofs.«171042_j1391569404529_2_alg».proof.Proof.Region0Pieces

set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]
variable (V : (c : Dev nD) → (b : Ref sig .tc) → Buf (Elt F) ((c : Thread nD τ).loc b))

/-- The first dense layer's rows of the block at point `t`. -/
def hblk (c : Dev nD) (t : Fin cfg0.N) : FVec F S1024x400 .f32 :=
  k0_pay5 (iblk0 V c 0 t) (iblk0 V c 2 t) (iblk0 V c 3 t)

/-- The two column accumulators (sums, sums of squares) after point `n`. -/
def acc (c : Dev nD) : (n : ℕ) → n < cfg0.N → Vec F S1x400 .f32 × Vec F S1x400 .f32
  | 0, h => (k0_pay8 (iblk0 V c 0 ⟨0, h⟩) (iblk0 V c 2 ⟨0, h⟩) (iblk0 V c 3 ⟨0, h⟩) k0_pay6,
             k0_pay1 (hblk V c ⟨0, h⟩) (k0_pay9 k0_pay7))
  | n + 1, h => (k0_pay8 (iblk0 V c 0 ⟨n + 1, h⟩) (iblk0 V c 2 ⟨n + 1, h⟩) (iblk0 V c 3 ⟨n + 1, h⟩) (acc c n (Nat.lt_of_succ_lt h)).1,
                 k0_pay1 (hblk V c ⟨n + 1, h⟩) (k0_pay9 (acc c n (Nat.lt_of_succ_lt h)).2))

/-- What the outputs' blocks hold after point `n`: by induction on the point. -/
theorem outsAt_eq (c : Dev nD) : ∀ (n : ℕ) (h : n < cfg0.N),
    outsAt0 V c n h = (k0_pay4 (iblk0 V c 0 ⟨n, h⟩) (iblk0 V c 1 ⟨n, h⟩), k0_pay2 (hblk V c ⟨n, h⟩), (acc V c n h).1, (acc V c n h).2)
  | 0, h => by
    rw [outsAt0_A V c ⟨0, h⟩ rfl, out_A_4, out_A_5, out_A_6, out_A_7]; rfl
  | n + 1, h => by
    have hN : cfg0.N = 16 := N_0
    have hB : ¬(⟨n + 1, h⟩ : Fin cfg0.N).val % 16 = 0 := by dsimp only; omega
    rw [outsAt0_B V c ⟨n + 1, h⟩ hB, out_B_4, out_B_5, out_B_6, out_B_7]
    show (_, _, k0_pay8 _ _ _ (outsAt0 V c n _).2.2.1, k0_pay1 _ (k0_pay9 (outsAt0 V c n _).2.2.2)) = _
    rw [outsAt_eq c n]; rfl

end Cert.KernelIdeal.R0

end
-- ==== Proof.PayloadLib.lean ====
/-
  The non-pointwise vector operations of the three kernel bodies, each read at an index written by its
  coordinates, at the extended reals: a matrix product into a zero accumulator is the sum over the contracted
  coordinate of the products of the entries; a sum over one axis of a matrix is the sum over that axis's
  coordinate; a cast of a vector to a one-column matrix reads the vector's entry. Stated once over generic
  extents, so that each body's arithmetic is a chain of these.
-/
import Idealize.ShloMosaic.Lib.ValueIdx
import Idealize.ShloMosaic.PureOps.Ideal.Laws
import Idealize.ShloMosaic.Lib.Pipeline.Value
import Idealize.ShloMosaic.Lib.ValueLayout

noncomputable section

open scoped BigOperators

namespace Cert.KernelIdeal.Pay

open Idealize.ShloMosaic Idealize.ShloMosaic.ValueIdx

/-- The dimension numbers of a plain product, rows by contraction times contraction by columns, over any proof of
    their conditions. -/
abbrev plainDims (m k n : Nat) (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The product of an m×k by a k×n matrix accumulated into the zero matrix, read at (a, b): the sum over the contracted
    coordinate c of A (a, c) · B (c, b). -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    FloatOps.matmul (plainDims m k n w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (plainDims m k n w) k rfl rfl).symm]
  refine Finset.sum_congr rfl fun c _ => ?_
  have c2 := contrEquiv1_symm_val (plainDims m k n w) k rfl rfl c
  have l2 : (plainDims m k n w).lhsIdx (ix2 a b) ((contrEquiv1 _ k rfl rfl).symm c) = ix2 a c := by
    funext ax; apply Fin.ext
    match ax with
    | ⟨0, _⟩ => simp [DotDims.lhsIdx, plainDims]; rfl
    | ⟨1, _⟩ => simp [DotDims.lhsIdx, plainDims]; exact c2
  have r2 : (plainDims m k n w).rhsIdx (ix2 a b) ((contrEquiv1 _ k rfl rfl).symm c) = ix2 c b := by
    funext ax; apply Fin.ext
    match ax with
    | ⟨0, _⟩ => simp [DotDims.rhsIdx, plainDims]; exact c2
    | ⟨1, _⟩ => simp [DotDims.rhsIdx, plainDims]; rfl
  rw [l2, r2]

/-- The sum of a matrix over its rows (axis 0), read at column j: the sum over the row coordinate. -/
theorem sum_axis0_apply {m n : Nat} {φ : FTy} (src : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ)
    (j : Fin n) :
    multiReduction (F := Ideal) .add [0] ⟨1, ![n]⟩ src acc h hφ hacc (ix1 j) = ∑ r : Fin m, src (ix2 r j) := by
  refine (Ideal.multiReduction_add_single src acc h hφ hacc (ix1 j)).trans ?_
  refine Finset.sum_congr rfl fun r _ => congrArg src ?_
  funext c; apply Fin.ext
  match c with
  | ⟨0, _⟩ => rfl
  | ⟨1, _⟩ => rfl

/-- The sum of a matrix over its columns (axis 1), read at row r: the sum over the column coordinate. -/
theorem sum_axis1_apply {m n : Nat} {φ : FTy} (src : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (r : Fin m) :
    multiReduction (F := Ideal) .add [1] ⟨1, ![m]⟩ src acc h hφ hacc (ix1 r) = ∑ j : Fin n, src (ix2 r j) := by
  refine (Ideal.multiReduction_add_single src acc h hφ hacc (ix1 r)).trans ?_
  refine Finset.sum_congr rfl fun j _ => congrArg src ?_
  funext c; apply Fin.ext
  match c with
  | ⟨0, _⟩ => rfl
  | ⟨1, _⟩ => rfl

/-- A vector of length a cast to an a×1 matrix reads, at (i, u), the vector's entry i, whatever the unit coordinate u. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.KernelIdeal.Pay

end
-- ==== Proof.PayloadR0.lean ====
/-
  The first kernel body's arithmetic read at an index, at the extended reals: the dense layer's block
  (rows of the block against the weights' columns, plus the bias), its column sums and sums of squares added to
  the running sums, the second-order interaction of a row through the indicator matrix, and the zero blocks the
  running sums start from.
-/
import proofs.«171042_j1391569404529_2_alg».proof.Proof.Gen.KernelIdeal.Skeleton
import Idealize.ShloMosaic.Lib.ValueIdx
import Idealize.ShloMosaic.PureOps.Ideal.Laws
import Idealize.ShloMosaic.Lib.Pipeline.Value
import Idealize.ShloMosaic.Lib.ValueLayout
import proofs.«171042_j1391569404529_2_alg».proof.Proof.PayloadLib

noncomputable section

open scoped BigOperators

namespace Cert.KernelIdeal.Pay

open Idealize.ShloMosaic Idealize.ShloMosaic.ValueIdx Cert.KernelIdeal Cert.KernelIdeal.Gen

/-- the half, the epsilon -/
abbrev cHalf : EReal := Ideal.ofBits .f32 0x3F000000#32
abbrev cEps : EReal := Ideal.ofBits .f32 0x3727C5AC#32

/-- The loaded block of rows, recast to its own shape, is itself. -/
theorem pay3_eq (x0 : Vec Ideal S1024x624 .f32) : k0_pay3 x0 = x0 := shapeCast_self _ _

theorem pay5_apply (x0 : Vec Ideal S1024x624 .f32) (x2 : Vec Ideal S624x400 .bf16) (x3 : Vec Ideal S400 .f32) (r : Fin 1024) (j : Fin 400) :
    k0_pay5 x0 x2 x3 (ix2 r j) = (∑ d : Fin 624, x0 (ix2 r d) * x2 (ix2 d j)) + x3 (ix1 j) := by
  unfold k0_pay5
  rw [pay3_eq, shapeCast_self]
  show FloatOps.matmul _ _ _ _ _ (ix2 r j) + broadcastTo _ _ _ (ix2 r j) = _
  refine congrArg₂ (· + ·) ?_ ?_
  · exact matmul_plain_zero_apply Facts₀.dot_S1024x624_S624x400_S1024x400_1_0_0_1_n_n_wf none
      (truncf FTy.bf16 (x0 : FVec Ideal S1024x624 .f32) bitsLt_bf16_f32) (x2 : FVec Ideal S624x400 .bf16) r j
  · exact (broadcastTo_1b_ab_apply _ _ r j).trans (shapeCast_a_1a_apply (x3 : FVec Ideal S400 .f32) _ 0 j)

theorem pay8_apply (x0 : Vec Ideal S1024x624 .f32) (x2 : Vec Ideal S624x400 .bf16) (x3 : Vec Ideal S400 .f32) (acc : Vec Ideal S1x400 .f32) (j : Fin 400) :
    k0_pay8 x0 x2 x3 acc (ix2 0 j) = acc (ix2 0 j) + ∑ r : Fin 1024, k0_pay5 x0 x2 x3 (ix2 r j) := by
  unfold k0_pay8
  rw [shapeCast_self]
  show acc (ix2 0 j) + shapeCast _ _ _ (ix2 0 j) = _
  exact congrArg (acc (ix2 0 j) + ·) ((shapeCast_a_1a_apply _ _ 0 j).trans (sum_axis0_apply _ _ _ _ _ j))

theorem pay1_apply (h : FVec Ideal S1024x400 .f32) (acc : FVec Ideal S1x400 .f32) (j : Fin 400) :
    k0_pay1 h acc (ix2 0 j) = acc (ix2 0 j) + ∑ r : Fin 1024, h (ix2 r j) * h (ix2 r j) := by
  unfold k0_pay1
  show acc (ix2 0 j) + shapeCast _ _ _ (ix2 0 j) = _
  exact congrArg (acc (ix2 0 j) + ·) ((shapeCast_a_1a_apply _ _ 0 j).trans (sum_axis0_apply (mulf h h) _ _ _ _ j))

theorem pay6_apply (j : Fin 400) : k0_pay6 (F := Ideal) (ix2 0 j) = 0 := Ideal.ofBits_zero_f32
theorem pay7_apply (j : Fin 400) : k0_pay7 (F := Ideal) (ix2 0 j) = 0 := Ideal.ofBits_zero_f32
theorem pay9_eq (acc : Vec Ideal S1x400 .f32) : k0_pay9 acc = acc := shapeCast_self _ _
theorem pay2_apply (h : FVec Ideal S1024x400 .f32) (i : S1024x400.Idx) : k0_pay2 h i = h i := rfl

theorem pay4_apply (x0 : Vec Ideal S1024x624 .f32) (x1 : Vec Ideal S624x16 .f32) (r : Fin 1024) :
    k0_pay4 x0 x1 (ix2 r 0) = ∑ e : Fin 16, cHalf * ((∑ d : Fin 624, x0 (ix2 r d) * x1 (ix2 d e)) * (∑ d : Fin 624, x0 (ix2 r d) * x1 (ix2 d e)) - ∑ d : Fin 624, (x0 (ix2 r d) * x0 (ix2 r d)) * x1 (ix2 d e)) := by
  have m1 : ∀ e : Fin 16, FloatOps.matmul (φ₁ := .f32) (φ₂ := .f32) dot_S1024x624_S624x16_S1024x16_1_0_0_1_n_n (some .fp32) (x0 : FVec Ideal S1024x624 .f32)
      (x1 : FVec Ideal S624x16 .f32) (constant (F := Ideal) S1024x16 .f32 0x00000000#32) (ix2 r e)
        = ∑ d : Fin 624, x0 (ix2 r d) * x1 (ix2 d e) := fun e =>
    matmul_plain_zero_apply (φ₁ := .f32) (φ₂ := .f32) Facts₀.dot_S1024x624_S624x16_S1024x16_1_0_0_1_n_n_wf _ (x0 : FVec Ideal S1024x624 .f32) (x1 : FVec Ideal S624x16 .f32) r e
  have m2 : ∀ e : Fin 16, FloatOps.matmul (φ₁ := .f32) (φ₂ := .f32) dot_S1024x624_S624x16_S1024x16_1_0_0_1_n_n (some .fp32) (mulf (x0 : FVec Ideal S1024x624 .f32) x0)
      (x1 : FVec Ideal S624x16 .f32) (constant (F := Ideal) S1024x16 .f32 0x00000000#32) (ix2 r e)
        = ∑ d : Fin 624, (x0 (ix2 r d) * x0 (ix2 r d)) * x1 (ix2 d e) := fun e =>
    matmul_plain_zero_apply (φ₁ := .f32) (φ₂ := .f32) Facts₀.dot_S1024x624_S624x16_S1024x16_1_0_0_1_n_n_wf _ (mulf (x0 : FVec Ideal S1024x624 .f32) x0) (x1 : FVec Ideal S624x16 .f32) r e
  unfold k0_pay4
  rw [pay3_eq, shapeCast_self]
  refine (shapeCast_a_a1_apply _ _ r 0).trans ?_
  refine (sum_axis1_apply _ _ _ _ _ r).trans ?_
  refine Finset.sum_congr rfl fun e _ => ?_
  rw [← m1 e, ← m2 e]
  rfl

end Cert.KernelIdeal.Pay

end
-- ==== Proof.Region0Arrays.lean ====
/-
  Region 0 (the second-order interaction and the first dense layer): the four output arrays after the region, index by
  index, as functions of the four input arrays the region is entered with.

  The row outputs: row `n` lies in block `n / 1024`, every point writes its block back, and what a point leaves in its
  block is the body's arithmetic on that point's input rows. The two column accumulators are written back once, at the
  last point, and hold the fold over all sixteen points: zero, plus each block's column sums (of the dense layer's
  rows, and of their squares), which over the extended reals is the double sum over the blocks and their rows.
-/
import proofs.«171042_j1391569404529_2_alg».proof.Proof.Region0Blocks
import proofs.«171042_j1391569404529_2_alg».proof.Proof.Region0Fold
import proofs.«171042_j1391569404529_2_alg».proof.Proof.PayloadR0
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.R0

open Idealize.ShloMosaic.ValueIdx Cert.KernelIdeal Cert.KernelIdeal.Gen

variable (V : (c : Dev nD) → (b : Ref sig .tc) → Buf (Elt Ideal) ((c : Thread nD τ).loc b)) (c : Dev nD)

/-- The input rows as the region finds them. -/
def deepA : Fin 16384 → Fin 624 → EReal := fun n d => (show FVec Ideal S16384x624 .f32 from V c main_v37) (ix2 n d)
/-- The indicator matrix as the region finds it. -/
def segA : Fin 624 → Fin 16 → EReal := fun d e => (show FVec Ideal S624x16 .f32 from V c main_v46) (ix2 d e)
/-- The first layer's weights as the region finds them. -/
def w1A : Fin 624 → Fin 400 → EReal := fun d j => (show FVec Ideal S624x400 .bf16 from V c main_v47) (ix2 d j)
/-- The first layer's bias as the region finds it. -/
def b1A : Fin 400 → EReal := fun j => (show FVec Ideal S400 .f32 from V c main_arg5) (ix1 j)

/-! ## One row of a block -/

/-- A row of the dense layer's block, from the rows the block's inputs hold. -/
theorem dense_row (x0 : Vec Ideal S1024x624 .f32) (x2 : Vec Ideal S624x400 .bf16) (x3 : Vec Ideal S400 .f32)
    (D : Fin 624 → EReal) (W : Fin 624 → Fin 400 → EReal) (b : Fin 400 → EReal) (r : Fin 1024) (j : Fin 400)
    (h0 : ∀ d, x0 (ix2 r d) = D d) (h2 : ∀ d j, x2 (ix2 d j) = W d j) (h3 : ∀ j, x3 (ix1 j) = b j) :
    k0_pay5 x0 x2 x3 (ix2 r j) = (∑ d : Fin 624, D d * W d j) + b j := by
  rw [Pay.pay5_apply]
  simp only [h0, h2, h3]

/-- A row of the interaction's block, from the rows the block's inputs hold. -/
theorem fm_row (x0 : Vec Ideal S1024x624 .f32) (x1 : Vec Ideal S624x16 .f32)
    (D : Fin 624 → EReal) (Sg : Fin 624 → Fin 16 → EReal) (r : Fin 1024)
    (h0 : ∀ d, x0 (ix2 r d) = D d) (h1 : ∀ d e, x1 (ix2 d e) = Sg d e) :
    k0_pay4 x0 x1 (ix2 r 0) = ∑ e : Fin 16, Pay.cHalf * ((∑ d : Fin 624, D d * Sg d e) * (∑ d : Fin 624, D d * Sg d e) - ∑ d : Fin 624, (D d * D d) * Sg d e) := by
  rw [Pay.pay4_apply]
  simp only [h0, h1]

/-- The dense layer's block at point `t` is rows `1024 t …` of the dense layer of the whole input. -/
theorem hblk_apply (t : Fin cfg0.N) (r : Fin 1024) (j : Fin 400) :
    hblk V c t (ix2 r j) = Cert.DeepFM.h1 (deepA V c) (w1A V c) (b1A V c) (row t r) j :=
  dense_row (iblk0 V c 0 t) (iblk0 V c 2 t) (iblk0 V c 3 t) (deepA V c (row t r)) (w1A V c) (b1A V c) r j
    (fun d => iblk0_0_apply V c t r d) (fun d j => iblk0_2_apply V c t d j) (fun j => iblk0_3_apply V c t j)

/-- The interaction's block at point `t` is rows `1024 t …` of the interaction of the whole input. -/
theorem fmblk_apply (t : Fin cfg0.N) (r : Fin 1024) :
    k0_pay4 (iblk0 V c 0 t) (iblk0 V c 1 t) (ix2 r 0) = Cert.DeepFM.fmKer Pay.cHalf (deepA V c) (segA V c) (row t r) :=
  fm_row (iblk0 V c 0 t) (iblk0 V c 1 t) (deepA V c (row t r)) (segA V c) r
    (fun d => iblk0_0_apply V c t r d) (fun d e => iblk0_1_apply V c t d e)

/-! ## The row outputs -/

/-- The interaction of the whole input, as contents of its array. -/
def G4 : FVec Ideal S16384x1 .f32 := fun i => Cert.DeepFM.fmKer Pay.cHalf (deepA V c) (segA V c) ⟨(i 0).val, idx2_lt0 i⟩
/-- The dense layer of the whole input, as contents of its array. -/
def G5 : FVec Ideal S16384x400 .bf16 := fun i => Cert.DeepFM.h1 (deepA V c) (w1A V c) (b1A V c) ⟨(i 0).val, idx2_lt0 i⟩ ⟨(i 1).val, idx2_lt1 i⟩

/-- What point `t` writes back into the dense layer's array is its block of the dense layer of the whole input. -/
theorem flushed5_eq (t : Fin cfg0.N) :
    (dat0 V c).flushed 5 t = ((cfg0.win 5).blk t).view.read (Elt Ideal) (G5 V c) := by
  show (cfg0.win 5).cut (grid0.coords t) ((dat0 V c).after 5 t) = _
  rw [after0_5, outsAt_eq]
  funext y
  obtain ⟨r, j, rfl⟩ : ∃ r j, y = ix2 r j := ⟨y 0, y 1, eq_ix2 y⟩
  show k0_pay2 (hblk V c t) (ix2 r j) = G5 V c (((cfg0.win 5).blk t).view.emb (ix2 r j))
  rw [Pay.pay2_apply, hblk_apply, emb5]
  rfl

/-- What point `t` writes back into the interaction's array is its block of the interaction of the whole input. -/
theorem flushed4_eq (t : Fin cfg0.N) :
    (dat0 V c).flushed 4 t = ((cfg0.win 4).blk t).view.read (Elt Ideal) (G4 V c) := by
  show (cfg0.win 4).cut (grid0.coords t) ((dat0 V c).after 4 t) = _
  rw [after0_4, outsAt_eq]
  funext y
  obtain ⟨r, q, rfl⟩ : ∃ r q, y = ix2 r q := ⟨y 0, y 1, eq_ix2 y⟩
  obtain rfl : q = 0 := Subsingleton.elim _ _
  show k0_pay4 (iblk0 V c 0 t) (iblk0 V c 1 t) (ix2 r 0) = G4 V c (((cfg0.win 4).blk t).view.emb (ix2 r 0))
  rw [fmblk_apply, emb4]
  rfl

/-- The interaction's array after the region. -/
theorem final4 (n : Fin 16384) : (show FVec Ideal S16384x1 .f32 from (dat0 V c).arrAt 4 cfg0.N) (ix2 n 0) = Cert.DeepFM.fmKer Pay.cHalf (deepA V c) (segA V c) n := by
  have h := (dat0 V c).arrAt_eq_of_cover 4 (G4 V c) (fun t _ => flushed4_eq V c t) cover4
  show (dat0 V c).arrAt 4 cfg0.N (ix2 n 0) = _
  rw [h]
  rfl

/-- The dense layer's array after the region. -/
theorem final5 (n : Fin 16384) (j : Fin 400) : (show FVec Ideal S16384x400 .bf16 from (dat0 V c).arrAt 5 cfg0.N) (ix2 n j) = Cert.DeepFM.h1 (deepA V c) (w1A V c) (b1A V c) n j := by
  have h := (dat0 V c).arrAt_eq_of_cover 5 (G5 V c) (fun t _ => flushed5_eq V c t) cover5
  show (dat0 V c).arrAt 5 cfg0.N (ix2 n j) = _
  rw [h]
  rfl

/-! ## The column accumulators -/

/-- The column sums of block `t`'s rows of the dense layer, and of their squares. -/
def colSum (j : Fin 400) (t : Fin 16) : EReal :=
  ∑ r : Fin 1024, Cert.DeepFM.h1 (deepA V c) (w1A V c) (b1A V c) (Cert.DeepFM.blkRow Cert.DeepFM.blk16 t r) j
def colSq (j : Fin 400) (t : Fin 16) : EReal :=
  ∑ r : Fin 1024, Cert.DeepFM.h1 (deepA V c) (w1A V c) (b1A V c) (Cert.DeepFM.blkRow Cert.DeepFM.blk16 t r) j
    * Cert.DeepFM.h1 (deepA V c) (w1A V c) (b1A V c) (Cert.DeepFM.blkRow Cert.DeepFM.blk16 t r) j

/-- Point `s`'s addends as functions of every natural (zero past the grid, where they are never used). -/
def addSum (j : Fin 400) (s : ℕ) : EReal := if h : s < 16 then colSum V c j ⟨s, h⟩ else 0
def addSq (j : Fin 400) (s : ℕ) : EReal := if h : s < 16 then colSq V c j ⟨s, h⟩ else 0

theorem addSum_of_lt (j : Fin 400) (s : ℕ) (h : s < 16) : addSum V c j s = colSum V c j ⟨s, h⟩ := dif_pos h
theorem addSq_of_lt (j : Fin 400) (s : ℕ) (h : s < 16) : addSq V c j s = colSq V c j ⟨s, h⟩ := dif_pos h

/-- What point `t` adds to the column sums. -/
theorem blk_colSum (t : Fin cfg0.N) (j : Fin 400) :
    ∑ r : Fin 1024, k0_pay5 (iblk0 V c 0 t) (iblk0 V c 2 t) (iblk0 V c 3 t) (ix2 r j) = addSum V c j t.val := by
  rw [addSum_of_lt V c j t.val (lt_of_lt_of_eq t.isLt N_0)]
  exact Finset.sum_congr rfl fun r _ => hblk_apply V c t r j

/-- What point `t` adds to the column sums of squares. -/
theorem blk_colSq (t : Fin cfg0.N) (j : Fin 400) :
    ∑ r : Fin 1024, hblk V c t (ix2 r j) * hblk V c t (ix2 r j) = addSq V c j t.val := by
  rw [addSq_of_lt V c j t.val (lt_of_lt_of_eq t.isLt N_0)]
  exact Finset.sum_congr rfl fun r _ => by rw [hblk_apply]; rfl

/-- The column sums after point `n`: the addends of points `0 … n`. -/
theorem acc_sum_apply (j : Fin 400) : ∀ (n : ℕ) (h : n < cfg0.N),
    (acc V c n h).1 (ix2 0 j) = ∑ s ∈ Finset.range (n + 1), addSum V c j s
  | 0, h => by
    show k0_pay8 (iblk0 V c 0 ⟨0, h⟩) (iblk0 V c 2 ⟨0, h⟩) (iblk0 V c 3 ⟨0, h⟩) (k0_pay6 (F := Ideal)) (ix2 0 j) = _
    rw [Pay.pay8_apply, Pay.pay6_apply, zero_add, blk_colSum, Finset.sum_range_one]
  | n + 1, h => by
    show k0_pay8 (iblk0 V c 0 ⟨n + 1, h⟩) (iblk0 V c 2 ⟨n + 1, h⟩) (iblk0 V c 3 ⟨n + 1, h⟩) (acc V c n (Nat.lt_of_succ_lt h)).1 (ix2 0 j) = _
    rw [Pay.pay8_apply, acc_sum_apply j n, blk_colSum, Finset.sum_range_succ _ (n + 1)]

/-- The column sums of squares after point `n`: the addends of points `0 … n`. -/
theorem acc_sq_apply (j : Fin 400) : ∀ (n : ℕ) (h : n < cfg0.N),
    (acc V c n h).2 (ix2 0 j) = ∑ s ∈ Finset.range (n + 1), addSq V c j s
  | 0, h => by
    show k0_pay1 (hblk V c ⟨0, h⟩) (k0_pay9 (k0_pay7 (F := Ideal))) (ix2 0 j) = _
    rw [Pay.pay1_apply, Pay.pay9_eq, Pay.pay7_apply, zero_add, blk_colSq, Finset.sum_range_one]
  | n + 1, h => by
    show k0_pay1 (hblk V c ⟨n + 1, h⟩) (k0_pay9 (acc V c n (Nat.lt_of_succ_lt h)).2) (ix2 0 j) = _
    rw [Pay.pay1_apply, Pay.pay9_eq, acc_sq_apply j n, blk_colSq, Finset.sum_range_succ _ (n + 1)]

theorem lt15 : 15 < cfg0.N := tLast.isLt

/-- The accumulators after the last point, as contents of their arrays. -/
def G6 : FVec Ideal S1x400 .f32 := (acc V c 15 lt15).1
def G7 : FVec Ideal S1x400 .f32 := (acc V c 15 lt15).2

/-- The one write-back of the column sums, at the last point, writes the fold over all points. -/
theorem flushed6_eq (t : Fin cfg0.N) (hf : (cfg0.win 6).flush t = true) :
    (dat0 V c).flushed 6 t = ((cfg0.win 6).blk t).view.read (Elt Ideal) (G6 V c) := by
  obtain rfl := eq_tLast_of_flush6 t hf
  show (cfg0.win 6).cut (grid0.coords tLast) ((dat0 V c).after 6 tLast) = _
  rw [after0_6, outsAt_eq]
  funext y
  show (acc V c 15 lt15).1 y = G6 V c (((cfg0.win 6).blk tLast).view.emb y)
  rw [emb6]
  rfl

/-- The one write-back of the column sums of squares, at the last point, writes the fold over all points. -/
theorem flushed7_eq (t : Fin cfg0.N) (hf : (cfg0.win 7).flush t = true) :
    (dat0 V c).flushed 7 t = ((cfg0.win 7).blk t).view.read (Elt Ideal) (G7 V c) := by
  obtain rfl := eq_tLast_of_flush7 t hf
  show (cfg0.win 7).cut (grid0.coords tLast) ((dat0 V c).after 7 tLast) = _
  rw [after0_7, outsAt_eq]
  funext y
  show (acc V c 15 lt15).2 y = G7 V c (((cfg0.win 7).blk tLast).view.emb y)
  rw [emb7]
  rfl

/-- The column sums' array after the region: the sum over the sixteen blocks of each block's column sums. -/
theorem final6 (j : Fin 400) : (show FVec Ideal S1x400 .f32 from (dat0 V c).arrAt 6 cfg0.N) (ix2 0 j) = ∑ t : Fin 16, ∑ r : Fin 1024, Cert.DeepFM.h1 (deepA V c) (w1A V c) (b1A V c) (Cert.DeepFM.blkRow Cert.DeepFM.blk16 t r) j := by
  have h := (dat0 V c).arrAt_eq_of_cover 6 (G6 V c) (flushed6_eq V c) cover6
  show (dat0 V c).arrAt 6 cfg0.N (ix2 0 j) = _
  rw [h]
  show (acc V c 15 lt15).1 (ix2 0 j) = _
  rw [acc_sum_apply V c j 15 lt15]
  show ∑ s ∈ Finset.range 16, addSum V c j s = _
  rw [Finset.sum_range]
  exact Finset.sum_congr rfl fun t _ => addSum_of_lt V c j t.val t.isLt

/-- The column sums of squares' array after the region. -/
theorem final7 (j : Fin 400) : (show FVec Ideal S1x400 .f32 from (dat0 V c).arrAt 7 cfg0.N) (ix2 0 j) = ∑ t : Fin 16, ∑ r : Fin 1024, Cert.DeepFM.h1 (deepA V c) (w1A V c) (b1A V c) (Cert.DeepFM.blkRow Cert.DeepFM.blk16 t r) j * Cert.DeepFM.h1 (deepA V c) (w1A V c) (b1A V c) (Cert.DeepFM.blkRow Cert.DeepFM.blk16 t r) j := by
  have h := (dat0 V c).arrAt_eq_of_cover 7 (G7 V c) (flushed7_eq V c) cover7
  show (dat0 V c).arrAt 7 cfg0.N (ix2 0 j) = _
  rw [h]
  show (acc V c 15 lt15).2 (ix2 0 j) = _
  rw [acc_sq_apply V c j 15 lt15]
  show ∑ s ∈ Finset.range 16, addSq V c j s = _
  rw [Finset.sum_range]
  exact Finset.sum_congr rfl fun t _ => addSq_of_lt V c j t.val t.isLt

end Cert.KernelIdeal.R0

end
-- ==== Proof.Region1Pieces.lean ====
/-
  Region 1 (the first normalisation and the second dense layer), what the body leaves in each output's block.

  As in region 0: the two column accumulators are reset to zero at the first grid point and added to at every later
  one; the row output (the second dense layer's rows) is the same function of the point's input blocks in both cases.
-/
import proofs.«171042_j1391569404529_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

theorem out_A_7 (c : Dev nD) (i : grid1.Coords) (a1 : Memref sig .tc .vmem S2048x400 .bf16) (h1 : a1.IsWhole) (a2 : Memref sig .tc .vmem S1x400 .f32) (h2 : a2.IsWhole) (a3 : Memref sig .tc .vmem S1x400 .f32) (h3 : a3.IsWhole) (a4 : Memref sig .tc .vmem S400 .f32) (h4 : a4.IsWhole) (a5 : Memref sig .tc .vmem S400 .f32) (h5 : a5.IsWhole) (a6 : Memref sig .tc .vmem S400x400 .bf16) (h6 : a6.IsWhole) (a7 : Memref sig .tc .vmem S400 .f32) (h7 : a7.IsWhole) (a8 : Memref sig .tc .vmem S2048x400 .bf16) (h8 : a8.IsWhole) (a9 : Memref sig .tc .vmem S1x400 .f32) (h9 : a9.IsWhole) (a10 : Memref sig .tc .vmem S1x400 .f32) (h10 : a10.IsWhole) (hc : cond1_0 i) (x0 : Vec F S2048x400 .bf16) (x1 : Vec F S1x400 .f32) (x2 : Vec F S1x400 .f32) (x3 : Vec F S400 .f32) (x4 : Vec F S400 .f32) (x5 : Vec F S400x400 .bf16) (x6 : Vec F S400 .f32) :
    out1_A_7 c i a1 h1 a2 h2 a3 h3 a4 h4 a5 h5 a6 h6 a7 h7 a8 h8 a9 h9 a10 h10 hc x0 x1 x2 x3 x4 x5 x6 = k1_pay2 (k1_pay3 x0 x2 x3 x1 x4 x5 x6) := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_unit_zero hz2]
  simp only [View.readAt_eq_ld, h1.read_unread, h2.read_unread, h3.read_unread, h4.read_unread, h5.read_unread, h6.read_unread, h7.read_unread, h9.read_unread, h10.read_unread, View.ld_unit_zero (S := S2048x400) hz2, View.ld_unit_zero (S := S400x400) hz2, View.ld_unit_zero (S := S400) hz1, View.ld_unit_zero (S := S1x400) hz2]

theorem out_A_8 (c : Dev nD) (i : grid1.Coords) (a1 : Memref sig .tc .vmem S2048x400 .bf16) (h1 : a1.IsWhole) (a2 : Memref sig .tc .vmem S1x400 .f32) (h2 : a2.IsWhole) (a3 : Memref sig .tc .vmem S1x400 .f32) (h3 : a3.IsWhole) (a4 : Memref sig .tc .vmem S400 .f32) (h4 : a4.IsWhole) (a5 : Memref sig .tc .vmem S400 .f32) (h5 : a5.IsWhole) (a6 : Memref sig .tc .vmem S400x400 .bf16) (h6 : a6.IsWhole) (a7 : Memref sig .tc .vmem S400 .f32) (h7 : a7.IsWhole) (a8 : Memref sig .tc .vmem S2048x400 .bf16) (h8 : a8.IsWhole) (a9 : Memref sig .tc .vmem S1x400 .f32) (h9 : a9.IsWhole) (a10 : Memref sig .tc .vmem S1x400 .f32) (h10 : a10.IsWhole) (hc : cond1_0 i) (x0 : Vec F S2048x400 .bf16) (x1 : Vec F S1x400 .f32) (x2 : Vec F S1x400 .f32) (x3 : Vec F S400 .f32) (x4 : Vec F S400 .f32) (x5 : Vec F S400x400 .bf16) (x6 : Vec F S400 .f32) :
    out1_A_8 c i a1 h1 a2 h2 a3 h3 a4 h4 a5 h5 a6 h6 a7 h7 a8 h8 a9 h9 a10 h10 hc x0 x1 x2 x3 x4 x5 x6 = k1_pay6 x0 x2 x3 x1 x4 x5 x6 k1_pay4 := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x400) hz2, View.readCov_unit_zero (S := S1x400) _ hz2]
  simp only [View.readAt_eq_ld, h1.read_unread, h2.read_unread, h3.read_unread, h4.read_unread, h5.read_unread, h6.read_unread, h7.read_unread, h9.read_unread, h10.read_unread, View.ld_unit_zero (S := S2048x400) hz2, View.ld_unit_zero (S := S400x400) hz2, View.ld_unit_zero (S := S400) hz1, View.ld_unit_zero (S := S1x400) hz2]

theorem out_A_9 (c : Dev nD) (i : grid1.Coords) (a1 : Memref sig .tc .vmem S2048x400 .bf16) (h1 : a1.IsWhole) (a2 : Memref sig .tc .vmem S1x400 .f32) (h2 : a2.IsWhole) (a3 : Memref sig .tc .vmem S1x400 .f32) (h3 : a3.IsWhole) (a4 : Memref sig .tc .vmem S400 .f32) (h4 : a4.IsWhole) (a5 : Memref sig .tc .vmem S400 .f32) (h5 : a5.IsWhole) (a6 : Memref sig .tc .vmem S400x400 .bf16) (h6 : a6.IsWhole) (a7 : Memref sig .tc .vmem S400 .f32) (h7 : a7.IsWhole) (a8 : Memref sig .tc .vmem S2048x400 .bf16) (h8 : a8.IsWhole) (a9 : Memref sig .tc .vmem S1x400 .f32) (h9 : a9.IsWhole) (a10 : Memref sig .tc .vmem S1x400 .f32) (h10 : a10.IsWhole) (hc : cond1_0 i) (x0 : Vec F S2048x400 .bf16) (x1 : Vec F S1x400 .f32) (x2 : Vec F S1x400 .f32) (x3 : Vec F S400 .f32) (x4 : Vec F S400 .f32) (x5 : Vec F S400x400 .bf16) (x6 : Vec F S400 .f32) :
    out1_A_9 c i a1 h1 a2 h2 a3 h3 a4 h4 a5 h5 a6 h6 a7 h7 a8 h8 a9 h9 a10 h10 hc x0 x1 x2 x3 x4 x5 x6 = k1_pay1 (k1_pay3 x0 x2 x3 x1 x4 x5 x6) k1_pay5 := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x400) hz2, View.readCov_unit_zero (S := S1x400) _ hz2]
  simp only [View.readAt_eq_ld, h1.read_unread, h2.read_unread, h3.read_unread, h4.read_unread, h5.read_unread, h6.read_unread, h7.read_unread, h9.read_unread, h10.read_unread, View.ld_unit_zero (S := S2048x400) hz2, View.ld_unit_zero (S := S400x400) hz2, View.ld_unit_zero (S := S400) hz1, View.ld_unit_zero (S := S1x400) hz2]

theorem out_B_7 (c : Dev nD) (i : grid1.Coords) (a1 : Memref sig .tc .vmem S2048x400 .bf16) (h1 : a1.IsWhole) (a2 : Memref sig .tc .vmem S1x400 .f32) (h2 : a2.IsWhole) (a3 : Memref sig .tc .vmem S1x400 .f32) (h3 : a3.IsWhole) (a4 : Memref sig .tc .vmem S400 .f32) (h4 : a4.IsWhole) (a5 : Memref sig .tc .vmem S400 .f32) (h5 : a5.IsWhole) (a6 : Memref sig .tc .vmem S400x400 .bf16) (h6 : a6.IsWhole) (a7 : Memref sig .tc .vmem S400 .f32) (h7 : a7.IsWhole) (a8 : Memref sig .tc .vmem S2048x400 .bf16) (h8 : a8.IsWhole) (a9 : Memref sig .tc .vmem S1x400 .f32) (h9 : a9.IsWhole) (a10 : Memref sig .tc .vmem S1x400 .f32) (h10 : a10.IsWhole) (hc : ¬cond1_0 i) (x0 : Vec F S2048x400 .bf16) (x1 : Vec F S1x400 .f32) (x2 : Vec F S1x400 .f32) (x3 : Vec F S400 .f32) (x4 : Vec F S400 .f32) (x5 : Vec F S400x400 .bf16) (x6 : Vec F S400 .f32) (xo8 xo9 : Vec F S1x400 .f32) :
    out1_B_7 c i a1 h1 a2 h2 a3 h3 a4 h4 a5 h5 a6 h6 a7 h7 a8 h8 a9 h9 a10 h10 hc x0 x1 x2 x3 x4 x5 x6 xo8 xo9 = k1_pay2 (k1_pay3 x0 x2 x3 x1 x4 x5 x6) := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h9.read_unread, h10.read_unread, View.ld_unit_zero (S := S2048x400) hz2, View.ld_unit_zero (S := S400x400) hz2, View.ld_unit_zero (S := S400) hz1, View.ld_unit_zero (S := S1x400) hz2]

theorem out_B_8 (c : Dev nD) (i : grid1.Coords) (a1 : Memref sig .tc .vmem S2048x400 .bf16) (h1 : a1.IsWhole) (a2 : Memref sig .tc .vmem S1x400 .f32) (h2 : a2.IsWhole) (a3 : Memref sig .tc .vmem S1x400 .f32) (h3 : a3.IsWhole) (a4 : Memref sig .tc .vmem S400 .f32) (h4 : a4.IsWhole) (a5 : Memref sig .tc .vmem S400 .f32) (h5 : a5.IsWhole) (a6 : Memref sig .tc .vmem S400x400 .bf16) (h6 : a6.IsWhole) (a7 : Memref sig .tc .vmem S400 .f32) (h7 : a7.IsWhole) (a8 : Memref sig .tc .vmem S2048x400 .bf16) (h8 : a8.IsWhole) (a9 : Memref sig .tc .vmem S1x400 .f32) (h9 : a9.IsWhole) (a10 : Memref sig .tc .vmem S1x400 .f32) (h10 : a10.IsWhole) (hc : ¬cond1_0 i) (x0 : Vec F S2048x400 .bf16) (x1 : Vec F S1x400 .f32) (x2 : Vec F S1x400 .f32) (x3 : Vec F S400 .f32) (x4 : Vec F S400 .f32) (x5 : Vec F S400x400 .bf16) (x6 : Vec F S400 .f32) (xo8 xo9 : Vec F S1x400 .f32) :
    out1_B_8 c i a1 h1 a2 h2 a3 h3 a4 h4 a5 h5 a6 h6 a7 h7 a8 h8 a9 h9 a10 h10 hc x0 x1 x2 x3 x4 x5 x6 xo8 xo9 = k1_pay6 x0 x2 x3 x1 x4 x5 x6 xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h9.read_unread, h10.read_unread, View.ld_unit_zero (S := S2048x400) hz2, View.ld_unit_zero (S := S400x400) hz2, View.ld_unit_zero (S := S400) hz1, View.ld_unit_zero (S := S1x400) hz2]

theorem out_B_9 (c : Dev nD) (i : grid1.Coords) (a1 : Memref sig .tc .vmem S2048x400 .bf16) (h1 : a1.IsWhole) (a2 : Memref sig .tc .vmem S1x400 .f32) (h2 : a2.IsWhole) (a3 : Memref sig .tc .vmem S1x400 .f32) (h3 : a3.IsWhole) (a4 : Memref sig .tc .vmem S400 .f32) (h4 : a4.IsWhole) (a5 : Memref sig .tc .vmem S400 .f32) (h5 : a5.IsWhole) (a6 : Memref sig .tc .vmem S400x400 .bf16) (h6 : a6.IsWhole) (a7 : Memref sig .tc .vmem S400 .f32) (h7 : a7.IsWhole) (a8 : Memref sig .tc .vmem S2048x400 .bf16) (h8 : a8.IsWhole) (a9 : Memref sig .tc .vmem S1x400 .f32) (h9 : a9.IsWhole) (a10 : Memref sig .tc .vmem S1x400 .f32) (h10 : a10.IsWhole) (hc : ¬cond1_0 i) (x0 : Vec F S2048x400 .bf16) (x1 : Vec F S1x400 .f32) (x2 : Vec F S1x400 .f32) (x3 : Vec F S400 .f32) (x4 : Vec F S400 .f32) (x5 : Vec F S400x400 .bf16) (x6 : Vec F S400 .f32) (xo8 xo9 : Vec F S1x400 .f32) :
    out1_B_9 c i a1 h1 a2 h2 a3 h3 a4 h4 a5 h5 a6 h6 a7 h7 a8 h8 a9 h9 a10 h10 hc x0 x1 x2 x3 x4 x5 x6 xo8 xo9 = k1_pay1 (k1_pay3 x0 x2 x3 x1 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h9.read_unread, h10.read_unread, View.ld_unit_zero (S := S2048x400) hz2, View.ld_unit_zero (S := S400x400) hz2, View.ld_unit_zero (S := S400) hz1, View.ld_unit_zero (S := S1x400) hz2]

end Cert.KernelIdeal.R1

end
-- ==== Proof.Region1Fold.lean ====
/-
  Region 1: what the three outputs' blocks hold after each grid point, in closed form.

  The row output at point `t` is a function of that point's input blocks alone. The two column accumulators
  are a fold over the points: reset-then-add at point 0, add at every later point.
-/
import proofs.«171042_j1391569404529_2_alg».proof.Proof.Region1Pieces

set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen

variable {F : FTy → Type} [FloatOps F]
variable (V : (c : Dev nD) → (b : Ref sig .tc) → Buf (Elt F) ((c : Thread nD τ).loc b))

/-- The second dense layer's rows of the block at point `t` (the block normalised with the given mean and variance first). -/
def hblk (c : Dev nD) (t : Fin cfg1.N) : FVec F S2048x400 .f32 :=
  k1_pay3 (iblk1 V c 0 t) (iblk1 V c 2 t) (iblk1 V c 3 t) (iblk1 V c 1 t) (iblk1 V c 4 t) (iblk1 V c 5 t) (iblk1 V c 6 t)

/-- The two column accumulators (sums, sums of squares) after point `n`. -/
def acc (c : Dev nD) : (n : ℕ) → n < cfg1.N → Vec F S1x400 .f32 × Vec F S1x400 .f32
  | 0, h => (k1_pay6 (iblk1 V c 0 ⟨0, h⟩) (iblk1 V c 2 ⟨0, h⟩) (iblk1 V c 3 ⟨0, h⟩) (iblk1 V c 1 ⟨0, h⟩) (iblk1 V c 4 ⟨0, h⟩) (iblk1 V c 5 ⟨0, h⟩) (iblk1 V c 6 ⟨0, h⟩) k1_pay4,
             k1_pay1 (hblk V c ⟨0, h⟩) k1_pay5)
  | n + 1, h => (k1_pay6 (iblk1 V c 0 ⟨n + 1, h⟩) (iblk1 V c 2 ⟨n + 1, h⟩) (iblk1 V c 3 ⟨n + 1, h⟩) (iblk1 V c 1 ⟨n + 1, h⟩) (iblk1 V c 4 ⟨n + 1, h⟩) (iblk1 V c 5 ⟨n + 1, h⟩) (iblk1 V c 6 ⟨n + 1, h⟩) (acc c n (Nat.lt_of_succ_lt h)).1,
                 k1_pay1 (hblk V c ⟨n + 1, h⟩) (acc c n (Nat.lt_of_succ_lt h)).2)

/-- What the outputs' blocks hold after point `n`: by induction on the point. -/
theorem outsAt_eq (c : Dev nD) : ∀ (n : ℕ) (h : n < cfg1.N),
    outsAt1 V c n h = (k1_pay2 (hblk V c ⟨n, h⟩), (acc V c n h).1, (acc V c n h).2)
  | 0, h => by
    rw [outsAt1_A V c ⟨0, h⟩ rfl, out_A_7, out_A_8, out_A_9]; rfl
  | n + 1, h => by
    have hN : cfg1.N = 8 := N_1
    have hB : ¬(⟨n + 1, h⟩ : Fin cfg1.N).val % 8 = 0 := by dsimp only; omega
    rw [outsAt1_B V c ⟨n + 1, h⟩ hB, out_B_7, out_B_8, out_B_9]
    show (_, k1_pay6 _ _ _ _ _ _ _ (outsAt1 V c n _).2.1, k1_pay1 _ (outsAt1 V c n _).2.2) = _
    rw [outsAt_eq c n]; rfl

end Cert.KernelIdeal.R1

end
-- ==== Proof.Region1Blocks.lean ====
/-
  Region 1: where each window's block sits in its array.

  The grid has 8 points. Window 0 (the rows entering the normalisation) and window 7 (the second dense layer's rows)
  move down their arrays in blocks of 2048 rows: at point `t` the block's row `r` is the array's row `2048 t + r`.
  Every other window's block is its whole array at every point.
-/
import proofs.«171042_j1391569404529_2_alg».proof.Proof.Region1Fold
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.R1

open Cert.KernelIdeal Cert.KernelIdeal.Gen

variable {F : FTy → Type} [FloatOps F]
variable (V : (c : Dev nD) → (b : Ref sig .tc) → Buf (Elt F) ((c : Thread nD τ).loc b))

/-- The windows' block indices at every grid point, decided over the 8 points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Row `r` of window 0's block at point `t` is row `2048 t + r` of its array. -/
theorem iblk1_0_apply (c : Dev nD) (t : Fin cfg1.N) (r : Fin 2048) (k : Fin 400) :
    iblk1 V c 0 t (ix2 r k) = V c main_v49_1 (ix2 ⟨t.val * 2048 + r.val, by have := t.isLt; have h : cfg1.N = 8 := N_1; omega⟩ k) := by
  obtain ⟨e0, e1, -⟩ := idx_facts1 t
  show V c main_v49_1 (((cfg1.win 0).blk t).view.emb (ix2 r k)) = _
  refine congrArg _ ?_
  funext a; apply Fin.ext
  match a with
  | ⟨0, _⟩ => show win1_0.index t (0 : Fin 2) * 2048 + 1 * r.val = t.val * 2048 + r.val; rw [e0]; omega
  | ⟨1, _⟩ => show win1_0.index t (1 : Fin 2) * 400 + 1 * k.val = k.val; rw [e1]; omega

/-- The remaining input windows read their whole arrays at every point. -/
theorem iblk1_1_apply (c : Dev nD) (t : Fin cfg1.N) (j : Fin 400) :
    iblk1 V c 1 t (ix2 0 j) = V c main_v51 (ix2 0 j) := by
  obtain ⟨-, -, e0, e1, -⟩ := idx_facts1 t
  show V c main_v51 (((cfg1.win 1).blk t).view.emb (ix2 0 j)) = _
  refine congrArg _ ?_
  funext a; apply Fin.ext
  match a with
  | ⟨0, _⟩ => show win1_1.index t (0 : Fin 2) * 1 + 1 * 0 = 0; rw [e0]
  | ⟨1, _⟩ => show win1_1.index t (1 : Fin 2) * 400 + 1 * j.val = j.val; rw [e1]; omega

theorem iblk1_2_apply (c : Dev nD) (t : Fin cfg1.N) (j : Fin 400) :
    iblk1 V c 2 t (ix2 0 j) = V c main_v55 (ix2 0 j) := by
  obtain ⟨-, -, -, -, e0, e1, -⟩ := idx_facts1 t
  show V c main_v55 (((cfg1.win 2).blk t).view.emb (ix2 0 j)) = _
  refine congrArg _ ?_
  funext a; apply Fin.ext
  match a with
  | ⟨0, _⟩ => show win1_2.index t (0 : Fin 2) * 1 + 1 * 0 = 0; rw [e0]
  | ⟨1, _⟩ => show win1_2.index t (1 : Fin 2) * 400 + 1 * j.val = j.val; rw [e1]; omega

theorem iblk1_3_apply (c : Dev nD) (t : Fin cfg1.N) (j : Fin 400) :
    iblk1 V c 3 t (ix1 j) = V c main_arg6 (ix1 j) := by
  obtain ⟨-, -, -, -, -, -, e0, -⟩ := idx_facts1 t
  show V c main_arg6 (((cfg1.win 3).blk t).view.emb (ix1 j)) = _
  refine congrArg _ ?_
  funext a; apply Fin.ext
  match a with
  | ⟨0, _⟩ => show win1_3.index t (0 : Fin 1) * 400 + 1 * j.val = j.val; rw [e0]; omega

theorem iblk1_4_apply (c : Dev nD) (t : Fin cfg1.N) (j : Fin 400) :
    iblk1 V c 4 t (ix1 j) = V c main_arg7 (ix1 j) := by
  obtain ⟨-, -, -, -, -, -, -, e0, -⟩ := idx_facts1 t
  show V c main_arg7 (((cfg1.win 4).blk t).view.emb (ix1 j)) = _
  refine congrArg _ ?_
  funext a; apply Fin.ext
  match a with
  | ⟨0, _⟩ => show win1_4.index t (0 : Fin 1) * 400 + 1 * j.val = j.val; rw [e0]; omega

theorem iblk1_5_apply (c : Dev nD) (t : Fin cfg1.N) (k : Fin 400) (j : Fin 400) :
    iblk1 V c 5 t (ix2 k j) = V c main_v48 (ix2 k j) := by
  obtain ⟨-, -, -, -, -, -, -, -, e0, e1, -⟩ := idx_facts1 t
  show V c main_v48 (((cfg1.win 5).blk t).view.emb (ix2 k j)) = _
  refine congrArg _ ?_
  funext a; apply Fin.ext
  match a with
  | ⟨0, _⟩ => show win1_5.index t (0 : Fin 2) * 400 + 1 * k.val = k.val; rw [e0]; omega
  | ⟨1, _⟩ => show win1_5.index t (1 : Fin 2) * 400 + 1 * j.val = j.val; rw [e1]; omega

theorem iblk1_6_apply (c : Dev nD) (t : Fin cfg1.N) (j : Fin 400) :
    iblk1 V c 6 t (ix1 j) = V c main_arg9 (ix1 j) := by
  obtain ⟨-, -, -, -, -, -, -, -, -, -, e0, -⟩ := idx_facts1 t
  show V c main_arg9 (((cfg1.win 6).blk t).view.emb (ix1 j)) = _
  refine congrArg _ ?_
  funext a; apply Fin.ext
  match a with
  | ⟨0, _⟩ => show win1_6.index t (0 : Fin 1) * 400 + 1 * j.val = j.val; rw [e0]; omega

end Cert.KernelIdeal.R1

end
-- ==== Proof.PayloadNorm.lean ====
/-
  A block normalised column by column, read at an index, at the extended reals: the scale times the centred
  entry times the reciprocal square root of the variance plus epsilon, plus the shift — the scale, the shift, the
  mean and the variance each one row broadcast down the block's rows.
-/
import Idealize.ShloMosaic.Lib.ValueIdx
import Idealize.ShloMosaic.PureOps.Ideal.Laws
import Idealize.ShloMosaic.Lib.Pipeline.Value
import Idealize.ShloMosaic.Lib.ValueLayout

noncomputable section

open scoped BigOperators

namespace Cert.KernelIdeal.Pay

open Idealize.ShloMosaic Idealize.ShloMosaic.ValueIdx

/-- The normalised block at (r, k). -/
theorem norm_block_apply {a b : ℕ} (x : FVec Ideal ⟨2, ![a, b]⟩ .bf16) (var mu : FVec Ideal ⟨2, ![1, b]⟩ .f32)
    (g be : FVec Ideal ⟨1, ![b]⟩ .f32) (hlt : FTy.bits .bf16 < FTy.bits .f32)
    (hc : (⟨1, ![b]⟩ : Shape).ShapeCasts ⟨2, ![1, b]⟩) (hb : (⟨2, ![1, b]⟩ : Shape).Broadcasts ⟨2, ![a, b]⟩)
    (eps : BitVec 32) (r : Fin a) (k : Fin b) :
    addf (mulf (mulf (broadcastTo ⟨2, ![a, b]⟩ (shapeCast ⟨2, ![1, b]⟩ g hc) hb)
            (subf (extf .f32 x hlt) (broadcastTo ⟨2, ![a, b]⟩ mu hb)))
          (broadcastTo ⟨2, ![a, b]⟩ (rsqrt (addf var (broadcast ⟨2, ![1, b]⟩ (Scalar.ofBits (F := Ideal) .f32 eps)))) hb))
        (broadcastTo ⟨2, ![a, b]⟩ (shapeCast ⟨2, ![1, b]⟩ be hc) hb) (ix2 r k)
      = g (ix1 k) * (x (ix2 r k) - mu (ix2 0 k)) * Ideal.rsqrt (var (ix2 0 k) + Ideal.ofBits .f32 eps) + be (ix1 k) := by
  show broadcastTo ⟨2, ![a, b]⟩ (shapeCast ⟨2, ![1, b]⟩ g hc) hb (ix2 r k)
        * (x (ix2 r k) - broadcastTo ⟨2, ![a, b]⟩ mu hb (ix2 r k))
        * broadcastTo ⟨2, ![a, b]⟩ (rsqrt (addf var (broadcast ⟨2, ![1, b]⟩ (Scalar.ofBits (F := Ideal) .f32 eps)))) hb (ix2 r k)
      + broadcastTo ⟨2, ![a, b]⟩ (shapeCast ⟨2, ![1, b]⟩ be hc) hb (ix2 r k) = _
  rw [broadcastTo_1b_ab_apply, broadcastTo_1b_ab_apply, broadcastTo_1b_ab_apply, broadcastTo_1b_ab_apply,
    shapeCast_a_1a_apply, shapeCast_a_1a_apply]
  rfl

end Cert.KernelIdeal.Pay

end
-- ==== Proof.PayloadR1.lean ====
/-
  The second kernel body's arithmetic read at an index, at the extended reals: the first layer's block
  normalised column by column and passed through the second dense layer (rows against the weights' columns, plus the
  bias), its column sums and sums of squares added to the running sums, and the zero blocks the running sums start from.
-/
import proofs.«171042_j1391569404529_2_alg».proof.Proof.Gen.KernelIdeal.Skeleton
import Idealize.ShloMosaic.Lib.ValueIdx
import Idealize.ShloMosaic.PureOps.Ideal.Laws
import Idealize.ShloMosaic.Lib.Pipeline.Value
import Idealize.ShloMosaic.Lib.ValueLayout
import proofs.«171042_j1391569404529_2_alg».proof.Proof.PayloadLib
import proofs.«171042_j1391569404529_2_alg».proof.Proof.PayloadNorm
import proofs.«171042_j1391569404529_2_alg».proof.Proof.PayloadR0

noncomputable section

open scoped BigOperators

namespace Cert.KernelIdeal.Pay

open Idealize.ShloMosaic Idealize.ShloMosaic.ValueIdx Cert.KernelIdeal Cert.KernelIdeal.Gen

theorem r1_pay3_apply (x0 : Vec Ideal S2048x400 .bf16) (var : Vec Ideal S1x400 .f32) (g : Vec Ideal S400 .f32) (mu : Vec Ideal S1x400 .f32) (be : Vec Ideal S400 .f32) (W : Vec Ideal S400x400 .bf16) (b : Vec Ideal S400 .f32) (r : Fin 2048) (j : Fin 400) :
    k1_pay3 x0 var g mu be W b (ix2 r j) = (∑ k : Fin 400, (g (ix1 k) * (x0 (ix2 r k) - mu (ix2 0 k)) * Ideal.rsqrt (var (ix2 0 k) + cEps) + be (ix1 k)) * W (ix2 k j)) + b (ix1 j) := by
  unfold k1_pay3
  rw [shapeCast_self, shapeCast_self, shapeCast_self, shapeCast_self]
  show FloatOps.matmul _ _ _ _ _ (ix2 r j) + broadcastTo _ _ _ (ix2 r j) = _
  refine congrArg₂ (· + ·) ?_ ?_
  · refine (matmul_plain_zero_apply (φ₁ := .bf16) (φ₂ := .bf16) Facts₀.dot_S2048x400_S400x400_S2048x400_1_0_0_1_n_n_wf none _ _ r j).trans ?_
    refine Finset.sum_congr rfl fun k _ => congrArg (· * W (ix2 k j)) ?_
    exact norm_block_apply (a := 2048) (b := 400) x0 var mu g be _ _ _ _ r k
  · exact (broadcastTo_1b_ab_apply _ _ r j).trans (shapeCast_a_1a_apply (b : FVec Ideal S400 .f32) _ 0 j)

theorem r1_pay6_apply (x0 : Vec Ideal S2048x400 .bf16) (var : Vec Ideal S1x400 .f32) (g : Vec Ideal S400 .f32) (mu : Vec Ideal S1x400 .f32) (be : Vec Ideal S400 .f32) (W : Vec Ideal S400x400 .bf16) (b : Vec Ideal S400 .f32) (acc : Vec Ideal S1x400 .f32) (j : Fin 400) :
    k1_pay6 x0 var g mu be W b acc (ix2 0 j) = acc (ix2 0 j) + ∑ r : Fin 2048, k1_pay3 x0 var g mu be W b (ix2 r j) := by
  unfold k1_pay6
  rw [shapeCast_self]
  show acc (ix2 0 j) + shapeCast _ _ _ (ix2 0 j) = _
  exact congrArg (acc (ix2 0 j) + ·) ((shapeCast_a_1a_apply _ _ 0 j).trans (sum_axis0_apply _ _ _ _ _ j))

theorem r1_pay1_apply (h : FVec Ideal S2048x400 .f32) (acc : Vec Ideal S1x400 .f32) (j : Fin 400) :
    k1_pay1 h acc (ix2 0 j) = acc (ix2 0 j) + ∑ r : Fin 2048, h (ix2 r j) * h (ix2 r j) := by
  unfold k1_pay1
  rw [shapeCast_self]
  show acc (ix2 0 j) + shapeCast _ _ _ (ix2 0 j) = _
  exact congrArg (acc (ix2 0 j) + ·) ((shapeCast_a_1a_apply _ _ 0 j).trans (sum_axis0_apply (mulf h h) _ _ _ _ j))

theorem r1_pay4_apply (j : Fin 400) : k1_pay4 (F := Ideal) (ix2 0 j) = 0 := Ideal.ofBits_zero_f32
theorem r1_pay5_apply (j : Fin 400) : k1_pay5 (F := Ideal) (ix2 0 j) = 0 := Ideal.ofBits_zero_f32
theorem r1_pay2_apply (h : FVec Ideal S2048x400 .f32) (i : S2048x400.Idx) : k1_pay2 h i = h i := rfl

end Cert.KernelIdeal.Pay

end
-- ==== Proof.Region1Arrays.lean ====
/-
  Region 1 (the first normalisation and the second dense layer): the three output arrays after the region, index by
  index, for any contents the region is entered with.

  With `H` the entering rows, `μ`, `σ²` the entering mean and variance, `γ`, `β` the scale and shift, `W`, `b` the
  second layer's weights and bias, the row output ends holding `h2 = dense (bnorm ε H μ σ² γ β) W b` at every row and
  column, and the two column accumulators end holding `∑ h2` and `∑ h2²` over all rows, the rows taken block by
  block (8 blocks of 2048) and the blocks in grid order: the accumulators start from zero at the first grid point,
  each point adds its block's column sums, and only the last point writes them back.
-/
import proofs.«171042_j1391569404529_2_alg».proof.Proof.Region1Blocks
import proofs.«171042_j1391569404529_2_alg».proof.Proof.PayloadR1
import proofs.«171042_j1391569404529_2_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.R1

open Cert.KernelIdeal Cert.KernelIdeal.Gen

variable (V : (c : Dev nD) → (b : Ref sig .tc) → Buf (Elt Ideal) ((c : Thread nD τ).loc b)) (c : Dev nD)

/-- The region's inputs as plain families: the entering rows, mean, variance, scale, shift, weights, bias. -/
def hA : Fin 16384 → Fin 400 → EReal := fun n k => (show FVec Ideal S16384x400 .bf16 from V c main_v49_1) (ix2 n k)
def muA : Fin 400 → EReal := fun j => (show FVec Ideal S1x400 .f32 from V c main_v51) (ix2 0 j)
def varA : Fin 400 → EReal := fun j => (show FVec Ideal S1x400 .f32 from V c main_v55) (ix2 0 j)
def gA : Fin 400 → EReal := fun j => (show FVec Ideal S400 .f32 from V c main_arg6) (ix1 j)
def beA : Fin 400 → EReal := fun j => (show FVec Ideal S400 .f32 from V c main_arg7) (ix1 j)
def w2A : Fin 400 → Fin 400 → EReal := fun k j => (show FVec Ideal S400x400 .bf16 from V c main_v48) (ix2 k j)
def b2A : Fin 400 → EReal := fun j => (show FVec Ideal S400 .f32 from V c main_arg9) (ix1 j)
/-- The second dense layer of the normalised rows. -/
def h2A : Fin 16384 → Fin 400 → EReal := Cert.DeepFM.dense (Cert.DeepFM.bnorm Pay.cEps (hA V c) (muA V c) (varA V c) (gA V c) (beA V c)) (w2A V c) (b2A V c)

/-- Row `2048 t + r` of the 16384 rows. -/
def rowAt (t : Fin cfg1.N) (r : Fin 2048) : Fin 16384 :=
  ⟨t.val * 2048 + r.val, by have := t.isLt; have h : cfg1.N = 8 := N_1; omega⟩

/-- Row `r` of the second dense layer's block at point `t` is row `2048 t + r` of `h2A`. -/
theorem hblk_apply (t : Fin cfg1.N) (r : Fin 2048) (j : Fin 400) :
    hblk V c t (ix2 r j) = h2A V c (rowAt t r) j := by
  unfold hblk
  rw [Pay.r1_pay3_apply]
  simp only [iblk1_0_apply, iblk1_1_apply, iblk1_2_apply, iblk1_3_apply, iblk1_4_apply, iblk1_5_apply, iblk1_6_apply]
  rfl

/-- The second dense layer's rows as contents of window 7's array. -/
def G7 : S16384x400.Idx → EReal := fun i => h2A V c (i 0) (i 1)

/-- Row `r` of window 7's block at point `t` is row `2048 t + r` of its array. -/
theorem emb7 (t : Fin cfg1.N) (r : Fin 2048) (j : Fin 400) :
    ((cfg1.win 7).blk t).view.emb (ix2 r j) = ix2 (rowAt t r) j := by
  obtain ⟨-, -, -, -, -, -, -, -, -, -, -, e0, e1, -⟩ := idx_facts1 t
  funext a; apply Fin.ext
  match a with
  | ⟨0, _⟩ => show win1_7.index t (0 : Fin 2) * 2048 + 1 * r.val = t.val * 2048 + r.val; rw [e0]; omega
  | ⟨1, _⟩ => show win1_7.index t (1 : Fin 2) * 400 + 1 * j.val = j.val; rw [e1]; omega

/-- What point `t` writes back is block `t` of the second dense layer's rows. -/
theorem flushed7_eq (t : Fin cfg1.N) :
    (dat1 V c).flushed 7 t = ((cfg1.win 7).blk t).view.read (Elt Ideal) (G7 V c) := by
  show (cfg1.win 7).cut (grid1.coords t) ((dat1 V c).after 7 t) = _
  rw [after1_7, outsAt_eq]
  funext y
  obtain ⟨r, j, rfl⟩ : ∃ (r : Fin 2048) (j : Fin 400), y = ix2 r j := ⟨y 0, y 1, eq_ix2 y⟩
  show k1_pay2 (hblk V c t) (ix2 r j) = G7 V c (((cfg1.win 7).blk t).view.emb (ix2 r j))
  rw [Pay.r1_pay2_apply, hblk_apply, emb7]
  rfl

/-- An index of the array is in point `t`'s block iff each coordinate is in the block's range on its axis. -/
theorem mem_blk7 (t : Fin cfg1.N) (i : S16384x400.Idx) :
    i ∈ ((cfg1.win 7).blk t).view.set ↔ ∀ a : Fin 2, win1_7.index t a * S2048x400.size a ≤ (i a).val ∧ (i a).val < win1_7.index t a * S2048x400.size a + S2048x400.size a := by
  show i ∈ ((View.whole main_v56_0).slice (win1_7.rect t)).set ↔ _
  rw [View.set_slice_whole, Rect.mem_set_unit]
  exact Iff.rfl

/-- Row `n` lies in the block of point `n / 2048`. -/
theorem cover7 (i : S16384x400.Idx) : ∃ t : Fin cfg1.N, (cfg1.win 7).flush t = true ∧ i ∈ ((cfg1.win 7).blk t).view.set := by
  have hi0 : (i 0).val < 16384 := (i 0).isLt
  have hi1 : (i 1).val < 400 := (i 1).isLt
  have hN : cfg1.N = 8 := N_1
  obtain ⟨t, ht⟩ : ∃ t : Fin cfg1.N, t.val = (i 0).val / 2048 := ⟨⟨(i 0).val / 2048, by omega⟩, rfl⟩
  obtain ⟨-, -, -, -, -, -, -, -, -, -, -, e0, e1, -⟩ := idx_facts1 t
  refine ⟨t, flush1_7 t, ?_⟩
  rw [mem_blk7]
  intro a
  match a with
  | ⟨0, _⟩ => show win1_7.index t (0 : Fin 2) * 2048 ≤ (i 0).val ∧ (i 0).val < win1_7.index t (0 : Fin 2) * 2048 + 2048; rw [e0]; omega
  | ⟨1, _⟩ => show win1_7.index t (1 : Fin 2) * 400 ≤ (i 1).val ∧ (i 1).val < win1_7.index t (1 : Fin 2) * 400 + 400; rw [e1]; omega

/-- The row output after the region. -/
theorem final7 (n : Fin 16384) (j : Fin 400) : (show FVec Ideal S16384x400 .bf16 from (dat1 V c).arrAt 7 cfg1.N) (ix2 n j) = h2A V c n j := by
  have h := (dat1 V c).arrAt_eq_of_cover 7 (G7 V c) (fun t _ => flushed7_eq V c t) (cover7)
  show (dat1 V c).arrAt 7 cfg1.N (ix2 n j) = _
  rw [h]
  rfl

/-- The column sums of the rows of block `s` (zero past the grid). -/
def colSum (s : ℕ) (j : Fin 400) : EReal :=
  if h : s < cfg1.N then ∑ r : Fin 2048, h2A V c (rowAt ⟨s, h⟩ r) j else 0

/-- The column sums of squares of the rows of block `s` (zero past the grid). -/
def colSq (s : ℕ) (j : Fin 400) : EReal :=
  if h : s < cfg1.N then ∑ r : Fin 2048, h2A V c (rowAt ⟨s, h⟩ r) j * h2A V c (rowAt ⟨s, h⟩ r) j else 0

/-- The first accumulator after point `n`: the blocks' column sums, added up in point order from zero. -/
theorem acc_fst_apply : ∀ (n : ℕ) (h : n < cfg1.N) (j : Fin 400),
    (acc V c n h).1 (ix2 0 j) = ∑ s ∈ Finset.range (n + 1), colSum V c s j
  | 0, h, j => by
    show k1_pay6 _ _ _ _ _ _ _ k1_pay4 (ix2 0 j) = _
    rw [Pay.r1_pay6_apply, Pay.r1_pay4_apply, zero_add, Finset.sum_range_one]
    unfold colSum; rw [dif_pos h]
    exact Finset.sum_congr rfl fun r _ => hblk_apply V c ⟨0, h⟩ r j
  | n + 1, h, j => by
    show k1_pay6 _ _ _ _ _ _ _ (acc V c n _).1 (ix2 0 j) = _
    rw [Pay.r1_pay6_apply, acc_fst_apply n _ j, Finset.sum_range_succ _ (n + 1)]
    congr 1
    unfold colSum; rw [dif_pos h]
    exact Finset.sum_congr rfl fun r _ => hblk_apply V c ⟨n + 1, h⟩ r j

/-- The second accumulator after point `n`: the blocks' column sums of squares, added up in point order from zero. -/
theorem acc_snd_apply : ∀ (n : ℕ) (h : n < cfg1.N) (j : Fin 400),
    (acc V c n h).2 (ix2 0 j) = ∑ s ∈ Finset.range (n + 1), colSq V c s j
  | 0, h, j => by
    show k1_pay1 (hblk V c ⟨0, h⟩) (k1_pay5 (F := Ideal)) (ix2 0 j) = _
    rw [Pay.r1_pay1_apply, Pay.r1_pay5_apply, zero_add, Finset.sum_range_one]
    unfold colSq; rw [dif_pos h]
    exact Finset.sum_congr rfl fun r _ => by rw [hblk_apply]
  | n + 1, h, j => by
    show k1_pay1 (hblk V c ⟨n + 1, h⟩) (acc V c n _).2 (ix2 0 j) = _
    rw [Pay.r1_pay1_apply, acc_snd_apply n _ j, Finset.sum_range_succ _ (n + 1)]
    congr 1
    unfold colSq; rw [dif_pos h]
    exact Finset.sum_congr rfl fun r _ => by rw [hblk_apply]

/-- The eight blocks' sums are the sums over the rows `2048 t + r`. -/
theorem sum_colSum (j : Fin 400) :
    ∑ s ∈ Finset.range 8, colSum V c s j = ∑ t : Fin 8, ∑ r : Fin 2048, h2A V c (Cert.DeepFM.blkRow Cert.DeepFM.blk8 t r) j := by
  have hN : cfg1.N = 8 := N_1
  rw [Finset.sum_range]
  refine Finset.sum_congr rfl fun s _ => ?_
  unfold colSum; rw [dif_pos (by have := s.isLt; omega)]
  rfl

/-- The same for the squares. -/
theorem sum_colSq (j : Fin 400) :
    ∑ s ∈ Finset.range 8, colSq V c s j = ∑ t : Fin 8, ∑ r : Fin 2048, h2A V c (Cert.DeepFM.blkRow Cert.DeepFM.blk8 t r) j * h2A V c (Cert.DeepFM.blkRow Cert.DeepFM.blk8 t r) j := by
  have hN : cfg1.N = 8 := N_1
  rw [Finset.sum_range]
  refine Finset.sum_congr rfl fun s _ => ?_
  unfold colSq; rw [dif_pos (by have := s.isLt; omega)]
  rfl

/-- The column sums over all rows, as contents of window 8's array. -/
def G8 : S1x400.Idx → EReal := fun i => ∑ t : Fin 8, ∑ r : Fin 2048, h2A V c (Cert.DeepFM.blkRow Cert.DeepFM.blk8 t r) (i 1)

/-- The column sums of squares over all rows, as contents of window 9's array. -/
def G9 : S1x400.Idx → EReal := fun i => ∑ t : Fin 8, ∑ r : Fin 2048, h2A V c (Cert.DeepFM.blkRow Cert.DeepFM.blk8 t r) (i 1) * h2A V c (Cert.DeepFM.blkRow Cert.DeepFM.blk8 t r) (i 1)

/-- The accumulators' one block is their whole array. -/
theorem emb8 (t : Fin cfg1.N) (j : Fin 400) :
    ((cfg1.win 8).blk t).view.emb (ix2 0 j) = ix2 0 j := by
  obtain ⟨-, -, -, -, -, -, -, -, -, -, -, -, -, e80, e81, e90, e91⟩ := idx_facts1 t
  funext a; apply Fin.ext
  match a with
  | ⟨0, _⟩ => show win1_8.index t (0 : Fin 2) * 1 + 1 * 0 = 0; rw [e80]
  | ⟨1, _⟩ => show win1_8.index t (1 : Fin 2) * 400 + 1 * j.val = j.val; rw [e81]; omega

/-- The one write-back, at the last point, writes the sums over all eight blocks. -/
theorem flushed8_eq (t : Fin cfg1.N) (hf : (cfg1.win 8).flush t = true) :
    (dat1 V c).flushed 8 t = ((cfg1.win 8).blk t).view.read (Elt Ideal) (G8 V c) := by
  have hN : cfg1.N = 8 := N_1
  have h7 : t.val + 1 = 8 := by have := (flush1_8 t).mp hf; have := t.isLt; omega
  show (cfg1.win 8).cut (grid1.coords t) ((dat1 V c).after 8 t) = _
  rw [after1_8, outsAt_eq]
  funext y
  obtain ⟨z, j, rfl⟩ : ∃ (z : Fin 1) (j : Fin 400), y = ix2 z j := ⟨y 0, y 1, eq_ix2 y⟩
  obtain rfl : z = 0 := Subsingleton.elim _ _
  show (acc V c t.val t.isLt).1 (ix2 0 j) = G8 V c (((cfg1.win 8).blk t).view.emb (ix2 0 j))
  rw [acc_fst_apply, emb8, h7, sum_colSum]
  rfl

theorem mem_blk8 (t : Fin cfg1.N) (i : S1x400.Idx) :
    i ∈ ((cfg1.win 8).blk t).view.set ↔ ∀ a : Fin 2, win1_8.index t a * S1x400.size a ≤ (i a).val ∧ (i a).val < win1_8.index t a * S1x400.size a + S1x400.size a := by
  show i ∈ ((View.whole main_v56_1).slice (win1_8.rect t)).set ↔ _
  rw [View.set_slice_whole, Rect.mem_set_unit]
  exact Iff.rfl

/-- The last point's block covers the array. -/
theorem cover8 (i : S1x400.Idx) : ∃ t : Fin cfg1.N, (cfg1.win 8).flush t = true ∧ i ∈ ((cfg1.win 8).blk t).view.set := by
  have hi0 : (i 0).val < 1 := (i 0).isLt
  have hi1 : (i 1).val < 400 := (i 1).isLt
  have hN : cfg1.N = 8 := N_1
  obtain ⟨t, ht⟩ : ∃ t : Fin cfg1.N, t.val = 7 := ⟨⟨7, by omega⟩, rfl⟩
  obtain ⟨-, -, -, -, -, -, -, -, -, -, -, -, -, e80, e81, e90, e91⟩ := idx_facts1 t
  refine ⟨t, (flush1_8 t).mpr (by omega), ?_⟩
  rw [mem_blk8]
  intro a
  match a with
  | ⟨0, _⟩ => show win1_8.index t (0 : Fin 2) * 1 ≤ (i 0).val ∧ (i 0).val < win1_8.index t (0 : Fin 2) * 1 + 1; rw [e80]; omega
  | ⟨1, _⟩ => show win1_8.index t (1 : Fin 2) * 400 ≤ (i 1).val ∧ (i 1).val < win1_8.index t (1 : Fin 2) * 400 + 400; rw [e81]; omega

theorem emb9 (t : Fin cfg1.N) (j : Fin 400) :
    ((cfg1.win 9).blk t).view.emb (ix2 0 j) = ix2 0 j := by
  obtain ⟨-, -, -, -, -, -, -, -, -, -, -, -, -, e80, e81, e90, e91⟩ := idx_facts1 t
  funext a; apply Fin.ext
  match a with
  | ⟨0, _⟩ => show win1_9.index t (0 : Fin 2) * 1 + 1 * 0 = 0; rw [e90]
  | ⟨1, _⟩ => show win1_9.index t (1 : Fin 2) * 400 + 1 * j.val = j.val; rw [e91]; omega

/-- The one write-back, at the last point, writes the sums of squares over all eight blocks. -/
theorem flushed9_eq (t : Fin cfg1.N) (hf : (cfg1.win 9).flush t = true) :
    (dat1 V c).flushed 9 t = ((cfg1.win 9).blk t).view.read (Elt Ideal) (G9 V c) := by
  have hN : cfg1.N = 8 := N_1
  have h7 : t.val + 1 = 8 := by have := (flush1_9 t).mp hf; have := t.isLt; omega
  show (cfg1.win 9).cut (grid1.coords t) ((dat1 V c).after 9 t) = _
  rw [after1_9, outsAt_eq]
  funext y
  obtain ⟨z, j, rfl⟩ : ∃ (z : Fin 1) (j : Fin 400), y = ix2 z j := ⟨y 0, y 1, eq_ix2 y⟩
  obtain rfl : z = 0 := Subsingleton.elim _ _
  show (acc V c t.val t.isLt).2 (ix2 0 j) = G9 V c (((cfg1.win 9).blk t).view.emb (ix2 0 j))
  rw [acc_snd_apply, emb9, h7, sum_colSq]
  rfl

theorem mem_blk9 (t : Fin cfg1.N) (i : S1x400.Idx) :
    i ∈ ((cfg1.win 9).blk t).view.set ↔ ∀ a : Fin 2, win1_9.index t a * S1x400.size a ≤ (i a).val ∧ (i a).val < win1_9.index t a * S1x400.size a + S1x400.size a := by
  show i ∈ ((View.whole main_v56_2).slice (win1_9.rect t)).set ↔ _
  rw [View.set_slice_whole, Rect.mem_set_unit]
  exact Iff.rfl

/-- The last point's block covers the array. -/
theorem cover9 (i : S1x400.Idx) : ∃ t : Fin cfg1.N, (cfg1.win 9).flush t = true ∧ i ∈ ((cfg1.win 9).blk t).view.set := by
  have hi0 : (i 0).val < 1 := (i 0).isLt
  have hi1 : (i 1).val < 400 := (i 1).isLt
  have hN : cfg1.N = 8 := N_1
  obtain ⟨t, ht⟩ : ∃ t : Fin cfg1.N, t.val = 7 := ⟨⟨7, by omega⟩, rfl⟩
  obtain ⟨-, -, -, -, -, -, -, -, -, -, -, -, -, e80, e81, e90, e91⟩ := idx_facts1 t
  refine ⟨t, (flush1_9 t).mpr (by omega), ?_⟩
  rw [mem_blk9]
  intro a
  match a with
  | ⟨0, _⟩ => show win1_9.index t (0 : Fin 2) * 1 ≤ (i 0).val ∧ (i 0).val < win1_9.index t (0 : Fin 2) * 1 + 1; rw [e90]; omega
  | ⟨1, _⟩ => show win1_9.index t (1 : Fin 2) * 400 ≤ (i 1).val ∧ (i 1).val < win1_9.index t (1 : Fin 2) * 400 + 400; rw [e91]; omega

/-- The column sums after the region. -/
theorem final8 (j : Fin 400) : (show FVec Ideal S1x400 .f32 from (dat1 V c).arrAt 8 cfg1.N) (ix2 0 j) = ∑ t : Fin 8, ∑ r : Fin 2048, h2A V c (Cert.DeepFM.blkRow Cert.DeepFM.blk8 t r) j := by
  have h := (dat1 V c).arrAt_eq_of_cover 8 (G8 V c) (flushed8_eq V c) (cover8)
  show (dat1 V c).arrAt 8 cfg1.N (ix2 0 j) = _
  rw [h]
  rfl

/-- The column sums of squares after the region. -/
theorem final9 (j : Fin 400) : (show FVec Ideal S1x400 .f32 from (dat1 V c).arrAt 9 cfg1.N) (ix2 0 j) = ∑ t : Fin 8, ∑ r : Fin 2048, h2A V c (Cert.DeepFM.blkRow Cert.DeepFM.blk8 t r) j * h2A V c (Cert.DeepFM.blkRow Cert.DeepFM.blk8 t r) j := by
  have h := (dat1 V c).arrAt_eq_of_cover 9 (G9 V c) (flushed9_eq V c) (cover9)
  show (dat1 V c).arrAt 9 cfg1.N (ix2 0 j) = _
  rw [h]
  rfl

end Cert.KernelIdeal.R1

end
-- ==== Proof.Region2Blocks.lean ====
/-
  Region 2: where each window's block sits in its array.

  The grid has 8 points. Window 0 (the second dense layer's rows), window 5 (the per-row partial score) and window 6
  (the per-row result) move down their arrays in blocks of 2048 rows: at point `t` the block's row `r` is the array's
  row `2048 t + r`. Every other window's block is its whole array at every point.
-/
import proofs.«171042_j1391569404529_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.R2

open Cert.KernelIdeal Cert.KernelIdeal.Gen

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The windows' block indices at every grid point, decided over the 8 points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 1) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `r` of window 0's block at point `t` is row `2048 t + r` of its array. -/
theorem iblk2_0_apply (c : Dev nD) (t : Fin cfg2.N) (r : Fin 2048) (k : Fin 400) :
    iblk2 V c 0 t (ix2 r k) = V c main_v56_0 (ix2 ⟨t.val * 2048 + r.val, by have := t.isLt; have h : cfg2.N = 8 := N_2; omega⟩ k) := by
  obtain ⟨e0, e1, -⟩ := idx_facts2 t
  show V c main_v56_0 (((cfg2.win 0).blk t).view.emb (ix2 r k)) = _
  refine congrArg _ ?_
  funext a; apply Fin.ext
  match a with
  | ⟨0, _⟩ => show win2_0.index t (0 : Fin 2) * 2048 + 1 * r.val = t.val * 2048 + r.val; rw [e0]; omega
  | ⟨1, _⟩ => show win2_0.index t (1 : Fin 2) * 400 + 1 * k.val = k.val; rw [e1]; omega

/-- The mean, variance, scale and shift windows read their whole arrays at every point. -/
theorem iblk2_1_apply (c : Dev nD) (t : Fin cfg2.N) (j : Fin 400) :
    iblk2 V c 1 t (ix2 0 j) = V c main_v58 (ix2 0 j) := by
  obtain ⟨-, -, e0, e1, -⟩ := idx_facts2 t
  show V c main_v58 (((cfg2.win 1).blk t).view.emb (ix2 0 j)) = _
  refine congrArg _ ?_
  funext a; apply Fin.ext
  match a with
  | ⟨0, _⟩ => show win2_1.index t (0 : Fin 2) * 1 + 1 * 0 = 0; rw [e0]
  | ⟨1, _⟩ => show win2_1.index t (1 : Fin 2) * 400 + 1 * j.val = j.val; rw [e1]; omega

theorem iblk2_2_apply (c : Dev nD) (t : Fin cfg2.N) (j : Fin 400) :
    iblk2 V c 2 t (ix2 0 j) = V c main_v62 (ix2 0 j) := by
  obtain ⟨-, -, -, -, e0, e1, -⟩ := idx_facts2 t
  show V c main_v62 (((cfg2.win 2).blk t).view.emb (ix2 0 j)) = _
  refine congrArg _ ?_
  funext a; apply Fin.ext
  match a with
  | ⟨0, _⟩ => show win2_2.index t (0 : Fin 2) * 1 + 1 * 0 = 0; rw [e0]
  | ⟨1, _⟩ => show win2_2.index t (1 : Fin 2) * 400 + 1 * j.val = j.val; rw [e1]; omega

theorem iblk2_3_apply (c : Dev nD) (t : Fin cfg2.N) (j : Fin 400) :
    iblk2 V c 3 t (ix1 j) = V c main_arg10 (ix1 j) := by
  obtain ⟨-, -, -, -, -, -, e0, -⟩ := idx_facts2 t
  show V c main_arg10 (((cfg2.win 3).blk t).view.emb (ix1 j)) = _
  refine congrArg _ ?_
  funext a; apply Fin.ext
  match a with
  | ⟨0, _⟩ => show win2_3.index t (0 : Fin 1) * 400 + 1 * j.val = j.val; rw [e0]; omega

theorem iblk2_4_apply (c : Dev nD) (t : Fin cfg2.N) (j : Fin 400) :
    iblk2 V c 4 t (ix1 j) = V c main_arg11 (ix1 j) := by
  obtain ⟨-, -, -, -, -, -, -, e0, -⟩ := idx_facts2 t
  show V c main_arg11 (((cfg2.win 4).blk t).view.emb (ix1 j)) = _
  refine congrArg _ ?_
  funext a; apply Fin.ext
  match a with
  | ⟨0, _⟩ => show win2_4.index t (0 : Fin 1) * 400 + 1 * j.val = j.val; rw [e0]; omega

/-- Row `r` of window 5's block at point `t` is row `2048 t + r` of its array. -/
theorem iblk2_5_apply (c : Dev nD) (t : Fin cfg2.N) (r : Fin 2048) :
    iblk2 V c 5 t (ix2 r 0) = V c main_v65 (ix2 ⟨t.val * 2048 + r.val, by have := t.isLt; have h : cfg2.N = 8 := N_2; omega⟩ 0) := by
  obtain ⟨-, -, -, -, -, -, -, -, e0, e1, -⟩ := idx_facts2 t
  show V c main_v65 (((cfg2.win 5).blk t).view.emb (ix2 r 0)) = _
  refine congrArg _ ?_
  funext a; apply Fin.ext
  match a with
  | ⟨0, _⟩ => show win2_5.index t (0 : Fin 2) * 2048 + 1 * r.val = t.val * 2048 + r.val; rw [e0]; omega
  | ⟨1, _⟩ => show win2_5.index t (1 : Fin 2) * 1 + 1 * 0 = 0; rw [e1]

/-- What the body leaves in window 6's block: the normalised block's row sums added to the rows' partial score. -/
theorem out6_eq (x0 : Vec F S2048x400 .bf16) (x1 : Vec F S1x400 .f32) (x2 : Vec F S1x400 .f32) (x3 : Vec F S400 .f32) (x4 : Vec F S400 .f32) (x5 : Vec F S2048x1 .f32) :
    out2_6 x0 x1 x2 x3 x4 x5 = k2_pay1 x0 x2 x3 x1 x4 x5 := by
  unfold out2_6
  rw [View.canon_unit_zero hz2]
  simp only [View.ld_unit_zero (S := S2048x400) hz2, View.ld_unit_zero (S := S1x400) hz2, View.ld_unit_zero (S := S400) hz1, View.ld_unit_zero (S := S2048x1) hz2]

end Cert.KernelIdeal.R2

end
-- ==== Proof.PayloadR2.lean ====
/-
  The third kernel body's arithmetic read at an index, at the extended reals: the second layer's block
  normalised column by column, summed along each row, and added to the row's partial score.
-/
import proofs.«171042_j1391569404529_2_alg».proof.Proof.Gen.KernelIdeal.Skeleton
import Idealize.ShloMosaic.Lib.ValueIdx
import Idealize.ShloMosaic.PureOps.Ideal.Laws
import Idealize.ShloMosaic.Lib.Pipeline.Value
import Idealize.ShloMosaic.Lib.ValueLayout
import proofs.«171042_j1391569404529_2_alg».proof.Proof.PayloadLib
import proofs.«171042_j1391569404529_2_alg».proof.Proof.PayloadNorm
import proofs.«171042_j1391569404529_2_alg».proof.Proof.PayloadR0

noncomputable section

open scoped BigOperators

namespace Cert.KernelIdeal.Pay

open Idealize.ShloMosaic Idealize.ShloMosaic.ValueIdx Cert.KernelIdeal Cert.KernelIdeal.Gen

theorem r2_pay1_apply (x0 : Vec Ideal S2048x400 .bf16) (var : Vec Ideal S1x400 .f32) (g : Vec Ideal S400 .f32) (mu : Vec Ideal S1x400 .f32) (be : Vec Ideal S400 .f32) (rowp : Vec Ideal S2048x1 .f32) (r : Fin 2048) :
    k2_pay1 x0 var g mu be rowp (ix2 r 0) = rowp (ix2 r 0) + ∑ j : Fin 400, (g (ix1 j) * (x0 (ix2 r j) - mu (ix2 0 j)) * Ideal.rsqrt (var (ix2 0 j) + cEps) + be (ix1 j)) := by
  unfold k2_pay1
  rw [shapeCast_self, shapeCast_self, shapeCast_self, shapeCast_self]
  show rowp (ix2 r 0) + shapeCast _ _ _ (ix2 r 0) = _
  refine congrArg (rowp (ix2 r 0) + ·) ?_
  refine (shapeCast_a_a1_apply _ _ r 0).trans ?_
  refine (sum_axis1_apply _ _ _ _ _ r).trans ?_
  exact Finset.sum_congr rfl fun j _ => norm_block_apply (a := 2048) (b := 400) x0 var mu g be _ _ _ _ r j

end Cert.KernelIdeal.Pay

end
-- ==== Proof.Region2Arrays.lean ====
/-
  Region 2 (the second normalisation and the final row sum): the output array after the region, index by index, for
  any contents the region is entered with.

  With `H` the entering rows, `μ`, `σ²` the entering mean and variance, `γ`, `β` the scale and shift and `p` the
  entering per-row partial score, row `n` of the output ends holding `p n + ∑_j bnorm ε H μ σ² γ β n j`: every grid
  point writes back its block of 2048 rows, and the 8 blocks tile the 16384 rows.
-/
import proofs.«171042_j1391569404529_2_alg».proof.Proof.Region2Blocks
import proofs.«171042_j1391569404529_2_alg».proof.Proof.PayloadR2
import proofs.«171042_j1391569404529_2_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.R2

open Cert.KernelIdeal Cert.KernelIdeal.Gen

variable (V : (c : Dev nD) → (b : Ref sig .tc) → Buf (Elt Ideal) ((c : Thread nD τ).loc b)) (c : Dev nD)

/-- The region's inputs as plain families: the entering rows, mean, variance, scale, shift and partial score. -/
def hA : Fin 16384 → Fin 400 → EReal := fun n k => (show FVec Ideal S16384x400 .bf16 from V c main_v56_0) (ix2 n k)
def muA : Fin 400 → EReal := fun j => (show FVec Ideal S1x400 .f32 from V c main_v58) (ix2 0 j)
def varA : Fin 400 → EReal := fun j => (show FVec Ideal S1x400 .f32 from V c main_v62) (ix2 0 j)
def gA : Fin 400 → EReal := fun j => (show FVec Ideal S400 .f32 from V c main_arg10) (ix1 j)
def beA : Fin 400 → EReal := fun j => (show FVec Ideal S400 .f32 from V c main_arg11) (ix1 j)
def rowpA : Fin 16384 → EReal := fun n => (show FVec Ideal S16384x1 .f32 from V c main_v65) (ix2 n 0)

/-- Row `2048 t + r` of the 16384 rows. -/
def rowAt (t : Fin cfg2.N) (r : Fin 2048) : Fin 16384 :=
  ⟨t.val * 2048 + r.val, by have := t.isLt; have h : cfg2.N = 8 := N_2; omega⟩

/-- The per-row result as contents of window 6's array: the partial score plus the normalised row's sum. -/
def G6 : S16384x1.Idx → EReal := fun i =>
  rowpA V c (i 0) + ∑ j : Fin 400, Cert.DeepFM.bnorm Pay.cEps (hA V c) (muA V c) (varA V c) (gA V c) (beA V c) (i 0) j

/-- Row `r` of window 6's block at point `t` is row `2048 t + r` of its array. -/
theorem emb6 (t : Fin cfg2.N) (r : Fin 2048) :
    ((cfg2.win 6).blk t).view.emb (ix2 r 0) = ix2 (rowAt t r) 0 := by
  obtain ⟨-, -, -, -, -, -, -, -, -, -, e0, e1⟩ := idx_facts2 t
  funext a; apply Fin.ext
  match a with
  | ⟨0, _⟩ => show win2_6.index t (0 : Fin 2) * 2048 + 1 * r.val = t.val * 2048 + r.val; rw [e0]; omega
  | ⟨1, _⟩ => show win2_6.index t (1 : Fin 2) * 1 + 1 * 0 = 0; rw [e1]

/-- What point `t` writes back is block `t` of the per-row result. -/
theorem flushed6_eq (t : Fin cfg2.N) :
    (dat2 V c).flushed 6 t = ((cfg2.win 6).blk t).view.read (Elt Ideal) (G6 V c) := by
  show (cfg2.win 6).cut (grid2.coords t) ((dat2 V c).after 6 t) = _
  rw [after2_6, out6_eq]
  funext y
  obtain ⟨r, z, rfl⟩ : ∃ (r : Fin 2048) (z : Fin 1), y = ix2 r z := ⟨y 0, y 1, eq_ix2 y⟩
  obtain rfl : z = 0 := Subsingleton.elim _ _
  show k2_pay1 (iblk2 V c 0 t) (iblk2 V c 2 t) (iblk2 V c 3 t) (iblk2 V c 1 t) (iblk2 V c 4 t) (iblk2 V c 5 t) (ix2 r 0) = G6 V c (((cfg2.win 6).blk t).view.emb (ix2 r 0))
  rw [Pay.r2_pay1_apply, emb6]
  simp only [iblk2_0_apply, iblk2_1_apply, iblk2_2_apply, iblk2_3_apply, iblk2_4_apply, iblk2_5_apply]
  rfl

/-- An index of the array is in point `t`'s block iff each coordinate is in the block's range on its axis. -/
theorem mem_blk6 (t : Fin cfg2.N) (i : S16384x1.Idx) :
    i ∈ ((cfg2.win 6).blk t).view.set ↔ ∀ a : Fin 2, win2_6.index t a * S2048x1.size a ≤ (i a).val ∧ (i a).val < win2_6.index t a * S2048x1.size a + S2048x1.size a := by
  show i ∈ ((View.whole main_v66).slice (win2_6.rect t)).set ↔ _
  rw [View.set_slice_whole, Rect.mem_set_unit]
  exact Iff.rfl

/-- Row `n` lies in the block of point `n / 2048`. -/
theorem cover6 (i : S16384x1.Idx) : ∃ t : Fin cfg2.N, (cfg2.win 6).flush t = true ∧ i ∈ ((cfg2.win 6).blk t).view.set := by
  have hi0 : (i 0).val < 16384 := (i 0).isLt
  have hi1 : (i 1).val < 1 := (i 1).isLt
  have hN : cfg2.N = 8 := N_2
  obtain ⟨t, ht⟩ : ∃ t : Fin cfg2.N, t.val = (i 0).val / 2048 := ⟨⟨(i 0).val / 2048, by omega⟩, rfl⟩
  obtain ⟨-, -, -, -, -, -, -, -, -, -, e0, e1⟩ := idx_facts2 t
  refine ⟨t, flush2_6 t, ?_⟩
  rw [mem_blk6]
  intro a
  match a with
  | ⟨0, _⟩ => show win2_6.index t (0 : Fin 2) * 2048 ≤ (i 0).val ∧ (i 0).val < win2_6.index t (0 : Fin 2) * 2048 + 2048; rw [e0]; omega
  | ⟨1, _⟩ => show win2_6.index t (1 : Fin 2) * 1 ≤ (i 1).val ∧ (i 1).val < win2_6.index t (1 : Fin 2) * 1 + 1; rw [e1]; omega

/-- The per-row result array after the region. -/
theorem final6 (n : Fin 16384) : (show FVec Ideal S16384x1 .f32 from (dat2 V c).arrAt 6 cfg2.N) (ix2 n 0) = rowpA V c n + ∑ j : Fin 400, Cert.DeepFM.bnorm Pay.cEps (hA V c) (muA V c) (varA V c) (gA V c) (beA V c) n j := by
  have h := (dat2 V c).arrAt_eq_of_cover 6 (G6 V c) (fun t _ => flushed6_eq V c t) (cover6)
  show (dat2 V c).arrAt 6 cfg2.N (ix2 n 0) = _
  rw [h]
  rfl

end Cert.KernelIdeal.R2

end
-- ==== Proof.KernelStages.lean ====
/-
  The idealized kernel's result, index by index, in the kernel's spelling of the score.

  The three kernel regions' output arrays (proved region by region for any entry contents) are chained through the
  host operations between them: the first dense layer's rows and accumulated column sums give the first means and
  variances; the normalised rows through the second dense layer give the second ones; the last region adds each
  row's normalised sum to the row partial (second-order plus first-order term), and the bias is added at the end.
-/
import proofs.«171042_j1391569404529_2_alg».proof.Proof.HostMid
import proofs.«171042_j1391569404529_2_alg».proof.Proof.Region0Arrays
import proofs.«171042_j1391569404529_2_alg».proof.Proof.Region1Arrays
import proofs.«171042_j1391569404529_2_alg».proof.Proof.Region2Arrays
import proofs.«171042_j1391569404529_2_alg».proof.Proof.Spec
import Idealize.ShloMosaic.Lib.ValueLayout

set_option maxRecDepth 16384

noncomputable section

open Idealize.ShloMosaic Idealize.ShloMosaic.TcCoe Idealize.SL.Sem
open scoped BigOperators

namespace Cert.KernelIdeal.Value

open Cert.KernelIdeal Cert.KernelIdeal.Gen Idealize.ShloMosaic.ValueIdx Cert.DeepFM

variable (m : (ℓ : Loc nD τ sig) → Buf (Elt Ideal) ℓ) (ρ : Dev nD → PrngReg) (c : Dev nD)

/-- The float word of 16384. -/
abbrev cN : EReal := Ideal.ofBits .f32 0x46800000#32

/-! ## The score's inputs, read off the contents region 0 is entered with -/

def De : Fin 16384 → Fin 624 → EReal := R0.deepA (V3 m ρ) c
def Sge : Fin 624 → Fin 16 → EReal := R0.segA (V3 m ρ) c
def W1e : Fin 624 → Fin 400 → EReal := R0.w1A (V3 m ρ) c
def b1e : Fin 400 → EReal := R0.b1A (V3 m ρ) c
def g1e : Fin 400 → EReal := fun j => (show FVec Ideal S400 .f32 from W3 m ρ c (Proc.devRef .tc main_arg6)) (ix1 j)
def be1e : Fin 400 → EReal := fun j => (show FVec Ideal S400 .f32 from W3 m ρ c (Proc.devRef .tc main_arg7)) (ix1 j)
def W2e : Fin 400 → Fin 400 → EReal := fun k j => (show FVec Ideal S400x400 .bf16 from W3 m ρ c (Proc.devRef .tc main_v48)) (ix2 k j)
def b2e : Fin 400 → EReal := fun j => (show FVec Ideal S400 .f32 from W3 m ρ c (Proc.devRef .tc main_arg9)) (ix1 j)
def g2e : Fin 400 → EReal := fun j => (show FVec Ideal S400 .f32 from W3 m ρ c (Proc.devRef .tc main_arg10)) (ix1 j)
def be2e : Fin 400 → EReal := fun j => (show FVec Ideal S400 .f32 from W3 m ρ c (Proc.devRef .tc main_arg11)) (ix1 j)
def r1e : Fin 16384 → EReal := fun n => (show FVec Ideal S16384 .f32 from W3 m ρ c (Proc.devRef .tc main_v33)) (ix1 n)
def biase : EReal := (show FVec Ideal S1 .f32 from W3 m ρ c (Proc.devRef .tc main_arg12)) (ix1 0)

/-- The first dense layer's rows. -/
def H1e : Fin 16384 → Fin 400 → EReal := h1 (De m ρ c) (W1e m ρ c) (b1e m ρ c)

/-! ## Region 1's entry -/

theorem hA1 : R1.hA (V5 m ρ) c = H1e m ρ c := by
  funext n k
  exact (congrFun (Host.mid1_h m ρ c) (ix2 n k)).trans (R0.final5 (V3 m ρ) c n k)

theorem muA1 : R1.muA (V5 m ρ) c = meanKer blk16 cN (H1e m ρ c) := by
  funext j
  have e := congrFun (Host.mid1_mu m ρ c) (ix2 0 j)
  refine e.trans ?_
  show Ideal.div ((show FVec Ideal S1x400 .f32 from (dat0 (V3 m ρ) c).arrAt 6 cfg0.N) (ix2 0 j)) cN = _
  rw [R0.final6 (V3 m ρ) c j]
  rfl

theorem varA1 : R1.varA (V5 m ρ) c = varKer blk16 cN (H1e m ρ c) := by
  funext j
  have e := congrFun (Host.mid1_var m ρ c) (ix2 0 j)
  refine e.trans ?_
  show Ideal.div ((show FVec Ideal S1x400 .f32 from (dat0 (V3 m ρ) c).arrAt 7 cfg0.N) (ix2 0 j)) cN
      - Ideal.div ((show FVec Ideal S1x400 .f32 from (dat0 (V3 m ρ) c).arrAt 6 cfg0.N) (ix2 0 j)) cN
        * Ideal.div ((show FVec Ideal S1x400 .f32 from (dat0 (V3 m ρ) c).arrAt 6 cfg0.N) (ix2 0 j)) cN = _
  rw [R0.final6 (V3 m ρ) c j, R0.final7 (V3 m ρ) c j]
  rfl

theorem gA1 : R1.gA (V5 m ρ) c = g1e m ρ c := by
  funext j; exact congrFun (Host.mid1_arg6 m ρ c) (ix1 j)
theorem beA1 : R1.beA (V5 m ρ) c = be1e m ρ c := by
  funext j; exact congrFun (Host.mid1_arg7 m ρ c) (ix1 j)
theorem b2A1 : R1.b2A (V5 m ρ) c = b2e m ρ c := by
  funext j; exact congrFun (Host.mid1_arg9 m ρ c) (ix1 j)
theorem w2A1 : R1.w2A (V5 m ρ) c = W2e m ρ c := by
  funext k j; exact congrFun (Host.mid1_w2 m ρ c) (ix2 k j)

/-- The second dense layer's rows, in the kernel's spelling. -/
def H2e : Fin 16384 → Fin 400 → EReal :=
  h2Ker cN Pay.cEps (De m ρ c) (W1e m ρ c) (b1e m ρ c) (g1e m ρ c) (be1e m ρ c) (W2e m ρ c) (b2e m ρ c)

theorem h2A1 : R1.h2A (V5 m ρ) c = H2e m ρ c := by
  unfold R1.h2A
  rw [hA1, muA1, varA1, gA1, beA1, w2A1, b2A1]
  rfl

/-! ## Region 2's entry -/

theorem hA2 : R2.hA (V7 m ρ) c = H2e m ρ c := by
  funext n k
  exact ((congrFun (Host.mid2_h m ρ c) (ix2 n k)).trans (R1.final7 (V5 m ρ) c n k)).trans (congrFun (congrFun (h2A1 m ρ c) n) k)

theorem muA2 : R2.muA (V7 m ρ) c = meanKer blk8 cN (H2e m ρ c) := by
  funext j
  refine (congrFun (Host.mid2_mu m ρ c) (ix2 0 j)).trans ?_
  show Ideal.div ((show FVec Ideal S1x400 .f32 from (dat1 (V5 m ρ) c).arrAt 8 cfg1.N) (ix2 0 j)) cN = _
  rw [R1.final8 (V5 m ρ) c j, h2A1]
  rfl

theorem varA2 : R2.varA (V7 m ρ) c = varKer blk8 cN (H2e m ρ c) := by
  funext j
  refine (congrFun (Host.mid2_var m ρ c) (ix2 0 j)).trans ?_
  show Ideal.div ((show FVec Ideal S1x400 .f32 from (dat1 (V5 m ρ) c).arrAt 9 cfg1.N) (ix2 0 j)) cN
      - Ideal.div ((show FVec Ideal S1x400 .f32 from (dat1 (V5 m ρ) c).arrAt 8 cfg1.N) (ix2 0 j)) cN
        * Ideal.div ((show FVec Ideal S1x400 .f32 from (dat1 (V5 m ρ) c).arrAt 8 cfg1.N) (ix2 0 j)) cN = _
  rw [R1.final8 (V5 m ρ) c j, R1.final9 (V5 m ρ) c j, h2A1]
  rfl

theorem gA2 : R2.gA (V7 m ρ) c = g2e m ρ c := by
  funext j; exact congrFun (Host.mid2_arg10 m ρ c) (ix1 j)
theorem beA2 : R2.beA (V7 m ρ) c = be2e m ρ c := by
  funext j; exact congrFun (Host.mid2_arg11 m ρ c) (ix1 j)

theorem rowpA2 (n : Fin 16384) : R2.rowpA (V7 m ρ) c n = fmKer Pay.cHalf (De m ρ c) (Sge m ρ c) n + r1e m ρ c n := by
  refine (congrFun (Host.mid2_rowp m ρ c) (ix2 n 0)).trans ?_
  rw [Pay.shapeCast_a_a1_apply]
  show (shapeCast S16384 (show FVec Ideal S16384x1 .f32 from (dat0 (V3 m ρ) c).arrAt 4 cfg0.N) shapeCasts_S16384x1_S16384) (ix1 n) + r1e m ρ c n = _
  rw [shapeCast_apply _ _ (ix1 n) (ix2 n 0) (by simp [Shape.rowMajor_val_one, Shape.rowMajor_val_two])]
  exact congrArg (· + r1e m ρ c n) (R0.final4 (V3 m ρ) c n)

/-! ## The result -/

theorem value_raw (n : Fin 16384) :
    (show FVec Ideal S16384 .f32 from W9 m ρ c (Proc.devRef .tc main_v70)) (ix1 n)
      = outKer cN Pay.cEps Pay.cHalf (De m ρ c) (Sge m ρ c) (r1e m ρ c) (W1e m ρ c) (b1e m ρ c) (g1e m ρ c) (be1e m ρ c)
          (W2e m ρ c) (b2e m ρ c) (g2e m ρ c) (be2e m ρ c) (biase m ρ c) n := by
  refine (congrFun (Host.tail_out m ρ c) (ix1 n)).trans ?_
  have e1 : (shapeCast S16384 (show FVec Ideal S16384x1 .f32 from (dat2 (V7 m ρ) c).arrAt 6 cfg2.N) shapeCasts_S16384x1_S16384) (ix1 n)
      = (show FVec Ideal S16384x1 .f32 from (dat2 (V7 m ρ) c).arrAt 6 cfg2.N) (ix2 n 0) :=
    shapeCast_apply _ _ (ix1 n) (ix2 n 0) (by simp [Shape.rowMajor_val_one, Shape.rowMajor_val_two])
  have e2 : (broadcastInDim S16384 ![] bcast_S_S16384 (shapeCast S_ (show FVec Ideal S1 .f32 from W3 m ρ c (Proc.devRef .tc main_arg12)) shapeCasts_S1_S_)) (ix1 n)
      = biase m ρ c :=
    shapeCast_apply _ _ _ (ix1 0) (by rw [Shape.rowMajor_val_one]; exact (Shape.rowMajorPi_zero _ _).symm)
  refine (congrArg₂ (· + ·) (e1.trans (R2.final6 (V7 m ρ) c n)) e2).trans ?_
  rw [hA2, muA2, varA2, gA2, beA2, rowpA2]
  rfl

end Cert.KernelIdeal.Value

end
-- ==== Proof.RefTerms.lean ====
/-
  The reference program's result as a pure term of its thirteen argument arrays, at the extended reals.

  Each definition applies exactly the functions the reference's operations apply, in their order, composed:
  the index pairs (field, row) built from the index array, the two gathers, the first-order and second-order
  terms, two dense layers each followed by a batch normalisation over the 16384 rows, the row sums and the bias.
  The gathers, the host sums and the host contractions stay applied and folded.
-/
import proofs.«171042_j1391569404529_2_alg».proof.ReferenceIdeal
import Idealize.ShloMosaic.PureOps.Ideal

noncomputable section

namespace Cert.ReferenceIdeal.RefValue

open Idealize.ShloMosaic Cert.ReferenceIdeal Cert.ReferenceIdeal.Facts₀

variable [Cert.ReferenceIdeal.Facts]

/-! ## The index pairs -/

/-- The field numbers `0 … 38` along axis 1 of a `[1,39]` array; a negative one is wrapped by adding `39`. -/
def fieldIdx : IVec S1x39 32 :=
  select
    (cmpi .slt (broadcastInDim S1x39 ![1] bcast_S39_S1x39_1 (iotaInDim S39 32 0))
      (broadcastInDim S1x39 ![] bcast_S_S1x39 (constantI S_ 32 0#32)))
    (addi (broadcastInDim S1x39 ![1] bcast_S39_S1x39_1 (iotaInDim S39 32 0))
      (broadcastInDim S1x39 ![] bcast_S_S1x39 (constantI S_ 32 39#32)))
    (broadcastInDim S1x39 ![1] bcast_S39_S1x39_1 (iotaInDim S39 32 0))

/-- The table rows: the `[16384,39,1]` index array read as `[16384,39]`; a negative one is wrapped by adding `100001`. -/
def rowIdx (a0 : IVec S16384x39x1 32) : IVec S16384x39 32 :=
  select
    (cmpi .slt (shapeCast S16384x39 a0 shapeCasts_S16384x39x1_S16384x39)
      (broadcastInDim S16384x39 ![] bcast_S_S16384x39 (constantI S_ 32 0#32)))
    (addi (shapeCast S16384x39 a0 shapeCasts_S16384x39x1_S16384x39)
      (broadcastInDim S16384x39 ![] bcast_S_S16384x39 (constantI S_ 32 100001#32)))
    (shapeCast S16384x39 a0 shapeCasts_S16384x39x1_S16384x39)

/-- The `[16384,39,2]` array of start indices of both gathers: at `(n, f)` the pair (field `f`, row of `(n, f)`). -/
def pairIdx (a0 : IVec S16384x39x1 32) : IVec S16384x39x2 32 :=
  concatenate S16384x39x2 2
    [⟨S16384x39x1, broadcastInDim S16384x39x1 ![0, 1] bcast_S16384x39_S16384x39x1_0_1
        (broadcastInDim S16384x39 ![0, 1] bcast_S1x39_S16384x39_0_1 fieldIdx)⟩,
     ⟨S16384x39x1, broadcastInDim S16384x39x1 ![0, 1] bcast_S16384x39_S16384x39x1_0_1 (rowIdx a0)⟩]
    concatenates_S16384x39x1_S16384x39x1_S16384x39x2_d2

/-! ## The first-order and second-order terms -/

/-- The first-order table gathered at the pairs, times the feature values. -/
def firstOrder (a0 : IVec S16384x39x1 32) (a1 : FVec Ideal S16384x39 .f32) (a2 : FVec Ideal S39x100001 .f32) :
    FVec Ideal S16384x39 .f32 :=
  mulf (Host.gather gather_S39x100001_S16384x39x2_S16384x39_n_01_n_n_01_2_11 a2 (pairIdx a0)) a1

/-- The first-order term of each row: its sum over the fields. -/
def rowOne (a0 : IVec S16384x39x1 32) (a1 : FVec Ideal S16384x39 .f32) (a2 : FVec Ideal S39x100001 .f32) :
    FVec Ideal S16384 .f32 :=
  Host.reduceAdd (firstOrder a0 a1 a2) (constant (F := Ideal) S_ .f32 0x00000000#32) reducesTo_S16384x39_S16384_d1 h_S_

/-- The embedding table gathered at the pairs, each embedding times its feature value. -/
def embProd (a0 : IVec S16384x39x1 32) (a1 : FVec Ideal S16384x39 .f32) (a3 : FVec Ideal S39x100001x16 .f32) :
    FVec Ideal S16384x39x16 .f32 :=
  mulf (Host.gather gather_S39x100001x16_S16384x39x2_S16384x39x16_2_01_n_n_01_2_1116 a3 (pairIdx a0))
    (broadcastInDim S16384x39x16 ![0, 1, 2] bcast_S16384x39x1_S16384x39x16_0_1_2
      (broadcastInDim S16384x39x1 ![0, 1] bcast_S16384x39_S16384x39x1_0_1 a1))

/-- The embedding products of a row laid out flat: the input of the first dense layer. -/
def deep (a0 : IVec S16384x39x1 32) (a1 : FVec Ideal S16384x39 .f32) (a3 : FVec Ideal S39x100001x16 .f32) :
    FVec Ideal S16384x624 .f32 :=
  shapeCast S16384x624 (embProd a0 a1 a3) shapeCasts_S16384x39x16_S16384x624

/-- Half of (the square of the field sum minus the sum of the squares), per row and embedding coordinate. -/
def fmHalf (a0 : IVec S16384x39x1 32) (a1 : FVec Ideal S16384x39 .f32) (a3 : FVec Ideal S39x100001x16 .f32) :
    FVec Ideal S16384x16 .f32 :=
  mulf (broadcastInDim S16384x16 ![] bcast_S_S16384x16 (constant (F := Ideal) S_ .f32 0x3F000000#32))
    (subf
      (mulf
        (Host.reduceAdd (embProd a0 a1 a3) (constant (F := Ideal) S_ .f32 0x00000000#32) reducesTo_S16384x39x16_S16384x16_d1 h_S_)
        (Host.reduceAdd (embProd a0 a1 a3) (constant (F := Ideal) S_ .f32 0x00000000#32) reducesTo_S16384x39x16_S16384x16_d1 h_S_))
      (Host.reduceAdd (mulf (embProd a0 a1 a3) (embProd a0 a1 a3)) (constant (F := Ideal) S_ .f32 0x00000000#32)
        reducesTo_S16384x39x16_S16384x16_d1 h_S_))

/-- The second-order term of each row: the sum of `fmHalf` over the embedding coordinates. -/
def fmRow (a0 : IVec S16384x39x1 32) (a1 : FVec Ideal S16384x39 .f32) (a3 : FVec Ideal S39x100001x16 .f32) :
    FVec Ideal S16384 .f32 :=
  Host.reduceAdd (fmHalf a0 a1 a3) (constant (F := Ideal) S_ .f32 0x00000000#32) reducesTo_S16384x16_S16384_d1 h_S_

/-! ## A dense layer and a batch normalisation, over any input -/

/-- A vector of 400 columns repeated on every one of the 16384 rows. -/
def rowBcast (v : FVec Ideal S400 .f32) : FVec Ideal S16384x400 .f32 :=
  broadcastInDim S16384x400 ![0, 1] bcast_S1x400_S16384x400_0_1 (broadcastInDim S1x400 ![1] bcast_S400_S1x400_1 v)

/-- A dense layer: the host contraction of the rows against the weights, plus the bias on every row. -/
def denseLayer {S Sw : Shape} (d : DotDims S Sw S16384x400) (x : FVec Ideal S .f32) (w : FVec Ideal Sw .f32)
    (b : FVec Ideal S400 .f32) : FVec Ideal S16384x400 .f32 :=
  addf (Host.dotGeneral d none x w) (rowBcast b)

/-- The mean of each column: its sum over the rows divided by `16384`. -/
def colMean (x : FVec Ideal S16384x400 .f32) : FVec Ideal S400 .f32 :=
  Host.divf (Host.reduceAdd x (constant (F := Ideal) S_ .f32 0x00000000#32) reducesTo_S16384x400_S400_d0 h_S_)
    (broadcastInDim S400 ![] bcast_S_S400 (constant (F := Ideal) S_ .f32 0x46800000#32))

/-- The divisor of the second moment: `16384` minus the correction, the correction being the integer `0` as a float. -/
def varDivisor : FVec Ideal S_ .f32 :=
  subf (constant (F := Ideal) S_ .f32 0x46800000#32) (sitofp (F := Ideal) .f32 (constantI S_ 32 0#32))

/-- The deviations from the column means, the means computed on a `[1,400]` array. -/
def colDev (x : FVec Ideal S16384x400 .f32) : FVec Ideal S16384x400 .f32 :=
  subf x
    (broadcastInDim S16384x400 ![0, 1] bcast_S1x400_S16384x400_0_1
      (Host.divf
        (broadcastInDim S1x400 ![1] bcast_S400_S1x400_1
          (Host.reduceAdd x (constant (F := Ideal) S_ .f32 0x00000000#32) reducesTo_S16384x400_S400_d0 h_S_))
        (broadcastInDim S1x400 ![] bcast_S_S1x400 (constant (F := Ideal) S_ .f32 0x46800000#32))))

/-- The variance of each column as the called function computes it: the sum of the squared deviations divided by the
    divisor, where the divisor is positive; elsewhere the not-a-number word. -/
def colVar (x : FVec Ideal S16384x400 .f32) : FVec Ideal S400 .f32 :=
  select
    (broadcastInDim S400 ![] bcast_S_S400 (cmpf .ogt varDivisor (constant (F := Ideal) S_ .f32 0x00000000#32)))
    (Host.divf
      (Host.reduceAdd (mulf (colDev x) (colDev x)) (constant (F := Ideal) S_ .f32 0x00000000#32) reducesTo_S16384x400_S400_d0 h_S_)
      (broadcastInDim S400 ![] bcast_S_S400 varDivisor))
    (broadcastInDim S400 ![] bcast_S_S400 (constant (F := Ideal) S_ .f32 0x7FC00000#32))

/-- Batch normalisation over the rows: `g (x - mean) rsqrt(var + ε) + β`, column by column. -/
def batchNorm (x : FVec Ideal S16384x400 .f32) (g be : FVec Ideal S400 .f32) : FVec Ideal S16384x400 .f32 :=
  addf
    (mulf (mulf (rowBcast g) (subf x (rowBcast (colMean x))))
      (rowBcast (Host.rsqrt (addf (colVar x) (broadcastInDim S400 ![] bcast_S_S400 (constant (F := Ideal) S_ .f32 0x3727C5AC#32))))))
    (rowBcast be)

/-! ## The network and the score -/

/-- The first dense layer on the flat embedding products. -/
def hidden1 (a0 : IVec S16384x39x1 32) (a1 : FVec Ideal S16384x39 .f32) (a3 : FVec Ideal S39x100001x16 .f32)
    (a4 : FVec Ideal S624x400 .f32) (a5 : FVec Ideal S400 .f32) : FVec Ideal S16384x400 .f32 :=
  denseLayer dot_S16384x624_S624x400_S16384x400_1_0_0_1_n_n (deep a0 a1 a3) a4 a5

/-- The first layer normalised. -/
def act1 (a0 : IVec S16384x39x1 32) (a1 : FVec Ideal S16384x39 .f32) (a3 : FVec Ideal S39x100001x16 .f32)
    (a4 : FVec Ideal S624x400 .f32) (a5 a6 a7 : FVec Ideal S400 .f32) : FVec Ideal S16384x400 .f32 :=
  batchNorm (hidden1 a0 a1 a3 a4 a5) a6 a7

/-- The second dense layer. -/
def hidden2 (a0 : IVec S16384x39x1 32) (a1 : FVec Ideal S16384x39 .f32) (a3 : FVec Ideal S39x100001x16 .f32)
    (a4 : FVec Ideal S624x400 .f32) (a5 a6 a7 : FVec Ideal S400 .f32) (a8 : FVec Ideal S400x400 .f32)
    (a9 : FVec Ideal S400 .f32) : FVec Ideal S16384x400 .f32 :=
  denseLayer dot_S16384x400_S400x400_S16384x400_1_0_0_1_n_n (act1 a0 a1 a3 a4 a5 a6 a7) a8 a9

/-- The second layer normalised. -/
def act2 (a0 : IVec S16384x39x1 32) (a1 : FVec Ideal S16384x39 .f32) (a3 : FVec Ideal S39x100001x16 .f32)
    (a4 : FVec Ideal S624x400 .f32) (a5 a6 a7 : FVec Ideal S400 .f32) (a8 : FVec Ideal S400x400 .f32)
    (a9 a10 a11 : FVec Ideal S400 .f32) : FVec Ideal S16384x400 .f32 :=
  batchNorm (hidden2 a0 a1 a3 a4 a5 a6 a7 a8 a9) a10 a11

/-- The network's term of each row: the sum of the normalised second layer over its 400 columns. -/
def deepRow (a0 : IVec S16384x39x1 32) (a1 : FVec Ideal S16384x39 .f32) (a3 : FVec Ideal S39x100001x16 .f32)
    (a4 : FVec Ideal S624x400 .f32) (a5 a6 a7 : FVec Ideal S400 .f32) (a8 : FVec Ideal S400x400 .f32)
    (a9 a10 a11 : FVec Ideal S400 .f32) : FVec Ideal S16384 .f32 :=
  Host.reduceAdd (act2 a0 a1 a3 a4 a5 a6 a7 a8 a9 a10 a11) (constant (F := Ideal) S_ .f32 0x00000000#32)
    reducesTo_S16384x400_S16384_d1 h_S_

/-- The score of each row: `((first-order + second-order) + network) + bias`. -/
def result (a0 : IVec S16384x39x1 32) (a1 : FVec Ideal S16384x39 .f32) (a2 : FVec Ideal S39x100001 .f32)
    (a3 : FVec Ideal S39x100001x16 .f32) (a4 : FVec Ideal S624x400 .f32) (a5 a6 a7 : FVec Ideal S400 .f32)
    (a8 : FVec Ideal S400x400 .f32) (a9 a10 a11 : FVec Ideal S400 .f32) (a12 : FVec Ideal S1 .f32) :
    FVec Ideal S16384 .f32 :=
  addf
    (addf (addf (rowOne a0 a1 a2) (fmRow a0 a1 a3)) (deepRow a0 a1 a3 a4 a5 a6 a7 a8 a9 a10 a11))
    (broadcastInDim S16384 ![] bcast_S_S16384 (shapeCast S_ a12 shapeCasts_S1_S_))

end Cert.ReferenceIdeal.RefValue

end
-- ==== Proof.HostEntryArgs.lean ====
/-
  What the idealized kernel program's buffers hold when its first region is entered, for the buffers the host
  operations before it leave alone or merely convert: seven argument arrays are untouched, and the two weight
  matrices are converted to a narrower float format, which at the extended reals is the identity.
-/
import proofs.«171042_j1391569404529_2_alg».proof.Proof.Gen.KernelIdeal.Frame
import proofs.«171042_j1391569404529_2_alg».proof.Proof.RefTerms
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.KernelIdeal.Host

open Cert.KernelIdeal Cert.KernelIdeal.Gen Idealize.ShloMosaic.ValueIdx

variable (m : (ℓ : Loc nD τ sig) → Buf (Elt Ideal) ℓ) (ρ : Dev nD → PrngReg) [Cert.ReferenceIdeal.Facts]
/-- A buffer no operation of a stretch writes holds the same before and after the stretch. -/
macro "not_written" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- No host operation before the first region writes argument 5. -/
theorem entry_arg5 (c : Dev nD) :
    W3 m ρ c (Proc.devRef .tc main_arg5) = m ((c.tc : Thread nD τ).loc main_arg5) := by
  have h3 : W3 m ρ c (Proc.devRef .tc main_arg5) = W2 m ρ c (Proc.devRef .tc main_arg5) := by not_written hostOps0_2
  have h2 : W2 m ρ c (Proc.devRef .tc main_arg5) = W1 m ρ c (Proc.devRef .tc main_arg5) := by not_written hostOps0_1
  have h1 : W1 m ρ c (Proc.devRef .tc main_arg5) = W0 m ρ c (Proc.devRef .tc main_arg5) := by not_written hostOps0
  exact h3.trans (h2.trans (h1.trans rfl))

/-- No host operation before the first region writes argument 6. -/
theorem entry_arg6 (c : Dev nD) :
    W3 m ρ c (Proc.devRef .tc main_arg6) = m ((c.tc : Thread nD τ).loc main_arg6) := by
  have h3 : W3 m ρ c (Proc.devRef .tc main_arg6) = W2 m ρ c (Proc.devRef .tc main_arg6) := by not_written hostOps0_2
  have h2 : W2 m ρ c (Proc.devRef .tc main_arg6) = W1 m ρ c (Proc.devRef .tc main_arg6) := by not_written hostOps0_1
  have h1 : W1 m ρ c (Proc.devRef .tc main_arg6) = W0 m ρ c (Proc.devRef .tc main_arg6) := by not_written hostOps0
  exact h3.trans (h2.trans (h1.trans rfl))

/-- No host operation before the first region writes argument 7. -/
theorem entry_arg7 (c : Dev nD) :
    W3 m ρ c (Proc.devRef .tc main_arg7) = m ((c.tc : Thread nD τ).loc main_arg7) := by
  have h3 : W3 m ρ c (Proc.devRef .tc main_arg7) = W2 m ρ c (Proc.devRef .tc main_arg7) := by not_written hostOps0_2
  have h2 : W2 m ρ c (Proc.devRef .tc main_arg7) = W1 m ρ c (Proc.devRef .tc main_arg7) := by not_written hostOps0_1
  have h1 : W1 m ρ c (Proc.devRef .tc main_arg7) = W0 m ρ c (Proc.devRef .tc main_arg7) := by not_written hostOps0
  exact h3.trans (h2.trans (h1.trans rfl))

/-- No host operation before the first region writes argument 9. -/
theorem entry_arg9 (c : Dev nD) :
    W3 m ρ c (Proc.devRef .tc main_arg9) = m ((c.tc : Thread nD τ).loc main_arg9) := by
  have h3 : W3 m ρ c (Proc.devRef .tc main_arg9) = W2 m ρ c (Proc.devRef .tc main_arg9) := by not_written hostOps0_2
  have h2 : W2 m ρ c (Proc.devRef .tc main_arg9) = W1 m ρ c (Proc.devRef .tc main_arg9) := by not_written hostOps0_1
  have h1 : W1 m ρ c (Proc.devRef .tc main_arg9) = W0 m ρ c (Proc.devRef .tc main_arg9) := by not_written hostOps0
  exact h3.trans (h2.trans (h1.trans rfl))

/-- No host operation before the first region writes argument 10. -/
theorem entry_arg10 (c : Dev nD) :
    W3 m ρ c (Proc.devRef .tc main_arg10) = m ((c.tc : Thread nD τ).loc main_arg10) := by
  have h3 : W3 m ρ c (Proc.devRef .tc main_arg10) = W2 m ρ c (Proc.devRef .tc main_arg10) := by not_written hostOps0_2
  have h2 : W2 m ρ c (Proc.devRef .tc main_arg10) = W1 m ρ c (Proc.devRef .tc main_arg10) := by not_written hostOps0_1
  have h1 : W1 m ρ c (Proc.devRef .tc main_arg10) = W0 m ρ c (Proc.devRef .tc main_arg10) := by not_written hostOps0
  exact h3.trans (h2.trans (h1.trans rfl))

/-- No host operation before the first region writes argument 11. -/
theorem entry_arg11 (c : Dev nD) :
    W3 m ρ c (Proc.devRef .tc main_arg11) = m ((c.tc : Thread nD τ).loc main_arg11) := by
  have h3 : W3 m ρ c (Proc.devRef .tc main_arg11) = W2 m ρ c (Proc.devRef .tc main_arg11) := by not_written hostOps0_2
  have h2 : W2 m ρ c (Proc.devRef .tc main_arg11) = W1 m ρ c (Proc.devRef .tc main_arg11) := by not_written hostOps0_1
  have h1 : W1 m ρ c (Proc.devRef .tc main_arg11) = W0 m ρ c (Proc.devRef .tc main_arg11) := by not_written hostOps0
  exact h3.trans (h2.trans (h1.trans rfl))

/-- No host operation before the first region writes argument 12. -/
theorem entry_arg12 (c : Dev nD) :
    W3 m ρ c (Proc.devRef .tc main_arg12) = m ((c.tc : Thread nD τ).loc main_arg12) := by
  have h3 : W3 m ρ c (Proc.devRef .tc main_arg12) = W2 m ρ c (Proc.devRef .tc main_arg12) := by not_written hostOps0_2
  have h2 : W2 m ρ c (Proc.devRef .tc main_arg12) = W1 m ρ c (Proc.devRef .tc main_arg12) := by not_written hostOps0_1
  have h1 : W1 m ρ c (Proc.devRef .tc main_arg12) = W0 m ρ c (Proc.devRef .tc main_arg12) := by not_written hostOps0
  exact h3.trans (h2.trans (h1.trans rfl))

/-- Before the last stretch nothing writes argument 4. -/
theorem W2_arg4 (c : Dev nD) :
    W2 m ρ c (Proc.devRef .tc main_arg4) = m ((c.tc : Thread nD τ).loc main_arg4) := by
  have h2 : W2 m ρ c (Proc.devRef .tc main_arg4) = W1 m ρ c (Proc.devRef .tc main_arg4) := by not_written hostOps0_1
  have h1 : W1 m ρ c (Proc.devRef .tc main_arg4) = W0 m ρ c (Proc.devRef .tc main_arg4) := by not_written hostOps0
  exact h2.trans (h1.trans rfl)

/-- Before the last stretch nothing writes argument 8. -/
theorem W2_arg8 (c : Dev nD) :
    W2 m ρ c (Proc.devRef .tc main_arg8) = m ((c.tc : Thread nD τ).loc main_arg8) := by
  have h2 : W2 m ρ c (Proc.devRef .tc main_arg8) = W1 m ρ c (Proc.devRef .tc main_arg8) := by not_written hostOps0_1
  have h1 : W1 m ρ c (Proc.devRef .tc main_arg8) = W0 m ρ c (Proc.devRef .tc main_arg8) := by not_written hostOps0
  exact h2.trans (h1.trans rfl)

/-- The first weight matrix converted to the narrower format: at the extended reals the conversion is the identity. -/
theorem entry_w1 (c : Dev nD) (i : S624x400.Idx) :
    (show FVec Ideal S624x400 .bf16 from W3 m ρ c (Proc.devRef .tc main_v47)) i
      = m ((c.tc : Thread nD τ).loc main_arg4) i := by
  have h : W3 m ρ c (Proc.devRef .tc main_v47)
      = (truncf .bf16 · bitsLt_bf16_f32 : FVec Ideal S624x400 .f32 → FVec Ideal S624x400 .bf16)
          (W2 m ρ c (Proc.devRef .tc main_arg4)) := by
    show StableHlo.after hostOps0_2 (W2 m ρ c) (Proc.devRef .tc main_v47) = _
    after_results
  rw [h, W2_arg4]
  rfl

/-- The second weight matrix converted to the narrower format: the identity again. -/
theorem entry_w2 (c : Dev nD) (i : S400x400.Idx) :
    (show FVec Ideal S400x400 .bf16 from W3 m ρ c (Proc.devRef .tc main_v48)) i
      = m ((c.tc : Thread nD τ).loc main_arg8) i := by
  have h : W3 m ρ c (Proc.devRef .tc main_v48)
      = (truncf .bf16 · bitsLt_bf16_f32 : FVec Ideal S400x400 .f32 → FVec Ideal S400x400 .bf16)
          (W2 m ρ c (Proc.devRef .tc main_arg8)) := by
    show StableHlo.after hostOps0_2 (W2 m ρ c) (Proc.devRef .tc main_v48) = _
    after_results
  rw [h, W2_arg8]
  rfl

end Cert.KernelIdeal.Host

end
-- ==== Proof.HostEntryDeep.lean ====
/-
  What the idealized kernel program's first stretch of host operations leaves in two buffers its first region reads:
  the flat embedding products and the first-order row sums. Both are the reference's terms of the same argument
  arrays.

  The kernel program builds the index pairs (field, table row) by wrapping negative field numbers AFTER broadcasting
  them to every row, the reference BEFORE; every operation involved is pointwise or a broadcast, so the two index
  arrays are the same function, and the gathers, the products, the row sums and the reshape over them are the same terms.
-/
import proofs.«171042_j1391569404529_2_alg».proof.Proof.Gen.KernelIdeal.Frame
import proofs.«171042_j1391569404529_2_alg».proof.Proof.RefTerms
import proofs.«171042_j1391569404529_2_alg».proof.Proof.HostEntryArgs
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.KernelIdeal.Host

open Cert.KernelIdeal Cert.KernelIdeal.Gen Idealize.ShloMosaic.ValueIdx

variable (m : (ℓ : Loc nD τ sig) → Buf (Elt Ideal) ℓ) (ρ : Dev nD → PrngReg) [Cert.ReferenceIdeal.Facts]

/-- Two index columns joined along the last axis. -/
def cat2 (a b : IVec S16384x39x1 32) : IVec S16384x39x2 32 :=
  concatenate S16384x39x2 2 [⟨S16384x39x1, a⟩, ⟨S16384x39x1, b⟩] Gen.concatenates_S16384x39x1_S16384x39x1_S16384x39x2_d2

theorem cat2_eq (a b : IVec S16384x39x1 32) (h : Shape.Concatenates [S16384x39x1, S16384x39x1] S16384x39x2 2) :
    concatenate S16384x39x2 2 [⟨S16384x39x1, a⟩, ⟨S16384x39x1, b⟩] h = cat2 a b := rfl

open StableHlo in
/-- The results of a stretch of host operations in one pass, the joins of two index columns kept folded. -/
macro "host_results" : tactic =>
  `(tactic| (simp (disch := decide) only [after_cons, after_nil, cat2_eq,
      nullary_result', unary_result', binary_result', ternary_result', quaternary_result', reshape_result',
      nullary_result_ne', unary_result_ne', binary_result_ne', ternary_result_ne', quaternary_result_ne', reshape_result_ne']))

/-- Nothing after the first stretch writes the flat embedding products. -/
theorem v37_W1 (c : Dev nD) : W3 m ρ c (Proc.devRef .tc main_v37) = W1 m ρ c (Proc.devRef .tc main_v37) := by
  have h2 : W3 m ρ c (Proc.devRef .tc main_v37) = W2 m ρ c (Proc.devRef .tc main_v37) := by not_written hostOps0_2
  have h1 : W2 m ρ c (Proc.devRef .tc main_v37) = W1 m ρ c (Proc.devRef .tc main_v37) := by not_written hostOps0_1
  exact h2.trans h1

/-- Nothing after the first stretch writes the first-order row sums. -/
theorem v33_W1 (c : Dev nD) : W3 m ρ c (Proc.devRef .tc main_v33) = W1 m ρ c (Proc.devRef .tc main_v33) := by
  have h2 : W3 m ρ c (Proc.devRef .tc main_v33) = W2 m ρ c (Proc.devRef .tc main_v33) := by not_written hostOps0_2
  have h1 : W2 m ρ c (Proc.devRef .tc main_v33) = W1 m ρ c (Proc.devRef .tc main_v33) := by not_written hostOps0_1
  exact h2.trans h1

/-- The flat embedding products over ANY array of index pairs equal to the reference's are the reference's. -/
theorem deep_of_pair (a0 : IVec S16384x39x1 32) (a1 : FVec Ideal S16384x39 .f32) (a3 : FVec Ideal S39x100001x16 .f32)
    (K : IVec S16384x39x2 32) (hK : K = Cert.ReferenceIdeal.RefValue.pairIdx a0) :
    (fun i => shapeCast S16384x624
        (mulf (Host.gather gather_S39x100001x16_S16384x39x2_S16384x39x16_2_01_n_n_01_2_1116 a3 K)
          (broadcastInDim S16384x39x16 ![0, 1, 2] Gen.bcast_S16384x39x1_S16384x39x16_0_1_2
            (broadcastInDim S16384x39x1 ![0, 1] Gen.bcast_S16384x39_S16384x39x1_0_1 a1)))
        Gen.shapeCasts_S16384x39x16_S16384x624 i)
      = Cert.ReferenceIdeal.RefValue.deep a0 a1 a3 := by
  subst hK
  rfl

set_option maxHeartbeats 1000000 in
theorem entry_deep (c : Dev nD) :
    (show FVec Ideal S16384x624 .f32 from W3 m ρ c (Proc.devRef .tc main_v37))
      = Cert.ReferenceIdeal.RefValue.deep (m ((c.tc : Thread nD τ).loc main_arg0)) (m ((c.tc : Thread nD τ).loc main_arg1))
          (m ((c.tc : Thread nD τ).loc main_arg3)) := by
  rw [v37_W1]
  show StableHlo.after hostOps0 (W0 m ρ c) (Proc.devRef .tc main_v37) = _
  host_results
  refine deep_of_pair (m ((c.tc : Thread nD τ).loc main_arg0)) (m ((c.tc : Thread nD τ).loc main_arg1))
    (m ((c.tc : Thread nD τ).loc main_arg3)) _ ?_
  rfl

/-- The first-order row sums over ANY array of index pairs equal to the reference's are the reference's. -/
theorem rowOne_of_pair (a0 : IVec S16384x39x1 32) (a1 : FVec Ideal S16384x39 .f32) (a2 : FVec Ideal S39x100001 .f32)
    (K : IVec S16384x39x2 32) (hK : K = Cert.ReferenceIdeal.RefValue.pairIdx a0) :
    Host.reduceAdd (mulf (Host.gather gather_S39x100001_S16384x39x2_S16384x39_n_01_n_n_01_2_11 a2 K) a1)
        (constant (F := Ideal) S_ .f32 0x00000000#32) Gen.reducesTo_S16384x39_S16384_d1 Gen.h_S_
      = Cert.ReferenceIdeal.RefValue.rowOne a0 a1 a2 := by
  subst hK
  rfl

set_option maxHeartbeats 1000000 in
theorem entry_rowOne (c : Dev nD) :
    (show FVec Ideal S16384 .f32 from W3 m ρ c (Proc.devRef .tc main_v33))
      = Cert.ReferenceIdeal.RefValue.rowOne (m ((c.tc : Thread nD τ).loc main_arg0)) (m ((c.tc : Thread nD τ).loc main_arg1))
          (m ((c.tc : Thread nD τ).loc main_arg2)) := by
  rw [v33_W1]
  show StableHlo.after hostOps0 (W0 m ρ c) (Proc.devRef .tc main_v33) = _
  host_results
  refine rowOne_of_pair (m ((c.tc : Thread nD τ).loc main_arg0)) (m ((c.tc : Thread nD τ).loc main_arg1))
    (m ((c.tc : Thread nD τ).loc main_arg2)) _ ?_
  rfl

end Cert.KernelIdeal.Host

end
-- ==== Proof.HostEntrySeg.lean ====
/-
  What the idealized kernel program's host operations leave in the 0/1 indicator matrix its first region reads:
  entry `(d, e)` is `1` when `d % 16 = e` and `0` otherwise.

  The matrix is built from the numbers `0 … 623`, their remainders by 16 (a signed remainder followed by the sign
  corrections of a floored remainder, which change nothing at a dividend `0 ≤ d < 624` and the divisor 16), a comparison
  with the numbers `0 … 15`, and a conversion of the truth value to a float. The column of remainders is a closed
  term of machine words: that it holds `n % 16` at row `n` is decided row by row.
-/
import proofs.«171042_j1391569404529_2_alg».proof.Proof.Gen.KernelIdeal.Frame
import proofs.«171042_j1391569404529_2_alg».proof.Proof.RefTerms
import proofs.«171042_j1391569404529_2_alg».proof.Proof.HostEntryArgs
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.KernelIdeal.Host

open Cert.KernelIdeal Cert.KernelIdeal.Gen Idealize.ShloMosaic.ValueIdx

variable (m : (ℓ : Loc nD τ sig) → Buf (Elt Ideal) ℓ) (ρ : Dev nD → PrngReg) [Cert.ReferenceIdeal.Facts]

open StableHlo in
/-- The results of a stretch of host operations in one pass. -/
macro "host_results0" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne']))

/-- Two words below 16 compare equal exactly when the numbers are equal. -/
theorem cmpi_eq_small : ∀ a b : Fin 16,
    IntOp.cmpi .eq (BitVec.ofNat 32 a.val) (BitVec.ofNat 32 b.val) = BitVec.ofBool (decide (a.val = b.val)) := by decide

/-- The indicator matrix from ANY column of words that holds `n % 16` at row `n`: entry `(d, e)` is `1` when
    `d % 16 = e` and `0` otherwise. The column is broadcast along the 16 columns, the numbers `0 … 15` along the 624 rows,
    the two are compared for equality, and the truth value is converted to a float. -/
theorem seg_of_col (VV : IVec S624 32) (hV : ∀ n : Fin 624, VV (ix1 n) = BitVec.ofNat 32 (n.val % 16))
    (d : Fin 624) (e : Fin 16) :
    (uitofp .f32
        (cmpi .eq
          (broadcastInDim S624x16 ![0, 1] Gen.bcast_S624x1_S624x16_0_1 (broadcastInDim S624x1 ![0] Gen.bcast_S624_S624x1_0 VV))
          (broadcastInDim S624x16 ![0, 1] Gen.bcast_S1x16_S624x16_0_1
            (broadcastInDim S1x16 ![1] Gen.bcast_S16_S1x16_1 (iotaInDim S16 32 0)))) : FVec Ideal S624x16 .f32) (ix2 d e)
      = if d.val % 16 = e.val then 1 else 0 := by
  have h1 : broadcastInDim S624x16 ![0, 1] Gen.bcast_S624x1_S624x16_0_1
      (broadcastInDim S624x1 ![0] Gen.bcast_S624_S624x1_0 VV) (ix2 d e) = VV (ix1 d) :=
    congrArg VV (funext fun a => match a with | ⟨0, _⟩ => rfl)
  have h2 : broadcastInDim S624x16 ![0, 1] Gen.bcast_S1x16_S624x16_0_1
      (broadcastInDim S1x16 ![1] Gen.bcast_S16_S1x16_1 (iotaInDim S16 32 0)) (ix2 d e) = BitVec.ofNat 32 e.val := rfl
  have hw : cmpi .eq
      (broadcastInDim S624x16 ![0, 1] Gen.bcast_S624x1_S624x16_0_1 (broadcastInDim S624x1 ![0] Gen.bcast_S624_S624x1_0 VV))
      (broadcastInDim S624x16 ![0, 1] Gen.bcast_S1x16_S624x16_0_1
        (broadcastInDim S1x16 ![1] Gen.bcast_S16_S1x16_1 (iotaInDim S16 32 0))) (ix2 d e)
      = BitVec.ofBool (decide (d.val % 16 = e.val)) := by
    show IntOp.cmpi .eq
      (broadcastInDim S624x16 ![0, 1] Gen.bcast_S624x1_S624x16_0_1 (broadcastInDim S624x1 ![0] Gen.bcast_S624_S624x1_0 VV) (ix2 d e))
      (broadcastInDim S624x16 ![0, 1] Gen.bcast_S1x16_S624x16_0_1
        (broadcastInDim S1x16 ![1] Gen.bcast_S16_S1x16_1 (iotaInDim S16 32 0)) (ix2 d e)) = _
    rw [h1, h2, hV d]
    exact cmpi_eq_small ⟨d.val % 16, Nat.mod_lt _ (by norm_num)⟩ e
  show (((cmpi .eq
      (broadcastInDim S624x16 ![0, 1] Gen.bcast_S624x1_S624x16_0_1 (broadcastInDim S624x1 ![0] Gen.bcast_S624_S624x1_0 VV))
      (broadcastInDim S624x16 ![0, 1] Gen.bcast_S1x16_S624x16_0_1
        (broadcastInDim S1x16 ![1] Gen.bcast_S16_S1x16_1 (iotaInDim S16 32 0))) (ix2 d e)).toNat : ℝ) : EReal) = _
  rw [hw]
  by_cases hde : d.val % 16 = e.val <;> simp [hde]

set_option maxHeartbeats 1000000 in
theorem entry_seg (c : Dev nD) (d : Fin 624) (e : Fin 16) :
    (show FVec Ideal S624x16 .f32 from W3 m ρ c (Proc.devRef .tc main_v46)) (ix2 d e)
      = if d.val % 16 = e.val then 1 else 0 := by
  show StableHlo.after hostOps0_2 (W2 m ρ c) (Proc.devRef .tc main_v46) (ix2 d e) = _
  host_results0
  refine seg_of_col _ ?_ d e
  decide +kernel

end Cert.KernelIdeal.Host

end
-- ==== Proof.KernelValue.lean ====
/-
  The idealized kernel's result in terms of the argument arrays: the kernel's spelling of the score, over the
  embedding products and first-order sums the reference also computes (the two programs build them by the same
  gathers), the 0/1 indicator matrix of the embedding coordinate, and the layers' parameters.
-/
import proofs.«171042_j1391569404529_2_alg».proof.Proof.KernelStages
import proofs.«171042_j1391569404529_2_alg».proof.Proof.HostEntryDeep
import proofs.«171042_j1391569404529_2_alg».proof.Proof.HostEntrySeg

set_option maxRecDepth 16384

noncomputable section

open Idealize.ShloMosaic Idealize.ShloMosaic.TcCoe Idealize.SL.Sem
open scoped BigOperators

namespace Cert.KernelIdeal.Value

open Cert.KernelIdeal Cert.KernelIdeal.Gen Idealize.ShloMosaic.ValueIdx Cert.DeepFM Cert.ReferenceIdeal.RefValue

variable (m : (ℓ : Loc nD τ sig) → Buf (Elt Ideal) ℓ) (ρ : Dev nD → PrngReg) (c : Dev nD) [Cert.ReferenceIdeal.Facts]

theorem De_eq : De m ρ c = fun n d => deep (m ((c.tc : Thread nD τ).loc main_arg0)) (m ((c.tc : Thread nD τ).loc main_arg1)) (m ((c.tc : Thread nD τ).loc main_arg3)) (ix2 n d) := by
  funext n d; exact congrFun (Host.entry_deep m ρ c) (ix2 n d)
theorem Sge_eq : Sge m ρ c = fun d e => if d.val % 16 = e.val then 1 else 0 := by
  funext d e; exact Host.entry_seg m ρ c d e
theorem r1e_eq : r1e m ρ c = fun n => rowOne (m ((c.tc : Thread nD τ).loc main_arg0)) (m ((c.tc : Thread nD τ).loc main_arg1)) (m ((c.tc : Thread nD τ).loc main_arg2)) (ix1 n) := by
  funext n; exact congrFun (Host.entry_rowOne m ρ c) (ix1 n)
theorem W1e_eq : W1e m ρ c = fun k j => (show FVec Ideal S624x400 .f32 from m ((c.tc : Thread nD τ).loc main_arg4)) (ix2 k j) := by
  funext k j; exact Host.entry_w1 m ρ c (ix2 k j)
theorem W2e_eq : W2e m ρ c = fun k j => (show FVec Ideal S400x400 .f32 from m ((c.tc : Thread nD τ).loc main_arg8)) (ix2 k j) := by
  funext k j; exact Host.entry_w2 m ρ c (ix2 k j)
theorem b1e_eq : b1e m ρ c = fun j => (show FVec Ideal S400 .f32 from m ((c.tc : Thread nD τ).loc main_arg5)) (ix1 j) := by
  funext j; exact congrFun (Host.entry_arg5 m ρ c) (ix1 j)
theorem g1e_eq : g1e m ρ c = fun j => (show FVec Ideal S400 .f32 from m ((c.tc : Thread nD τ).loc main_arg6)) (ix1 j) := by
  funext j; exact congrFun (Host.entry_arg6 m ρ c) (ix1 j)
theorem be1e_eq : be1e m ρ c = fun j => (show FVec Ideal S400 .f32 from m ((c.tc : Thread nD τ).loc main_arg7)) (ix1 j) := by
  funext j; exact congrFun (Host.entry_arg7 m ρ c) (ix1 j)
theorem b2e_eq : b2e m ρ c = fun j => (show FVec Ideal S400 .f32 from m ((c.tc : Thread nD τ).loc main_arg9)) (ix1 j) := by
  funext j; exact congrFun (Host.entry_arg9 m ρ c) (ix1 j)
theorem g2e_eq : g2e m ρ c = fun j => (show FVec Ideal S400 .f32 from m ((c.tc : Thread nD τ).loc main_arg10)) (ix1 j) := by
  funext j; exact congrFun (Host.entry_arg10 m ρ c) (ix1 j)
theorem be2e_eq : be2e m ρ c = fun j => (show FVec Ideal S400 .f32 from m ((c.tc : Thread nD τ).loc main_arg11)) (ix1 j) := by
  funext j; exact congrFun (Host.entry_arg11 m ρ c) (ix1 j)
theorem biase_eq : biase m ρ c = (show FVec Ideal S1 .f32 from m ((c.tc : Thread nD τ).loc main_arg12)) (ix1 0) :=
  congrFun (Host.entry_arg12 m ρ c) (ix1 0)

/-- The kernel's result at row `n`. -/
theorem value (n : Fin 16384) :
    (show FVec Ideal S16384 .f32 from W9 m ρ c (Proc.devRef .tc main_v70)) (ix1 n)
      = outKer cN Pay.cEps Pay.cHalf
          (fun n d => deep (m ((c.tc : Thread nD τ).loc main_arg0)) (m ((c.tc : Thread nD τ).loc main_arg1)) (m ((c.tc : Thread nD τ).loc main_arg3)) (ix2 n d))
          (fun d e => if d.val % 16 = e.val then 1 else 0)
          (fun n => rowOne (m ((c.tc : Thread nD τ).loc main_arg0)) (m ((c.tc : Thread nD τ).loc main_arg1)) (m ((c.tc : Thread nD τ).loc main_arg2)) (ix1 n))
          (fun k j => (show FVec Ideal S624x400 .f32 from m ((c.tc : Thread nD τ).loc main_arg4)) (ix2 k j))
          (fun j => (show FVec Ideal S400 .f32 from m ((c.tc : Thread nD τ).loc main_arg5)) (ix1 j))
          (fun j => (show FVec Ideal S400 .f32 from m ((c.tc : Thread nD τ).loc main_arg6)) (ix1 j))
          (fun j => (show FVec Ideal S400 .f32 from m ((c.tc : Thread nD τ).loc main_arg7)) (ix1 j))
          (fun k j => (show FVec Ideal S400x400 .f32 from m ((c.tc : Thread nD τ).loc main_arg8)) (ix2 k j))
          (fun j => (show FVec Ideal S400 .f32 from m ((c.tc : Thread nD τ).loc main_arg9)) (ix1 j))
          (fun j => (show FVec Ideal S400 .f32 from m ((c.tc : Thread nD τ).loc main_arg10)) (ix1 j))
          (fun j => (show FVec Ideal S400 .f32 from m ((c.tc : Thread nD τ).loc main_arg11)) (ix1 j))
          ((show FVec Ideal S1 .f32 from m ((c.tc : Thread nD τ).loc main_arg12)) (ix1 0)) n := by
  rw [value_raw, De_eq, Sge_eq, r1e_eq, W1e_eq, W2e_eq, b1e_eq, g1e_eq, be1e_eq, b2e_eq, g2e_eq, be2e_eq, biase_eq]

end Cert.KernelIdeal.Value

end
-- ==== Proof.RefOps.lean ====
/-
  The reference program as one straight line of host operations, and its run.

  The program's three windows run in order; its two calls of the variance function (each with a nested call of the
  selecting function) are unfolded at the call sites, the called functions' operations written over the call's own
  buffers. Every weakly fair execution of the line terminates, and each buffer ends at the fold of the operations'
  results over the launch contents.
-/
import proofs.«171042_j1391569404529_2_alg».proof.ReferenceIdeal
import Idealize.ShloMosaic.Lib.StableHlo.Run

noncomputable section

namespace Cert.ReferenceIdeal.RefValue

open Idealize.ShloMosaic Idealize.ShloMosaic.TcCoe Idealize.SL.Sem Idealize.ShloMosaic.StableHlo
open Cert.ReferenceIdeal Cert.ReferenceIdeal.Facts₀

variable [Cert.ReferenceIdeal.Facts]

variable {F : FTy → Type} [FloatOps F]

/-- The program's 163 operations in order, the calls unfolded. -/
abbrev ops : List (HloOp τ sig (Elt F)) :=
  [ StableHlo.reshape main_arg0 main_v0 rfl shapeCasts_S16384x39x1_S16384x39,
    StableHlo.nullary main_v1 (iotaInDim S39 32 0),
    StableHlo.unary main_v1 main_v2 (broadcastInDim S1x39 ![1] bcast_S39_S1x39_1 : (⟨S39, .i32⟩ : BufTy).Contents (Elt F) → (⟨S1x39, .i32⟩ : BufTy).Contents (Elt F)),
    StableHlo.nullary main_c (constantI S_ 32 0#32),
    StableHlo.unary main_c main_v3 (broadcastInDim S1x39 ![] bcast_S_S1x39 : (⟨S_, .i32⟩ : BufTy).Contents (Elt F) → (⟨S1x39, .i32⟩ : BufTy).Contents (Elt F)),
    StableHlo.binary main_v2 main_v3 main_v4 (cmpi .slt : (⟨S1x39, .i32⟩ : BufTy).Contents (Elt F) → (⟨S1x39, .i32⟩ : BufTy).Contents (Elt F) → (⟨S1x39, .i1⟩ : BufTy).Contents (Elt F)),
    StableHlo.nullary main_c_0 (constantI S_ 32 39#32),
    StableHlo.unary main_c_0 main_v5 (broadcastInDim S1x39 ![] bcast_S_S1x39 : (⟨S_, .i32⟩ : BufTy).Contents (Elt F) → (⟨S1x39, .i32⟩ : BufTy).Contents (Elt F)),
    StableHlo.binary main_v2 main_v5 main_v6 (addi : (⟨S1x39, .i32⟩ : BufTy).Contents (Elt F) → (⟨S1x39, .i32⟩ : BufTy).Contents (Elt F) → (⟨S1x39, .i32⟩ : BufTy).Contents (Elt F)),
    StableHlo.ternary main_v4 main_v6 main_v2 main_v7 (select : (⟨S1x39, .i1⟩ : BufTy).Contents (Elt F) → (⟨S1x39, .i32⟩ : BufTy).Contents (Elt F) → (⟨S1x39, .i32⟩ : BufTy).Contents (Elt F) → (⟨S1x39, .i32⟩ : BufTy).Contents (Elt F)),
    StableHlo.nullary main_c_1 (constantI S_ 32 0#32),
    StableHlo.unary main_c_1 main_v8 (broadcastInDim S16384x39 ![] bcast_S_S16384x39 : (⟨S_, .i32⟩ : BufTy).Contents (Elt F) → (⟨S16384x39, .i32⟩ : BufTy).Contents (Elt F)),
    StableHlo.binary main_v0 main_v8 main_v9 (cmpi .slt : (⟨S16384x39, .i32⟩ : BufTy).Contents (Elt F) → (⟨S16384x39, .i32⟩ : BufTy).Contents (Elt F) → (⟨S16384x39, .i1⟩ : BufTy).Contents (Elt F)),
    StableHlo.nullary main_c_2 (constantI S_ 32 100001#32),
    StableHlo.unary main_c_2 main_v10 (broadcastInDim S16384x39 ![] bcast_S_S16384x39 : (⟨S_, .i32⟩ : BufTy).Contents (Elt F) → (⟨S16384x39, .i32⟩ : BufTy).Contents (Elt F)),
    StableHlo.binary main_v0 main_v10 main_v11 (addi : (⟨S16384x39, .i32⟩ : BufTy).Contents (Elt F) → (⟨S16384x39, .i32⟩ : BufTy).Contents (Elt F) → (⟨S16384x39, .i32⟩ : BufTy).Contents (Elt F)),
    StableHlo.ternary main_v9 main_v11 main_v0 main_v12 (select : (⟨S16384x39, .i1⟩ : BufTy).Contents (Elt F) → (⟨S16384x39, .i32⟩ : BufTy).Contents (Elt F) → (⟨S16384x39, .i32⟩ : BufTy).Contents (Elt F) → (⟨S16384x39, .i32⟩ : BufTy).Contents (Elt F)),
    StableHlo.unary main_v7 main_v13 (broadcastInDim S16384x39 ![0, 1] bcast_S1x39_S16384x39_0_1 : (⟨S1x39, .i32⟩ : BufTy).Contents (Elt F) → (⟨S16384x39, .i32⟩ : BufTy).Contents (Elt F)),
    StableHlo.unary main_v13 main_v14 (broadcastInDim S16384x39x1 ![0, 1] bcast_S16384x39_S16384x39x1_0_1 : (⟨S16384x39, .i32⟩ : BufTy).Contents (Elt F) → (⟨S16384x39x1, .i32⟩ : BufTy).Contents (Elt F)),
    StableHlo.unary main_v12 main_v15 (broadcastInDim S16384x39x1 ![0, 1] bcast_S16384x39_S16384x39x1_0_1 : (⟨S16384x39, .i32⟩ : BufTy).Contents (Elt F) → (⟨S16384x39x1, .i32⟩ : BufTy).Contents (Elt F)),
    StableHlo.binary main_v14 main_v15 main_v16 ((fun a b => concatenate S16384x39x2 2 [⟨S16384x39x1, a⟩, ⟨S16384x39x1, b⟩] concatenates_S16384x39x1_S16384x39x1_S16384x39x2_d2) : (⟨S16384x39x1, .i32⟩ : BufTy).Contents (Elt F) → (⟨S16384x39x1, .i32⟩ : BufTy).Contents (Elt F) → (⟨S16384x39x2, .i32⟩ : BufTy).Contents (Elt F)),
    StableHlo.binary main_arg2 main_v16 main_v17 ((fun x i => Host.gather gather_S39x100001_S16384x39x2_S16384x39_n_01_n_n_01_2_11 x i) : (⟨S39x100001, .f32⟩ : BufTy).Contents (Elt F) → (⟨S16384x39x2, .i32⟩ : BufTy).Contents (Elt F) → (⟨S16384x39, .f32⟩ : BufTy).Contents (Elt F)),
    StableHlo.binary main_v17 main_arg1 main_v18 (mulf : (⟨S16384x39, .f32⟩ : BufTy).Contents (Elt F) → (⟨S16384x39, .f32⟩ : BufTy).Contents (Elt F) → (⟨S16384x39, .f32⟩ : BufTy).Contents (Elt F)),
    StableHlo.nullary main_c_3 (constantI S_ 32 0#32),
    StableHlo.unary main_c_3 main_v19 (broadcastInDim S1x39 ![] bcast_S_S1x39 : (⟨S_, .i32⟩ : BufTy).Contents (Elt F) → (⟨S1x39, .i32⟩ : BufTy).Contents (Elt F)),
    StableHlo.binary main_v2 main_v19 main_v20 (cmpi .slt : (⟨S1x39, .i32⟩ : BufTy).Contents (Elt F) → (⟨S1x39, .i32⟩ : BufTy).Contents (Elt F) → (⟨S1x39, .i1⟩ : BufTy).Contents (Elt F)),
    StableHlo.nullary main_c_4 (constantI S_ 32 39#32),
    StableHlo.unary main_c_4 main_v21 (broadcastInDim S1x39 ![] bcast_S_S1x39 : (⟨S_, .i32⟩ : BufTy).Contents (Elt F) → (⟨S1x39, .i32⟩ : BufTy).Contents (Elt F)),
    StableHlo.binary main_v2 main_v21 main_v22 (addi : (⟨S1x39, .i32⟩ : BufTy).Contents (Elt F) → (⟨S1x39, .i32⟩ : BufTy).Contents (Elt F) → (⟨S1x39, .i32⟩ : BufTy).Contents (Elt F)),
    StableHlo.ternary main_v20 main_v22 main_v2 main_v23 (select : (⟨S1x39, .i1⟩ : BufTy).Contents (Elt F) → (⟨S1x39, .i32⟩ : BufTy).Contents (Elt F) → (⟨S1x39, .i32⟩ : BufTy).Contents (Elt F) → (⟨S1x39, .i32⟩ : BufTy).Contents (Elt F)),
    StableHlo.nullary main_c_5 (constantI S_ 32 0#32),
    StableHlo.unary main_c_5 main_v24 (broadcastInDim S16384x39 ![] bcast_S_S16384x39 : (⟨S_, .i32⟩ : BufTy).Contents (Elt F) → (⟨S16384x39, .i32⟩ : BufTy).Contents (Elt F)),
    StableHlo.binary main_v0 main_v24 main_v25 (cmpi .slt : (⟨S16384x39, .i32⟩ : BufTy).Contents (Elt F) → (⟨S16384x39, .i32⟩ : BufTy).Contents (Elt F) → (⟨S16384x39, .i1⟩ : BufTy).Contents (Elt F)),
    StableHlo.nullary main_c_6 (constantI S_ 32 100001#32),
    StableHlo.unary main_c_6 main_v26 (broadcastInDim S16384x39 ![] bcast_S_S16384x39 : (⟨S_, .i32⟩ : BufTy).Contents (Elt F) → (⟨S16384x39, .i32⟩ : BufTy).Contents (Elt F)),
    StableHlo.binary main_v0 main_v26 main_v27 (addi : (⟨S16384x39, .i32⟩ : BufTy).Contents (Elt F) → (⟨S16384x39, .i32⟩ : BufTy).Contents (Elt F) → (⟨S16384x39, .i32⟩ : BufTy).Contents (Elt F)),
    StableHlo.ternary main_v25 main_v27 main_v0 main_v28 (select : (⟨S16384x39, .i1⟩ : BufTy).Contents (Elt F) → (⟨S16384x39, .i32⟩ : BufTy).Contents (Elt F) → (⟨S16384x39, .i32⟩ : BufTy).Contents (Elt F) → (⟨S16384x39, .i32⟩ : BufTy).Contents (Elt F)),
    StableHlo.unary main_v23 main_v29 (broadcastInDim S16384x39 ![0, 1] bcast_S1x39_S16384x39_0_1 : (⟨S1x39, .i32⟩ : BufTy).Contents (Elt F) → (⟨S16384x39, .i32⟩ : BufTy).Contents (Elt F)),
    StableHlo.unary main_v29 main_v30 (broadcastInDim S16384x39x1 ![0, 1] bcast_S16384x39_S16384x39x1_0_1 : (⟨S16384x39, .i32⟩ : BufTy).Contents (Elt F) → (⟨S16384x39x1, .i32⟩ : BufTy).Contents (Elt F)),
    StableHlo.unary main_v28 main_v31 (broadcastInDim S16384x39x1 ![0, 1] bcast_S16384x39_S16384x39x1_0_1 : (⟨S16384x39, .i32⟩ : BufTy).Contents (Elt F) → (⟨S16384x39x1, .i32⟩ : BufTy).Contents (Elt F)),
    StableHlo.binary main_v30 main_v31 main_v32 ((fun a b => concatenate S16384x39x2 2 [⟨S16384x39x1, a⟩, ⟨S16384x39x1, b⟩] concatenates_S16384x39x1_S16384x39x1_S16384x39x2_d2) : (⟨S16384x39x1, .i32⟩ : BufTy).Contents (Elt F) → (⟨S16384x39x1, .i32⟩ : BufTy).Contents (Elt F) → (⟨S16384x39x2, .i32⟩ : BufTy).Contents (Elt F)),
    StableHlo.binary main_arg3 main_v32 main_v33 ((fun x i => Host.gather gather_S39x100001x16_S16384x39x2_S16384x39x16_2_01_n_n_01_2_1116 x i) : (⟨S39x100001x16, .f32⟩ : BufTy).Contents (Elt F) → (⟨S16384x39x2, .i32⟩ : BufTy).Contents (Elt F) → (⟨S16384x39x16, .f32⟩ : BufTy).Contents (Elt F)),
    StableHlo.unary main_arg1 main_v34 (broadcastInDim S16384x39x1 ![0, 1] bcast_S16384x39_S16384x39x1_0_1 : (⟨S16384x39, .f32⟩ : BufTy).Contents (Elt F) → (⟨S16384x39x1, .f32⟩ : BufTy).Contents (Elt F)),
    StableHlo.unary main_v34 main_v35 (broadcastInDim S16384x39x16 ![0, 1, 2] bcast_S16384x39x1_S16384x39x16_0_1_2 : (⟨S16384x39x1, .f32⟩ : BufTy).Contents (Elt F) → (⟨S16384x39x16, .f32⟩ : BufTy).Contents (Elt F)),
    StableHlo.binary main_v33 main_v35 main_v36 (mulf : (⟨S16384x39x16, .f32⟩ : BufTy).Contents (Elt F) → (⟨S16384x39x16, .f32⟩ : BufTy).Contents (Elt F) → (⟨S16384x39x16, .f32⟩ : BufTy).Contents (Elt F)),
    StableHlo.nullary main_cst (constant S_ .f32 0x00000000#32),
    StableHlo.binary main_v36 main_cst main_v37 ((fun x v => Host.reduceAdd x v reducesTo_S16384x39x16_S16384x16_d1 h_S_) : (⟨S16384x39x16, .f32⟩ : BufTy).Contents (Elt F) → (⟨S_, .f32⟩ : BufTy).Contents (Elt F) → (⟨S16384x16, .f32⟩ : BufTy).Contents (Elt F)),
    StableHlo.binary main_v37 main_v37 main_v38 (mulf : (⟨S16384x16, .f32⟩ : BufTy).Contents (Elt F) → (⟨S16384x16, .f32⟩ : BufTy).Contents (Elt F) → (⟨S16384x16, .f32⟩ : BufTy).Contents (Elt F)),
    StableHlo.binary main_v36 main_v36 main_v39 (mulf : (⟨S16384x39x16, .f32⟩ : BufTy).Contents (Elt F) → (⟨S16384x39x16, .f32⟩ : BufTy).Contents (Elt F) → (⟨S16384x39x16, .f32⟩ : BufTy).Contents (Elt F)),
    StableHlo.nullary main_cst_7 (constant S_ .f32 0x00000000#32),
    StableHlo.binary main_v39 main_cst_7 main_v40 ((fun x v => Host.reduceAdd x v reducesTo_S16384x39x16_S16384x16_d1 h_S_) : (⟨S16384x39x16, .f32⟩ : BufTy).Contents (Elt F) → (⟨S_, .f32⟩ : BufTy).Contents (Elt F) → (⟨S16384x16, .f32⟩ : BufTy).Contents (Elt F)),
    StableHlo.binary main_v38 main_v40 main_v41 (subf : (⟨S16384x16, .f32⟩ : BufTy).Contents (Elt F) → (⟨S16384x16, .f32⟩ : BufTy).Contents (Elt F) → (⟨S16384x16, .f32⟩ : BufTy).Contents (Elt F)),
    StableHlo.nullary main_cst_8 (constant S_ .f32 0x3F000000#32),
    StableHlo.unary main_cst_8 main_v42 (broadcastInDim S16384x16 ![] bcast_S_S16384x16 : (⟨S_, .f32⟩ : BufTy).Contents (Elt F) → (⟨S16384x16, .f32⟩ : BufTy).Contents (Elt F)),
    StableHlo.binary main_v42 main_v41 main_v43 (mulf : (⟨S16384x16, .f32⟩ : BufTy).Contents (Elt F) → (⟨S16384x16, .f32⟩ : BufTy).Contents (Elt F) → (⟨S16384x16, .f32⟩ : BufTy).Contents (Elt F)),
    StableHlo.reshape main_v36 main_v44 rfl shapeCasts_S16384x39x16_S16384x624,
    StableHlo.binary main_v44 main_arg4 main_v45 ((fun l r => Host.dotGeneral dot_S16384x624_S624x400_S16384x400_1_0_0_1_n_n none l r) : (⟨S16384x624, .f32⟩ : BufTy).Contents (Elt F) → (⟨S624x400, .f32⟩ : BufTy).Contents (Elt F) → (⟨S16384x400, .f32⟩ : BufTy).Contents (Elt F)),
    StableHlo.unary main_arg5 main_v46 (broadcastInDim S1x400 ![1] bcast_S400_S1x400_1 : (⟨S400, .f32⟩ : BufTy).Contents (Elt F) → (⟨S1x400, .f32⟩ : BufTy).Contents (Elt F)),
    StableHlo.unary main_v46 main_v47 (broadcastInDim S16384x400 ![0, 1] bcast_S1x400_S16384x400_0_1 : (⟨S1x400, .f32⟩ : BufTy).Contents (Elt F) → (⟨S16384x400, .f32⟩ : BufTy).Contents (Elt F)),
    StableHlo.binary main_v45 main_v47 main_v48 (addf : (⟨S16384x400, .f32⟩ : BufTy).Contents (Elt F) → (⟨S16384x400, .f32⟩ : BufTy).Contents (Elt F) → (⟨S16384x400, .f32⟩ : BufTy).Contents (Elt F)),
    StableHlo.nullary main_cst_9 (constant S_ .f32 0x00000000#32),
    StableHlo.binary main_v48 main_cst_9 main_v49 ((fun x v => Host.reduceAdd x v reducesTo_S16384x400_S400_d0 h_S_) : (⟨S16384x400, .f32⟩ : BufTy).Contents (Elt F) → (⟨S_, .f32⟩ : BufTy).Contents (Elt F) → (⟨S400, .f32⟩ : BufTy).Contents (Elt F)),
    StableHlo.nullary main_cst_10 (constant S_ .f32 0x46800000#32),
    StableHlo.unary main_cst_10 main_v50 (broadcastInDim S400 ![] bcast_S_S400 : (⟨S_, .f32⟩ : BufTy).Contents (Elt F) → (⟨S400, .f32⟩ : BufTy).Contents (Elt F)),
    StableHlo.binary main_v49 main_v50 main_v51 (Host.divf : (⟨S400, .f32⟩ : BufTy).Contents (Elt F) → (⟨S400, .f32⟩ : BufTy).Contents (Elt F) → (⟨S400, .f32⟩ : BufTy).Contents (Elt F)),
    StableHlo.nullary main_c_11 (constantI S_ 32 0#32),
    StableHlo.TRef.nullary main_call0.cst (constant S_ .f32 0x00000000#32),
    StableHlo.TRef.binary (.of main_v48 : StableHlo.TRef sig ⟨S16384x400, .f32⟩) main_call0.cst main_call0.v0 (fun x v => Host.reduceAdd x v reducesTo_S16384x400_S400_d0 h_S_),
    StableHlo.TRef.unary main_call0.v0 main_call0.v1 (broadcastInDim S1x400 ![1] bcast_S400_S1x400_1),
    StableHlo.TRef.nullary main_call0.cst_0 (constant S_ .f32 0x46800000#32),
    StableHlo.TRef.unary main_call0.cst_0 main_call0.v2 (broadcastInDim S1x400 ![] bcast_S_S1x400),
    StableHlo.TRef.binary main_call0.v1 main_call0.v2 main_call0.v3 Host.divf,
    StableHlo.TRef.unary main_call0.v3 main_call0.v4 (broadcastInDim S16384x400 ![0, 1] bcast_S1x400_S16384x400_0_1),
    StableHlo.TRef.binary (.of main_v48 : StableHlo.TRef sig ⟨S16384x400, .f32⟩) main_call0.v4 main_call0.v5 subf,
    StableHlo.TRef.binary main_call0.v5 main_call0.v5 main_call0.v6 mulf,
    StableHlo.TRef.unary (.of main_c_11 : StableHlo.TRef sig ⟨S_, .i32⟩) main_call0.v7 (sitofp .f32),
    StableHlo.TRef.nullary main_call0.cst_1 (constant S_ .f32 0x46800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x400_S400_d0 h_S_),
    StableHlo.TRef.unary main_call0.v8 main_call0.v10 (broadcastInDim S400 ![] bcast_S_S400),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S400 ![] bcast_S_S400),
    StableHlo.TRef.ternary main_call0.v12 main_call0.v11 main_call0.call0.v1 main_call0.call0.v2 (fun p a b => select (broadcastInDim S400 ![] bcast_S_S400 p) a b),
    StableHlo.unary main_v51 main_v53 (broadcastInDim S1x400 ![1] bcast_S400_S1x400_1 : (⟨S400, .f32⟩ : BufTy).Contents (Elt F) → (⟨S1x400, .f32⟩ : BufTy).Contents (Elt F)),
    StableHlo.unary main_v53 main_v54 (broadcastInDim S16384x400 ![0, 1] bcast_S1x400_S16384x400_0_1 : (⟨S1x400, .f32⟩ : BufTy).Contents (Elt F) → (⟨S16384x400, .f32⟩ : BufTy).Contents (Elt F)),
    StableHlo.binary main_v48 main_v54 main_v55 (subf : (⟨S16384x400, .f32⟩ : BufTy).Contents (Elt F) → (⟨S16384x400, .f32⟩ : BufTy).Contents (Elt F) → (⟨S16384x400, .f32⟩ : BufTy).Contents (Elt F)),
    StableHlo.unary main_arg6 main_v56 (broadcastInDim S1x400 ![1] bcast_S400_S1x400_1 : (⟨S400, .f32⟩ : BufTy).Contents (Elt F) → (⟨S1x400, .f32⟩ : BufTy).Contents (Elt F)),
    StableHlo.unary main_v56 main_v57 (broadcastInDim S16384x400 ![0, 1] bcast_S1x400_S16384x400_0_1 : (⟨S1x400, .f32⟩ : BufTy).Contents (Elt F) → (⟨S16384x400, .f32⟩ : BufTy).Contents (Elt F)),
    StableHlo.binary main_v57 main_v55 main_v58 (mulf : (⟨S16384x400, .f32⟩ : BufTy).Contents (Elt F) → (⟨S16384x400, .f32⟩ : BufTy).Contents (Elt F) → (⟨S16384x400, .f32⟩ : BufTy).Contents (Elt F)),
    StableHlo.nullary main_cst_12 (constant S_ .f32 0x3727C5AC#32),
    StableHlo.unary main_cst_12 main_v59 (broadcastInDim S400 ![] bcast_S_S400 : (⟨S_, .f32⟩ : BufTy).Contents (Elt F) → (⟨S400, .f32⟩ : BufTy).Contents (Elt F)),
    StableHlo.binary main_v52 main_v59 main_v60 (addf : (⟨S400, .f32⟩ : BufTy).Contents (Elt F) → (⟨S400, .f32⟩ : BufTy).Contents (Elt F) → (⟨S400, .f32⟩ : BufTy).Contents (Elt F)),
    StableHlo.unary main_v60 main_v61 (Host.rsqrt : (⟨S400, .f32⟩ : BufTy).Contents (Elt F) → (⟨S400, .f32⟩ : BufTy).Contents (Elt F)),
    StableHlo.unary main_v61 main_v62 (broadcastInDim S1x400 ![1] bcast_S400_S1x400_1 : (⟨S400, .f32⟩ : BufTy).Contents (Elt F) → (⟨S1x400, .f32⟩ : BufTy).Contents (Elt F)),
    StableHlo.unary main_v62 main_v63 (broadcastInDim S16384x400 ![0, 1] bcast_S1x400_S16384x400_0_1 : (⟨S1x400, .f32⟩ : BufTy).Contents (Elt F) → (⟨S16384x400, .f32⟩ : BufTy).Contents (Elt F)),
    StableHlo.binary main_v58 main_v63 main_v64 (mulf : (⟨S16384x400, .f32⟩ : BufTy).Contents (Elt F) → (⟨S16384x400, .f32⟩ : BufTy).Contents (Elt F) → (⟨S16384x400, .f32⟩ : BufTy).Contents (Elt F)),
    StableHlo.unary main_arg7 main_v65 (broadcastInDim S1x400 ![1] bcast_S400_S1x400_1 : (⟨S400, .f32⟩ : BufTy).Contents (Elt F) → (⟨S1x400, .f32⟩ : BufTy).Contents (Elt F)),
    StableHlo.unary main_v65 main_v66 (broadcastInDim S16384x400 ![0, 1] bcast_S1x400_S16384x400_0_1 : (⟨S1x400, .f32⟩ : BufTy).Contents (Elt F) → (⟨S16384x400, .f32⟩ : BufTy).Contents (Elt F)),
    StableHlo.binary main_v64 main_v66 main_v67 (addf : (⟨S16384x400, .f32⟩ : BufTy).Contents (Elt F) → (⟨S16384x400, .f32⟩ : BufTy).Contents (Elt F) → (⟨S16384x400, .f32⟩ : BufTy).Contents (Elt F)),
    StableHlo.binary main_v67 main_arg8 main_v68 ((fun l r => Host.dotGeneral dot_S16384x400_S400x400_S16384x400_1_0_0_1_n_n none l r) : (⟨S16384x400, .f32⟩ : BufTy).Contents (Elt F) → (⟨S400x400, .f32⟩ : BufTy).Contents (Elt F) → (⟨S16384x400, .f32⟩ : BufTy).Contents (Elt F)),
    StableHlo.unary main_arg9 main_v69 (broadcastInDim S1x400 ![1] bcast_S400_S1x400_1 : (⟨S400, .f32⟩ : BufTy).Contents (Elt F) → (⟨S1x400, .f32⟩ : BufTy).Contents (Elt F)),
    StableHlo.unary main_v69 main_v70 (broadcastInDim S16384x400 ![0, 1] bcast_S1x400_S16384x400_0_1 : (⟨S1x400, .f32⟩ : BufTy).Contents (Elt F) → (⟨S16384x400, .f32⟩ : BufTy).Contents (Elt F)),
    StableHlo.binary main_v68 main_v70 main_v71 (addf : (⟨S16384x400, .f32⟩ : BufTy).Contents (Elt F) → (⟨S16384x400, .f32⟩ : BufTy).Contents (Elt F) → (⟨S16384x400, .f32⟩ : BufTy).Contents (Elt F)),
    StableHlo.nullary main_cst_13 (constant S_ .f32 0x00000000#32),
    StableHlo.binary main_v71 main_cst_13 main_v72 ((fun x v => Host.reduceAdd x v reducesTo_S16384x400_S400_d0 h_S_) : (⟨S16384x400, .f32⟩ : BufTy).Contents (Elt F) → (⟨S_, .f32⟩ : BufTy).Contents (Elt F) → (⟨S400, .f32⟩ : BufTy).Contents (Elt F)),
    StableHlo.nullary main_cst_14 (constant S_ .f32 0x46800000#32),
    StableHlo.unary main_cst_14 main_v73 (broadcastInDim S400 ![] bcast_S_S400 : (⟨S_, .f32⟩ : BufTy).Contents (Elt F) → (⟨S400, .f32⟩ : BufTy).Contents (Elt F)),
    StableHlo.binary main_v72 main_v73 main_v74 (Host.divf : (⟨S400, .f32⟩ : BufTy).Contents (Elt F) → (⟨S400, .f32⟩ : BufTy).Contents (Elt F) → (⟨S400, .f32⟩ : BufTy).Contents (Elt F)),
    StableHlo.nullary main_c_15 (constantI S_ 32 0#32),
    StableHlo.TRef.nullary main_call1.cst (constant S_ .f32 0x00000000#32),
    StableHlo.TRef.binary (.of main_v71 : StableHlo.TRef sig ⟨S16384x400, .f32⟩) main_call1.cst main_call1.v0 (fun x v => Host.reduceAdd x v reducesTo_S16384x400_S400_d0 h_S_),
    StableHlo.TRef.unary main_call1.v0 main_call1.v1 (broadcastInDim S1x400 ![1] bcast_S400_S1x400_1),
    StableHlo.TRef.nullary main_call1.cst_0 (constant S_ .f32 0x46800000#32),
    StableHlo.TRef.unary main_call1.cst_0 main_call1.v2 (broadcastInDim S1x400 ![] bcast_S_S1x400),
    StableHlo.TRef.binary main_call1.v1 main_call1.v2 main_call1.v3 Host.divf,
    StableHlo.TRef.unary main_call1.v3 main_call1.v4 (broadcastInDim S16384x400 ![0, 1] bcast_S1x400_S16384x400_0_1),
    StableHlo.TRef.binary (.of main_v71 : StableHlo.TRef sig ⟨S16384x400, .f32⟩) main_call1.v4 main_call1.v5 subf,
    StableHlo.TRef.binary main_call1.v5 main_call1.v5 main_call1.v6 mulf,
    StableHlo.TRef.unary (.of main_c_15 : StableHlo.TRef sig ⟨S_, .i32⟩) main_call1.v7 (sitofp .f32),
    StableHlo.TRef.nullary main_call1.cst_1 (constant S_ .f32 0x46800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S16384x400_S400_d0 h_S_),
    StableHlo.TRef.unary main_call1.v8 main_call1.v10 (broadcastInDim S400 ![] bcast_S_S400),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S400 ![] bcast_S_S400),
    StableHlo.TRef.ternary main_call1.v12 main_call1.v11 main_call1.call0.v1 main_call1.call0.v2 (fun p a b => select (broadcastInDim S400 ![] bcast_S_S400 p) a b),
    StableHlo.unary main_v74 main_v76 (broadcastInDim S1x400 ![1] bcast_S400_S1x400_1 : (⟨S400, .f32⟩ : BufTy).Contents (Elt F) → (⟨S1x400, .f32⟩ : BufTy).Contents (Elt F)),
    StableHlo.unary main_v76 main_v77 (broadcastInDim S16384x400 ![0, 1] bcast_S1x400_S16384x400_0_1 : (⟨S1x400, .f32⟩ : BufTy).Contents (Elt F) → (⟨S16384x400, .f32⟩ : BufTy).Contents (Elt F)),
    StableHlo.binary main_v71 main_v77 main_v78 (subf : (⟨S16384x400, .f32⟩ : BufTy).Contents (Elt F) → (⟨S16384x400, .f32⟩ : BufTy).Contents (Elt F) → (⟨S16384x400, .f32⟩ : BufTy).Contents (Elt F)),
    StableHlo.unary main_arg10 main_v79 (broadcastInDim S1x400 ![1] bcast_S400_S1x400_1 : (⟨S400, .f32⟩ : BufTy).Contents (Elt F) → (⟨S1x400, .f32⟩ : BufTy).Contents (Elt F)),
    StableHlo.unary main_v79 main_v80 (broadcastInDim S16384x400 ![0, 1] bcast_S1x400_S16384x400_0_1 : (⟨S1x400, .f32⟩ : BufTy).Contents (Elt F) → (⟨S16384x400, .f32⟩ : BufTy).Contents (Elt F)),
    StableHlo.binary main_v80 main_v78 main_v81 (mulf : (⟨S16384x400, .f32⟩ : BufTy).Contents (Elt F) → (⟨S16384x400, .f32⟩ : BufTy).Contents (Elt F) → (⟨S16384x400, .f32⟩ : BufTy).Contents (Elt F)),
    StableHlo.nullary main_cst_16 (constant S_ .f32 0x3727C5AC#32),
    StableHlo.unary main_cst_16 main_v82 (broadcastInDim S400 ![] bcast_S_S400 : (⟨S_, .f32⟩ : BufTy).Contents (Elt F) → (⟨S400, .f32⟩ : BufTy).Contents (Elt F)),
    StableHlo.binary main_v75 main_v82 main_v83 (addf : (⟨S400, .f32⟩ : BufTy).Contents (Elt F) → (⟨S400, .f32⟩ : BufTy).Contents (Elt F) → (⟨S400, .f32⟩ : BufTy).Contents (Elt F)),
    StableHlo.unary main_v83 main_v84 (Host.rsqrt : (⟨S400, .f32⟩ : BufTy).Contents (Elt F) → (⟨S400, .f32⟩ : BufTy).Contents (Elt F)),
    StableHlo.unary main_v84 main_v85 (broadcastInDim S1x400 ![1] bcast_S400_S1x400_1 : (⟨S400, .f32⟩ : BufTy).Contents (Elt F) → (⟨S1x400, .f32⟩ : BufTy).Contents (Elt F)),
    StableHlo.unary main_v85 main_v86 (broadcastInDim S16384x400 ![0, 1] bcast_S1x400_S16384x400_0_1 : (⟨S1x400, .f32⟩ : BufTy).Contents (Elt F) → (⟨S16384x400, .f32⟩ : BufTy).Contents (Elt F)),
    StableHlo.binary main_v81 main_v86 main_v87 (mulf : (⟨S16384x400, .f32⟩ : BufTy).Contents (Elt F) → (⟨S16384x400, .f32⟩ : BufTy).Contents (Elt F) → (⟨S16384x400, .f32⟩ : BufTy).Contents (Elt F)),
    StableHlo.unary main_arg11 main_v88 (broadcastInDim S1x400 ![1] bcast_S400_S1x400_1 : (⟨S400, .f32⟩ : BufTy).Contents (Elt F) → (⟨S1x400, .f32⟩ : BufTy).Contents (Elt F)),
    StableHlo.unary main_v88 main_v89 (broadcastInDim S16384x400 ![0, 1] bcast_S1x400_S16384x400_0_1 : (⟨S1x400, .f32⟩ : BufTy).Contents (Elt F) → (⟨S16384x400, .f32⟩ : BufTy).Contents (Elt F)),
    StableHlo.binary main_v87 main_v89 main_v90 (addf : (⟨S16384x400, .f32⟩ : BufTy).Contents (Elt F) → (⟨S16384x400, .f32⟩ : BufTy).Contents (Elt F) → (⟨S16384x400, .f32⟩ : BufTy).Contents (Elt F)),
    StableHlo.nullary main_cst_17 (constant S_ .f32 0x00000000#32),
    StableHlo.binary main_v18 main_cst_17 main_v91 ((fun x v => Host.reduceAdd x v reducesTo_S16384x39_S16384_d1 h_S_) : (⟨S16384x39, .f32⟩ : BufTy).Contents (Elt F) → (⟨S_, .f32⟩ : BufTy).Contents (Elt F) → (⟨S16384, .f32⟩ : BufTy).Contents (Elt F)),
    StableHlo.nullary main_cst_18 (constant S_ .f32 0x00000000#32),
    StableHlo.binary main_v43 main_cst_18 main_v92 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.binary main_v91 main_v92 main_v93 (addf : (⟨S16384, .f32⟩ : BufTy).Contents (Elt F) → (⟨S16384, .f32⟩ : BufTy).Contents (Elt F) → (⟨S16384, .f32⟩ : BufTy).Contents (Elt F)),
    StableHlo.nullary main_cst_19 (constant S_ .f32 0x00000000#32),
    StableHlo.binary main_v90 main_cst_19 main_v94 ((fun x v => Host.reduceAdd x v reducesTo_S16384x400_S16384_d1 h_S_) : (⟨S16384x400, .f32⟩ : BufTy).Contents (Elt F) → (⟨S_, .f32⟩ : BufTy).Contents (Elt F) → (⟨S16384, .f32⟩ : BufTy).Contents (Elt F)),
    StableHlo.binary main_v93 main_v94 main_v95 (addf : (⟨S16384, .f32⟩ : BufTy).Contents (Elt F) → (⟨S16384, .f32⟩ : BufTy).Contents (Elt F) → (⟨S16384, .f32⟩ : BufTy).Contents (Elt F)),
    StableHlo.reshape main_arg12 main_v96 rfl shapeCasts_S1_S_,
    StableHlo.unary main_v96 main_v97 (broadcastInDim S16384 ![] bcast_S_S16384 : (⟨S_, .f32⟩ : BufTy).Contents (Elt F) → (⟨S16384, .f32⟩ : BufTy).Contents (Elt F)),
    StableHlo.binary main_v95 main_v97 main_v98 (addf : (⟨S16384, .f32⟩ : BufTy).Contents (Elt F) → (⟨S16384, .f32⟩ : BufTy).Contents (Elt F) → (⟨S16384, .f32⟩ : BufTy).Contents (Elt F)) ]

-- one bind per operation to re-associate: the rewrite under the chain recurses once per statement
set_option maxRecDepth 8192 in
set_option maxHeartbeats 4000000 in
/-- The program is that straight line: the windows and the called functions unfolded, both sides are one chain of
    steps once sequencing is re-associated. -/
theorem main_eq (c : Dev nD) : main (F := F) c = seq ops := by
  simp only [main, main_part0, main_part1, main_part2, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., nullary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., binary_bufs_sub ..,
    unary_bufs_sub .., unary_bufs_sub .., binary_bufs_sub .., nullary_bufs_sub .., binary_bufs_sub .., binary_bufs_sub ..,
    binary_bufs_sub .., nullary_bufs_sub .., binary_bufs_sub .., binary_bufs_sub .., nullary_bufs_sub .., unary_bufs_sub ..,
    binary_bufs_sub .., reshape_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., binary_bufs_sub .., nullary_bufs_sub .., binary_bufs_sub ..,
    binary_bufs_sub .., nullary_bufs_sub .., binary_bufs_sub .., binary_bufs_sub .., reshape_bufs_sub .., unary_bufs_sub ..,
    binary_bufs_sub ..⟩

/-- From any memory with zero counters: every weakly fair execution of the program terminates, and every final state
    has each buffer at the fold of the operations' results over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefValue

end
-- ==== Proof.RefStages.lean ====
/-
  The reference's line of operations cut into five consecutive stages.

  The stages: up to the first dense layer; the first normalisation (with the variance function's operations); the second
  dense layer; the second normalisation; the row sums and the bias. The called functions' operations are restated here over
  the buffers themselves; at these buffers that is the same operation, by computation. The fold over the whole line is
  the folds over the stages, one after the other.
-/
import proofs.«171042_j1391569404529_2_alg».proof.Proof.RefOps

noncomputable section

namespace Cert.ReferenceIdeal.RefValue

open Idealize.ShloMosaic Idealize.ShloMosaic.TcCoe Idealize.SL.Sem Idealize.ShloMosaic.StableHlo
open Cert.ReferenceIdeal Cert.ReferenceIdeal.Facts₀

variable [Cert.ReferenceIdeal.Facts]

variable {F : FTy → Type} [FloatOps F]

/-- The index pairs, the two gathers, the first-order and second-order terms, the first dense layer. -/
abbrev opsA : List (HloOp τ sig (Elt F)) :=
  [ StableHlo.reshape main_arg0 main_v0 rfl shapeCasts_S16384x39x1_S16384x39,
    StableHlo.nullary main_v1 (iotaInDim S39 32 0),
    StableHlo.unary main_v1 main_v2 (broadcastInDim S1x39 ![1] bcast_S39_S1x39_1 : (⟨S39, .i32⟩ : BufTy).Contents (Elt F) → (⟨S1x39, .i32⟩ : BufTy).Contents (Elt F)),
    StableHlo.nullary main_c (constantI S_ 32 0#32),
    StableHlo.unary main_c main_v3 (broadcastInDim S1x39 ![] bcast_S_S1x39 : (⟨S_, .i32⟩ : BufTy).Contents (Elt F) → (⟨S1x39, .i32⟩ : BufTy).Contents (Elt F)),
    StableHlo.binary main_v2 main_v3 main_v4 (cmpi .slt : (⟨S1x39, .i32⟩ : BufTy).Contents (Elt F) → (⟨S1x39, .i32⟩ : BufTy).Contents (Elt F) → (⟨S1x39, .i1⟩ : BufTy).Contents (Elt F)),
    StableHlo.nullary main_c_0 (constantI S_ 32 39#32),
    StableHlo.unary main_c_0 main_v5 (broadcastInDim S1x39 ![] bcast_S_S1x39 : (⟨S_, .i32⟩ : BufTy).Contents (Elt F) → (⟨S1x39, .i32⟩ : BufTy).Contents (Elt F)),
    StableHlo.binary main_v2 main_v5 main_v6 (addi : (⟨S1x39, .i32⟩ : BufTy).Contents (Elt F) → (⟨S1x39, .i32⟩ : BufTy).Contents (Elt F) → (⟨S1x39, .i32⟩ : BufTy).Contents (Elt F)),
    StableHlo.ternary main_v4 main_v6 main_v2 main_v7 (select : (⟨S1x39, .i1⟩ : BufTy).Contents (Elt F) → (⟨S1x39, .i32⟩ : BufTy).Contents (Elt F) → (⟨S1x39, .i32⟩ : BufTy).Contents (Elt F) → (⟨S1x39, .i32⟩ : BufTy).Contents (Elt F)),
    StableHlo.nullary main_c_1 (constantI S_ 32 0#32),
    StableHlo.unary main_c_1 main_v8 (broadcastInDim S16384x39 ![] bcast_S_S16384x39 : (⟨S_, .i32⟩ : BufTy).Contents (Elt F) → (⟨S16384x39, .i32⟩ : BufTy).Contents (Elt F)),
    StableHlo.binary main_v0 main_v8 main_v9 (cmpi .slt : (⟨S16384x39, .i32⟩ : BufTy).Contents (Elt F) → (⟨S16384x39, .i32⟩ : BufTy).Contents (Elt F) → (⟨S16384x39, .i1⟩ : BufTy).Contents (Elt F)),
    StableHlo.nullary main_c_2 (constantI S_ 32 100001#32),
    StableHlo.unary main_c_2 main_v10 (broadcastInDim S16384x39 ![] bcast_S_S16384x39 : (⟨S_, .i32⟩ : BufTy).Contents (Elt F) → (⟨S16384x39, .i32⟩ : BufTy).Contents (Elt F)),
    StableHlo.binary main_v0 main_v10 main_v11 (addi : (⟨S16384x39, .i32⟩ : BufTy).Contents (Elt F) → (⟨S16384x39, .i32⟩ : BufTy).Contents (Elt F) → (⟨S16384x39, .i32⟩ : BufTy).Contents (Elt F)),
    StableHlo.ternary main_v9 main_v11 main_v0 main_v12 (select : (⟨S16384x39, .i1⟩ : BufTy).Contents (Elt F) → (⟨S16384x39, .i32⟩ : BufTy).Contents (Elt F) → (⟨S16384x39, .i32⟩ : BufTy).Contents (Elt F) → (⟨S16384x39, .i32⟩ : BufTy).Contents (Elt F)),
    StableHlo.unary main_v7 main_v13 (broadcastInDim S16384x39 ![0, 1] bcast_S1x39_S16384x39_0_1 : (⟨S1x39, .i32⟩ : BufTy).Contents (Elt F) → (⟨S16384x39, .i32⟩ : BufTy).Contents (Elt F)),
    StableHlo.unary main_v13 main_v14 (broadcastInDim S16384x39x1 ![0, 1] bcast_S16384x39_S16384x39x1_0_1 : (⟨S16384x39, .i32⟩ : BufTy).Contents (Elt F) → (⟨S16384x39x1, .i32⟩ : BufTy).Contents (Elt F)),
    StableHlo.unary main_v12 main_v15 (broadcastInDim S16384x39x1 ![0, 1] bcast_S16384x39_S16384x39x1_0_1 : (⟨S16384x39, .i32⟩ : BufTy).Contents (Elt F) → (⟨S16384x39x1, .i32⟩ : BufTy).Contents (Elt F)),
    StableHlo.binary main_v14 main_v15 main_v16 ((fun a b => concatenate S16384x39x2 2 [⟨S16384x39x1, a⟩, ⟨S16384x39x1, b⟩] concatenates_S16384x39x1_S16384x39x1_S16384x39x2_d2) : (⟨S16384x39x1, .i32⟩ : BufTy).Contents (Elt F) → (⟨S16384x39x1, .i32⟩ : BufTy).Contents (Elt F) → (⟨S16384x39x2, .i32⟩ : BufTy).Contents (Elt F)),
    StableHlo.binary main_arg2 main_v16 main_v17 ((fun x i => Host.gather gather_S39x100001_S16384x39x2_S16384x39_n_01_n_n_01_2_11 x i) : (⟨S39x100001, .f32⟩ : BufTy).Contents (Elt F) → (⟨S16384x39x2, .i32⟩ : BufTy).Contents (Elt F) → (⟨S16384x39, .f32⟩ : BufTy).Contents (Elt F)),
    StableHlo.binary main_v17 main_arg1 main_v18 (mulf : (⟨S16384x39, .f32⟩ : BufTy).Contents (Elt F) → (⟨S16384x39, .f32⟩ : BufTy).Contents (Elt F) → (⟨S16384x39, .f32⟩ : BufTy).Contents (Elt F)),
    StableHlo.nullary main_c_3 (constantI S_ 32 0#32),
    StableHlo.unary main_c_3 main_v19 (broadcastInDim S1x39 ![] bcast_S_S1x39 : (⟨S_, .i32⟩ : BufTy).Contents (Elt F) → (⟨S1x39, .i32⟩ : BufTy).Contents (Elt F)),
    StableHlo.binary main_v2 main_v19 main_v20 (cmpi .slt : (⟨S1x39, .i32⟩ : BufTy).Contents (Elt F) → (⟨S1x39, .i32⟩ : BufTy).Contents (Elt F) → (⟨S1x39, .i1⟩ : BufTy).Contents (Elt F)),
    StableHlo.nullary main_c_4 (constantI S_ 32 39#32),
    StableHlo.unary main_c_4 main_v21 (broadcastInDim S1x39 ![] bcast_S_S1x39 : (⟨S_, .i32⟩ : BufTy).Contents (Elt F) → (⟨S1x39, .i32⟩ : BufTy).Contents (Elt F)),
    StableHlo.binary main_v2 main_v21 main_v22 (addi : (⟨S1x39, .i32⟩ : BufTy).Contents (Elt F) → (⟨S1x39, .i32⟩ : BufTy).Contents (Elt F) → (⟨S1x39, .i32⟩ : BufTy).Contents (Elt F)),
    StableHlo.ternary main_v20 main_v22 main_v2 main_v23 (select : (⟨S1x39, .i1⟩ : BufTy).Contents (Elt F) → (⟨S1x39, .i32⟩ : BufTy).Contents (Elt F) → (⟨S1x39, .i32⟩ : BufTy).Contents (Elt F) → (⟨S1x39, .i32⟩ : BufTy).Contents (Elt F)),
    StableHlo.nullary main_c_5 (constantI S_ 32 0#32),
    StableHlo.unary main_c_5 main_v24 (broadcastInDim S16384x39 ![] bcast_S_S16384x39 : (⟨S_, .i32⟩ : BufTy).Contents (Elt F) → (⟨S16384x39, .i32⟩ : BufTy).Contents (Elt F)),
    StableHlo.binary main_v0 main_v24 main_v25 (cmpi .slt : (⟨S16384x39, .i32⟩ : BufTy).Contents (Elt F) → (⟨S16384x39, .i32⟩ : BufTy).Contents (Elt F) → (⟨S16384x39, .i1⟩ : BufTy).Contents (Elt F)),
    StableHlo.nullary main_c_6 (constantI S_ 32 100001#32),
    StableHlo.unary main_c_6 main_v26 (broadcastInDim S16384x39 ![] bcast_S_S16384x39 : (⟨S_, .i32⟩ : BufTy).Contents (Elt F) → (⟨S16384x39, .i32⟩ : BufTy).Contents (Elt F)),
    StableHlo.binary main_v0 main_v26 main_v27 (addi : (⟨S16384x39, .i32⟩ : BufTy).Contents (Elt F) → (⟨S16384x39, .i32⟩ : BufTy).Contents (Elt F) → (⟨S16384x39, .i32⟩ : BufTy).Contents (Elt F)),
    StableHlo.ternary main_v25 main_v27 main_v0 main_v28 (select : (⟨S16384x39, .i1⟩ : BufTy).Contents (Elt F) → (⟨S16384x39, .i32⟩ : BufTy).Contents (Elt F) → (⟨S16384x39, .i32⟩ : BufTy).Contents (Elt F) → (⟨S16384x39, .i32⟩ : BufTy).Contents (Elt F)),
    StableHlo.unary main_v23 main_v29 (broadcastInDim S16384x39 ![0, 1] bcast_S1x39_S16384x39_0_1 : (⟨S1x39, .i32⟩ : BufTy).Contents (Elt F) → (⟨S16384x39, .i32⟩ : BufTy).Contents (Elt F)),
    StableHlo.unary main_v29 main_v30 (broadcastInDim S16384x39x1 ![0, 1] bcast_S16384x39_S16384x39x1_0_1 : (⟨S16384x39, .i32⟩ : BufTy).Contents (Elt F) → (⟨S16384x39x1, .i32⟩ : BufTy).Contents (Elt F)),
    StableHlo.unary main_v28 main_v31 (broadcastInDim S16384x39x1 ![0, 1] bcast_S16384x39_S16384x39x1_0_1 : (⟨S16384x39, .i32⟩ : BufTy).Contents (Elt F) → (⟨S16384x39x1, .i32⟩ : BufTy).Contents (Elt F)),
    StableHlo.binary main_v30 main_v31 main_v32 ((fun a b => concatenate S16384x39x2 2 [⟨S16384x39x1, a⟩, ⟨S16384x39x1, b⟩] concatenates_S16384x39x1_S16384x39x1_S16384x39x2_d2) : (⟨S16384x39x1, .i32⟩ : BufTy).Contents (Elt F) → (⟨S16384x39x1, .i32⟩ : BufTy).Contents (Elt F) → (⟨S16384x39x2, .i32⟩ : BufTy).Contents (Elt F)),
    StableHlo.binary main_arg3 main_v32 main_v33 ((fun x i => Host.gather gather_S39x100001x16_S16384x39x2_S16384x39x16_2_01_n_n_01_2_1116 x i) : (⟨S39x100001x16, .f32⟩ : BufTy).Contents (Elt F) → (⟨S16384x39x2, .i32⟩ : BufTy).Contents (Elt F) → (⟨S16384x39x16, .f32⟩ : BufTy).Contents (Elt F)),
    StableHlo.unary main_arg1 main_v34 (broadcastInDim S16384x39x1 ![0, 1] bcast_S16384x39_S16384x39x1_0_1 : (⟨S16384x39, .f32⟩ : BufTy).Contents (Elt F) → (⟨S16384x39x1, .f32⟩ : BufTy).Contents (Elt F)),
    StableHlo.unary main_v34 main_v35 (broadcastInDim S16384x39x16 ![0, 1, 2] bcast_S16384x39x1_S16384x39x16_0_1_2 : (⟨S16384x39x1, .f32⟩ : BufTy).Contents (Elt F) → (⟨S16384x39x16, .f32⟩ : BufTy).Contents (Elt F)),
    StableHlo.binary main_v33 main_v35 main_v36 (mulf : (⟨S16384x39x16, .f32⟩ : BufTy).Contents (Elt F) → (⟨S16384x39x16, .f32⟩ : BufTy).Contents (Elt F) → (⟨S16384x39x16, .f32⟩ : BufTy).Contents (Elt F)),
    StableHlo.nullary main_cst (constant S_ .f32 0x00000000#32),
    StableHlo.binary main_v36 main_cst main_v37 ((fun x v => Host.reduceAdd x v reducesTo_S16384x39x16_S16384x16_d1 h_S_) : (⟨S16384x39x16, .f32⟩ : BufTy).Contents (Elt F) → (⟨S_, .f32⟩ : BufTy).Contents (Elt F) → (⟨S16384x16, .f32⟩ : BufTy).Contents (Elt F)),
    StableHlo.binary main_v37 main_v37 main_v38 (mulf : (⟨S16384x16, .f32⟩ : BufTy).Contents (Elt F) → (⟨S16384x16, .f32⟩ : BufTy).Contents (Elt F) → (⟨S16384x16, .f32⟩ : BufTy).Contents (Elt F)),
    StableHlo.binary main_v36 main_v36 main_v39 (mulf : (⟨S16384x39x16, .f32⟩ : BufTy).Contents (Elt F) → (⟨S16384x39x16, .f32⟩ : BufTy).Contents (Elt F) → (⟨S16384x39x16, .f32⟩ : BufTy).Contents (Elt F)),
    StableHlo.nullary main_cst_7 (constant S_ .f32 0x00000000#32),
    StableHlo.binary main_v39 main_cst_7 main_v40 ((fun x v => Host.reduceAdd x v reducesTo_S16384x39x16_S16384x16_d1 h_S_) : (⟨S16384x39x16, .f32⟩ : BufTy).Contents (Elt F) → (⟨S_, .f32⟩ : BufTy).Contents (Elt F) → (⟨S16384x16, .f32⟩ : BufTy).Contents (Elt F)),
    StableHlo.binary main_v38 main_v40 main_v41 (subf : (⟨S16384x16, .f32⟩ : BufTy).Contents (Elt F) → (⟨S16384x16, .f32⟩ : BufTy).Contents (Elt F) → (⟨S16384x16, .f32⟩ : BufTy).Contents (Elt F)),
    StableHlo.nullary main_cst_8 (constant S_ .f32 0x3F000000#32),
    StableHlo.unary main_cst_8 main_v42 (broadcastInDim S16384x16 ![] bcast_S_S16384x16 : (⟨S_, .f32⟩ : BufTy).Contents (Elt F) → (⟨S16384x16, .f32⟩ : BufTy).Contents (Elt F)),
    StableHlo.binary main_v42 main_v41 main_v43 (mulf : (⟨S16384x16, .f32⟩ : BufTy).Contents (Elt F) → (⟨S16384x16, .f32⟩ : BufTy).Contents (Elt F) → (⟨S16384x16, .f32⟩ : BufTy).Contents (Elt F)),
    StableHlo.reshape main_v36 main_v44 rfl shapeCasts_S16384x39x16_S16384x624,
    StableHlo.binary main_v44 main_arg4 main_v45 ((fun l r => Host.dotGeneral dot_S16384x624_S624x400_S16384x400_1_0_0_1_n_n none l r) : (⟨S16384x624, .f32⟩ : BufTy).Contents (Elt F) → (⟨S624x400, .f32⟩ : BufTy).Contents (Elt F) → (⟨S16384x400, .f32⟩ : BufTy).Contents (Elt F)),
    StableHlo.unary main_arg5 main_v46 (broadcastInDim S1x400 ![1] bcast_S400_S1x400_1 : (⟨S400, .f32⟩ : BufTy).Contents (Elt F) → (⟨S1x400, .f32⟩ : BufTy).Contents (Elt F)),
    StableHlo.unary main_v46 main_v47 (broadcastInDim S16384x400 ![0, 1] bcast_S1x400_S16384x400_0_1 : (⟨S1x400, .f32⟩ : BufTy).Contents (Elt F) → (⟨S16384x400, .f32⟩ : BufTy).Contents (Elt F)),
    StableHlo.binary main_v45 main_v47 main_v48 (addf : (⟨S16384x400, .f32⟩ : BufTy).Contents (Elt F) → (⟨S16384x400, .f32⟩ : BufTy).Contents (Elt F) → (⟨S16384x400, .f32⟩ : BufTy).Contents (Elt F)) ]

/-- The column means and variances of the first layer and its normalisation. -/
abbrev opsB : List (HloOp τ sig (Elt F)) :=
  [ StableHlo.nullary main_cst_9 (constant S_ .f32 0x00000000#32),
    StableHlo.binary main_v48 main_cst_9 main_v49 ((fun x v => Host.reduceAdd x v reducesTo_S16384x400_S400_d0 h_S_) : (⟨S16384x400, .f32⟩ : BufTy).Contents (Elt F) → (⟨S_, .f32⟩ : BufTy).Contents (Elt F) → (⟨S400, .f32⟩ : BufTy).Contents (Elt F)),
    StableHlo.nullary main_cst_10 (constant S_ .f32 0x46800000#32),
    StableHlo.unary main_cst_10 main_v50 (broadcastInDim S400 ![] bcast_S_S400 : (⟨S_, .f32⟩ : BufTy).Contents (Elt F) → (⟨S400, .f32⟩ : BufTy).Contents (Elt F)),
    StableHlo.binary main_v49 main_v50 main_v51 (Host.divf : (⟨S400, .f32⟩ : BufTy).Contents (Elt F) → (⟨S400, .f32⟩ : BufTy).Contents (Elt F) → (⟨S400, .f32⟩ : BufTy).Contents (Elt F)),
    StableHlo.nullary main_c_11 (constantI S_ 32 0#32),
    StableHlo.nullary main_call0_cst (constant S_ .f32 0x00000000#32),
    StableHlo.binary main_v48 main_call0_cst main_call0_v0 ((fun x v => Host.reduceAdd x v reducesTo_S16384x400_S400_d0 h_S_) : (⟨S16384x400, .f32⟩ : BufTy).Contents (Elt F) → (⟨S_, .f32⟩ : BufTy).Contents (Elt F) → (⟨S400, .f32⟩ : BufTy).Contents (Elt F)),
    StableHlo.unary main_call0_v0 main_call0_v1 (broadcastInDim S1x400 ![1] bcast_S400_S1x400_1 : (⟨S400, .f32⟩ : BufTy).Contents (Elt F) → (⟨S1x400, .f32⟩ : BufTy).Contents (Elt F)),
    StableHlo.nullary main_call0_cst_0 (constant S_ .f32 0x46800000#32),
    StableHlo.unary main_call0_cst_0 main_call0_v2 (broadcastInDim S1x400 ![] bcast_S_S1x400 : (⟨S_, .f32⟩ : BufTy).Contents (Elt F) → (⟨S1x400, .f32⟩ : BufTy).Contents (Elt F)),
    StableHlo.binary main_call0_v1 main_call0_v2 main_call0_v3 (Host.divf : (⟨S1x400, .f32⟩ : BufTy).Contents (Elt F) → (⟨S1x400, .f32⟩ : BufTy).Contents (Elt F) → (⟨S1x400, .f32⟩ : BufTy).Contents (Elt F)),
    StableHlo.unary main_call0_v3 main_call0_v4 (broadcastInDim S16384x400 ![0, 1] bcast_S1x400_S16384x400_0_1 : (⟨S1x400, .f32⟩ : BufTy).Contents (Elt F) → (⟨S16384x400, .f32⟩ : BufTy).Contents (Elt F)),
    StableHlo.binary main_v48 main_call0_v4 main_call0_v5 (subf : (⟨S16384x400, .f32⟩ : BufTy).Contents (Elt F) → (⟨S16384x400, .f32⟩ : BufTy).Contents (Elt F) → (⟨S16384x400, .f32⟩ : BufTy).Contents (Elt F)),
    StableHlo.binary main_call0_v5 main_call0_v5 main_call0_v6 (mulf : (⟨S16384x400, .f32⟩ : BufTy).Contents (Elt F) → (⟨S16384x400, .f32⟩ : BufTy).Contents (Elt F) → (⟨S16384x400, .f32⟩ : BufTy).Contents (Elt F)),
    StableHlo.unary main_c_11 main_call0_v7 (sitofp .f32 : (⟨S_, .i32⟩ : BufTy).Contents (Elt F) → (⟨S_, .f32⟩ : BufTy).Contents (Elt F)),
    StableHlo.nullary main_call0_cst_1 (constant S_ .f32 0x46800000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S16384x400_S400_d0 h_S_) : (⟨S16384x400, .f32⟩ : BufTy).Contents (Elt F) → (⟨S_, .f32⟩ : BufTy).Contents (Elt F) → (⟨S400, .f32⟩ : BufTy).Contents (Elt F)),
    StableHlo.unary main_call0_v8 main_call0_v10 (broadcastInDim S400 ![] bcast_S_S400 : (⟨S_, .f32⟩ : BufTy).Contents (Elt F) → (⟨S400, .f32⟩ : BufTy).Contents (Elt F)),
    StableHlo.binary main_call0_v9 main_call0_v10 main_call0_v11 (Host.divf : (⟨S400, .f32⟩ : BufTy).Contents (Elt F) → (⟨S400, .f32⟩ : BufTy).Contents (Elt F) → (⟨S400, .f32⟩ : BufTy).Contents (Elt F)),
    StableHlo.nullary main_call0_cst_3 (constant S_ .f32 0x00000000#32),
    StableHlo.binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 (broadcastInDim S400 ![] bcast_S_S400 : (⟨S_, .f32⟩ : BufTy).Contents (Elt F) → (⟨S400, .f32⟩ : BufTy).Contents (Elt F)),
    StableHlo.ternary main_call0_v12 main_call0_v11 main_call0_call0_v1 main_v52 ((fun p a b => select (broadcastInDim S400 ![] bcast_S_S400 p) a b) : (⟨S_, .i1⟩ : BufTy).Contents (Elt F) → (⟨S400, .f32⟩ : BufTy).Contents (Elt F) → (⟨S400, .f32⟩ : BufTy).Contents (Elt F) → (⟨S400, .f32⟩ : BufTy).Contents (Elt F)),
    StableHlo.unary main_v51 main_v53 (broadcastInDim S1x400 ![1] bcast_S400_S1x400_1 : (⟨S400, .f32⟩ : BufTy).Contents (Elt F) → (⟨S1x400, .f32⟩ : BufTy).Contents (Elt F)),
    StableHlo.unary main_v53 main_v54 (broadcastInDim S16384x400 ![0, 1] bcast_S1x400_S16384x400_0_1 : (⟨S1x400, .f32⟩ : BufTy).Contents (Elt F) → (⟨S16384x400, .f32⟩ : BufTy).Contents (Elt F)),
    StableHlo.binary main_v48 main_v54 main_v55 (subf : (⟨S16384x400, .f32⟩ : BufTy).Contents (Elt F) → (⟨S16384x400, .f32⟩ : BufTy).Contents (Elt F) → (⟨S16384x400, .f32⟩ : BufTy).Contents (Elt F)),
    StableHlo.unary main_arg6 main_v56 (broadcastInDim S1x400 ![1] bcast_S400_S1x400_1 : (⟨S400, .f32⟩ : BufTy).Contents (Elt F) → (⟨S1x400, .f32⟩ : BufTy).Contents (Elt F)),
    StableHlo.unary main_v56 main_v57 (broadcastInDim S16384x400 ![0, 1] bcast_S1x400_S16384x400_0_1 : (⟨S1x400, .f32⟩ : BufTy).Contents (Elt F) → (⟨S16384x400, .f32⟩ : BufTy).Contents (Elt F)),
    StableHlo.binary main_v57 main_v55 main_v58 (mulf : (⟨S16384x400, .f32⟩ : BufTy).Contents (Elt F) → (⟨S16384x400, .f32⟩ : BufTy).Contents (Elt F) → (⟨S16384x400, .f32⟩ : BufTy).Contents (Elt F)),
    StableHlo.nullary main_cst_12 (constant S_ .f32 0x3727C5AC#32),
    StableHlo.unary main_cst_12 main_v59 (broadcastInDim S400 ![] bcast_S_S400 : (⟨S_, .f32⟩ : BufTy).Contents (Elt F) → (⟨S400, .f32⟩ : BufTy).Contents (Elt F)),
    StableHlo.binary main_v52 main_v59 main_v60 (addf : (⟨S400, .f32⟩ : BufTy).Contents (Elt F) → (⟨S400, .f32⟩ : BufTy).Contents (Elt F) → (⟨S400, .f32⟩ : BufTy).Contents (Elt F)),
    StableHlo.unary main_v60 main_v61 (Host.rsqrt : (⟨S400, .f32⟩ : BufTy).Contents (Elt F) → (⟨S400, .f32⟩ : BufTy).Contents (Elt F)),
    StableHlo.unary main_v61 main_v62 (broadcastInDim S1x400 ![1] bcast_S400_S1x400_1 : (⟨S400, .f32⟩ : BufTy).Contents (Elt F) → (⟨S1x400, .f32⟩ : BufTy).Contents (Elt F)),
    StableHlo.unary main_v62 main_v63 (broadcastInDim S16384x400 ![0, 1] bcast_S1x400_S16384x400_0_1 : (⟨S1x400, .f32⟩ : BufTy).Contents (Elt F) → (⟨S16384x400, .f32⟩ : BufTy).Contents (Elt F)),
    StableHlo.binary main_v58 main_v63 main_v64 (mulf : (⟨S16384x400, .f32⟩ : BufTy).Contents (Elt F) → (⟨S16384x400, .f32⟩ : BufTy).Contents (Elt F) → (⟨S16384x400, .f32⟩ : BufTy).Contents (Elt F)),
    StableHlo.unary main_arg7 main_v65 (broadcastInDim S1x400 ![1] bcast_S400_S1x400_1 : (⟨S400, .f32⟩ : BufTy).Contents (Elt F) → (⟨S1x400, .f32⟩ : BufTy).Contents (Elt F)),
    StableHlo.unary main_v65 main_v66 (broadcastInDim S16384x400 ![0, 1] bcast_S1x400_S16384x400_0_1 : (⟨S1x400, .f32⟩ : BufTy).Contents (Elt F) → (⟨S16384x400, .f32⟩ : BufTy).Contents (Elt F)),
    StableHlo.binary main_v64 main_v66 main_v67 (addf : (⟨S16384x400, .f32⟩ : BufTy).Contents (Elt F) → (⟨S16384x400, .f32⟩ : BufTy).Contents (Elt F) → (⟨S16384x400, .f32⟩ : BufTy).Contents (Elt F)) ]

/-- The second dense layer. -/
abbrev opsC1 : List (HloOp τ sig (Elt F)) :=
  [ StableHlo.binary main_v67 main_arg8 main_v68 ((fun l r => Host.dotGeneral dot_S16384x400_S400x400_S16384x400_1_0_0_1_n_n none l r) : (⟨S16384x400, .f32⟩ : BufTy).Contents (Elt F) → (⟨S400x400, .f32⟩ : BufTy).Contents (Elt F) → (⟨S16384x400, .f32⟩ : BufTy).Contents (Elt F)),
    StableHlo.unary main_arg9 main_v69 (broadcastInDim S1x400 ![1] bcast_S400_S1x400_1 : (⟨S400, .f32⟩ : BufTy).Contents (Elt F) → (⟨S1x400, .f32⟩ : BufTy).Contents (Elt F)),
    StableHlo.unary main_v69 main_v70 (broadcastInDim S16384x400 ![0, 1] bcast_S1x400_S16384x400_0_1 : (⟨S1x400, .f32⟩ : BufTy).Contents (Elt F) → (⟨S16384x400, .f32⟩ : BufTy).Contents (Elt F)),
    StableHlo.binary main_v68 main_v70 main_v71 (addf : (⟨S16384x400, .f32⟩ : BufTy).Contents (Elt F) → (⟨S16384x400, .f32⟩ : BufTy).Contents (Elt F) → (⟨S16384x400, .f32⟩ : BufTy).Contents (Elt F)) ]

/-- The column means and variances of the second layer and its normalisation. -/
abbrev opsC2 : List (HloOp τ sig (Elt F)) :=
  [ StableHlo.nullary main_cst_13 (constant S_ .f32 0x00000000#32),
    StableHlo.binary main_v71 main_cst_13 main_v72 ((fun x v => Host.reduceAdd x v reducesTo_S16384x400_S400_d0 h_S_) : (⟨S16384x400, .f32⟩ : BufTy).Contents (Elt F) → (⟨S_, .f32⟩ : BufTy).Contents (Elt F) → (⟨S400, .f32⟩ : BufTy).Contents (Elt F)),
    StableHlo.nullary main_cst_14 (constant S_ .f32 0x46800000#32),
    StableHlo.unary main_cst_14 main_v73 (broadcastInDim S400 ![] bcast_S_S400 : (⟨S_, .f32⟩ : BufTy).Contents (Elt F) → (⟨S400, .f32⟩ : BufTy).Contents (Elt F)),
    StableHlo.binary main_v72 main_v73 main_v74 (Host.divf : (⟨S400, .f32⟩ : BufTy).Contents (Elt F) → (⟨S400, .f32⟩ : BufTy).Contents (Elt F) → (⟨S400, .f32⟩ : BufTy).Contents (Elt F)),
    StableHlo.nullary main_c_15 (constantI S_ 32 0#32),
    StableHlo.nullary main_call1_cst (constant S_ .f32 0x00000000#32),
    StableHlo.binary main_v71 main_call1_cst main_call1_v0 ((fun x v => Host.reduceAdd x v reducesTo_S16384x400_S400_d0 h_S_) : (⟨S16384x400, .f32⟩ : BufTy).Contents (Elt F) → (⟨S_, .f32⟩ : BufTy).Contents (Elt F) → (⟨S400, .f32⟩ : BufTy).Contents (Elt F)),
    StableHlo.unary main_call1_v0 main_call1_v1 (broadcastInDim S1x400 ![1] bcast_S400_S1x400_1 : (⟨S400, .f32⟩ : BufTy).Contents (Elt F) → (⟨S1x400, .f32⟩ : BufTy).Contents (Elt F)),
    StableHlo.nullary main_call1_cst_0 (constant S_ .f32 0x46800000#32),
    StableHlo.unary main_call1_cst_0 main_call1_v2 (broadcastInDim S1x400 ![] bcast_S_S1x400 : (⟨S_, .f32⟩ : BufTy).Contents (Elt F) → (⟨S1x400, .f32⟩ : BufTy).Contents (Elt F)),
    StableHlo.binary main_call1_v1 main_call1_v2 main_call1_v3 (Host.divf : (⟨S1x400, .f32⟩ : BufTy).Contents (Elt F) → (⟨S1x400, .f32⟩ : BufTy).Contents (Elt F) → (⟨S1x400, .f32⟩ : BufTy).Contents (Elt F)),
    StableHlo.unary main_call1_v3 main_call1_v4 (broadcastInDim S16384x400 ![0, 1] bcast_S1x400_S16384x400_0_1 : (⟨S1x400, .f32⟩ : BufTy).Contents (Elt F) → (⟨S16384x400, .f32⟩ : BufTy).Contents (Elt F)),
    StableHlo.binary main_v71 main_call1_v4 main_call1_v5 (subf : (⟨S16384x400, .f32⟩ : BufTy).Contents (Elt F) → (⟨S16384x400, .f32⟩ : BufTy).Contents (Elt F) → (⟨S16384x400, .f32⟩ : BufTy).Contents (Elt F)),
    StableHlo.binary main_call1_v5 main_call1_v5 main_call1_v6 (mulf : (⟨S16384x400, .f32⟩ : BufTy).Contents (Elt F) → (⟨S16384x400, .f32⟩ : BufTy).Contents (Elt F) → (⟨S16384x400, .f32⟩ : BufTy).Contents (Elt F)),
    StableHlo.unary main_c_15 main_call1_v7 (sitofp .f32 : (⟨S_, .i32⟩ : BufTy).Contents (Elt F) → (⟨S_, .f32⟩ : BufTy).Contents (Elt F)),
    StableHlo.nullary main_call1_cst_1 (constant S_ .f32 0x46800000#32),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S16384x400_S400_d0 h_S_) : (⟨S16384x400, .f32⟩ : BufTy).Contents (Elt F) → (⟨S_, .f32⟩ : BufTy).Contents (Elt F) → (⟨S400, .f32⟩ : BufTy).Contents (Elt F)),
    StableHlo.unary main_call1_v8 main_call1_v10 (broadcastInDim S400 ![] bcast_S_S400 : (⟨S_, .f32⟩ : BufTy).Contents (Elt F) → (⟨S400, .f32⟩ : BufTy).Contents (Elt F)),
    StableHlo.binary main_call1_v9 main_call1_v10 main_call1_v11 (Host.divf : (⟨S400, .f32⟩ : BufTy).Contents (Elt F) → (⟨S400, .f32⟩ : BufTy).Contents (Elt F) → (⟨S400, .f32⟩ : BufTy).Contents (Elt F)),
    StableHlo.nullary main_call1_cst_3 (constant S_ .f32 0x00000000#32),
    StableHlo.binary main_call1_v8 main_call1_cst_3 main_call1_v12 (cmpf .ogt : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 (broadcastInDim S400 ![] bcast_S_S400 : (⟨S_, .f32⟩ : BufTy).Contents (Elt F) → (⟨S400, .f32⟩ : BufTy).Contents (Elt F)),
    StableHlo.ternary main_call1_v12 main_call1_v11 main_call1_call0_v1 main_v75 ((fun p a b => select (broadcastInDim S400 ![] bcast_S_S400 p) a b) : (⟨S_, .i1⟩ : BufTy).Contents (Elt F) → (⟨S400, .f32⟩ : BufTy).Contents (Elt F) → (⟨S400, .f32⟩ : BufTy).Contents (Elt F) → (⟨S400, .f32⟩ : BufTy).Contents (Elt F)),
    StableHlo.unary main_v74 main_v76 (broadcastInDim S1x400 ![1] bcast_S400_S1x400_1 : (⟨S400, .f32⟩ : BufTy).Contents (Elt F) → (⟨S1x400, .f32⟩ : BufTy).Contents (Elt F)),
    StableHlo.unary main_v76 main_v77 (broadcastInDim S16384x400 ![0, 1] bcast_S1x400_S16384x400_0_1 : (⟨S1x400, .f32⟩ : BufTy).Contents (Elt F) → (⟨S16384x400, .f32⟩ : BufTy).Contents (Elt F)),
    StableHlo.binary main_v71 main_v77 main_v78 (subf : (⟨S16384x400, .f32⟩ : BufTy).Contents (Elt F) → (⟨S16384x400, .f32⟩ : BufTy).Contents (Elt F) → (⟨S16384x400, .f32⟩ : BufTy).Contents (Elt F)),
    StableHlo.unary main_arg10 main_v79 (broadcastInDim S1x400 ![1] bcast_S400_S1x400_1 : (⟨S400, .f32⟩ : BufTy).Contents (Elt F) → (⟨S1x400, .f32⟩ : BufTy).Contents (Elt F)),
    StableHlo.unary main_v79 main_v80 (broadcastInDim S16384x400 ![0, 1] bcast_S1x400_S16384x400_0_1 : (⟨S1x400, .f32⟩ : BufTy).Contents (Elt F) → (⟨S16384x400, .f32⟩ : BufTy).Contents (Elt F)),
    StableHlo.binary main_v80 main_v78 main_v81 (mulf : (⟨S16384x400, .f32⟩ : BufTy).Contents (Elt F) → (⟨S16384x400, .f32⟩ : BufTy).Contents (Elt F) → (⟨S16384x400, .f32⟩ : BufTy).Contents (Elt F)),
    StableHlo.nullary main_cst_16 (constant S_ .f32 0x3727C5AC#32),
    StableHlo.unary main_cst_16 main_v82 (broadcastInDim S400 ![] bcast_S_S400 : (⟨S_, .f32⟩ : BufTy).Contents (Elt F) → (⟨S400, .f32⟩ : BufTy).Contents (Elt F)),
    StableHlo.binary main_v75 main_v82 main_v83 (addf : (⟨S400, .f32⟩ : BufTy).Contents (Elt F) → (⟨S400, .f32⟩ : BufTy).Contents (Elt F) → (⟨S400, .f32⟩ : BufTy).Contents (Elt F)),
    StableHlo.unary main_v83 main_v84 (Host.rsqrt : (⟨S400, .f32⟩ : BufTy).Contents (Elt F) → (⟨S400, .f32⟩ : BufTy).Contents (Elt F)),
    StableHlo.unary main_v84 main_v85 (broadcastInDim S1x400 ![1] bcast_S400_S1x400_1 : (⟨S400, .f32⟩ : BufTy).Contents (Elt F) → (⟨S1x400, .f32⟩ : BufTy).Contents (Elt F)),
    StableHlo.unary main_v85 main_v86 (broadcastInDim S16384x400 ![0, 1] bcast_S1x400_S16384x400_0_1 : (⟨S1x400, .f32⟩ : BufTy).Contents (Elt F) → (⟨S16384x400, .f32⟩ : BufTy).Contents (Elt F)),
    StableHlo.binary main_v81 main_v86 main_v87 (mulf : (⟨S16384x400, .f32⟩ : BufTy).Contents (Elt F) → (⟨S16384x400, .f32⟩ : BufTy).Contents (Elt F) → (⟨S16384x400, .f32⟩ : BufTy).Contents (Elt F)),
    StableHlo.unary main_arg11 main_v88 (broadcastInDim S1x400 ![1] bcast_S400_S1x400_1 : (⟨S400, .f32⟩ : BufTy).Contents (Elt F) → (⟨S1x400, .f32⟩ : BufTy).Contents (Elt F)),
    StableHlo.unary main_v88 main_v89 (broadcastInDim S16384x400 ![0, 1] bcast_S1x400_S16384x400_0_1 : (⟨S1x400, .f32⟩ : BufTy).Contents (Elt F) → (⟨S16384x400, .f32⟩ : BufTy).Contents (Elt F)),
    StableHlo.binary main_v87 main_v89 main_v90 (addf : (⟨S16384x400, .f32⟩ : BufTy).Contents (Elt F) → (⟨S16384x400, .f32⟩ : BufTy).Contents (Elt F) → (⟨S16384x400, .f32⟩ : BufTy).Contents (Elt F)) ]

/-- The three row sums, their sum, and the bias. -/
abbrev opsD : List (HloOp τ sig (Elt F)) :=
  [ StableHlo.nullary main_cst_17 (constant S_ .f32 0x00000000#32),
    StableHlo.binary main_v18 main_cst_17 main_v91 ((fun x v => Host.reduceAdd x v reducesTo_S16384x39_S16384_d1 h_S_) : (⟨S16384x39, .f32⟩ : BufTy).Contents (Elt F) → (⟨S_, .f32⟩ : BufTy).Contents (Elt F) → (⟨S16384, .f32⟩ : BufTy).Contents (Elt F)),
    StableHlo.nullary main_cst_18 (constant S_ .f32 0x00000000#32),
    StableHlo.binary main_v43 main_cst_18 main_v92 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    StableHlo.binary main_v91 main_v92 main_v93 (addf : (⟨S16384, .f32⟩ : BufTy).Contents (Elt F) → (⟨S16384, .f32⟩ : BufTy).Contents (Elt F) → (⟨S16384, .f32⟩ : BufTy).Contents (Elt F)),
    StableHlo.nullary main_cst_19 (constant S_ .f32 0x00000000#32),
    StableHlo.binary main_v90 main_cst_19 main_v94 ((fun x v => Host.reduceAdd x v reducesTo_S16384x400_S16384_d1 h_S_) : (⟨S16384x400, .f32⟩ : BufTy).Contents (Elt F) → (⟨S_, .f32⟩ : BufTy).Contents (Elt F) → (⟨S16384, .f32⟩ : BufTy).Contents (Elt F)),
    StableHlo.binary main_v93 main_v94 main_v95 (addf : (⟨S16384, .f32⟩ : BufTy).Contents (Elt F) → (⟨S16384, .f32⟩ : BufTy).Contents (Elt F) → (⟨S16384, .f32⟩ : BufTy).Contents (Elt F)),
    StableHlo.reshape main_arg12 main_v96 rfl shapeCasts_S1_S_,
    StableHlo.unary main_v96 main_v97 (broadcastInDim S16384 ![] bcast_S_S16384 : (⟨S_, .f32⟩ : BufTy).Contents (Elt F) → (⟨S16384, .f32⟩ : BufTy).Contents (Elt F)),
    StableHlo.binary main_v95 main_v97 main_v98 (addf : (⟨S16384, .f32⟩ : BufTy).Contents (Elt F) → (⟨S16384, .f32⟩ : BufTy).Contents (Elt F) → (⟨S16384, .f32⟩ : BufTy).Contents (Elt F)) ]

/-- The fold over two lines one after the other. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_app l l₂]

set_option maxRecDepth 8192 in
/-- The line is its five stages in order. -/
theorem ops_eq : (ops : List (HloOp τ sig (Elt F))) = opsA ++ (opsB ++ (opsC1 ++ (opsC2 ++ opsD))) := rfl

/-- The fold over the line is the stages' folds composed. -/
theorem after_ops (V : Valuation τ sig (Elt F)) :
    after ops V = after opsD (after opsC2 (after opsC1 (after opsB (after opsA V)))) := by
  rw [ops_eq, after_app, after_app, after_app, after_app]

/-! ## What a stage leaves alone

The buffers are numbered in the order the program names them: the thirteen arguments first, then one buffer per value. A
stage writes only the buffers of its own values, whose indices start at a bound; every buffer of smaller index keeps its
contents through the stage. -/

/-- The operation writes only buffers of index at least `lo`. -/
def WritesFrom (lo : Nat) (op : HloOp τ sig (Elt F)) : Prop :=
  ∀ b ∈ op.writes, ∃ y : Ref sig .tc, b = Proc.devRef .tc y ∧ lo ≤ y.idx.val

theorem writes_ge {op : HloOp τ sig (Elt F)} {y : Ref sig .tc} (hw : op.writes = {Proc.devRef .tc y}) {lo : Nat}
    (hy : lo ≤ y.idx.val) : WritesFrom lo op :=
  fun b hb => ⟨y, Finset.mem_singleton.mp (hw ▸ hb), hy⟩

/-- A buffer of index below the bound of every operation of a line keeps its contents through the line. -/
theorem after_keep {l : List (HloOp τ sig (Elt F))} {lo : Nat} (h : l.Forall fun op => WritesFrom lo op)
    (W : Valuation τ sig (Elt F)) (r : Ref sig .tc) (hr : r.idx.val < lo) :
    after l W (Proc.devRef .tc r) = W (Proc.devRef .tc r) :=
  after_of_forall_not_mem l W fun op hop hb => by
    obtain ⟨y, e, hy⟩ := (List.forall_iff_forall_mem.mp h) op hop _ hb
    obtain rfl := Proc.devRef_injective _ e
    omega

/-- Every operation of this stage writes a buffer of index at least `13`. -/
theorem opsA_writes : (opsA : List (HloOp τ sig (Elt F))).Forall fun op => WritesFrom 13 op :=
  ⟨writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide)⟩

/-- A buffer of smaller index passes through this stage. -/
theorem stageA_keep (W : Valuation τ sig (Elt F)) (r : Ref sig .tc) (hr : r.idx.val < 13) :
    after opsA W (Proc.devRef .tc r) = W (Proc.devRef .tc r) :=
  after_keep opsA_writes W r hr

/-- Every operation of this stage writes a buffer of index at least `73`. -/
theorem opsB_writes : (opsB : List (HloOp τ sig (Elt F))).Forall fun op => WritesFrom 73 op :=
  ⟨writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide)⟩

/-- A buffer of smaller index passes through this stage. -/
theorem stageB_keep (W : Valuation τ sig (Elt F)) (r : Ref sig .tc) (hr : r.idx.val < 73) :
    after opsB W (Proc.devRef .tc r) = W (Proc.devRef .tc r) :=
  after_keep opsB_writes W r hr

/-- Every operation of this stage writes a buffer of index at least `117`. -/
theorem opsC1_writes : (opsC1 : List (HloOp τ sig (Elt F))).Forall fun op => WritesFrom 117 op :=
  ⟨writes_ge rfl (by decide), writes_ge rfl (by decide), writes_ge rfl (by decide), writes_ge rfl (by decide)⟩

/-- A buffer of smaller index passes through this stage. -/
theorem stageC1_keep (W : Valuation τ sig (Elt F)) (r : Ref sig .tc) (hr : r.idx.val < 117) :
    after opsC1 W (Proc.devRef .tc r) = W (Proc.devRef .tc r) :=
  after_keep opsC1_writes W r hr

/-- Every operation of this stage writes a buffer of index at least `121`. -/
theorem opsC2_writes : (opsC2 : List (HloOp τ sig (Elt F))).Forall fun op => WritesFrom 121 op :=
  ⟨writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide), writes_ge rfl (by decide)⟩

/-- A buffer of smaller index passes through this stage. -/
theorem stageC2_keep (W : Valuation τ sig (Elt F)) (r : Ref sig .tc) (hr : r.idx.val < 121) :
    after opsC2 W (Proc.devRef .tc r) = W (Proc.devRef .tc r) :=
  after_keep opsC2_writes W r hr

/-- Every operation of this stage writes a buffer of index at least `165`. -/
theorem opsD_writes : (opsD : List (HloOp τ sig (Elt F))).Forall fun op => WritesFrom 165 op :=
  ⟨writes_ge rfl (by decide), writes_ge rfl (by decide), writes_ge rfl (by decide), writes_ge rfl (by decide),
    writes_ge rfl (by decide), writes_ge rfl (by decide), writes_ge rfl (by decide), writes_ge rfl (by decide),
    writes_ge rfl (by decide), writes_ge rfl (by decide), writes_ge rfl (by decide)⟩

/-- A buffer of smaller index passes through this stage. -/
theorem stageD_keep (W : Valuation τ sig (Elt F)) (r : Ref sig .tc) (hr : r.idx.val < 165) :
    after opsD W (Proc.devRef .tc r) = W (Proc.devRef .tc r) :=
  after_keep opsD_writes W r hr

end Cert.ReferenceIdeal.RefValue

end
-- ==== Proof.RefReadA.lean ====
/-
  The first stage read back: from any contents of the buffers, after the operations up to the first dense layer the
  first-order products, the halved second-order term and the first layer hold the pure terms of the arguments, and the
  arguments are unchanged.
-/
import proofs.«171042_j1391569404529_2_alg».proof.Proof.RefStages
import proofs.«171042_j1391569404529_2_alg».proof.Proof.RefTerms

noncomputable section

namespace Cert.ReferenceIdeal.RefValue

open Idealize.ShloMosaic Idealize.ShloMosaic.TcCoe Idealize.SL.Sem Idealize.ShloMosaic.StableHlo
open Cert.ReferenceIdeal Cert.ReferenceIdeal.Facts₀

variable [Cert.ReferenceIdeal.Facts]

local notation "⟪" r "⟫" => (Proc.devRef (Proc.tc : Proc τ) r : DevRef τ sig)

theorem stageA_v18 (W : Valuation τ sig (Elt Ideal)) :
    after opsA W ⟪main_v18⟫ = firstOrder (W ⟪main_arg0⟫) (W ⟪main_arg1⟫) (W ⟪main_arg2⟫) := by
  after_results_simp <;> rfl

theorem stageA_v43 (W : Valuation τ sig (Elt Ideal)) :
    after opsA W ⟪main_v43⟫ = fmHalf (W ⟪main_arg0⟫) (W ⟪main_arg1⟫) (W ⟪main_arg3⟫) := by
  after_results_simp <;> rfl

theorem stageA_v48 (W : Valuation τ sig (Elt Ideal)) :
    after opsA W ⟪main_v48⟫ = hidden1 (W ⟪main_arg0⟫) (W ⟪main_arg1⟫) (W ⟪main_arg3⟫) (W ⟪main_arg4⟫) (W ⟪main_arg5⟫) := by
  after_results_simp <;> rfl

end Cert.ReferenceIdeal.RefValue

end
-- ==== Proof.RefReadB.lean ====
/-
  The second stage read back: the first normalisation, from any contents of the buffers, as the batch normalisation of
  the first layer's buffer; the buffers it does not write are unchanged.
-/
import proofs.«171042_j1391569404529_2_alg».proof.Proof.RefStages
import proofs.«171042_j1391569404529_2_alg».proof.Proof.RefTerms

noncomputable section

namespace Cert.ReferenceIdeal.RefValue

open Idealize.ShloMosaic Idealize.ShloMosaic.TcCoe Idealize.SL.Sem Idealize.ShloMosaic.StableHlo
open Cert.ReferenceIdeal Cert.ReferenceIdeal.Facts₀

variable [Cert.ReferenceIdeal.Facts]

local notation "⟪" r "⟫" => (Proc.devRef (Proc.tc : Proc τ) r : DevRef τ sig)

theorem stageB_v67 (W : Valuation τ sig (Elt Ideal)) :
    after opsB W ⟪main_v67⟫ = batchNorm (W ⟪main_v48⟫) (W ⟪main_arg6⟫) (W ⟪main_arg7⟫) := by
  after_results_simp <;> rfl

end Cert.ReferenceIdeal.RefValue

end
-- ==== Proof.RefReadC.lean ====
/-
  The last three stages read back, from any contents of the buffers: the second dense layer, the second normalisation,
  and the row sums with the bias; the buffers a stage does not write are unchanged.
-/
import proofs.«171042_j1391569404529_2_alg».proof.Proof.RefStages
import proofs.«171042_j1391569404529_2_alg».proof.Proof.RefTerms

noncomputable section

namespace Cert.ReferenceIdeal.RefValue

open Idealize.ShloMosaic Idealize.ShloMosaic.TcCoe Idealize.SL.Sem Idealize.ShloMosaic.StableHlo
open Cert.ReferenceIdeal Cert.ReferenceIdeal.Facts₀

variable [Cert.ReferenceIdeal.Facts]

local notation "⟪" r "⟫" => (Proc.devRef (Proc.tc : Proc τ) r : DevRef τ sig)

theorem stageC1_v71 (W : Valuation τ sig (Elt Ideal)) :
    after opsC1 W ⟪main_v71⟫
      = denseLayer dot_S16384x400_S400x400_S16384x400_1_0_0_1_n_n (W ⟪main_v67⟫) (W ⟪main_arg8⟫) (W ⟪main_arg9⟫) := by
  after_results_simp <;> rfl

theorem stageC2_v90 (W : Valuation τ sig (Elt Ideal)) :
    after opsC2 W ⟪main_v90⟫ = batchNorm (W ⟪main_v71⟫) (W ⟪main_arg10⟫) (W ⟪main_arg11⟫) := by
  after_results_simp <;> rfl

theorem stageD_v98 (W : Valuation τ sig (Elt Ideal)) :
    after opsD W ⟪main_v98⟫
      = addf
          (addf
            (addf (Host.reduceAdd (W ⟪main_v18⟫) (constant (F := Ideal) S_ .f32 0x00000000#32) reducesTo_S16384x39_S16384_d1 h_S_)
              (Host.reduceAdd (W ⟪main_v43⟫) (constant (F := Ideal) S_ .f32 0x00000000#32) reducesTo_S16384x16_S16384_d1 h_S_))
            (Host.reduceAdd (W ⟪main_v90⟫) (constant (F := Ideal) S_ .f32 0x00000000#32) reducesTo_S16384x400_S16384_d1 h_S_))
          (broadcastInDim S16384 ![] bcast_S_S16384 (shapeCast S_ (W ⟪main_arg12⟫) shapeCasts_S1_S_)) := by
  after_results_simp <;> rfl

end Cert.ReferenceIdeal.RefValue

end
-- ==== Proof.RefRun.lean ====
/-
  The reference's run and its value: every weakly fair execution of the reference program terminates with the result
  buffer at the pure term `result` of the thirteen argument arrays, and the arguments unchanged.

  The fold over the whole line is the five stages' folds composed; each stage's value is a pure term of the buffers
  it reads, and the buffers a stage does not write pass through it.
-/
import proofs.«171042_j1391569404529_2_alg».proof.Proof.RefReadA
import proofs.«171042_j1391569404529_2_alg».proof.Proof.RefReadB
import proofs.«171042_j1391569404529_2_alg».proof.Proof.RefReadC

noncomputable section

namespace Cert.ReferenceIdeal.RefValue

open Idealize.ShloMosaic Idealize.ShloMosaic.TcCoe Idealize.SL.Sem Idealize.ShloMosaic.StableHlo
open Cert.ReferenceIdeal Cert.ReferenceIdeal.Facts₀

variable [Cert.ReferenceIdeal.Facts]

local notation "⟪" r "⟫" => (Proc.devRef (Proc.tc : Proc τ) r : DevRef τ sig)

/-- The result buffer after the whole line, from any contents: the score as a term of the arguments. -/
theorem v98_eq (V : Valuation τ sig (Elt Ideal)) :
    after ops V ⟪main_v98⟫ = result (V ⟪main_arg0⟫) (V ⟪main_arg1⟫) (V ⟪main_arg2⟫) (V ⟪main_arg3⟫) (V ⟪main_arg4⟫) (V ⟪main_arg5⟫) (V ⟪main_arg6⟫) (V ⟪main_arg7⟫) (V ⟪main_arg8⟫) (V ⟪main_arg9⟫) (V ⟪main_arg10⟫) (V ⟪main_arg11⟫) (V ⟪main_arg12⟫) := by
  rw [after_ops,
    stageD_v98,
    stageC2_keep _ main_v18 (by decide),
    stageC1_keep _ main_v18 (by decide),
    stageB_keep _ main_v18 (by decide),
    stageA_v18,
    stageC2_keep _ main_v43 (by decide),
    stageC1_keep _ main_v43 (by decide),
    stageB_keep _ main_v43 (by decide),
    stageA_v43,
    stageC2_v90,
    stageC1_keep _ main_arg10 (by decide),
    stageB_keep _ main_arg10 (by decide),
    stageA_keep _ main_arg10 (by decide),
    stageC1_keep _ main_arg11 (by decide),
    stageB_keep _ main_arg11 (by decide),
    stageA_keep _ main_arg11 (by decide),
    stageC1_v71,
    stageB_keep _ main_arg8 (by decide),
    stageA_keep _ main_arg8 (by decide),
    stageB_keep _ main_arg9 (by decide),
    stageA_keep _ main_arg9 (by decide),
    stageB_v67,
    stageA_keep _ main_arg6 (by decide),
    stageA_keep _ main_arg7 (by decide),
    stageA_v48,
    stageC2_keep _ main_arg12 (by decide),
    stageC1_keep _ main_arg12 (by decide),
    stageB_keep _ main_arg12 (by decide),
    stageA_keep _ main_arg12 (by decide)]
  rfl

/-- A buffer of index below `13` — an argument — after the whole line: unchanged. -/
theorem args_eq (V : Valuation τ sig (Elt Ideal)) (r : Ref sig .tc) (hr : r.idx.val < 13) : after ops V ⟪r⟫ = V ⟪r⟫ := by
  rw [after_ops, stageD_keep _ r (by omega), stageC2_keep _ r (by omega), stageC1_keep _ r (by omega),
    stageB_keep _ r (by omega), stageA_keep _ r hr]

/-- From any memory with zero counters: every weakly fair execution of the reference program terminates, the result
    buffer holds `result` of the arguments' launch contents, and the arguments are unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v98) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v98).trans (v98_eq (launchContents m c)),
      (h c main_arg0).trans (args_eq (launchContents m c) main_arg0 (by decide)),
      (h c main_arg1).trans (args_eq (launchContents m c) main_arg1 (by decide)),
      (h c main_arg2).trans (args_eq (launchContents m c) main_arg2 (by decide)),
      (h c main_arg3).trans (args_eq (launchContents m c) main_arg3 (by decide)),
      (h c main_arg4).trans (args_eq (launchContents m c) main_arg4 (by decide)),
      (h c main_arg5).trans (args_eq (launchContents m c) main_arg5 (by decide)),
      (h c main_arg6).trans (args_eq (launchContents m c) main_arg6 (by decide)),
      (h c main_arg7).trans (args_eq (launchContents m c) main_arg7 (by decide)),
      (h c main_arg8).trans (args_eq (launchContents m c) main_arg8 (by decide)),
      (h c main_arg9).trans (args_eq (launchContents m c) main_arg9 (by decide)),
      (h c main_arg10).trans (args_eq (launchContents m c) main_arg10 (by decide)),
      (h c main_arg11).trans (args_eq (launchContents m c) main_arg11 (by decide)),
      (h c main_arg12).trans (args_eq (launchContents m c) main_arg12 (by decide))⟩)
    (run_main m ρ)

end Cert.ReferenceIdeal.RefValue

end
-- ==== Proof.RefIndex.lean ====
/-
  The reference's operations read at an index, at the extended reals.

  Over variable arrays and explicit coordinates: a scalar's broadcast, a row vector's broadcast over the rows, the host
  sums over one axis (the initial value the zero word: just the sum), the two host contractions (each the plain rows by
  columns product), the bias's reshape; then a dense layer and a batch normalisation as the specification's `dense` and
  `bnorm` of the coordinate families.
-/
import proofs.«171042_j1391569404529_2_alg».proof.Proof.RefTerms
import proofs.«171042_j1391569404529_2_alg».proof.Proof.Spec
import Idealize.ShloMosaic.Lib.ValueIdx
import Idealize.ShloMosaic.PureOps.Ideal.Laws
import Idealize.ShloMosaic.Lib.Pipeline.Value
import Idealize.ShloMosaic.Lib.ValueLayout
import Idealize.ShloMosaic.Lib.StackMember

noncomputable section

namespace Cert.ReferenceIdeal.RefValue

open Idealize.ShloMosaic Idealize.ShloMosaic.ValueIdx Cert.ReferenceIdeal Cert.ReferenceIdeal.Facts₀

variable [Cert.ReferenceIdeal.Facts]

/-! ## Layout operations -/

/-- A scalar broadcast to any shape reads the scalar everywhere. -/
theorem bcastScalar_apply {α : Type} {t : Shape} (h : S_.BroadcastsInDim t (![] : Fin 0 → Fin t.rank)) (x : S_.Idx → α)
    (j : t.Idx) : broadcastInDim t ![] h x j = x ix0 :=
  broadcastInDim_apply _ h x j ix0 (fun a => a.elim0)

/-- A `[1,400]` array broadcast over the 16384 rows reads, at `(n, j)`, its entry `(0, j)`. -/
theorem bcastRow_apply {α : Type} (y : S1x400.Idx → α) (n : Fin 16384) (j : Fin 400) :
    broadcastInDim S16384x400 ![0, 1] bcast_S1x400_S16384x400_0_1 y (ix2 n j) = y (ix2 (0 : Fin 1) j) :=
  broadcastInDim_apply _ _ y (ix2 n j) (ix2 (0 : Fin 1) j) (fun a => by match a with | ⟨0, _⟩ => rfl | ⟨1, _⟩ => rfl)

/-- A vector of 400 entries as a `[1,400]` array reads, at `(0, j)`, its entry `j`. -/
theorem bcastLift_apply {α : Type} (v : S400.Idx → α) (j : Fin 400) :
    broadcastInDim S1x400 ![1] bcast_S400_S1x400_1 v (ix2 (0 : Fin 1) j) = v (ix1 j) :=
  broadcastInDim_apply _ _ v (ix2 (0 : Fin 1) j) (ix1 j) (fun a => by match a with | ⟨0, _⟩ => rfl)

/-- A vector of 400 entries repeated on every row reads, at `(n, j)`, its entry `j`. -/
theorem rowBcast_apply (v : FVec Ideal S400 .f32) (n : Fin 16384) (j : Fin 400) : rowBcast v (ix2 n j) = v (ix1 j) :=
  (bcastRow_apply _ n j).trans (bcastLift_apply v j)

/-- The one-element bias array read as a scalar, broadcast over the rows: its one entry. -/
theorem bias_apply (a12 : FVec Ideal S1 .f32) (n : Fin 16384) :
    broadcastInDim S16384 ![] bcast_S_S16384 (shapeCast S_ a12 shapeCasts_S1_S_) (ix1 n) = a12 (ix1 (0 : Fin 1)) := by
  rw [bcastScalar_apply]
  have e1 : S1.numel = 1 := Shape.numel_eq_one (s := S1) (fun a => by match a with | ⟨0, _⟩ => rfl)
  have e2 : S_.numel = 1 := Shape.numel_eq_one (s := S_) (fun a => a.elim0)
  have h1 : (S1.rowMajor (ix1 (0 : Fin 1))).val = 0 := by
    have := (S1.rowMajor (ix1 (0 : Fin 1))).isLt
    omega
  have h2 : (S_.rowMajor ix0).val = 0 := by
    have := (S_.rowMajor ix0).isLt
    omega
  exact shapeCast_apply a12 _ ix0 (ix1 (0 : Fin 1)) (h1.trans h2.symm)

/-! ## Pointwise host operations -/

theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

/-! ## Host sums over one axis, from the zero word -/

/-- A host sum over axis 0 of a `[16384,400]` array from zero, at column `j`: the sum over that column. -/
theorem sumRows_apply (x : FVec Ideal S16384x400 .f32) (j : Fin 400) :
    Host.reduceAdd x (constant (F := Ideal) S_ .f32 0x00000000#32) reducesTo_S16384x400_S400_d0 h_S_ (ix1 j) = ∑ n : Fin 16384, x (ix2 n j) := by
  have hR : S16384x400.Reduces [0] S400 := by decide
  refine (Ideal.hostReduceAdd_single reducesTo_S16384x400_S400_d0 hR x _ (ix1 j)).trans ?_
  show Ideal.ofBits .f32 0x00000000#32 + _ = _
  rw [Ideal.ofBits_zero_f32, zero_add]
  exact Finset.sum_congr rfl fun k _ => congrArg x (funext fun a => Fin.ext (by match a with | ⟨0, _⟩ => rfl | ⟨1, _⟩ => rfl))

/-- A host sum over axis 1 of a `[16384,39]` array from zero, at row `n`: the sum over that row. -/
theorem sumCols39_apply (x : FVec Ideal S16384x39 .f32) (n : Fin 16384) :
    Host.reduceAdd x (constant (F := Ideal) S_ .f32 0x00000000#32) reducesTo_S16384x39_S16384_d1 h_S_ (ix1 n) = ∑ f : Fin 39, x (ix2 n f) := by
  have hR : S16384x39.Reduces [1] S16384 := by decide
  refine (Ideal.hostReduceAdd_single reducesTo_S16384x39_S16384_d1 hR x _ (ix1 n)).trans ?_
  show Ideal.ofBits .f32 0x00000000#32 + _ = _
  rw [Ideal.ofBits_zero_f32, zero_add]
  exact Finset.sum_congr rfl fun k _ => congrArg x (funext fun a => Fin.ext (by match a with | ⟨0, _⟩ => rfl | ⟨1, _⟩ => rfl))

/-- A host sum over axis 1 of a `[16384,16]` array from zero, at row `n`: the sum over that row. -/
theorem sumCols16_apply (x : FVec Ideal S16384x16 .f32) (n : Fin 16384) :
    Host.reduceAdd x (constant (F := Ideal) S_ .f32 0x00000000#32) reducesTo_S16384x16_S16384_d1 h_S_ (ix1 n) = ∑ f : Fin 16, x (ix2 n f) := by
  have hR : S16384x16.Reduces [1] S16384 := by decide
  refine (Ideal.hostReduceAdd_single reducesTo_S16384x16_S16384_d1 hR x _ (ix1 n)).trans ?_
  show Ideal.ofBits .f32 0x00000000#32 + _ = _
  rw [Ideal.ofBits_zero_f32, zero_add]
  exact Finset.sum_congr rfl fun k _ => congrArg x (funext fun a => Fin.ext (by match a with | ⟨0, _⟩ => rfl | ⟨1, _⟩ => rfl))

/-- A host sum over axis 1 of a `[16384,400]` array from zero, at row `n`: the sum over that row. -/
theorem sumCols400_apply (x : FVec Ideal S16384x400 .f32) (n : Fin 16384) :
    Host.reduceAdd x (constant (F := Ideal) S_ .f32 0x00000000#32) reducesTo_S16384x400_S16384_d1 h_S_ (ix1 n) = ∑ f : Fin 400, x (ix2 n f) := by
  have hR : S16384x400.Reduces [1] S16384 := by decide
  refine (Ideal.hostReduceAdd_single reducesTo_S16384x400_S16384_d1 hR x _ (ix1 n)).trans ?_
  show Ideal.ofBits .f32 0x00000000#32 + _ = _
  rw [Ideal.ofBits_zero_f32, zero_add]
  exact Finset.sum_congr rfl fun k _ => congrArg x (funext fun a => Fin.ext (by match a with | ⟨0, _⟩ => rfl | ⟨1, _⟩ => rfl))

/-- A host sum over the fields (axis 1) of a `[16384,39,16]` array from zero, at `(n, e)`: the sum over the fields. -/
theorem sumFields_apply (x : FVec Ideal S16384x39x16 .f32) (n : Fin 16384) (e : Fin 16) :
    Host.reduceAdd x (constant (F := Ideal) S_ .f32 0x00000000#32) reducesTo_S16384x39x16_S16384x16_d1 h_S_ (ix2 n e) = ∑ f : Fin 39, x (ix3 n f e) := by
  have hR : S16384x39x16.Reduces [1] S16384x16 := by decide
  refine (Ideal.hostReduceAdd_single reducesTo_S16384x39x16_S16384x16_d1 hR x _ (ix2 n e)).trans ?_
  show Ideal.ofBits .f32 0x00000000#32 + _ = _
  rw [Ideal.ofBits_zero_f32, zero_add]
  exact Finset.sum_congr rfl fun k _ => congrArg x (funext fun a => Fin.ext (by
    match a with | ⟨0, _⟩ => rfl | ⟨1, _⟩ => rfl | ⟨2, _⟩ => rfl))

/-! ## The dense layers -/

/-- The first dense layer at `(n, j)`: row `n` against column `j` of the weights, plus the bias. -/
theorem denseLayer1_eq (x : FVec Ideal S16384x624 .f32) (w : FVec Ideal S624x400 .f32) (b : FVec Ideal S400 .f32)
    (n : Fin 16384) (j : Fin 400) :
    denseLayer dot_S16384x624_S624x400_S16384x400_1_0_0_1_n_n x w b (ix2 n j)
      = Cert.DeepFM.dense (fun n k => x (ix2 n k)) (fun k j => w (ix2 k j)) (fun j => b (ix1 j)) n j := by
  unfold denseLayer
  rw [addf_apply, rowBcast_apply,
    show dot_S16384x624_S624x400_S16384x400_1_0_0_1_n_n = DotDims.plain 16384 624 400 from rfl,
    StackMember.dotGeneral_plain_apply]
  rfl

/-- The second dense layer at `(n, j)`. -/
theorem denseLayer2_eq (x : FVec Ideal S16384x400 .f32) (w : FVec Ideal S400x400 .f32) (b : FVec Ideal S400 .f32)
    (n : Fin 16384) (j : Fin 400) :
    denseLayer dot_S16384x400_S400x400_S16384x400_1_0_0_1_n_n x w b (ix2 n j)
      = Cert.DeepFM.dense (fun n k => x (ix2 n k)) (fun k j => w (ix2 k j)) (fun j => b (ix1 j)) n j := by
  unfold denseLayer
  rw [addf_apply, rowBcast_apply,
    show dot_S16384x400_S400x400_S16384x400_1_0_0_1_n_n = DotDims.plain 16384 400 400 from rfl,
    StackMember.dotGeneral_plain_apply]
  rfl

/-! ## The batch normalisation -/

/-- The mean of column `j`: the column's sum divided by the word `16384.0`. -/
theorem colMean_apply (x : FVec Ideal S16384x400 .f32) (j : Fin 400) :
    colMean x (ix1 j) = Ideal.div (∑ n : Fin 16384, x (ix2 n j)) (Ideal.ofBits .f32 0x46800000#32) := by
  unfold colMean
  rw [hostDivf_apply, sumRows_apply, bcastScalar_apply]
  rfl

/-- The deviation at `(n, j)` from the mean of column `j` (the mean computed on a `[1,400]` array: the same value). -/
theorem colDev_apply (x : FVec Ideal S16384x400 .f32) (n : Fin 16384) (j : Fin 400) :
    colDev x (ix2 n j) = x (ix2 n j) - Ideal.div (∑ n' : Fin 16384, x (ix2 n' j)) (Ideal.ofBits .f32 0x46800000#32) := by
  unfold colDev
  rw [subf_apply, bcastRow_apply, hostDivf_apply, bcastLift_apply, bcastScalar_apply, sumRows_apply]
  rfl

/-- The divisor of the second moment is the word `16384.0`: the integer `0` as a float is zero. -/
theorem varDivisor_apply (i : S_.Idx) : varDivisor i = (Ideal.ofBits .f32 0x46800000#32) := by
  show (Ideal.ofBits .f32 0x46800000#32) - (((0#32 : BitVec 32).toInt : ℝ) : EReal) = _
  rw [show (0#32 : BitVec 32).toInt = 0 from rfl, Int.cast_zero, EReal.coe_zero, sub_zero]

/-- With the word `16384.0` read as the number 16384, the divisor is positive: the comparison's bit is set. -/
theorem varDivisor_pos (hN : (Ideal.ofBits .f32 0x46800000#32) = ((16384 : ℝ) : EReal)) :
    cmpf .ogt varDivisor (constant (F := Ideal) S_ .f32 0x00000000#32) ix0 = 1#1 := by
  show Ideal.cmp .ogt (varDivisor ix0) (Ideal.ofBits .f32 0x00000000#32) = 1#1
  rw [varDivisor_apply, Ideal.ofBits_zero_f32, hN]
  show BitVec.ofBool (decide ((0 : EReal) < ((16384 : ℝ) : EReal))) = 1#1
  rw [decide_eq_true (EReal.coe_pos.mpr (by norm_num))]
  rfl

/-- The variance of column `j` as the called function computes it: the sum of the squared deviations over the word
    `16384.0` (the select takes its first branch). -/
theorem colVar_apply (x : FVec Ideal S16384x400 .f32) (hN : (Ideal.ofBits .f32 0x46800000#32) = ((16384 : ℝ) : EReal)) (j : Fin 400) :
    colVar x (ix1 j) = Ideal.div (∑ n : Fin 16384, colDev x (ix2 n j) * colDev x (ix2 n j)) (Ideal.ofBits .f32 0x46800000#32) := by
  unfold colVar
  rw [select_apply, bcastScalar_apply, varDivisor_pos hN, select_one, hostDivf_apply, bcastScalar_apply, varDivisor_apply,
    sumRows_apply]
  rfl

/-- The batch normalisation at `(n, j)` is the specification's, of the coordinate family, with the reference's mean
    and centred second moment. -/
theorem batchNorm_eq (x : FVec Ideal S16384x400 .f32) (g be : FVec Ideal S400 .f32) (hN : (Ideal.ofBits .f32 0x46800000#32) = ((16384 : ℝ) : EReal))
    (n : Fin 16384) (j : Fin 400) :
    batchNorm x g be (ix2 n j)
      = Cert.DeepFM.bnorm (Ideal.ofBits .f32 0x3727C5AC#32) (fun n j => x (ix2 n j))
          (Cert.DeepFM.meanRef (Ideal.ofBits .f32 0x46800000#32) fun n j => x (ix2 n j))
          (Cert.DeepFM.varRef (Ideal.ofBits .f32 0x46800000#32) fun n j => x (ix2 n j))
          (fun j => g (ix1 j)) (fun j => be (ix1 j)) n j := by
  unfold batchNorm
  rw [addf_apply, mulf_apply, mulf_apply, subf_apply, rowBcast_apply, rowBcast_apply, rowBcast_apply, rowBcast_apply,
    hostRsqrt_apply, addf_apply, colMean_apply, colVar_apply x hN, bcastScalar_apply]
  simp only [colDev_apply]
  rfl

/-! ## The second-order term -/

/-- The halved second-order term at `(n, e)`. -/
theorem fmHalf_apply (a0 : IVec S16384x39x1 32) (a1 : FVec Ideal S16384x39 .f32) (a3 : FVec Ideal S39x100001x16 .f32)
    (n : Fin 16384) (e : Fin 16) :
    fmHalf a0 a1 a3 (ix2 n e)
      = (Ideal.ofBits .f32 0x3F000000#32) * ((∑ f : Fin 39, embProd a0 a1 a3 (ix3 n f e)) * (∑ f : Fin 39, embProd a0 a1 a3 (ix3 n f e))
          - ∑ f : Fin 39, embProd a0 a1 a3 (ix3 n f e) * embProd a0 a1 a3 (ix3 n f e)) := by
  unfold fmHalf
  rw [mulf_apply, subf_apply, mulf_apply, bcastScalar_apply, sumFields_apply, sumFields_apply]
  rfl

/-- The second-order term of row `n` is the specification's. -/
theorem fmRow_eq (a0 : IVec S16384x39x1 32) (a1 : FVec Ideal S16384x39 .f32) (a3 : FVec Ideal S39x100001x16 .f32)
    (n : Fin 16384) :
    fmRow a0 a1 a3 (ix1 n) = Cert.DeepFM.fmRef (Ideal.ofBits .f32 0x3F000000#32) (fun n f e => embProd a0 a1 a3 (ix3 n f e)) n := by
  unfold fmRow
  rw [sumCols16_apply]
  simp only [fmHalf_apply]
  rfl

end Cert.ReferenceIdeal.RefValue

end
-- ==== Proof.RefValue.lean ====
/-
  The reference's value at an index: the score of row `n`, as the pure term `result` gives it, is the specification's
  reference spelling `outRef` of the coordinate families of the embedding products, their flattening, the first-order row
  sums, the weights, the normalisation parameters and the bias.

  The flattening reads the embedding products at (row, d / 16, d % 16). Each dense layer is the specification's `dense`,
  each normalisation its `bnorm` with the column mean and the centred second moment over the word `16384.0` — the
  variance function's select takes its first branch once that word is read as the number 16384.
-/
import proofs.«171042_j1391569404529_2_alg».proof.Proof.RefIndex

noncomputable section

namespace Cert.ReferenceIdeal.RefValue

open Idealize.ShloMosaic Idealize.ShloMosaic.ValueIdx Cert.ReferenceIdeal Cert.ReferenceIdeal.Facts₀

variable [Cert.ReferenceIdeal.Facts]

variable (a0 : IVec S16384x39x1 32) (a1 : FVec Ideal S16384x39 .f32) (a2 : FVec Ideal S39x100001 .f32)
  (a3 : FVec Ideal S39x100001x16 .f32) (a4 : FVec Ideal S624x400 .f32) (a5 a6 a7 : FVec Ideal S400 .f32)
  (a8 : FVec Ideal S400x400 .f32) (a9 a10 a11 : FVec Ideal S400 .f32) (a12 : FVec Ideal S1 .f32)

/-- The flat embedding products at `(n, d)` are the embedding products at `(n, d / 16, d % 16)`: the same row-major
    position. -/
theorem deep_apply (n : Fin 16384) (d : Fin 624) :
    deep a0 a1 a3 (ix2 n d)
      = embProd a0 a1 a3 (ix3 n ⟨d.val / 16, by omega⟩ ⟨d.val % 16, Nat.mod_lt _ (by norm_num)⟩) := by
  unfold deep
  exact shapeCast_apply _ _ (ix2 n d) _ (by
    rw [Shape.rowMajor_val_three, Shape.rowMajor_val_two]
    show (n.val * 39 + d.val / 16) * 16 + d.val % 16 = n.val * 624 + d.val
    omega)

/-- The first layer's coordinate family is the specification's first dense layer. -/
theorem hidden1_eq :
    (fun n j => hidden1 a0 a1 a3 a4 a5 (ix2 n j)) = Cert.DeepFM.h1 (fun n d => deep a0 a1 a3 (ix2 n d)) (fun k j => a4 (ix2 k j)) (fun j => a5 (ix1 j)) := by
  funext n j
  unfold hidden1
  rw [denseLayer1_eq]
  rfl

/-- The first normalised layer's coordinate family is the specification's. -/
theorem act1_eq (hN : (Ideal.ofBits .f32 0x46800000#32) = ((16384 : ℝ) : EReal)) :
    (fun n j => act1 a0 a1 a3 a4 a5 a6 a7 (ix2 n j))
      = Cert.DeepFM.a1Ref (Ideal.ofBits .f32 0x46800000#32) (Ideal.ofBits .f32 0x3727C5AC#32) (fun n d => deep a0 a1 a3 (ix2 n d)) (fun k j => a4 (ix2 k j)) (fun j => a5 (ix1 j)) (fun j => a6 (ix1 j)) (fun j => a7 (ix1 j)) := by
  funext n j
  unfold act1
  rw [batchNorm_eq _ _ _ hN, hidden1_eq]
  rfl

/-- The second layer's coordinate family is the specification's. -/
theorem hidden2_eq (hN : (Ideal.ofBits .f32 0x46800000#32) = ((16384 : ℝ) : EReal)) :
    (fun n j => hidden2 a0 a1 a3 a4 a5 a6 a7 a8 a9 (ix2 n j))
      = Cert.DeepFM.h2Ref (Ideal.ofBits .f32 0x46800000#32) (Ideal.ofBits .f32 0x3727C5AC#32) (fun n d => deep a0 a1 a3 (ix2 n d)) (fun k j => a4 (ix2 k j)) (fun j => a5 (ix1 j)) (fun j => a6 (ix1 j)) (fun j => a7 (ix1 j)) (fun k j => a8 (ix2 k j)) (fun j => a9 (ix1 j)) := by
  funext n j
  unfold hidden2
  rw [denseLayer2_eq, act1_eq a0 a1 a3 a4 a5 a6 a7 hN]
  rfl

/-- The second normalised layer's coordinate family is the specification's. -/
theorem act2_eq (hN : (Ideal.ofBits .f32 0x46800000#32) = ((16384 : ℝ) : EReal)) :
    (fun n j => act2 a0 a1 a3 a4 a5 a6 a7 a8 a9 a10 a11 (ix2 n j))
      = Cert.DeepFM.a2Ref (Ideal.ofBits .f32 0x46800000#32) (Ideal.ofBits .f32 0x3727C5AC#32) (fun n d => deep a0 a1 a3 (ix2 n d)) (fun k j => a4 (ix2 k j)) (fun j => a5 (ix1 j)) (fun j => a6 (ix1 j)) (fun j => a7 (ix1 j)) (fun k j => a8 (ix2 k j)) (fun j => a9 (ix1 j)) (fun j => a10 (ix1 j)) (fun j => a11 (ix1 j)) := by
  funext n j
  unfold act2
  rw [batchNorm_eq _ _ _ hN, hidden2_eq a0 a1 a3 a4 a5 a6 a7 a8 a9 hN]
  rfl

/-- The score of row `n` is the specification's reference spelling. -/
theorem result_apply (hN : (Ideal.ofBits .f32 0x46800000#32) = ((16384 : ℝ) : EReal)) (n : Fin 16384) :
    result a0 a1 a2 a3 a4 a5 a6 a7 a8 a9 a10 a11 a12 (ix1 n)
      = Cert.DeepFM.outRef (Ideal.ofBits .f32 0x46800000#32) (Ideal.ofBits .f32 0x3727C5AC#32) (Ideal.ofBits .f32 0x3F000000#32)
          (fun n f e => embProd a0 a1 a3 (ix3 n f e)) (fun n d => deep a0 a1 a3 (ix2 n d)) (fun n => rowOne a0 a1 a2 (ix1 n))
          (fun k j => a4 (ix2 k j)) (fun j => a5 (ix1 j)) (fun j => a6 (ix1 j)) (fun j => a7 (ix1 j)) (fun k j => a8 (ix2 k j))
          (fun j => a9 (ix1 j)) (fun j => a10 (ix1 j)) (fun j => a11 (ix1 j)) (a12 (ix1 0)) n := by
  have hsum : (∑ j : Fin 400, act2 a0 a1 a3 a4 a5 a6 a7 a8 a9 a10 a11 (ix2 n j))
      = ∑ j : Fin 400, Cert.DeepFM.a2Ref (Ideal.ofBits .f32 0x46800000#32) (Ideal.ofBits .f32 0x3727C5AC#32) (fun n d => deep a0 a1 a3 (ix2 n d)) (fun k j => a4 (ix2 k j)) (fun j => a5 (ix1 j)) (fun j => a6 (ix1 j)) (fun j => a7 (ix1 j)) (fun k j => a8 (ix2 k j)) (fun j => a9 (ix1 j)) (fun j => a10 (ix1 j)) (fun j => a11 (ix1 j)) n j :=
    Finset.sum_congr rfl fun j _ => congrFun (congrFun (act2_eq a0 a1 a3 a4 a5 a6 a7 a8 a9 a10 a11 hN) n) j
  unfold result deepRow
  rw [addf_apply, addf_apply, addf_apply, bias_apply, fmRow_eq, sumCols400_apply, hsum]
  rfl

end Cert.ReferenceIdeal.RefValue

end
-- ==== Proof.AlgebraSums.lean ====
/-
  Reindexing of finite sums on families of extended reals: the block-wise accumulation of a sum over the
  16384 rows, and the sum over the flattened coordinate `d = 16 f + e` against the 0/1 indicator of `d % 16 = e`.
  Nothing here needs the entries to be finite.
-/
import proofs.«171042_j1391569404529_2_alg».proof.Proof.Spec

noncomputable section

namespace Cert.DeepFM

open Idealize.ShloMosaic

/-- The embedding of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `N = B R` indices, taken block by block: `B` blocks of `R` consecutive indices. -/
theorem sum_blocks {M : Type*} [AddCommMonoid M] {B R N : ℕ} (h : B * R = N) (F : Fin N → M)
    (hb : ∀ (t : Fin B) (r : Fin R), t.val * R + r.val < N) :
    ∑ t : Fin B, ∑ r : Fin R, F ⟨t.val * R + r.val, hb t r⟩ = ∑ n : Fin N, F n := by
  subst h
  rw [← Fintype.sum_prod_type']
  refine Fintype.sum_equiv finProdFinEquiv _ _ ?_
  rintro ⟨t, r⟩
  congr 1
  apply Fin.ext
  simp only [finProdFinEquiv_apply_val]
  rw [Nat.add_comm, Nat.mul_comm]

/-- The block-wise sum over the rows is the sum over all 16384 rows. -/
theorem sum_blkRow {M : Type*} [AddCommMonoid M] {B R : ℕ} (h : B * R = 16384) (F : Fin 16384 → M) :
    ∑ t : Fin B, ∑ r : Fin R, F (blkRow h t r) = ∑ n : Fin 16384, F n :=
  sum_blocks h F (fun t r => (blkRow h t r).isLt)

/-- The column mean does not depend on how the rows are cut into blocks. -/
theorem meanKer_eq_meanRef {B R : ℕ} (h : B * R = 16384) (cN : EReal) (H : Fin 16384 → Fin 400 → EReal) :
    meanKer h cN H = meanRef cN H := by
  funext j
  unfold meanKer meanRef
  rw [sum_blkRow h (fun n => H n j)]

/-- Summing a family `G d = Q (d / 16) (d % 16)` against the indicator of `d % 16 = e` leaves the sum of
    `Q f e` over the fields `f`: `x * 1 = x` and `x * 0 = 0` hold at every extended real. -/
theorem sum_indicator (Q : Fin 39 → Fin 16 → EReal) (G : Fin 624 → EReal) (Sg : Fin 624 → Fin 16 → EReal)
    (hG : ∀ d : Fin 624, G d = Q (Fin.divNat (n := 16) (m := 39) d) (Fin.modNat (n := 16) (m := 39) d))
    (hSg : ∀ (d : Fin 624) (e : Fin 16), Sg d e = if d.val % 16 = e.val then 1 else 0) (e : Fin 16) :
    ∑ d : Fin 624, G d * Sg d e = ∑ f : Fin 39, Q f e := by
  have key : ∀ d : Fin 624, G d * Sg d e
      = (fun p : Fin 39 × Fin 16 => if p.2 = e then Q p.1 e else 0)
          ((finProdFinEquiv (m := 39) (n := 16)).symm d) := by
    intro d
    rw [hG, hSg]
    simp only [finProdFinEquiv_symm_apply]
    by_cases hde : d.val % 16 = e.val
    · have he : Fin.modNat (n := 16) (m := 39) d = e := Fin.ext hde
      rw [if_pos hde, if_pos he, mul_one, he]
    · have he : ¬ Fin.modNat (n := 16) (m := 39) d = e := fun h => hde (congrArg Fin.val h)
      rw [if_neg hde, if_neg he, mul_zero]
  rw [Fintype.sum_equiv (finProdFinEquiv (m := 39) (n := 16)).symm (fun d : Fin 624 => G d * Sg d e)
      (fun p : Fin 39 × Fin 16 => if p.2 = e then Q p.1 e else 0) key, Fintype.sum_prod_type]
  simp only [Finset.sum_ite_eq', Finset.mem_univ, if_true]

end Cert.DeepFM

end
-- ==== Proof.AlgebraVariance.lean ====
/-
  The two spellings of a column's variance agree on real entries:
  `(1/N) ∑ x² - μ² = (1/N) ∑ (x - μ)²` with `μ = (1/N) ∑ x`. The identity is proved over the reals and carried to the
  extended reals through the embedding; at an infinite entry it fails (`⊤ - ⊤`), so finiteness is assumed.
-/
import proofs.«171042_j1391569404529_2_alg».proof.Proof.AlgebraSums

noncomputable section

namespace Cert.DeepFM

open Idealize.ShloMosaic

/-- Over the reals: mean of squares minus square of the mean is the mean of the squared deviations. -/
theorem real_var_identity {ι : Type*} [Fintype ι] (x : ι → ℝ) (N : ℝ) (hN : (Fintype.card ι : ℝ) = N) (hN0 : N ≠ 0) :
    (∑ i, x i * x i) * (1 / N) - ((∑ i, x i) * (1 / N)) * ((∑ i, x i) * (1 / N))
      = (∑ i, (x i - (∑ k, x k) * (1 / N)) * (x i - (∑ k, x k) * (1 / N))) * (1 / N) := by
  have hexp : ∀ μ : ℝ, ∑ i, (x i - μ) * (x i - μ) = (∑ i, x i * x i) - 2 * μ * (∑ i, x i) + N * (μ * μ) := by
    intro μ
    have h1 : ∀ i, (x i - μ) * (x i - μ) = x i * x i - 2 * μ * x i + μ * μ := fun i => by ring
    simp only [h1, Finset.sum_add_distrib, Finset.sum_sub_distrib, ← Finset.mul_sum, Finset.sum_const,
      Finset.card_univ, nsmul_eq_mul, hN]
    ring
  rw [hexp]
  field_simp
  ring

/-- The mean of a real column is a real number. -/
theorem col_mean (x : Fin 16384 → ℝ) :
    Ideal.div (∑ n, (x n : EReal)) ((16384 : ℝ) : EReal) = (((∑ n, x n) * (1 / 16384) : ℝ) : EReal) := by
  rw [Ideal.div_coe (by norm_num), ← coe_sum, ← EReal.coe_mul]

/-- The centred second moment of a real column is a real number, and it is not negative. -/
theorem col_varRef (x : Fin 16384 → ℝ) :
    Ideal.div (∑ n, ((x n : EReal) - Ideal.div (∑ m, (x m : EReal)) ((16384 : ℝ) : EReal))
            * ((x n : EReal) - Ideal.div (∑ m, (x m : EReal)) ((16384 : ℝ) : EReal))) ((16384 : ℝ) : EReal)
      = (((∑ n, (x n - (∑ m, x m) * (1 / 16384)) * (x n - (∑ m, x m) * (1 / 16384))) * (1 / 16384) : ℝ) : EReal) := by
  rw [col_mean]
  simp only [← EReal.coe_sub, ← EReal.coe_mul, ← coe_sum]
  rw [Ideal.div_coe (by norm_num), ← EReal.coe_mul]

/-- Mean of squares minus square of the mean, on a real column. -/
theorem col_varKer (x : Fin 16384 → ℝ) :
    Ideal.div (∑ n, (x n : EReal) * (x n : EReal)) ((16384 : ℝ) : EReal)
        - Ideal.div (∑ n, (x n : EReal)) ((16384 : ℝ) : EReal) * Ideal.div (∑ n, (x n : EReal)) ((16384 : ℝ) : EReal)
      = (((∑ n, x n * x n) * (1 / 16384) - ((∑ n, x n) * (1 / 16384)) * ((∑ n, x n) * (1 / 16384)) : ℝ) : EReal) := by
  rw [col_mean]
  simp only [← EReal.coe_mul, ← coe_sum]
  rw [Ideal.div_coe (by norm_num), ← EReal.coe_mul, ← EReal.coe_sub]

/-- The two spellings of the variance agree on a real column. -/
theorem col_var (x : Fin 16384 → ℝ) :
    Ideal.div (∑ n, (x n : EReal) * (x n : EReal)) ((16384 : ℝ) : EReal)
        - Ideal.div (∑ n, (x n : EReal)) ((16384 : ℝ) : EReal) * Ideal.div (∑ n, (x n : EReal)) ((16384 : ℝ) : EReal)
      = Ideal.div (∑ n, ((x n : EReal) - Ideal.div (∑ m, (x m : EReal)) ((16384 : ℝ) : EReal))
            * ((x n : EReal) - Ideal.div (∑ m, (x m : EReal)) ((16384 : ℝ) : EReal))) ((16384 : ℝ) : EReal) := by
  rw [col_varKer, col_varRef]
  congr 1
  exact real_var_identity x 16384 (by simp) (by norm_num)

section
variable {cN : EReal} (hN : cN = ((16384 : ℝ) : EReal)) (H : Fin 16384 → Fin 400 → EReal)
  (hH : ∀ n j, ∃ x : ℝ, H n j = (x : EReal))
include hN hH

/-- On real entries the kernel's variance (from block-wise sums) is the reference's. -/
theorem varKer_eq_varRef {B R : ℕ} (h : B * R = 16384) : varKer h cN H = varRef cN H := by
  choose x hx using hH
  funext j
  unfold varKer
  rw [meanKer_eq_meanRef h cN H, sum_blkRow h (fun n => H n j * H n j)]
  unfold varRef meanRef
  subst hN
  simp only [hx]
  exact col_var (fun n => x n j)

/-- On real entries the column means are real. -/
theorem meanRef_real (j : Fin 400) : ∃ m : ℝ, meanRef cN H j = (m : EReal) := by
  choose x hx using hH
  unfold meanRef
  subst hN
  simp only [hx]
  exact ⟨_, col_mean (fun n => x n j)⟩

/-- On real entries the column variances are real and not negative. -/
theorem varRef_real (j : Fin 400) : ∃ v : ℝ, 0 ≤ v ∧ varRef cN H j = (v : EReal) := by
  choose x hx using hH
  unfold varRef meanRef
  subst hN
  simp only [hx]
  exact ⟨_, mul_nonneg (Finset.sum_nonneg fun i _ => mul_self_nonneg _) (by norm_num), col_varRef (fun n => x n j)⟩

end

end Cert.DeepFM

end
-- ==== Proof.AlgebraFields.lean ====
/-
  Real entries stay real through a dense layer and through a batch normalisation whose variance is a real number
  that is not negative and whose regulariser is a positive real: the reciprocal square root of a positive real is real.
-/
import proofs.«171042_j1391569404529_2_alg».proof.Proof.AlgebraSums

noncomputable section

namespace Cert.DeepFM

open Idealize.ShloMosaic

/-- A dense layer of real entries, real weights and real biases has real entries. -/
theorem dense_real {K : ℕ} (X : Fin 16384 → Fin K → EReal) (W : Fin K → Fin 400 → EReal) (b : Fin 400 → EReal)
    (hX : ∀ n k, ∃ x : ℝ, X n k = (x : EReal)) (hW : ∀ k j, ∃ x : ℝ, W k j = (x : EReal))
    (hb : ∀ j, ∃ x : ℝ, b j = (x : EReal)) :
    ∀ n j, ∃ x : ℝ, dense X W b n j = (x : EReal) := by
  choose x hx using hX
  choose w hw using hW
  choose c hc using hb
  intro n j
  refine ⟨(∑ k, x n k * w k j) + c j, ?_⟩
  unfold dense
  simp only [hx, hw, hc]
  rw [EReal.coe_add, coe_sum]
  simp only [EReal.coe_mul]

/-- Batch normalisation keeps real entries real when the mean is real, the variance is a real `≥ 0`, the regulariser a
    real `> 0`, and the scale and shift are real: `(σ² + ε)^(-1/2)` is then the real `(√(σ² + ε))⁻¹`. -/
theorem bnorm_real (cEps : EReal) (H : Fin 16384 → Fin 400 → EReal) (mu var g be : Fin 400 → EReal)
    (hEps : ∃ e : ℝ, 0 < e ∧ cEps = (e : EReal))
    (hH : ∀ n j, ∃ x : ℝ, H n j = (x : EReal)) (hmu : ∀ j, ∃ m : ℝ, mu j = (m : EReal))
    (hvar : ∀ j, ∃ v : ℝ, 0 ≤ v ∧ var j = (v : EReal))
    (hg : ∀ j, ∃ x : ℝ, g j = (x : EReal)) (hbe : ∀ j, ∃ x : ℝ, be j = (x : EReal)) :
    ∀ n j, ∃ x : ℝ, bnorm cEps H mu var g be n j = (x : EReal) := by
  obtain ⟨e, he, rfl⟩ := hEps
  intro n j
  obtain ⟨x, hx⟩ := hH n j
  obtain ⟨m, hm⟩ := hmu j
  obtain ⟨v, hv0, hv⟩ := hvar j
  obtain ⟨γ, hγ⟩ := hg j
  obtain ⟨β, hβ⟩ := hbe j
  have hpos : 0 < v + e := by linarith
  refine ⟨γ * (x - m) * (Real.sqrt (v + e))⁻¹ + β, ?_⟩
  unfold bnorm
  rw [hx, hm, hv, hγ, hβ, ← EReal.coe_add v e, Ideal.rsqrt_coe, if_neg (not_lt.mpr hpos.le), if_neg hpos.ne',
    ← EReal.coe_sub, ← EReal.coe_mul, ← EReal.coe_mul, ← EReal.coe_add]

end Cert.DeepFM

end
-- ==== Proof.AlgebraMain.lean ====
/-
  The two spellings of the score agree when the embedding products, the weights, the biases and the first layer's
  scale and shift are real numbers, the row count is `16384` and the regulariser is a positive real.

  The second-order term and the column means agree with no finiteness (they are reindexed sums). The variances agree on
  real columns; the first layer's normalised values are then real, so the second layer's columns are real too and its
  variances agree. What is left on both sides is one expression, up to the order of `r1 + fm`.
-/
import proofs.«171042_j1391569404529_2_alg».proof.Proof.AlgebraVariance
import proofs.«171042_j1391569404529_2_alg».proof.Proof.AlgebraFields

noncomputable section

namespace Cert.DeepFM

open Idealize.ShloMosaic

/-- The second-order interaction through the indicator matrix is the one summed over the fields directly. -/
theorem fmKer_eq_fmRef (cHalf : EReal) (P : Fin 16384 → Fin 39 → Fin 16 → EReal) (D : Fin 16384 → Fin 624 → EReal)
    (Sg : Fin 624 → Fin 16 → EReal)
    (hD : ∀ (n : Fin 16384) (d : Fin 624), D n d = P n ⟨d.val / 16, by omega⟩ ⟨d.val % 16, Nat.mod_lt _ (by norm_num)⟩)
    (hSg : ∀ (d : Fin 624) (e : Fin 16), Sg d e = if d.val % 16 = e.val then 1 else 0) :
    fmKer cHalf D Sg = fmRef cHalf P := by
  funext n
  unfold fmKer fmRef
  refine Finset.sum_congr rfl fun e _ => ?_
  have h1 : ∑ d : Fin 624, D n d * Sg d e = ∑ f : Fin 39, P n f e :=
    sum_indicator (P n) (D n) Sg (fun d => hD n d) hSg e
  have h2 : ∑ d : Fin 624, (D n d * D n d) * Sg d e = ∑ f : Fin 39, P n f e * P n f e :=
    sum_indicator (fun f e => P n f e * P n f e) (fun d => D n d * D n d) Sg (fun d => by rw [hD n d]; rfl) hSg e
  rw [h1, h2]

theorem outKer_eq_outRef (cN cEps cHalf : EReal) (P : Fin 16384 → Fin 39 → Fin 16 → EReal) (D : Fin 16384 → Fin 624 → EReal)
    (Sg : Fin 624 → Fin 16 → EReal) (r1 : Fin 16384 → EReal) (W1 : Fin 624 → Fin 400 → EReal) (b1 g1 be1 : Fin 400 → EReal)
    (W2 : Fin 400 → Fin 400 → EReal) (b2 g2 be2 : Fin 400 → EReal) (bias : EReal)
    (hN : cN = ((16384 : ℝ) : EReal))
    (hEps : ∃ e : ℝ, 0 < e ∧ cEps = (e : EReal))
    (hD : ∀ (n : Fin 16384) (d : Fin 624), D n d = P n ⟨d.val / 16, by omega⟩ ⟨d.val % 16, Nat.mod_lt _ (by norm_num)⟩)
    (hSg : ∀ (d : Fin 624) (e : Fin 16), Sg d e = if d.val % 16 = e.val then 1 else 0)
    (hP : ∀ n f e, ∃ x : ℝ, P n f e = (x : EReal))
    (hW1 : ∀ k j, ∃ x : ℝ, W1 k j = (x : EReal)) (hb1 : ∀ j, ∃ x : ℝ, b1 j = (x : EReal))
    (hg1 : ∀ j, ∃ x : ℝ, g1 j = (x : EReal)) (hbe1 : ∀ j, ∃ x : ℝ, be1 j = (x : EReal))
    (hW2 : ∀ k j, ∃ x : ℝ, W2 k j = (x : EReal)) (hb2 : ∀ j, ∃ x : ℝ, b2 j = (x : EReal)) :
    outKer cN cEps cHalf D Sg r1 W1 b1 g1 be1 W2 b2 g2 be2 bias = outRef cN cEps cHalf P D r1 W1 b1 g1 be1 W2 b2 g2 be2 bias := by
  -- the first layer's columns are real
  have hDr : ∀ n d, ∃ x : ℝ, D n d = (x : EReal) := fun n d => by rw [hD n d]; exact hP _ _ _
  have hh1 : ∀ n j, ∃ x : ℝ, h1 D W1 b1 n j = (x : EReal) := dense_real D W1 b1 hDr hW1 hb1
  -- so its two normalisations agree, and are real
  have ha1 : a1Ker cN cEps D W1 b1 g1 be1 = a1Ref cN cEps D W1 b1 g1 be1 := by
    unfold a1Ker a1Ref
    rw [meanKer_eq_meanRef blk16 cN (h1 D W1 b1), varKer_eq_varRef hN (h1 D W1 b1) hh1 blk16]
  have ha1r : ∀ n j, ∃ x : ℝ, a1Ref cN cEps D W1 b1 g1 be1 n j = (x : EReal) :=
    bnorm_real cEps _ _ _ _ _ hEps hh1 (meanRef_real hN _ hh1) (varRef_real hN _ hh1) hg1 hbe1
  -- the second layer's columns agree and are real
  have hh2 : h2Ker cN cEps D W1 b1 g1 be1 W2 b2 = h2Ref cN cEps D W1 b1 g1 be1 W2 b2 := by
    unfold h2Ker h2Ref
    rw [ha1]
  have hh2r : ∀ n j, ∃ x : ℝ, h2Ref cN cEps D W1 b1 g1 be1 W2 b2 n j = (x : EReal) :=
    dense_real _ W2 b2 ha1r hW2 hb2
  have ha2 : a2Ker cN cEps D W1 b1 g1 be1 W2 b2 g2 be2 = a2Ref cN cEps D W1 b1 g1 be1 W2 b2 g2 be2 := by
    unfold a2Ker a2Ref
    rw [hh2, meanKer_eq_meanRef blk8 cN _, varKer_eq_varRef hN _ hh2r blk8]
  funext n
  unfold outKer outRef
  rw [ha2, fmKer_eq_fmRef cHalf P D Sg hD hSg, add_comm (fmRef cHalf P n) (r1 n)]

end Cert.DeepFM

end
-- ==== Proof.AlgebraConsts.lean ====
/-
  The two float constants of the programs, as the extended reals their bit patterns denote:
  the row count `16384 = 2^14` and the positive regulariser added to the variance.
-/
import Idealize.ShloMosaic.PureOps.Ideal
import Idealize.ShloMosaic.PureOps.Ideal.Laws

noncomputable section

namespace Cert.DeepFM

open Idealize.ShloMosaic

/-- Sign `0`, exponent field `141`, significand field `0`: `2^23 * 2^(141 - 127 - 23) = 2^14 = 16384`. -/
theorem cN_val : Ideal.ofBits .f32 0x46800000#32 = ((16384 : ℝ) : EReal) := by
  simp [Ideal.ofBits, Ideal.ieee, -EReal.coe_mul]; norm_num

/-- Sign `0`, exponent field `110`, significand field `2606508`: the positive real
    `(2^23 + 2606508) * 2^(110 - 127 - 23) = 10995116 * 2^(-40)`. -/
theorem cEps_val : Ideal.ofBits .f32 0x3727C5AC#32 = (((10995116 : ℝ) * (2 : ℝ) ^ (-40 : ℤ) : ℝ) : EReal) := by
  simp [Ideal.ofBits, Ideal.ieee, -EReal.coe_mul]

theorem cEps_pos : ∃ e : ℝ, 0 < e ∧ Ideal.ofBits .f32 0x3727C5AC#32 = (e : EReal) :=
  ⟨_, by positivity, cEps_val⟩

end Cert.DeepFM

end
-- ==== Proof.FinitePre.lean ====
/-
  From the precondition "every float argument has all its entries of absolute value below +∞" to
  "every entry of every float argument is a real number".

  The precondition is a conjunction of twelve reductions by `and` of the element-wise comparisons `|x| < +∞`.
  A conjunction that is 1 has both conjuncts 1; a reduction by `and` that is 1 met only 1s; and an extended
  real whose absolute value `max x (-x)` lies strictly below `⊤` is neither `⊥` nor `⊤`.
-/
import proofs.«171042_j1391569404529_2_alg».proof.Defs
import proofs.«171042_j1391569404529_2_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.Finite

open Idealize.ShloMosaic Idealize.SL.Sem

/-- The pattern `0x7F800000` (sign 0, exponent field all ones, significand field 0) denotes `+∞`. -/
theorem ofBits_inf : Ideal.ofBits .f32 0x7F800000#32 = ⊤ := by
  simp [Ideal.ofBits, Ideal.ieee]

/-- An extended real with `|x| < +∞` is a real number: at `⊥` and at `⊤` the absolute value `max x (-x)` is `⊤`. -/
theorem real_of_abs_lt_inf (y : EReal)
    (h : Ideal.cmp .olt (max y (-y)) (Ideal.ofBits .f32 0x7F800000#32) = 1#1) : ∃ r : ℝ, y = (r : EReal) := by
  rw [ofBits_inf] at h
  induction y using EReal.rec with
  | bot => simp [Ideal.cmp] at h
  | top => simp [Ideal.cmp] at h
  | coe r => exact ⟨r, rfl⟩

/-- The result of a reduction over all axes has one index. -/
instance : Subsingleton Cert.Pre_finite_inputs.S_.Idx := ⟨fun a b => funext fun d => d.elim0⟩

/-- `all (|x| < +∞) = 1` on an array of any shape: every entry is a real number. -/
theorem real_of_all_abs_lt_inf {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim S ![] hb (constant Cert.Pre_finite_inputs.S_ .f32 0x7F800000#32)))
          init hr hu ValueIdx.ix0 = 1#1) :
    ∀ i, ∃ r : ℝ, x i = (r : EReal) := fun i =>
  real_of_abs_lt_inf (x i) (Host.reduce_andi_all _ init hr hu _ e i)

/-- A conjunction of two rank-0 truth values that is 1: both are 1. -/
theorem andi_ix0 (x y : IVec Cert.Pre_finite_inputs.S_ 1) (h : andi x y ValueIdx.ix0 = 1#1) :
    x ValueIdx.ix0 = 1#1 ∧ y ValueIdx.ix0 = 1#1 := IntOp.andi_eq_one.1 h

theorem args_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal))
    ∧ (∀ i, ∃ x : ℝ, m ((c.tc : Thread Cert.KernelIdeal.nD Cert.KernelIdeal.τ).loc Cert.KernelIdeal.main_arg4) i = (x : EReal))
    ∧ (∀ i, ∃ x : ℝ, m ((c.tc : Thread Cert.KernelIdeal.nD Cert.KernelIdeal.τ).loc Cert.KernelIdeal.main_arg5) i = (x : EReal))
    ∧ (∀ i, ∃ x : ℝ, m ((c.tc : Thread Cert.KernelIdeal.nD Cert.KernelIdeal.τ).loc Cert.KernelIdeal.main_arg6) i = (x : EReal))
    ∧ (∀ i, ∃ x : ℝ, m ((c.tc : Thread Cert.KernelIdeal.nD Cert.KernelIdeal.τ).loc Cert.KernelIdeal.main_arg7) i = (x : EReal))
    ∧ (∀ i, ∃ x : ℝ, m ((c.tc : Thread Cert.KernelIdeal.nD Cert.KernelIdeal.τ).loc Cert.KernelIdeal.main_arg8) i = (x : EReal))
    ∧ (∀ i, ∃ x : ℝ, m ((c.tc : Thread Cert.KernelIdeal.nD Cert.KernelIdeal.τ).loc Cert.KernelIdeal.main_arg9) i = (x : EReal))
    ∧ (∀ i, ∃ x : ℝ, m ((c.tc : Thread Cert.KernelIdeal.nD Cert.KernelIdeal.τ).loc Cert.KernelIdeal.main_arg10) i = (x : EReal))
    ∧ (∀ i, ∃ x : ℝ, m ((c.tc : Thread Cert.KernelIdeal.nD Cert.KernelIdeal.τ).loc Cert.KernelIdeal.main_arg11) i = (x : EReal))
    ∧ (∀ i, ∃ x : ℝ, m ((c.tc : Thread Cert.KernelIdeal.nD Cert.KernelIdeal.τ).loc Cert.KernelIdeal.main_arg12) i = (x : EReal)) := by
  have e := congrFun (h c) ValueIdx.ix0
  dsimp only [Cert.Pre_finite_inputs.fn, Cert.Pre_finite_inputs.fn_part1, Cert.Pre_finite_inputs.fn_part2, Cert.Pre_finite_inputs.fn_part3] at e
  obtain ⟨e, e12⟩ := andi_ix0 _ _ e
  obtain ⟨e, e11⟩ := andi_ix0 _ _ e
  obtain ⟨e, e10⟩ := andi_ix0 _ _ e
  obtain ⟨e, e9⟩ := andi_ix0 _ _ e
  obtain ⟨e, e8⟩ := andi_ix0 _ _ e
  obtain ⟨e, e7⟩ := andi_ix0 _ _ e
  obtain ⟨e, e6⟩ := andi_ix0 _ _ e
  obtain ⟨e, e5⟩ := andi_ix0 _ _ e
  obtain ⟨e, e4⟩ := andi_ix0 _ _ e
  obtain ⟨e, e3⟩ := andi_ix0 _ _ e
  obtain ⟨e1, e2⟩ := andi_ix0 _ _ e
  exact ⟨real_of_all_abs_lt_inf _ _ _ _ _ e1,
    real_of_all_abs_lt_inf _ _ _ _ _ e2,
    real_of_all_abs_lt_inf _ _ _ _ _ e3,
    real_of_all_abs_lt_inf _ _ _ _ _ e4,
    real_of_all_abs_lt_inf _ _ _ _ _ e5,
    real_of_all_abs_lt_inf _ _ _ _ _ e6,
    real_of_all_abs_lt_inf _ _ _ _ _ e7,
    real_of_all_abs_lt_inf _ _ _ _ _ e8,
    real_of_all_abs_lt_inf _ _ _ _ _ e9,
    real_of_all_abs_lt_inf _ _ _ _ _ e10,
    real_of_all_abs_lt_inf _ _ _ _ _ e11,
    real_of_all_abs_lt_inf _ _ _ _ _ e12⟩

end Cert.KernelIdeal.Finite

end
-- ==== Proof.FiniteGather.lean ====
/-
  Every entry of the reference's embedding product is a real number when the feature values and the embedding
  table are real: an entry of a gather is an entry of its operand, an entry of a broadcast is an entry of its
  operand, and a product of two reals is real.
-/
import proofs.«171042_j1391569404529_2_alg».proof.Proof.RefTerms

noncomputable section

namespace Cert.ReferenceIdeal.RefValue

open Idealize.ShloMosaic Cert.ReferenceIdeal Cert.ReferenceIdeal.Facts₀

variable [Cert.ReferenceIdeal.Facts]

theorem embProd_real (a0 : IVec S16384x39x1 32) (a1 : FVec Ideal S16384x39 .f32) (a3 : FVec Ideal S39x100001x16 .f32)
    (h1 : ∀ i, ∃ x : ℝ, a1 i = (x : EReal)) (h3 : ∀ i, ∃ x : ℝ, a3 i = (x : EReal)) :
    ∀ i, ∃ x : ℝ, embProd a0 a1 a3 i = (x : EReal) := by
  intro i
  -- the gathered entry is an entry of the table; the broadcast entry is an entry of the feature values
  obtain ⟨x, hx⟩ : ∃ x : ℝ, Host.gather gather_S39x100001x16_S16384x39x2_S16384x39x16_2_01_n_n_01_2_1116 a3 (pairIdx a0) i
      = (x : EReal) := h3 _
  obtain ⟨y, hy⟩ : ∃ y : ℝ, broadcastInDim S16384x39x16 ![0, 1, 2] bcast_S16384x39x1_S16384x39x16_0_1_2
      (broadcastInDim S16384x39x1 ![0, 1] bcast_S16384x39_S16384x39x1_0_1 a1) i = (y : EReal) := h1 _
  refine ⟨x * y, ?_⟩
  show Host.gather gather_S39x100001x16_S16384x39x2_S16384x39x16_2_01_n_n_01_2_1116 a3 (pairIdx a0) i
      * broadcastInDim S16384x39x16 ![0, 1, 2] bcast_S16384x39x1_S16384x39x16_0_1_2
          (broadcastInDim S16384x39x1 ![0, 1] bcast_S16384x39_S16384x39x1_0_1 a1) i = _
  rw [hx, hy, EReal.coe_mul]

end Cert.ReferenceIdeal.RefValue

end
-- ==== Proof.lean ====
/-
  The certificate: a factorisation-machine score with a two-layer batch-normalised network, computed by three
  tiled kernels, against its plain reference — equal as extended reals under finite inputs.

  The kernel sums the embedding products over the fields through a 0/1 indicator matrix, accumulates each dense
  layer's column sums and sums of squares block by block over the rows, and normalises with the mean of squares
  minus the squared mean; the reference sums over the fields directly and normalises with the centred second
  moment. With real entries the two agree: the indicator sum is a re-indexing of the field sum, the blocked sums
  are the whole sums, and (1/N) ∑ x² − μ² = (1/N) ∑ (x − μ)². Format changes (the bf16 copies of the layers'
  inputs and weights) are the identity on extended reals.

  The three frames are the generated ones (the reference's is its run with the result dropped); the idealisation
  rewrote nothing, so the preservation conjunct is trivial.
-/
import proofs.«171042_j1391569404529_2_alg».proof.Defs
import proofs.«171042_j1391569404529_2_alg».proof.Proof.Gen.Kernel
import proofs.«171042_j1391569404529_2_alg».proof.Proof.Gen.Kernel.Frame
import proofs.«171042_j1391569404529_2_alg».proof.Proof.Gen.KernelIdeal
import proofs.«171042_j1391569404529_2_alg».proof.Proof.Gen.KernelIdeal.Frame
import proofs.«171042_j1391569404529_2_alg».proof.Proof.Gen.ReferenceIdeal
import proofs.«171042_j1391569404529_2_alg».proof.Proof.Gen.Pre_finite_inputs
import proofs.«171042_j1391569404529_2_alg».proof.Proof.KernelRun
import proofs.«171042_j1391569404529_2_alg».proof.Proof.KernelValue
import proofs.«171042_j1391569404529_2_alg».proof.Proof.RefRun
import proofs.«171042_j1391569404529_2_alg».proof.Proof.RefValue
import proofs.«171042_j1391569404529_2_alg».proof.Proof.AlgebraMain
import proofs.«171042_j1391569404529_2_alg».proof.Proof.AlgebraConsts
import proofs.«171042_j1391569404529_2_alg».proof.Proof.FinitePre
import proofs.«171042_j1391569404529_2_alg».proof.Proof.FiniteGather
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- Both programs end with the same result: the kernel's spelling of the score equals the reference's on real entries. -/
theorem algebraic : Cert.algebraic_KernelIdeal_ReferenceIdeal := by
  intro m ρ m' ρ' hpre hagree
  refine ⟨fun c => Cert.KernelIdeal.Gen.W9 m ρ c (Proc.devRef .tc Cert.KernelIdeal.main_v70), Cert.KernelIdeal.Named.run_named m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12⟩ := hagree c
  obtain ⟨r1, r2, r3, r4, r5, r6, r7, r8, r9, r10, r11, r12⟩ := Cert.KernelIdeal.Finite.args_real m hpre c
  rw [e0, e1, e2, e3, e4, e5, e6, e7, e8, e9, e10, e11, e12]
  funext i
  obtain ⟨n, rfl⟩ : ∃ n : Fin 16384, i = ix1 n := ⟨i 0, eq_ix1 i⟩
  refine (Cert.ReferenceIdeal.RefValue.result_apply _ _ _ _ _ _ _ _ _ _ _ _ _ Cert.DeepFM.cN_val n).trans ?_
  refine Eq.trans ?_ (Cert.KernelIdeal.Value.value m ρ c n).symm
  exact (congrFun (Cert.DeepFM.outKer_eq_outRef (Ideal.ofBits .f32 0x46800000#32) (Ideal.ofBits .f32 0x3727C5AC#32) (Ideal.ofBits .f32 0x3F000000#32)
    (fun n f e => Cert.ReferenceIdeal.RefValue.embProd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (ix3 n f e))
    (fun n d => Cert.ReferenceIdeal.RefValue.deep (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (ix2 n d))
    (fun (d : Fin 624) (e : Fin 16) => if d.val % 16 = e.val then (1 : EReal) else 0)
    (fun n => Cert.ReferenceIdeal.RefValue.rowOne (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix1 n))
    (fun k j => (show FVec Ideal Cert.ReferenceIdeal.S624x400 .f32 from (m ((c.tc : Thread Cert.KernelIdeal.nD Cert.KernelIdeal.τ).loc Cert.KernelIdeal.main_arg4))) (ix2 k j))
    (fun j => (show FVec Ideal Cert.ReferenceIdeal.S400 .f32 from (m ((c.tc : Thread Cert.KernelIdeal.nD Cert.KernelIdeal.τ).loc Cert.KernelIdeal.main_arg5))) (ix1 j)) (fun j => (show FVec Ideal Cert.ReferenceIdeal.S400 .f32 from (m ((c.tc : Thread Cert.KernelIdeal.nD Cert.KernelIdeal.τ).loc Cert.KernelIdeal.main_arg6))) (ix1 j)) (fun j => (show FVec Ideal Cert.ReferenceIdeal.S400 .f32 from (m ((c.tc : Thread Cert.KernelIdeal.nD Cert.KernelIdeal.τ).loc Cert.KernelIdeal.main_arg7))) (ix1 j))
    (fun k j => (show FVec Ideal Cert.ReferenceIdeal.S400x400 .f32 from (m ((c.tc : Thread Cert.KernelIdeal.nD Cert.KernelIdeal.τ).loc Cert.KernelIdeal.main_arg8))) (ix2 k j))
    (fun j => (show FVec Ideal Cert.ReferenceIdeal.S400 .f32 from (m ((c.tc : Thread Cert.KernelIdeal.nD Cert.KernelIdeal.τ).loc Cert.KernelIdeal.main_arg9))) (ix1 j)) (fun j => (show FVec Ideal Cert.ReferenceIdeal.S400 .f32 from (m ((c.tc : Thread Cert.KernelIdeal.nD Cert.KernelIdeal.τ).loc Cert.KernelIdeal.main_arg10))) (ix1 j)) (fun j => (show FVec Ideal Cert.ReferenceIdeal.S400 .f32 from (m ((c.tc : Thread Cert.KernelIdeal.nD Cert.KernelIdeal.τ).loc Cert.KernelIdeal.main_arg11))) (ix1 j))
    ((show FVec Ideal Cert.ReferenceIdeal.S1 .f32 from (m ((c.tc : Thread Cert.KernelIdeal.nD Cert.KernelIdeal.τ).loc Cert.KernelIdeal.main_arg12))) (ix1 0))
    Cert.DeepFM.cN_val Cert.DeepFM.cEps_pos
    (fun n d => Cert.ReferenceIdeal.RefValue.deep_apply _ _ _ n d) (fun d e => rfl)
    (fun n f e => Cert.ReferenceIdeal.RefValue.embProd_real _ _ _ r1 r3 (ix3 n f e))
    (fun k j => r4 (ix2 k j)) (fun j => r5 (ix1 j)) (fun j => r6 (ix1 j)) (fun j => r7 (ix1 j))
    (fun k j => r8 (ix2 k j)) (fun j => r9 (ix1 j))) n).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
